-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x16 : Shape := ⟨2, ![65536, 16]⟩
abbrev S2x524288 : Shape := ⟨2, ![2, 524288]⟩
abbrev S65536 : Shape := ⟨1, ![65536]⟩
abbrev S256x256 : Shape := ⟨2, ![256, 256]⟩
abbrev S256x8 : Shape := ⟨2, ![256, 8]⟩
abbrev S256 : Shape := ⟨1, ![256]⟩
abbrev S_ : Shape := ⟨0, ![]⟩

class Facts : Prop where
  bcast_S_S65536x16 : S_.BroadcastsInDim S65536x16 (![] : Fin 0 → Fin S65536x16.rank)
  reducesTo_S65536x16_S_d0_1 : S65536x16.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256x8 : S_.BroadcastsInDim S256x8 (![] : Fin 0 → Fin S256x8.rank)
  reducesTo_S256x8_S_d0_1 : S256x8.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S65536x16 .f32) (main_arg1 : IVec S2x524288 32) (main_arg2 : IVec S65536 32) (main_arg3 : FVec F S256x256 .f32) (main_arg4 : FVec F S256x8 .f32) (main_arg5 : FVec F S256 .f32) : IVec S_ 1 :=
  let main_v0 : FVec F S65536x16 .f32 := Host.absf main_arg0
  let main_cst : FVec F S_ .f32 := constant S_ .f32 0x7F800000#32
  let main_v1 : FVec F S65536x16 .f32 := broadcastInDim S65536x16 ![] bcast_S_S65536x16 main_cst
  let main_v2 : IVec S65536x16 1 := cmpf .olt main_v0 main_v1
  let main_c : IVec S_ 1 := constantI S_ 1 1#1
  let main_v3 : IVec S_ 1 := (fun x v => Host.reduce IntOp.andi x v reducesTo_S65536x16_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x8 .f32 := Host.absf main_arg4
  let main_cst_2 : FVec F S_ .f32 := constant S_ .f32 0x7F800000#32
  let main_v10 : FVec F S256x8 .f32 := broadcastInDim S256x8 ![] bcast_S_S256x8 main_cst_2
  let main_v11 : IVec S256x8 1 := cmpf .olt main_v9 main_v10
  let main_c_3 : IVec S_ 1 := constantI S_ 1 1#1
  let main_v12 : IVec S_ 1 := (fun x v => Host.reduce IntOp.andi x v reducesTo_S256x8_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S65536x16 : Shape := ⟨2, ![65536, 16]⟩
abbrev S2x524288 : Shape := ⟨2, ![2, 524288]⟩
abbrev S65536 : Shape := ⟨1, ![65536]⟩
abbrev S256x256 : Shape := ⟨2, ![256, 256]⟩
abbrev S256x8 : Shape := ⟨2, ![256, 8]⟩
abbrev S256 : Shape := ⟨1, ![256]⟩
abbrev S_ : Shape := ⟨0, ![]⟩
abbrev S1x524288 : Shape := ⟨2, ![1, 524288]⟩
abbrev S524288 : Shape := ⟨1, ![524288]⟩
abbrev S524288x1 : Shape := ⟨2, ![524288, 1]⟩
abbrev S256x256x256 : Shape := ⟨3, ![256, 256, 256]⟩
abbrev S524288x3 : Shape := ⟨2, ![524288, 3]⟩
abbrev S256x8x256 : Shape := ⟨3, ![256, 8, 256]⟩
abbrev S8x256x256 : Shape := ⟨3, ![8, 256, 256]⟩
abbrev S8x8x256 : Shape := ⟨3, ![8, 8, 256]⟩
abbrev S8x256 : Shape := ⟨2, ![8, 256]⟩
abbrev S8x1x256 : Shape := ⟨3, ![8, 1, 256]⟩
abbrev S1x256x256 : Shape := ⟨3, ![1, 256, 256]⟩
abbrev S256x256x8 : Shape := ⟨3, ![256, 256, 8]⟩
abbrev S65536x8 : Shape := ⟨2, ![65536, 8]⟩
abbrev S65536x256 : Shape := ⟨2, ![65536, 256]⟩
abbrev S4096 : Shape := ⟨1, ![4096]⟩
abbrev S4096x8 : Shape := ⟨2, ![4096, 8]⟩
abbrev S4096x256 : Shape := ⟨2, ![4096, 256]⟩
abbrev S4096x1 : Shape := ⟨2, ![4096, 1]⟩
abbrev S1x256 : Shape := ⟨2, ![1, 256]⟩

abbrev nBuf : Space → Nat
  | .hbm => 132
  | .vmem => 13
  | .smem => 0
  | _ => 0

abbrev hbmTy0_0 (i : Nat) : BufTy := match i % 128 with
  | 0 => ⟨S65536x16, .f32⟩
  | 1 => ⟨S2x524288, .i32⟩
  | 2 => ⟨S65536, .i32⟩
  | 3 => ⟨S256x256, .f32⟩
  | 4 => ⟨S256x8, .f32⟩
  | 5 => ⟨S256, .f32⟩
  | 6 => ⟨S_, .i32⟩
  | 7 => ⟨S65536, .i32⟩
  | 8 => ⟨S1x524288, .i32⟩
  | 9 => ⟨S524288, .i32⟩
  | 10 => ⟨S_, .i32⟩
  | 11 => ⟨S524288, .i32⟩
  | 12 => ⟨S524288, .i1⟩
  | 13 => ⟨S_, .i32⟩
  | 14 => ⟨S524288, .i32⟩
  | 15 => ⟨S524288, .i32⟩
  | 16 => ⟨S524288, .i32⟩
  | 17 => ⟨S524288x1, .i32⟩
  | 18 => ⟨S_, .i32⟩
  | 19 => ⟨S524288, .i32⟩
  | 20 => ⟨S65536, .i32⟩
  | 21 => ⟨S_, .i32⟩
  | 22 => ⟨S_, .i32⟩
  | 23 => ⟨S_, .i32⟩
  | 24 => ⟨S65536, .i32⟩
  | 25 => ⟨S65536, .i32⟩
  | 26 => ⟨S_, .i32⟩
  | 27 => ⟨S65536, .i32⟩
  | 28 => ⟨S65536, .i32⟩
  | 29 => ⟨S1x524288, .i32⟩
  | 30 => ⟨S524288, .i32⟩
  | 31 => ⟨S_, .i32⟩
  | 32 => ⟨S_, .i32⟩
  | 33 => ⟨S524288, .i32⟩
  | 34 => ⟨S524288, .i32⟩
  | 35 => ⟨S524288, .i32⟩
  | 36 => ⟨S_, .i32⟩
  | 37 => ⟨S524288, .i32⟩
  | 38 => ⟨S524288, .i1⟩
  | 39 => ⟨S524288, .i32⟩
  | 40 => ⟨S524288, .i32⟩
  | 41 => ⟨S_, .i32⟩
  | 42 => ⟨S524288, .i32⟩
  | 43 => ⟨S524288, .i1⟩
  | 44 => ⟨S524288, .i1⟩
  | 45 => ⟨S_, .i32⟩
  | 46 => ⟨S524288, .i32⟩
  | 47 => ⟨S524288, .i32⟩
  | 48 => ⟨S524288, .i32⟩
  | 49 => ⟨S1x524288, .i32⟩
  | 50 => ⟨S524288, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S524288, .i32⟩
  | 58 => ⟨S524288, .i32⟩
  | 59 => ⟨S_, .i32⟩
  | 60 => ⟨S524288, .i32⟩
  | 61 => ⟨S524288, .i1⟩
  | 62 => ⟨S_, .i32⟩
  | 63 => ⟨S524288, .i32⟩
  | 64 => ⟨S524288, .i1⟩
  | 65 => ⟨S_, .i32⟩
  | 66 => ⟨S_, .i1⟩
  | 67 => ⟨S524288, .i1⟩
  | 68 => ⟨S524288, .i1⟩
  | 69 => ⟨S524288, .i1⟩
  | 70 => ⟨S524288, .i32⟩
  | 71 => ⟨S524288, .i32⟩
  | 72 => ⟨S524288, .i32⟩
  | 73 => ⟨S1x524288, .i32⟩
  | 74 => ⟨S524288, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S524288, .i32⟩
  | 82 => ⟨S524288, .i32⟩
  | 83 => ⟨S_, .i32⟩
  | 84 => ⟨S524288, .i32⟩
  | 85 => ⟨S524288, .i1⟩
  | 86 => ⟨S_, .i32⟩
  | 87 => ⟨S524288, .i32⟩
  | 88 => ⟨S524288, .i1⟩
  | 89 => ⟨S_, .i32⟩
  | 90 => ⟨S_, .i1⟩
  | 91 => ⟨S524288, .i1⟩
  | 92 => ⟨S524288, .i1⟩
  | 93 => ⟨S524288, .i1⟩
  | 94 => ⟨S524288, .i32⟩
  | 95 => ⟨S524288, .i32⟩
  | 96 => ⟨S524288, .i32⟩
  | 97 => ⟨S_, .f32⟩
  | 98 => ⟨S256x256x256, .f32⟩
  | 99 => ⟨S_, .i32⟩
  | 100 => ⟨S524288, .i32⟩
  | 101 => ⟨S524288, .i1⟩
  | 102 => ⟨S_, .i32⟩
  | 103 => ⟨S524288, .i32⟩
  | 104 => ⟨S524288, .i32⟩
  | 105 => ⟨S524288, .i32⟩
  | 106 => ⟨S_, .i32⟩
  | 107 => ⟨S524288, .i32⟩
  | 108 => ⟨S524288, .i1⟩
  | 109 => ⟨S_, .i32⟩
  | 110 => ⟨S524288, .i32⟩
  | 111 => ⟨S524288, .i32⟩
  | 112 => ⟨S524288, .i32⟩
  | 113 => ⟨S_, .i32⟩
  | 114 => ⟨S524288, .i32⟩
  | 115 => ⟨S524288, .i1⟩
  | 116 => ⟨S_, .i32⟩
  | 117 => ⟨S524288, .i32⟩
  | 118 => ⟨S524288, .i32⟩
  | 119 => ⟨S524288, .i32⟩
  | 120 => ⟨S524288x1, .i32⟩
  | 121 => ⟨S524288x1, .i32⟩
  | 122 => ⟨S524288x1, .i32⟩
  | 123 => ⟨S524288x3, .i32⟩
  | 124 => ⟨S_, .f32⟩
  | 125 => ⟨S524288, .f32⟩
  | 126 => ⟨S256x256x256, .f32⟩
  | 127 => ⟨S256x8x256, .f32⟩
  | _ => ⟨S65536x16, .f32⟩

abbrev hbmTy0_1 (i : Nat) : BufTy := match i % 128 with
  | 0 => ⟨S256x256x8, .f32⟩
  | 1 => ⟨S65536x8, .f32⟩
  | 2 => ⟨S8x256, .f32⟩
  | 3 => ⟨S65536x256, .f32⟩
  | _ => ⟨S65536x16, .f32⟩

abbrev hbmTy (i : Nat) : BufTy := match i / 128 with
  | 0 => hbmTy0_0 i
  | 1 => hbmTy0_1 i
  | _ => ⟨S65536x16, .f32⟩

abbrev bufTy : (tb : Table) → Fin (tcTables nBuf tb) → BufTy
  | .hbm, ⟨i, _⟩ => hbmTy i
  | .local _ .vmem, ⟨0, _⟩ => ⟨S8x256x256, .f32⟩
  | .local _ .vmem, ⟨1, _⟩ => ⟨S8x256x256, .f32⟩
  | .local _ .vmem, ⟨2, _⟩ => ⟨S8x8x256, .f32⟩
  | .local _ .vmem, ⟨3, _⟩ => ⟨S8x8x256, .f32⟩
  | .local _ .vmem, ⟨4, _⟩ => ⟨S4096, .i32⟩
  | .local _ .vmem, ⟨5, _⟩ => ⟨S4096, .i32⟩
  | .local _ .vmem, ⟨6, _⟩ => ⟨S4096x8, .f32⟩
  | .local _ .vmem, ⟨7, _⟩ => ⟨S4096x8, .f32⟩
  | .local _ .vmem, ⟨8, _⟩ => ⟨S256x256, .f32⟩
  | .local _ .vmem, ⟨9, _⟩ => ⟨S8x256, .f32⟩
  | .local _ .vmem, ⟨10, _⟩ => ⟨S256, .f32⟩
  | .local _ .vmem, ⟨11, _⟩ => ⟨S4096x256, .f32⟩
  | .local _ .vmem, ⟨12, _⟩ => ⟨S4096x256, .f32⟩
  | _, _ => ⟨S65536x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_c_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c_5 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_c_6 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_c_7 : Ref sig .tc := ⟨.hbm, 75, rfl⟩
abbrev main_call3_v0 : Ref sig .tc := ⟨.hbm, 76, rfl⟩
abbrev main_call3_c : Ref sig .tc := ⟨.hbm, 77, rfl⟩
abbrev main_call3_v1 : Ref sig .tc := ⟨.hbm, 78, rfl⟩
abbrev main_call3_c_0 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_c_1 : Ref sig .tc := ⟨.hbm, 83, rfl⟩
abbrev main_call3_v5 : Ref sig .tc := ⟨.hbm, 84, rfl⟩
abbrev main_call3_v6 : Ref sig .tc := ⟨.hbm, 85, rfl⟩
abbrev main_call3_c_2 : Ref sig .tc := ⟨.hbm, 86, rfl⟩
abbrev main_call3_v7 : Ref sig .tc := ⟨.hbm, 87, rfl⟩
abbrev main_call3_v8 : Ref sig .tc := ⟨.hbm, 88, rfl⟩
abbrev main_call3_c_3 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_v13 : Ref sig .tc := ⟨.hbm, 94, rfl⟩
abbrev main_call3_v14 : Ref sig .tc := ⟨.hbm, 95, rfl⟩
abbrev main_v20 : Ref sig .tc := ⟨.hbm, 96, rfl⟩
abbrev main_cst : Ref sig .tc := ⟨.hbm, 97, rfl⟩
abbrev main_v21 : Ref sig .tc := ⟨.hbm, 98, rfl⟩
abbrev main_c_8 : Ref sig .tc := ⟨.hbm, 99, rfl⟩
abbrev main_v22 : Ref sig .tc := ⟨.hbm, 100, rfl⟩
abbrev main_v23 : Ref sig .tc := ⟨.hbm, 101, rfl⟩
abbrev main_c_9 : Ref sig .tc := ⟨.hbm, 102, rfl⟩
abbrev main_v24 : Ref sig .tc := ⟨.hbm, 103, rfl⟩
abbrev main_v25 : Ref sig .tc := ⟨.hbm, 104, rfl⟩
abbrev main_v26 : Ref sig .tc := ⟨.hbm, 105, rfl⟩
abbrev main_c_10 : Ref sig .tc := ⟨.hbm, 106, rfl⟩
abbrev main_v27 : Ref sig .tc := ⟨.hbm, 107, rfl⟩
abbrev main_v28 : Ref sig .tc := ⟨.hbm, 108, rfl⟩
abbrev main_c_11 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩
abbrev main_c_12 : Ref sig .tc := ⟨.hbm, 113, rfl⟩
abbrev main_v32 : Ref sig .tc := ⟨.hbm, 114, rfl⟩
abbrev main_v33 : Ref sig .tc := ⟨.hbm, 115, rfl⟩
abbrev main_c_13 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_cst_14 : Ref sig .tc := ⟨.hbm, 124, rfl⟩
abbrev main_v41 : Ref sig .tc := ⟨.hbm, 125, rfl⟩
abbrev main_v42 : Ref sig .tc := ⟨.hbm, 126, rfl⟩
abbrev main_v43 : Ref sig .tc := ⟨.hbm, 127, rfl⟩
abbrev main_v44 : Ref sig .tc := ⟨.hbm, 128, rfl⟩
abbrev main_v45 : Ref sig .tc := ⟨.hbm, 129, rfl⟩
abbrev main_v46 : Ref sig .tc := ⟨.hbm, 130, rfl⟩
abbrev main_v47 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 1 → Nat :=
  let arg0 : BitVec 32 := BitVec.ofNat 32 (i 0).val
  let c0_i32 : BitVec 32 := 0#32
  ![arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S65536 : S_.BroadcastsInDim S65536 (![] : Fin 0 → Fin S65536.rank)
  slices_S2x524288_S1x524288_1_0 : S2x524288.Slices ![1, 0] S1x524288
  shapeCasts_S1x524288_S524288 : S1x524288.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  slices_S2x524288_S1x524288_0_0 : S2x524288.Slices ![0, 0] S1x524288
  bcast_S_S256x256x256 : S_.BroadcastsInDim S256x256x256 (![] : Fin 0 → Fin S256x256x256.rank)
  concatenates_S524288x1_S524288x1_S524288x1_S524288x3_d1 : Shape.Concatenates [S524288x1, S524288x1, S524288x1] S524288x3 1
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  transposes_S8x256x256_p0_2_1_S8x256x256 : S8x256x256.Transposes [0, 2, 1] S8x256x256
  natLt_1_32 : 1 < 32
  reduces_S8x256x256_S8x256 : S8x256x256.Reduces [2] S8x256
  shapeCasts_S8x256_S8x1x256 : S8x256.ShapeCasts S8x1x256
  broadcasts_S8x1x256_S8x256x256 : S8x1x256.Broadcasts S8x256x256
  bitsLt_bf16_f32 : FTy.bits .bf16 < FTy.bits .f32
  iota_S256x256_d0_w32 : S256x256.Iotas .tc 32 [0]
  iota_S256x256_d1_w32 : S256x256.Iotas .tc 32 [1]
  shapeCasts_S256x256_S1x256x256 : S256x256.ShapeCasts S1x256x256
  broadcasts_S1x256x256_S8x256x256 : S1x256x256.Broadcasts S8x256x256
  concatenates_S8x1x256_S8x1x256_S8x1x256_S8x1x256_S8x1x256_S8x1x256_S8x1x256_S8x1x256_S8x8x256_d1 : Shape.Concatenates [S8x1x256, S8x1x256, S8x1x256, S8x1x256, S8x1x256, S8x1x256, S8x1x256, S8x1x256] S8x8x256 1
  inb_S8x8x256_S8x8x256_0_0_0 : ∀ a, (![0, 0, 0] : Fin 3 → Nat) a + S8x8x256.size a ≤ S8x8x256.size a
  h_S8x8x256 : 0 < S8x8x256.numel
  transposes_S256x8x256_S256x256x8_0_2_1 : S256x8x256.Transposes [0, 2, 1] S256x256x8
  shapeCasts_S256x256x8_S65536x8 : S256x256x8.ShapeCasts S65536x8
  transposes_S256x8_S8x256_1_0 : S256x8.Transposes [1, 0] S8x256
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  iota_S4096x256_d1_w32 : S4096x256.Iotas .tc 32 [1]
  broadcasts_S4096x1_S4096x256 : S4096x1.Broadcasts S4096x256
  inb_S256x256_S256x256_0_0 : ∀ a, (![0, 0] : Fin 2 → Nat) a + S256x256.size a ≤ S256x256.size a
  h_S256x256 : 0 < S256x256.numel
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S4096x256_S4096x256_0_0 : ∀ a, (![0, 0] : Fin 2 → Nat) a + S4096x256.size a ≤ S4096x256.size a
  h_S4096x256 : 0 < S4096x256.numel
  scatter_S65536_S524288x1_S524288_n_0_0_1_wf : ScatterDims.WF S65536 S524288x1 S524288 [] [0] [0] 1
  scatter_S256x256x256_S524288x3_S524288_n_012_012_1_wf : ScatterDims.WF S256x256x256 S524288x3 S524288 [] [0, 1, 2] [0, 1, 2] 1
  dot_S8x256x256_S8x256x256_S8x256x256_2_1_1_2_0_0_wf : DotDims.WF S8x256x256 S8x256x256 S8x256x256 [2] [1] [1] [2] [0] [0]
  dot_S4096x256_S256x256_S4096x256_1_0_0_1_n_n_wf : DotDims.WF S4096x256 S256x256 S4096x256 [1] [0] [0] [1] [] []
  dot_S4096x8_S8x256_S4096x256_1_0_0_1_n_n_wf : DotDims.WF S4096x8 S8x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S256x256x256.size a
  hwx0_0 : ∀ i : grid0.Coords, EltTy.bits .f32 = 32 ∨ (Rect.block (s := S256x256x256) S8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8x256.size a ≤ S256x8x256.size a
  hwx0_1 : ∀ i : grid0.Coords, EltTy.bits .f32 = 32 ∨ (Rect.block (s := S256x8x256) S8x8x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S65536.size a
  hwx1_0 : ∀ i : grid1.Coords, EltTy.bits .i32 = 32 ∨ (Rect.block (s := S65536) S4096.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x8.size a ≤ S65536x8.size a
  hwx1_1 : ∀ i : grid1.Coords, EltTy.bits .f32 = 32 ∨ (Rect.block (s := S65536x8) S4096x8.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x256.size a ≤ S8x256.size a
  hwx1_3 : ∀ i : grid1.Coords, EltTy.bits .f32 = 32 ∨ (Rect.block (s := S8x256) S8x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x256.size a ≤ S65536x256.size a
  hwx1_5 : ∀ i : grid1.Coords, EltTy.bits .f32 = 32 ∨ (Rect.block (s := S65536x256) S4096x256.size (cc1_transform_5 i) (hinb1_5 i)).WholeWords (EltTy.packing .f32)

variable [Facts₀]

def scatter_S65536_S524288x1_S524288_n_0_0_1 : ScatterDims S65536 S524288x1 S524288 where
  updateWindowDims := []
  insertedWindowDims := [0]
  scatterDimsToOperandDims := [0]
  indexVectorDim := 1
  wf := scatter_S65536_S524288x1_S524288_n_0_0_1_wf
def scatter_S256x256x256_S524288x3_S524288_n_012_012_1 : ScatterDims S256x256x256 S524288x3 S524288 where
  updateWindowDims := []
  insertedWindowDims := [0, 1, 2]
  scatterDimsToOperandDims := [0, 1, 2]
  indexVectorDim := 1
  wf := scatter_S256x256x256_S524288x3_S524288_n_012_012_1_wf
def dot_S8x256x256_S8x256x256_S8x256x256_2_1_1_2_0_0 : DotDims S8x256x256 S8x256x256 S8x256x256 where
  lhsContracting := [2]
  rhsContracting := [1]
  lhsNonContracting := [1]
  rhsNonContracting := [2]
  lhsBatch := [0]
  rhsBatch := [0]
  wf := dot_S8x256x256_S8x256x256_S8x256x256_2_1_1_2_0_0_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x8_S8x256_S4096x256_1_0_0_1_n_n : DotDims S4096x8 S8x256 S4096x256 where
  lhsContracting := [1]
  rhsContracting := [0]
  lhsNonContracting := [0]
  rhsNonContracting := [1]
  lhsBatch := []
  rhsBatch := []
  wf := dot_S4096x8_S8x256_S4096x256_1_0_0_1_n_n_wf

abbrev win0_0 : Pipeline.Window sig grid0 :=
  Pipeline.Window.ofSpec (Memref.whole main_v42) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S8x8x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v11) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S4096x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S8x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S4096x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S65536x16 : Shape := ⟨2, ![65536, 16]⟩
abbrev S2x524288 : Shape := ⟨2, ![2, 524288]⟩
abbrev S65536 : Shape := ⟨1, ![65536]⟩
abbrev S256x256 : Shape := ⟨2, ![256, 256]⟩
abbrev S256x8 : Shape := ⟨2, ![256, 8]⟩
abbrev S256 : Shape := ⟨1, ![256]⟩
abbrev S_ : Shape := ⟨0, ![]⟩
abbrev S1x524288 : Shape := ⟨2, ![1, 524288]⟩
abbrev S524288 : Shape := ⟨1, ![524288]⟩
abbrev S524288x1 : Shape := ⟨2, ![524288, 1]⟩
abbrev S65536x1 : Shape := ⟨2, ![65536, 1]⟩
abbrev S65536x256 : Shape := ⟨2, ![65536, 256]⟩
abbrev S256x256x256 : Shape := ⟨3, ![256, 256, 256]⟩
abbrev S524288x3 : Shape := ⟨2, ![524288, 3]⟩
abbrev S256x1x256 : Shape := ⟨3, ![256, 1, 256]⟩
abbrev S256x256x1 : Shape := ⟨3, ![256, 256, 1]⟩
abbrev S256x256x8 : Shape := ⟨3, ![256, 256, 8]⟩
abbrev S65536x8 : Shape := ⟨2, ![65536, 8]⟩
abbrev S8x256 : Shape := ⟨2, ![8, 256]⟩
abbrev S1x256 : Shape := ⟨2, ![1, 256]⟩

abbrev nBuf : Space → Nat
  | .hbm => 268
  | .vmem => 0
  | .smem => 0
  | _ => 0

abbrev hbmTy0_0 (i : Nat) : BufTy := match i % 128 with
  | 0 => ⟨S65536x16, .f32⟩
  | 1 => ⟨S2x524288, .i32⟩
  | 2 => ⟨S65536, .i32⟩
  | 3 => ⟨S256x256, .f32⟩
  | 4 => ⟨S256x8, .f32⟩
  | 5 => ⟨S256, .f32⟩
  | 6 => ⟨S_, .i32⟩
  | 7 => ⟨S65536, .i32⟩
  | 8 => ⟨S1x524288, .i32⟩
  | 9 => ⟨S524288, .i32⟩
  | 10 => ⟨S_, .i32⟩
  | 11 => ⟨S524288, .i32⟩
  | 12 => ⟨S524288, .i1⟩
  | 13 => ⟨S_, .i32⟩
  | 14 => ⟨S524288, .i32⟩
  | 15 => ⟨S524288, .i32⟩
  | 16 => ⟨S524288, .i32⟩
  | 17 => ⟨S524288x1, .i32⟩
  | 18 => ⟨S_, .i32⟩
  | 19 => ⟨S524288, .i32⟩
  | 20 => ⟨S65536, .i32⟩
  | 21 => ⟨S_, .i32⟩
  | 22 => ⟨S_, .i32⟩
  | 23 => ⟨S_, .i32⟩
  | 24 => ⟨S65536, .i32⟩
  | 25 => ⟨S65536, .i32⟩
  | 26 => ⟨S_, .i32⟩
  | 27 => ⟨S65536, .i32⟩
  | 28 => ⟨S65536, .i32⟩
  | 29 => ⟨S_, .i32⟩
  | 30 => ⟨S65536, .i32⟩
  | 31 => ⟨S65536, .i1⟩
  | 32 => ⟨S_, .i32⟩
  | 33 => ⟨S65536, .i32⟩
  | 34 => ⟨S65536, .i32⟩
  | 35 => ⟨S65536, .i32⟩
  | 36 => ⟨S65536x1, .i32⟩
  | 37 => ⟨S65536x256, .f32⟩
  | 38 => ⟨S1x524288, .i32⟩
  | 39 => ⟨S524288, .i32⟩
  | 40 => ⟨S_, .i32⟩
  | 41 => ⟨S_, .i32⟩
  | 42 => ⟨S524288, .i32⟩
  | 43 => ⟨S524288, .i32⟩
  | 44 => ⟨S524288, .i32⟩
  | 45 => ⟨S_, .i32⟩
  | 46 => ⟨S524288, .i32⟩
  | 47 => ⟨S524288, .i1⟩
  | 48 => ⟨S524288, .i32⟩
  | 49 => ⟨S524288, .i32⟩
  | 50 => ⟨S_, .i32⟩
  | 51 => ⟨S524288, .i32⟩
  | 52 => ⟨S524288, .i1⟩
  | 53 => ⟨S524288, .i1⟩
  | 54 => ⟨S_, .i32⟩
  | 55 => ⟨S524288, .i32⟩
  | 56 => ⟨S524288, .i32⟩
  | 57 => ⟨S524288, .i32⟩
  | 58 => ⟨S1x524288, .i32⟩
  | 59 => ⟨S524288, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S524288, .i32⟩
  | 67 => ⟨S524288, .i32⟩
  | 68 => ⟨S_, .i32⟩
  | 69 => ⟨S524288, .i32⟩
  | 70 => ⟨S524288, .i1⟩
  | 71 => ⟨S_, .i32⟩
  | 72 => ⟨S524288, .i32⟩
  | 73 => ⟨S524288, .i1⟩
  | 74 => ⟨S_, .i32⟩
  | 75 => ⟨S_, .i1⟩
  | 76 => ⟨S524288, .i1⟩
  | 77 => ⟨S524288, .i1⟩
  | 78 => ⟨S524288, .i1⟩
  | 79 => ⟨S524288, .i32⟩
  | 80 => ⟨S524288, .i32⟩
  | 81 => ⟨S524288, .i32⟩
  | 82 => ⟨S1x524288, .i32⟩
  | 83 => ⟨S524288, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S524288, .i32⟩
  | 91 => ⟨S524288, .i32⟩
  | 92 => ⟨S_, .i32⟩
  | 93 => ⟨S524288, .i32⟩
  | 94 => ⟨S524288, .i1⟩
  | 95 => ⟨S_, .i32⟩
  | 96 => ⟨S524288, .i32⟩
  | 97 => ⟨S524288, .i1⟩
  | 98 => ⟨S_, .i32⟩
  | 99 => ⟨S_, .i1⟩
  | 100 => ⟨S524288, .i1⟩
  | 101 => ⟨S524288, .i1⟩
  | 102 => ⟨S524288, .i1⟩
  | 103 => ⟨S524288, .i32⟩
  | 104 => ⟨S524288, .i32⟩
  | 105 => ⟨S524288, .i32⟩
  | 106 => ⟨S_, .f32⟩
  | 107 => ⟨S256x256x256, .f32⟩
  | 108 => ⟨S_, .i32⟩
  | 109 => ⟨S524288, .i32⟩
  | 110 => ⟨S524288, .i1⟩
  | 111 => ⟨S_, .i32⟩
  | 112 => ⟨S524288, .i32⟩
  | 113 => ⟨S524288, .i32⟩
  | 114 => ⟨S524288, .i32⟩
  | 115 => ⟨S_, .i32⟩
  | 116 => ⟨S524288, .i32⟩
  | 117 => ⟨S524288, .i1⟩
  | 118 => ⟨S_, .i32⟩
  | 119 => ⟨S524288, .i32⟩
  | 120 => ⟨S524288, .i32⟩
  | 121 => ⟨S524288, .i32⟩
  | 122 => ⟨S_, .i32⟩
  | 123 => ⟨S524288, .i32⟩
  | 124 => ⟨S524288, .i1⟩
  | 125 => ⟨S_, .i32⟩
  | 126 => ⟨S524288, .i32⟩
  | 127 => ⟨S524288, .i32⟩
  | _ => ⟨S65536x16, .f32⟩

abbrev hbmTy0_1 (i : Nat) : BufTy := match i % 128 with
  | 0 => ⟨S524288, .i32⟩
  | 1 => ⟨S524288x1, .i32⟩
  | 2 => ⟨S524288x1, .i32⟩
  | 3 => ⟨S524288x1, .i32⟩
  | 4 => ⟨S524288x3, .i32⟩
  | 5 => ⟨S_, .f32⟩
  | 6 => ⟨S524288, .f32⟩
  | 7 => ⟨S256x256x256, .f32⟩
  | 8 => ⟨S256x256x256, .f32⟩
  | 9 => ⟨S256x256x256, .f32⟩
  | 10 => ⟨S_, .f32⟩
  | 11 => ⟨S256x256x256, .f32⟩
  | 12 => ⟨S256x256x256, .i1⟩
  | 13 => ⟨S256x256x256, .f32⟩
  | 14 => ⟨S_, .f32⟩
  | 15 => ⟨S256x256, .f32⟩
  | 16 => ⟨S_, .f32⟩
  | 17 => ⟨S256x256, .f32⟩
  | 18 => ⟨S256x256, .i1⟩
  | 19 => ⟨S_, .f32⟩
  | 20 => ⟨S256x256, .f32⟩
  | 21 => ⟨S256x256, .i1⟩
  | 22 => ⟨S_, .f32⟩
  | 23 => ⟨S_, .f32⟩
  | 24 => ⟨S256x256, .f32⟩
  | 25 => ⟨S256x256, .f32⟩
  | 26 => ⟨S_, .f32⟩
  | 27 => ⟨S256x256, .f32⟩
  | 28 => ⟨S256x256, .f32⟩
  | 29 => ⟨S_, .f32⟩
  | 30 => ⟨S_, .f32⟩
  | 31 => ⟨S256x256, .f32⟩
  | 32 => ⟨S256x256, .f32⟩
  | 33 => ⟨S256x1x256, .f32⟩
  | 34 => ⟨S256x256x256, .f32⟩
  | 35 => ⟨S256x256x256, .f32⟩
  | 36 => ⟨S256x256, .i32⟩
  | 37 => ⟨S256x256, .i32⟩
  | 38 => ⟨S_, .i32⟩
  | 39 => ⟨S256x256, .i32⟩
  | 40 => ⟨S256x256, .i32⟩
  | 41 => ⟨S256x256, .i1⟩
  | 42 => ⟨S256x256, .f32⟩
  | 43 => ⟨S256x256x256, .f32⟩
  | 44 => ⟨S256x256x256, .f32⟩
  | 45 => ⟨S256x256, .i32⟩
  | 46 => ⟨S256x256, .i32⟩
  | 47 => ⟨S256x256, .i1⟩
  | 48 => ⟨S256x256x256, .i1⟩
  | 49 => ⟨S_, .f32⟩
  | 50 => ⟨S256x256x256, .f32⟩
  | 51 => ⟨S256x256x256, .f32⟩
  | 52 => ⟨S_, .f32⟩
  | 53 => ⟨S256x256, .f32⟩
  | 54 => ⟨S256x256x256, .f32⟩
  | 55 => ⟨S256x256, .i32⟩
  | 56 => ⟨S256x256, .i32⟩
  | 57 => ⟨S256x256, .i1⟩
  | 58 => ⟨S256x256x256, .i1⟩
  | 59 => ⟨S_, .f32⟩
  | 60 => ⟨S256x256x256, .f32⟩
  | 61 => ⟨S256x256x256, .f32⟩
  | 62 => ⟨S_, .f32⟩
  | 63 => ⟨S256x256, .f32⟩
  | 64 => ⟨S256x256x256, .f32⟩
  | 65 => ⟨S256x256, .i32⟩
  | 66 => ⟨S256x256, .i32⟩
  | 67 => ⟨S256x256, .i1⟩
  | 68 => ⟨S256x256x256, .i1⟩
  | 69 => ⟨S_, .f32⟩
  | 70 => ⟨S256x256x256, .f32⟩
  | 71 => ⟨S256x256x256, .f32⟩
  | 72 => ⟨S_, .f32⟩
  | 73 => ⟨S256x256, .f32⟩
  | 74 => ⟨S256x256x256, .f32⟩
  | 75 => ⟨S256x256, .i32⟩
  | 76 => ⟨S256x256, .i32⟩
  | 77 => ⟨S256x256, .i1⟩
  | 78 => ⟨S256x256x256, .i1⟩
  | 79 => ⟨S_, .f32⟩
  | 80 => ⟨S256x256x256, .f32⟩
  | 81 => ⟨S256x256x256, .f32⟩
  | 82 => ⟨S_, .f32⟩
  | 83 => ⟨S256x256, .f32⟩
  | 84 => ⟨S256x256x256, .f32⟩
  | 85 => ⟨S256x256, .i32⟩
  | 86 => ⟨S256x256, .i32⟩
  | 87 => ⟨S256x256, .i1⟩
  | 88 => ⟨S256x256x256, .i1⟩
  | 89 => ⟨S_, .f32⟩
  | 90 => ⟨S256x256x256, .f32⟩
  | 91 => ⟨S256x256x256, .f32⟩
  | 92 => ⟨S_, .f32⟩
  | 93 => ⟨S256x256, .f32⟩
  | 94 => ⟨S256x256x256, .f32⟩
  | 95 => ⟨S256x256, .i32⟩
  | 96 => ⟨S256x256, .i32⟩
  | 97 => ⟨S256x256, .i1⟩
  | 98 => ⟨S256x256x256, .i1⟩
  | 99 => ⟨S_, .f32⟩
  | 100 => ⟨S256x256x256, .f32⟩
  | 101 => ⟨S256x256x256, .f32⟩
  | 102 => ⟨S_, .f32⟩
  | 103 => ⟨S256x256, .f32⟩
  | 104 => ⟨S256x256x256, .f32⟩
  | 105 => ⟨S256x256, .i32⟩
  | 106 => ⟨S256x256, .i32⟩
  | 107 => ⟨S256x256, .i1⟩
  | 108 => ⟨S256x256x256, .i1⟩
  | 109 => ⟨S_, .f32⟩
  | 110 => ⟨S256x256x256, .f32⟩
  | 111 => ⟨S256x256x256, .f32⟩
  | 112 => ⟨S_, .f32⟩
  | 113 => ⟨S256x256, .f32⟩
  | 114 => ⟨S256x256x256, .f32⟩
  | 115 => ⟨S256x256, .i32⟩
  | 116 => ⟨S256x256, .i32⟩
  | 117 => ⟨S256x256, .i1⟩
  | 118 => ⟨S256x256x256, .i1⟩
  | 119 => ⟨S_, .f32⟩
  | 120 => ⟨S256x256x256, .f32⟩
  | 121 => ⟨S256x256x256, .f32⟩
  | 122 => ⟨S_, .f32⟩
  | 123 => ⟨S256x256, .f32⟩
  | 124 => ⟨S256x256x1, .f32⟩
  | 125 => ⟨S256x256x1, .f32⟩
  | 126 => ⟨S256x256x1, .f32⟩
  | 127 => ⟨S256x256x1, .f32⟩
  | _ => ⟨S65536x16, .f32⟩

abbrev hbmTy0_2 (i : Nat) : BufTy := match i % 128 with
  | 0 => ⟨S256x256x1, .f32⟩
  | 1 => ⟨S256x256x1, .f32⟩
  | 2 => ⟨S256x256x1, .f32⟩
  | 3 => ⟨S256x256x1, .f32⟩
  | 4 => ⟨S256x256x8, .f32⟩
  | 5 => ⟨S65536x8, .f32⟩
  | 6 => ⟨S8x256, .f32⟩
  | 7 => ⟨S65536x256, .f32⟩
  | 8 => ⟨S65536x256, .f32⟩
  | 9 => ⟨S1x256, .f32⟩
  | 10 => ⟨S65536x256, .f32⟩
  | 11 => ⟨S65536x256, .f32⟩
  | _ => ⟨S65536x16, .f32⟩

abbrev hbmTy (i : Nat) : BufTy := match i / 128 with
  | 0 => hbmTy0_0 i
  | 1 => hbmTy0_1 i
  | 2 => hbmTy0_2 i
  | _ => ⟨S65536x16, .f32⟩

abbrev bufTy : (tb : Table) → Fin (tcTables nBuf tb) → BufTy
  | .hbm, ⟨i, _⟩ => hbmTy i
  | _, _ => ⟨S65536x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_c_4 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v11 : Ref sig .tc := ⟨.hbm, 28, rfl⟩
abbrev main_c_5 : Ref sig .tc := ⟨.hbm, 29, rfl⟩
abbrev main_v12 : Ref sig .tc := ⟨.hbm, 30, rfl⟩
abbrev main_v13 : Ref sig .tc := ⟨.hbm, 31, rfl⟩
abbrev main_c_6 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_7 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_c_8 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_v5 : Ref sig .tc := ⟨.hbm, 69, rfl⟩
abbrev main_call2_v6 : Ref sig .tc := ⟨.hbm, 70, rfl⟩
abbrev main_call2_c_2 : Ref sig .tc := ⟨.hbm, 71, rfl⟩
abbrev main_call2_v7 : Ref sig .tc := ⟨.hbm, 72, rfl⟩
abbrev main_call2_v8 : Ref sig .tc := ⟨.hbm, 73, rfl⟩
abbrev main_call2_c_3 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_c_9 : Ref sig .tc := ⟨.hbm, 84, rfl⟩
abbrev main_call3_v0 : Ref sig .tc := ⟨.hbm, 85, rfl⟩
abbrev main_call3_c : Ref sig .tc := ⟨.hbm, 86, rfl⟩
abbrev main_call3_v1 : Ref sig .tc := ⟨.hbm, 87, rfl⟩
abbrev main_call3_c_0 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_c_1 : Ref sig .tc := ⟨.hbm, 92, rfl⟩
abbrev main_call3_v5 : Ref sig .tc := ⟨.hbm, 93, rfl⟩
abbrev main_call3_v6 : Ref sig .tc := ⟨.hbm, 94, rfl⟩
abbrev main_call3_c_2 : Ref sig .tc := ⟨.hbm, 95, rfl⟩
abbrev main_call3_v7 : Ref sig .tc := ⟨.hbm, 96, rfl⟩
abbrev main_call3_v8 : Ref sig .tc := ⟨.hbm, 97, rfl⟩
abbrev main_call3_c_3 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_v12 : Ref sig .tc := ⟨.hbm, 102, rfl⟩
abbrev main_call3_v13 : Ref sig .tc := ⟨.hbm, 103, rfl⟩
abbrev main_call3_v14 : Ref sig .tc := ⟨.hbm, 104, rfl⟩
abbrev main_v27 : Ref sig .tc := ⟨.hbm, 105, rfl⟩
abbrev main_cst : Ref sig .tc := ⟨.hbm, 106, rfl⟩
abbrev main_v28 : Ref sig .tc := ⟨.hbm, 107, rfl⟩
abbrev main_c_10 : Ref sig .tc := ⟨.hbm, 108, rfl⟩
abbrev main_v29 : Ref sig .tc := ⟨.hbm, 109, rfl⟩
abbrev main_v30 : Ref sig .tc := ⟨.hbm, 110, rfl⟩
abbrev main_c_11 : Ref sig .tc := ⟨.hbm, 111, rfl⟩
abbrev main_v31 : Ref sig .tc := ⟨.hbm, 112, rfl⟩
abbrev main_v32 : Ref sig .tc := ⟨.hbm, 113, rfl⟩
abbrev main_v33 : Ref sig .tc := ⟨.hbm, 114, rfl⟩
abbrev main_c_12 : Ref sig .tc := ⟨.hbm, 115, rfl⟩
abbrev main_v34 : Ref sig .tc := ⟨.hbm, 116, rfl⟩
abbrev main_v35 : Ref sig .tc := ⟨.hbm, 117, rfl⟩
abbrev main_c_13 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_c_14 : Ref sig .tc := ⟨.hbm, 122, rfl⟩
abbrev main_v39 : Ref sig .tc := ⟨.hbm, 123, rfl⟩
abbrev main_v40 : Ref sig .tc := ⟨.hbm, 124, rfl⟩
abbrev main_c_15 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_v44 : Ref sig .tc := ⟨.hbm, 129, rfl⟩
abbrev main_v45 : Ref sig .tc := ⟨.hbm, 130, rfl⟩
abbrev main_v46 : Ref sig .tc := ⟨.hbm, 131, rfl⟩
abbrev main_v47 : Ref sig .tc := ⟨.hbm, 132, rfl⟩
abbrev main_cst_16 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_cst_17 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_cst_18 : Ref sig .tc := ⟨.hbm, 142, rfl⟩
abbrev main_v55 : Ref sig .tc := ⟨.hbm, 143, rfl⟩
abbrev main_cst_19 : Ref sig .tc := ⟨.hbm, 144, rfl⟩
abbrev main_v56 : Ref sig .tc := ⟨.hbm, 145, rfl⟩
abbrev main_v57 : Ref sig .tc := ⟨.hbm, 146, rfl⟩
abbrev main_cst_20 : Ref sig .tc := ⟨.hbm, 147, rfl⟩
abbrev main_v58 : Ref sig .tc := ⟨.hbm, 148, rfl⟩
abbrev main_v59 : Ref sig .tc := ⟨.hbm, 149, rfl⟩
abbrev main_cst_21 : Ref sig .tc := ⟨.hbm, 150, rfl⟩
abbrev main_call4_v0 : Ref sig .tc := ⟨.hbm, 151, rfl⟩
abbrev main_call4_v1 : Ref sig .tc := ⟨.hbm, 152, rfl⟩
abbrev main_v60 : Ref sig .tc := ⟨.hbm, 153, rfl⟩
abbrev main_cst_22 : Ref sig .tc := ⟨.hbm, 154, rfl⟩
abbrev main_v61 : Ref sig .tc := ⟨.hbm, 155, rfl⟩
abbrev main_v62 : Ref sig .tc := ⟨.hbm, 156, rfl⟩
abbrev main_cst_23 : Ref sig .tc := ⟨.hbm, 157, rfl⟩
abbrev main_call5_v0 : Ref sig .tc := ⟨.hbm, 158, rfl⟩
abbrev main_call5_v1 : Ref sig .tc := ⟨.hbm, 159, rfl⟩
abbrev main_v63 : Ref sig .tc := ⟨.hbm, 160, rfl⟩
abbrev main_v64 : Ref sig .tc := ⟨.hbm, 161, rfl⟩
abbrev main_v65 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_c_24 : Ref sig .tc := ⟨.hbm, 166, rfl⟩
abbrev main_v69 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_v73 : Ref sig .tc := ⟨.hbm, 171, rfl⟩
abbrev main_v74 : Ref sig .tc := ⟨.hbm, 172, rfl⟩
abbrev main_v75 : Ref sig .tc := ⟨.hbm, 173, rfl⟩
abbrev main_v76 : Ref sig .tc := ⟨.hbm, 174, rfl⟩
abbrev main_v77 : Ref sig .tc := ⟨.hbm, 175, rfl⟩
abbrev main_v78 : Ref sig .tc := ⟨.hbm, 176, rfl⟩
abbrev main_cst_25 : Ref sig .tc := ⟨.hbm, 177, rfl⟩
abbrev main_v79 : Ref sig .tc := ⟨.hbm, 178, rfl⟩
abbrev main_v80 : Ref sig .tc := ⟨.hbm, 179, rfl⟩
abbrev main_cst_26 : Ref sig .tc := ⟨.hbm, 180, rfl⟩
abbrev main_v81 : Ref sig .tc := ⟨.hbm, 181, rfl⟩
abbrev main_v82 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_cst_27 : Ref sig .tc := ⟨.hbm, 187, rfl⟩
abbrev main_v87 : Ref sig .tc := ⟨.hbm, 188, rfl⟩
abbrev main_v88 : Ref sig .tc := ⟨.hbm, 189, rfl⟩
abbrev main_cst_28 : Ref sig .tc := ⟨.hbm, 190, rfl⟩
abbrev main_v89 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩
abbrev main_cst_29 : Ref sig .tc := ⟨.hbm, 197, rfl⟩
abbrev main_v95 : Ref sig .tc := ⟨.hbm, 198, rfl⟩
abbrev main_v96 : Ref sig .tc := ⟨.hbm, 199, rfl⟩
abbrev main_cst_30 : Ref sig .tc := ⟨.hbm, 200, rfl⟩
abbrev main_v97 : Ref sig .tc := ⟨.hbm, 201, rfl⟩
abbrev main_v98 : Ref sig .tc := ⟨.hbm, 202, rfl⟩
abbrev main_v99 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_cst_31 : Ref sig .tc := ⟨.hbm, 207, rfl⟩
abbrev main_v103 : Ref sig .tc := ⟨.hbm, 208, rfl⟩
abbrev main_v104 : Ref sig .tc := ⟨.hbm, 209, rfl⟩
abbrev main_cst_32 : Ref sig .tc := ⟨.hbm, 210, rfl⟩
abbrev main_v105 : Ref sig .tc := ⟨.hbm, 211, rfl⟩
abbrev main_v106 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩
abbrev main_v110 : Ref sig .tc := ⟨.hbm, 216, rfl⟩
abbrev main_cst_33 : Ref sig .tc := ⟨.hbm, 217, rfl⟩
abbrev main_v111 : Ref sig .tc := ⟨.hbm, 218, rfl⟩
abbrev main_v112 : Ref sig .tc := ⟨.hbm, 219, rfl⟩
abbrev main_cst_34 : Ref sig .tc := ⟨.hbm, 220, rfl⟩
abbrev main_v113 : Ref sig .tc := ⟨.hbm, 221, rfl⟩
abbrev main_v114 : Ref sig .tc := ⟨.hbm, 222, rfl⟩
abbrev main_v115 : Ref sig .tc := ⟨.hbm, 223, rfl⟩
abbrev main_v116 : Ref sig .tc := ⟨.hbm, 224, rfl⟩
abbrev main_v117 : Ref sig .tc := ⟨.hbm, 225, rfl⟩
abbrev main_v118 : Ref sig .tc := ⟨.hbm, 226, rfl⟩
abbrev main_cst_35 : Ref sig .tc := ⟨.hbm, 227, rfl⟩
abbrev main_v119 : Ref sig .tc := ⟨.hbm, 228, rfl⟩
abbrev main_v120 : Ref sig .tc := ⟨.hbm, 229, rfl⟩
abbrev main_cst_36 : Ref sig .tc := ⟨.hbm, 230, rfl⟩
abbrev main_v121 : Ref sig .tc := ⟨.hbm, 231, rfl⟩
abbrev main_v122 : Ref sig .tc := ⟨.hbm, 232, rfl⟩
abbrev main_v123 : Ref sig .tc := ⟨.hbm, 233, rfl⟩
abbrev main_v124 : Ref sig .tc := ⟨.hbm, 234, rfl⟩
abbrev main_v125 : Ref sig .tc := ⟨.hbm, 235, rfl⟩
abbrev main_v126 : Ref sig .tc := ⟨.hbm, 236, rfl⟩
abbrev main_cst_37 : Ref sig .tc := ⟨.hbm, 237, rfl⟩
abbrev main_v127 : Ref sig .tc := ⟨.hbm, 238, rfl⟩
abbrev main_v128 : Ref sig .tc := ⟨.hbm, 239, rfl⟩
abbrev main_cst_38 : Ref sig .tc := ⟨.hbm, 240, rfl⟩
abbrev main_v129 : Ref sig .tc := ⟨.hbm, 241, rfl⟩
abbrev main_v130 : Ref sig .tc := ⟨.hbm, 242, rfl⟩
abbrev main_v131 : Ref sig .tc := ⟨.hbm, 243, rfl⟩
abbrev main_v132 : Ref sig .tc := ⟨.hbm, 244, rfl⟩
abbrev main_v133 : Ref sig .tc := ⟨.hbm, 245, rfl⟩
abbrev main_v134 : Ref sig .tc := ⟨.hbm, 246, rfl⟩
abbrev main_cst_39 : Ref sig .tc := ⟨.hbm, 247, rfl⟩
abbrev main_v135 : Ref sig .tc := ⟨.hbm, 248, rfl⟩
abbrev main_v136 : Ref sig .tc := ⟨.hbm, 249, rfl⟩
abbrev main_cst_40 : Ref sig .tc := ⟨.hbm, 250, rfl⟩
abbrev main_v137 : Ref sig .tc := ⟨.hbm, 251, rfl⟩
abbrev main_v138 : Ref sig .tc := ⟨.hbm, 252, rfl⟩
abbrev main_v139 : Ref sig .tc := ⟨.hbm, 253, rfl⟩
abbrev main_v140 : Ref sig .tc := ⟨.hbm, 254, rfl⟩
abbrev main_v141 : Ref sig .tc := ⟨.hbm, 255, rfl⟩
abbrev main_v142 : Ref sig .tc := ⟨.hbm, 256, rfl⟩
abbrev main_v143 : Ref sig .tc := ⟨.hbm, 257, rfl⟩
abbrev main_v144 : Ref sig .tc := ⟨.hbm, 258, rfl⟩
abbrev main_v145 : Ref sig .tc := ⟨.hbm, 259, rfl⟩
abbrev main_v146 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_v152 : Ref sig .tc := ⟨.hbm, 266, rfl⟩
abbrev main_v153 : Ref sig .tc := ⟨.hbm, 267, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  slices_S2x524288_S1x524288_1_0 : S2x524288.Slices ![1, 0] S1x524288
  shapeCasts_S1x524288_S524288 : S1x524288.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  bcast_S65536_S65536x1_0 : S65536.BroadcastsInDim S65536x1 (![0] : Fin 1 → Fin S65536x1.rank)
  slices_S2x524288_S1x524288_0_0 : S2x524288.Slices ![0, 0] S1x524288
  bcast_S_S256x256x256 : S_.BroadcastsInDim S256x256x256 (![] : Fin 0 → Fin S256x256x256.rank)
  concatenates_S524288x1_S524288x1_S524288x1_S524288x3_d1 : Shape.Concatenates [S524288x1, S524288x1, S524288x1] S524288x3 1
  transposes_S256x256x256_S256x256x256_0_2_1 : S256x256x256.Transposes [0, 2, 1] S256x256x256
  reducesTo_S256x256x256_S256x256_d2 : S256x256x256.ReducesTo [2] S256x256
  h_S_ : 0 < S_.numel
  bcast_S_S256x256 : S_.BroadcastsInDim S256x256 (![] : Fin 0 → Fin S256x256.rank)
  bcast_S256x256_S256x1x256_0_2 : S256x256.BroadcastsInDim S256x1x256 (![0, 2] : Fin 2 → Fin S256x1x256.rank)
  bcast_S256x1x256_S256x256x256_0_1_2 : S256x1x256.BroadcastsInDim S256x256x256 (![0, 1, 2] : Fin 3 → Fin S256x256x256.rank)
  bcast_S256x256_S256x256x256_1_2 : S256x256.BroadcastsInDim S256x256x256 (![1, 2] : Fin 2 → Fin S256x256x256.rank)
  reducesTo_S256x256x256_S256x256_d1 : S256x256x256.ReducesTo [1] S256x256
  bcast_S256x256_S256x256x1_0_1 : S256x256.BroadcastsInDim S256x256x1 (![0, 1] : Fin 2 → Fin S256x256x1.rank)
  concatenates_S256x256x1_S256x256x1_S256x256x1_S256x256x1_S256x256x1_S256x256x1_S256x256x1_S256x256x1_S256x256x8_d2 : Shape.Concatenates [S256x256x1, S256x256x1, S256x256x1, S256x256x1, S256x256x1, S256x256x1, S256x256x1, S256x256x1] S256x256x8 2
  shapeCasts_S256x256x8_S65536x8 : S256x256x8.ShapeCasts S65536x8
  transposes_S256x8_S8x256_1_0 : S256x8.Transposes [1, 0] S8x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  scatter_S65536_S524288x1_S524288_n_0_0_1_wf : ScatterDims.WF S65536 S524288x1 S524288 [] [0] [0] 1
  gather_S256x256_S65536x1_S65536x256_1_0_n_n_0_1_1256_wf : GatherDims.WF S256x256 S65536x1 S65536x256 [1] [0] [] [0] [] 1 ![1, 256]
  scatter_S256x256x256_S524288x3_S524288_n_012_012_1_wf : ScatterDims.WF S256x256x256 S524288x3 S524288 [] [0, 1, 2] [0, 1, 2] 1
  dot_S256x256x256_S256x256x256_S256x256x256_2_1_1_2_0_0_wf : DotDims.WF S256x256x256 S256x256x256 S256x256x256 [2] [1] [1] [2] [0] [0]
  dot_S65536x8_S8x256_S65536x256_1_0_0_1_n_n_wf : DotDims.WF S65536x8 S8x256 S65536x256 [1] [0] [0] [1] [] []

variable [Facts₀]

def scatter_S65536_S524288x1_S524288_n_0_0_1 : ScatterDims S65536 S524288x1 S524288 where
  updateWindowDims := []
  insertedWindowDims := [0]
  scatterDimsToOperandDims := [0]
  indexVectorDim := 1
  wf := scatter_S65536_S524288x1_S524288_n_0_0_1_wf
def gather_S256x256_S65536x1_S65536x256_1_0_n_n_0_1_1256 : GatherDims S256x256 S65536x1 S65536x256 where
  offsetDims := [1]
  collapsedSliceDims := [0]
  operandBatchingDims := []
  startIndicesBatchingDims := []
  startIndexMap := [0]
  indexVectorDim := 1
  sliceSizes := ![1, 256]
  wf := gather_S256x256_S65536x1_S65536x256_1_0_n_n_0_1_1256_wf
def scatter_S256x256x256_S524288x3_S524288_n_012_012_1 : ScatterDims S256x256x256 S524288x3 S524288 where
  updateWindowDims := []
  insertedWindowDims := [0, 1, 2]
  scatterDimsToOperandDims := [0, 1, 2]
  indexVectorDim := 1
  wf := scatter_S256x256x256_S524288x3_S524288_n_012_012_1_wf
def dot_S256x256x256_S256x256x256_S256x256x256_2_1_1_2_0_0 : DotDims S256x256x256 S256x256x256 S256x256x256 where
  lhsContracting := [2]
  rhsContracting := [1]
  lhsNonContracting := [1]
  rhsNonContracting := [2]
  lhsBatch := [0]
  rhsBatch := [0]
  wf := dot_S256x256x256_S256x256x256_S256x256x256_2_1_1_2_0_0_wf
def dot_S65536x8_S8x256_S65536x256_1_0_0_1_n_n : DotDims S65536x8 S8x256 S65536x256 where
  lhsContracting := [1]
  rhsContracting := [0]
  lhsNonContracting := [0]
  rhsNonContracting := [1]
  lhsBatch := []
  rhsBatch := []
  wf := dot_S65536x8_S8x256_S65536x256_1_0_0_1_n_n_wf

class Facts : Prop extends Facts₀ where

variable [Facts]
-- ==== Proof.CallsBits.lean ====
/-
  The two kernel calls of the word-level kernel program, as data: for each call, a window's block at a grid point read
  off the array the call finds, what the body leaves in its output window's buffer as a function of the input
  blocks, and the per-point record of buffer contents the pipeline library takes.

  Call 0 works on a block of eight graphs: from the eight 256×256 adjacency matrices it stores the eight rows
  (one per walk length 1…8) of return probabilities of every node, an 8×8×256 block. Call 1 works on a tile of
  4096 nodes: from the tile's clipped in-degrees, its 4096×8 return probabilities, the degree table, the transposed
  projection weights and the bias it stores the 4096×256 tile of the result.
-/
import proofs.«146736_j68667937129202_2_alg».proof.Proof.Gen.Kernel.Launch
import proofs.«146736_j68667937129202_2_alg».proof.Proof.Gen.Kernel.Skeleton
import proofs.«146736_j68667937129202_2_alg».proof.Proof.Gen.Kernel.Points
import proofs.«146736_j68667937129202_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.TwoCalls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- The contents of the TensorCore's buffers when a call is entered: the parameter both calls' data are stated at.
variable (V : (c : Dev nD) → (b : Ref sig .tc) → Buf (Elt F) ((c : Thread nD τ).loc b))

/-! ## Call 0: return probabilities of a block of eight graphs -/

/-- Window `w`'s block at point `t` of call 0, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 8×256×256 input buffer and the whole 8×8×256 output buffer, as the rectangles the body loads and stores. -/
abbrev rectAdj : Rect S8x256x256 := Rect.unit (s := S8x256x256) ![0, 0, 0] S8x256x256.size inb_S8x256x256_S8x256x256_0_0_0
abbrev rectRet : Rect S8x8x256 := Rect.unit (s := S8x8x256) ![0, 0, 0] S8x8x256.size inb_S8x8x256_S8x8x256_0_0_0

/-- What the body of call 0 stores: the eight rows of return probabilities, from the block of eight adjacency matrices. -/
def retRows (a : Vec F S8x256x256 .f32) : FVec F S8x8x256 .f32 :=
  k0_pay1 (k0_pay3 a) (k0_pay4 (F := F)) (k0_pay5 a) (k0_pay7 a) (k0_pay9 a) (k0_pay10 a) (k0_pay11 a)

/-- The output window's buffer after the body of call 0: its one store over the whole buffer. -/
def out0 (x0 : Vec F S8x256x256 .f32) : Vec F S8x8x256 .f32 :=
  View.canon [⟨rectRet, retRows (View.ld x0 rectAdj)⟩]

/-- The per-point record of call 0 on core `c`: the arrays as found; after the body the input buffer at its block and
    the output buffer at `out0` of the input block; the class invariant; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => out0 (blk0 V c 0 t)
  Φ _ := Pipeline.ΦA spec0 c
  q _ := fullShare
  owed _ := 0

/-! ## Call 1: the embedding of a tile of 4096 nodes -/

/-- Window `w`'s block at point `t` of call 1, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rectDeg : Rect S4096 := Rect.unit (s := S4096) ![0] S4096.size inb_S4096_S4096_0
abbrev rectWalk : Rect S4096x8 := Rect.unit (s := S4096x8) ![0, 0] S4096x8.size inb_S4096x8_S4096x8_0_0
abbrev rectTab : Rect S256x256 := Rect.unit (s := S256x256) ![0, 0] S256x256.size inb_S256x256_S256x256_0_0
abbrev rectW : Rect S8x256 := Rect.unit (s := S8x256) ![0, 0] S8x256.size inb_S8x256_S8x256_0_0
abbrev rectBias : Rect S256 := Rect.unit (s := S256) ![0] S256.size inb_S256_S256_0
abbrev rectOut : Rect S4096x256 := Rect.unit (s := S4096x256) ![0, 0] S4096x256.size inb_S4096x256_S4096x256_0_0

/-- The output window's buffer after the body of call 1: its one store over the whole buffer, the tile of the result
    from the tile's degrees `x0`, its return probabilities `x1`, the table `x2`, the weights `x3` and the bias `x4`. -/
def out1 (x0 : Vec F S4096 .i32) (x1 : Vec F S4096x8 .f32) (x2 : Vec F S256x256 .f32) (x3 : Vec F S8x256 .f32) (x4 : Vec F S256 .f32) :
    Vec F S4096x256 .f32 :=
  View.canon [⟨rectOut, k1_pay1 (View.ld x0 rectDeg) (View.ld x2 rectTab) (View.ld x1 rectWalk) (View.ld x3 rectW) (View.ld x4 rectBias)⟩]

/-- The per-point record of call 1 on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => out1 (blk1 V c 0 t) (blk1 V c 1 t) (blk1 V c 2 t) (blk1 V c 3 t) (blk1 V c 4 t)
  Φ _ := Pipeline.ΦA spec1 c
  q _ := fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem after0_0 (c : Dev nD) (t : Fin cfg0.N) : (dat0 V c).after 0 t = blk0 V c 0 t := by dsimp only [dat0]
theorem after0_1 (c : Dev nD) (t : Fin cfg0.N) : (dat0 V c).after 1 t = out0 (blk0 V c 0 t) := by dsimp only [dat0]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) :
    (dat1 V c).after 5 t = out1 (blk1 V c 0 t) (blk1 V c 1 t) (blk1 V c 2 t) (blk1 V c 3 t) (blk1 V c 4 t) := by dsimp only [dat1]

end Cert.Kernel.TwoCalls

end
-- ==== Proof.CallsRunBits.lean ====
/-
  The frame of the word-level kernel program's two kernel calls, and the run of @main.

  Per call, at the contents `V` of the TensorCore's buffers when the call is entered: the body's triple on whole staging
  buffers (each input buffer holding its block, the output buffer holding anything, the body ends with the inputs as
  they were and the output at its one store), and from it the pipeline library's body obligation at every grid point.
  Then the two calls as segments of @main between the host stretches' states, the frame claim (every argument ends as
  launched), and the same run with the result buffer read off the last state.
-/
import proofs.«146736_j68667937129202_2_alg».proof.Proof.CallsBits

set_option maxRecDepth 16384

noncomputable section

namespace Cert.Kernel.TwoCalls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Calls

variable (V : (c : Dev nD) → (b : Ref sig .tc) → Buf (Elt F) ((c : Thread nD τ).loc b))

/-! ## Call 0 -/

/-- The input window of call 0 is fetched at every point and never cut, so whatever the record's bookkeeping says
    its current staging buffer held before, at the body's entry it holds the point's block. Stated for any record
    whose array is `V`'s and whose body leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl)
      (fun t => by rw [hafter]; unfold Dat.blockOf blk0; rw [hA]; try rfl) t d).trans
    (by unfold Dat.fetched Dat.blockOf blk0; rw [hA]; try rfl)

theorem before0_0 (c : Dev nD) (t : Fin cfg0.N) (d) : (dat0 V c).before 0 t d = blk0 V c 0 t :=
  before0_0_of V (dat0 V c) (A_eq0 V c 0) (after0_0 V c) t d

/-- The one store of call 0 is over the whole 8×8×256 buffer, so every index of the buffer lies in it. -/
theorem cover0 (p : Vec F S8x8x256 .f32) (y : S8x8x256.Idx) :
    ∃ pc ∈ ([⟨rectRet, p⟩] : List (View.Piece (Elt F) S8x8x256 .f32)), y ∈ pc.1.set :=
  View.cover_of_tiled [⟨rectRet, p⟩] S8x8x256.size (by rfl) y

set_option maxHeartbeats 1000000 in
/-- The body of call 0 on whole staging buffers. With the input buffer holding `x0` and the output buffer holding
    anything, the body reads the eight adjacency matrices, computes the eight rows of return probabilities, reads the
    output buffer (the value is dropped) and stores the rows over the whole of it: it ends with the input buffer as it
    was and the output buffer at `out0 x0`, whatever it held before, because the store covers the buffer. -/
theorem sound_kernel0 (c : Dev nD) (E : Set ℕ) (i : grid0.Coords)
    (arg1 : Memref sig .tc .vmem S8x256x256 .f32) (harg1 : arg1.IsWhole)
    (arg2 : Memref sig .tc .vmem S8x8x256 .f32) (harg2 : arg2.IsWhole)
    (x0 : Vec F S8x256x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0 x0)) -∗ K ⟨⟩))
      ⊢ wp frame (wpE (defs₀ (F := F)) Variants.none c none) E (cc0__power_kernel i arg1 harg1 arg2 harg2) K := by
  simp only [cc0__power_kernel_eq_skeleton]; unfold cc0__power_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-- What the pipeline hands the body of call 0 at point `t`: the class invariant, the core's dues, and each window's
    current staging buffer at what the record says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What the body of call 0 hands back at point `t`: the invariant and the dues at the next point, each window's
    staging buffer at the record's contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body of call 0 at any point: its input buffer holds the point's block of adjacency matrices, so the body's
    triple applies; the invariant and the dues do not depend on the point and are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's obligation on the body of call 0, at every point. -/
theorem body_obligation0 (c : Dev nD) : BodyObligation (dat0 (F := F) V c) (defs₀ (F := F)) Variants.none () Set.univ := fun t => by
  rw [bigSep_W0, bigSep_W0]
  exact sound_body0 V c t

/-! ## Call 1 -/

/-! Each of the five input windows of call 1 is uncut and never idle: the tile's degrees and return probabilities are
    fetched at every point; the degree table, the weights and the bias are fetched at the first point only and their
    block index never moves. Either way the current staging buffer holds the point's block at the body's entry. -/

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl)
      (fun t => by rw [hafter]; unfold Dat.blockOf blk1; rw [hA]; try rfl) t d).trans
    (by unfold Dat.fetched Dat.blockOf blk1; rw [hA]; try rfl)

theorem before1_0 (c : Dev nD) (t : Fin cfg1.N) (d) : (dat1 V c).before 0 t d = blk1 V c 0 t :=
  before1_0_of V (dat1 V c) (A_eq1 V c 0) (after1_0 V c) t d

theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl)
      (fun t => by rw [hafter]; unfold Dat.blockOf blk1; rw [hA]; try rfl) t d).trans
    (by unfold Dat.fetched Dat.blockOf blk1; rw [hA]; try rfl)

theorem before1_1 (c : Dev nD) (t : Fin cfg1.N) (d) : (dat1 V c).before 1 t d = blk1 V c 1 t :=
  before1_1_of V (dat1 V c) (A_eq1 V c 1) (after1_1 V c) t d

theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl)
      (fun t => by rw [hafter]; unfold Dat.blockOf blk1; rw [hA]; try rfl) t d).trans
    (by unfold Dat.fetched Dat.blockOf blk1; rw [hA]; try rfl)

theorem before1_2 (c : Dev nD) (t : Fin cfg1.N) (d) : (dat1 V c).before 2 t d = blk1 V c 2 t :=
  before1_2_of V (dat1 V c) (A_eq1 V c 2) (after1_2 V c) t d

theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl)
      (fun t => by rw [hafter]; unfold Dat.blockOf blk1; rw [hA]; try rfl) t d).trans
    (by unfold Dat.fetched Dat.blockOf blk1; rw [hA]; try rfl)

theorem before1_3 (c : Dev nD) (t : Fin cfg1.N) (d) : (dat1 V c).before 3 t d = blk1 V c 3 t :=
  before1_3_of V (dat1 V c) (A_eq1 V c 3) (after1_3 V c) t d

theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl)
      (fun t => by rw [hafter]; unfold Dat.blockOf blk1; rw [hA]; try rfl) t d).trans
    (by unfold Dat.fetched Dat.blockOf blk1; rw [hA]; try rfl)

theorem before1_4 (c : Dev nD) (t : Fin cfg1.N) (d) : (dat1 V c).before 4 t d = blk1 V c 4 t :=
  before1_4_of V (dat1 V c) (A_eq1 V c 4) (after1_4 V c) t d

/-- The one store of call 1 is over the whole 4096×256 buffer. -/
theorem cover1 (p : Vec F S4096x256 .f32) (y : S4096x256.Idx) :
    ∃ pc ∈ ([⟨rectOut, p⟩] : List (View.Piece (Elt F) S4096x256 .f32)), y ∈ pc.1.set :=
  View.cover_of_tiled [⟨rectOut, p⟩] S4096x256.size (by rfl) y

set_option maxHeartbeats 1000000 in
/-- The body of call 1 on whole staging buffers. With the five input buffers holding `x0 … x4` and the output buffer
    holding anything, the body reads the inputs, computes the tile of the result, reads the output buffer (the value is
    dropped) and stores the tile over the whole of it: the inputs end as they were, the output at `out1 x0 … x4`. -/
theorem sound_kernel1 (c : Dev nD) (E : Set ℕ) (i : grid1.Coords)
    (arg1 : Memref sig .tc .vmem S4096 .i32) (harg1 : arg1.IsWhole)
    (arg2 : Memref sig .tc .vmem S4096x8 .f32) (harg2 : arg2.IsWhole)
    (arg3 : Memref sig .tc .vmem S256x256 .f32) (harg3 : arg3.IsWhole)
    (arg4 : Memref sig .tc .vmem S8x256 .f32) (harg4 : arg4.IsWhole)
    (arg5 : Memref sig .tc .vmem S256 .f32) (harg5 : arg5.IsWhole)
    (arg6 : Memref sig .tc .vmem S4096x256 .f32) (harg6 : arg6.IsWhole)
    (x0 : Vec F S4096 .i32) (x1 : Vec F S4096x8 .f32) (x2 : Vec F S256x256 .f32) (x3 : Vec F S8x256 .f32) (x4 : Vec F S256 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1 x0 x1 x2 x3 x4)) -∗ K ⟨⟩))
      ⊢ wp frame (wpE (defs₀ (F := F)) Variants.none c none) E
          (cc1__embed_kernel i arg1 harg1 arg2 harg2 arg3 harg3 arg4 harg4 arg5 harg5 arg6 harg6) K := by
  simp only [cc1__embed_kernel_eq_skeleton]; unfold cc1__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-- What the pipeline hands the body of call 1 at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body of call 1 hands back at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body of call 1 at any point: each input buffer holds the point's block, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's obligation on the body of call 1, at every point. -/
theorem body_obligation1 (c : Dev nD) : BodyObligation (dat1 (F := F) V c) (defs₀ (F := F)) Variants.none () Set.univ := fun t => by
  rw [bigSep_W1, bigSep_W1]
  exact sound_body1 V c t

end Calls

/-! # The run of @main -/

variable (m : (ℓ : Loc nD τ sig) → Buf (Elt F) ℓ) (ρ : Dev nD → PrngReg)

/-! ## The contents the two calls find and leave -/

/-- What call 0 finds in the TensorCore's buffers: the launch memory after the nine host stretches before it. -/
abbrev entry0 : (c : Dev nD) → (b : Ref sig .tc) → Buf (Elt F) ((c : Thread nD τ).loc b) := fun c b => V9 m c b

/-- What call 0 leaves in its output array: the write-backs of its 32 points, folded. -/
def left0 (c : Dev nD) : Buf (Elt F) ((c : Thread nD τ).loc main_v43) := (dat0 (entry0 m) c).arrAt 1 cfg0.N

/-- The contents the regions leave, with call 0's filled in (and only read there). -/
def outs10 : Outs (F := F) := fun _ r c => Function.update (V9 m c) main_v43 (left0 m c) r

/-- What call 1 finds: call 0's result in place, then the transpose, the reshape and the transpose between the calls. -/
abbrev entry1 : (c : Dev nD) → (b : Ref sig .tc) → Buf (Elt F) ((c : Thread nD τ).loc b) := fun c b => V11 m (outs10 m) c b

/-- What call 1 leaves in its output array: the write-backs of its 16 points, folded. -/
def left1 (c : Dev nD) : Buf (Elt F) ((c : Thread nD τ).loc main_v47) := (dat1 (entry1 m) c).arrAt 5 cfg1.N

/-- The contents the two calls leave in the buffers they may change: after call 0 (index 10) every buffer as call 0
    found it except its output array at `left0`; after call 1 every buffer as call 1 found it except its output
    array at `left1`. -/
def outs : Outs (F := F) := fun j r c =>
  if j = 10 then Function.update (V9 m c) main_v43 (left0 m c) r
  else Function.update (V11 m (outs10 m) c) main_v47 (left1 m c) r

theorem outs_10 (c : Dev nD) : outs m 10 main_v43 c = left0 m c := by
  unfold outs; rw [if_pos rfl]; exact Function.update_self ..

theorem outs_12 (c : Dev nD) : outs m 12 main_v47 c = left1 m c := by
  unfold outs; rw [if_neg (by decide)]; exact Function.update_self ..

theorem outs10_10 (c : Dev nD) : outs10 m 10 main_v43 c = left0 m c := by
  unfold outs10; exact Function.update_self ..

/-- After call 0 the buffers are as it found them, its output array at `left0`. -/
theorem V10_outs (c : Dev nD) : V10 m (outs m) c = Function.update (V9 m c) main_v43 (left0 m c) := by
  show Function.update (V9 m c) main_v43 (outs m 10 main_v43 c) = _
  rw [outs_10]

theorem V10_outs10 (c : Dev nD) : V10 m (outs10 m) c = Function.update (V9 m c) main_v43 (left0 m c) := by
  show Function.update (V9 m c) main_v43 (outs10 m 10 main_v43 c) = _
  rw [outs10_10]

/-- Call 1 finds the buffers the three host operations after call 0 leave. -/
theorem entry1_eq (c : Dev nD) (b : Ref sig .tc) : entry1 m c b = V11 m (outs m) c b := by
  show StableHlo.after hostOps1 (V10 m (outs10 m) c) b = StableHlo.after hostOps1 (V10 m (outs m) c) b
  rw [V10_outs, V10_outs10]

theorem V11_outs (c : Dev nD) : V11 m (outs m) c = V11 m (outs10 m) c := by
  show StableHlo.after hostOps1 (V10 m (outs m) c) = StableHlo.after hostOps1 (V10 m (outs10 m) c)
  rw [V10_outs, V10_outs10]

/-- After call 0 its output array holds what the call leaves there. -/
theorem entry1_v43 (c : Dev nD) : V10 m (outs m) c main_v43 = (dat0 (entry0 m) c).arrAt 1 cfg0.N := by
  rw [V10_outs]; exact Function.update_self ..

/-- After call 1 its output array holds what the call leaves there. -/
theorem V12_v47 (c : Dev nD) : V12 m (outs m) c main_v47 = (dat1 (entry1 m) c).arrAt 5 cfg1.N := by
  show Function.update (V11 m (outs m) c) main_v47 (outs m 12 main_v47 c) main_v47 = _
  rw [outs_12]; exact Function.update_self ..

/-- The buffers after each call, read at the TensorCore's references. -/
abbrev exit0 : (c : Dev nD) → (b : Ref sig .tc) → Buf (Elt F) ((c : Thread nD τ).loc b) := fun c b => V10 m (outs m) c b
abbrev exit1 : (c : Dev nD) → (b : Ref sig .tc) → Buf (Elt F) ((c : Thread nD τ).loc b) := fun c b => V12 m (outs m) c b

/-! ## What each call's arrays hold when it exits, and that nothing else moved -/

/-- Call 0's arrays at its exit: the input array as found (no window writes it back), the output array at `left0`. -/
theorem hF0 (c : Dev nD) : ∀ w : Fin 2, (dat0 (entry0 m) c).arrAt w cfg0.N = exit0 m c (Pipeline.arrRef spec0 w)
  | ⟨0, _⟩ => ((dat0 (entry0 m) c).arrAt_in 0 rfl _).trans <| (A_eq0 (entry0 m) c 0).trans (V10_of m (outs m) c main_v42 (by decide)).symm
  | ⟨1, _⟩ => (entry1_v43 m c).symm
  | ⟨_ + 2, h⟩ => absurd h (Nat.not_lt.2 (Nat.le_add_left _ _))

/-- Off call 0's arrays the buffers at its exit are those at its entry. -/
theorem hrest0 (c : Dev nD) : ∀ b, b ∉ Finset.univ.image (Pipeline.arrRef spec0) → exit0 m c b = entry0 m c b :=
  fun b hb => V10_of m (outs m) c b fun hmem => hb (Finset.mem_image.mpr ⟨1, Finset.mem_univ _, (List.mem_singleton.mp hmem).symm⟩)

/-- Call 1's arrays at its exit: the five input arrays as found, the output array at `left1`. -/
theorem hF1 (c : Dev nD) : ∀ w : Fin 6, (dat1 (entry1 m) c).arrAt w cfg1.N = exit1 m c (Pipeline.arrRef spec1 w)
  | ⟨0, _⟩ => ((dat1 (entry1 m) c).arrAt_in 0 rfl _).trans <| (A_eq1 (entry1 m) c 0).trans <| (entry1_eq m c main_v11).trans (V12_of m (outs m) c main_v11 (by decide)).symm
  | ⟨1, _⟩ => ((dat1 (entry1 m) c).arrAt_in 1 rfl _).trans <| (A_eq1 (entry1 m) c 1).trans <| (entry1_eq m c main_v45).trans (V12_of m (outs m) c main_v45 (by decide)).symm
  | ⟨2, _⟩ => ((dat1 (entry1 m) c).arrAt_in 2 rfl _).trans <| (A_eq1 (entry1 m) c 2).trans <| (entry1_eq m c main_arg3).trans (V12_of m (outs m) c main_arg3 (by decide)).symm
  | ⟨3, _⟩ => ((dat1 (entry1 m) c).arrAt_in 3 rfl _).trans <| (A_eq1 (entry1 m) c 3).trans <| (entry1_eq m c main_v46).trans (V12_of m (outs m) c main_v46 (by decide)).symm
  | ⟨4, _⟩ => ((dat1 (entry1 m) c).arrAt_in 4 rfl _).trans <| (A_eq1 (entry1 m) c 4).trans <| (entry1_eq m c main_arg5).trans (V12_of m (outs m) c main_arg5 (by decide)).symm
  | ⟨5, _⟩ => (V12_v47 m c).symm
  | ⟨_ + 6, h⟩ => absurd h (Nat.not_lt.2 (Nat.le_add_left _ _))

/-- Off call 1's arrays the buffers at its exit are those at its entry. -/
theorem hrest1 (c : Dev nD) : ∀ b, b ∉ Finset.univ.image (Pipeline.arrRef spec1) → exit1 m c b = entry1 m c b :=
  fun b hb => (V12_of m (outs m) c b fun hmem => hb (Finset.mem_image.mpr ⟨5, Finset.mem_univ _, (List.mem_singleton.mp hmem).symm⟩)).trans
    (entry1_eq m c b).symm

/-! ## The proof data, the levels and what rides beside the buffers -/

/-- Each call's record at the contents it finds. -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

/-- No core ever owes another anything in this program: no pair is assigned a level. -/
abbrev noPairs : GSem nD τ sig → Finset Unit := fun _ => ∅
abbrev noLevel : GSem nD τ sig → Unit → ℕ := fun _ _ => 0

/-- Beside the buffers a core carries its generator register, at some state (a call's class invariant takes it in and
    gives it back), and its dues, which are nothing. -/
abbrev rest (c : Dev nD) : sProp 𝕄 := iprop((∃ r, prngReg c r) ∗ ∃ W, owes (c : Thread nD τ) (0 : CellTallies nD τ sig Unit) W)

/-! ## The two calls as segments of @main -/

set_option backward.isDefEq.respectTransparency.types false in
/-- Call 0 as a segment, entered with every unscoped buffer at `V9` and left with them at `V10`. At entry its two
    arrays are split off the unscoped buffers; the generator register goes into the class invariant and comes back;
    at exit the arrays, now at what the pipeline leaves, are put back among the unscoped buffers: the input array
    where it was, the output array at `left0`, nothing else moved. The call has no semaphore of its own and owes nothing. -/
def reg0 : Pipeline.RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ noPairs noLevel 0 fun _ _ => rfl
  pre c := iprop(StableHlo.held (c : Thread nD τ) (Pipeline.ucRefs τ sig) (V9 m c) ∗ rest c)
  post c := iprop(StableHlo.held (c : Thread nD τ) (Pipeline.ucRefs τ sig) (V10 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment, entered with every unscoped buffer at `V11` and left with them at `V12`: its six arrays split
    off at entry and put back at exit, the five input arrays where they were and the output array at `left1`. -/
def reg1 : Pipeline.RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ noPairs noLevel 1 fun _ _ => rfl
  pre c := iprop(StableHlo.held (c : Thread nD τ) (Pipeline.ucRefs τ sig) (V11 m (outs m) c) ∗ rest c)
  post c := iprop(StableHlo.held (c : Thread nD τ) (Pipeline.ucRefs τ sig) (V12 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none, V11_outs]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch's ghost element: the pipeline library's, over both calls' staging cells; no further ghost resource. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (u₀ : UR sig nD τ) : sProp 𝕄) ⊢ BI.own (emb₁ (u₀ : UR sig nD τ)) from .rfl)
    iexact Hu
  iapply (show (BI.emp : sProp 𝕄) ⊢ bigSep Finset.univ (fun _ : Dev nD => (BI.emp : sProp 𝕄)) from by rw [BI.bigSep_emp_const])
  iempintro

/-- What the launch deals each core besides its buffers makes `rest`: the generator register at its launch state, the
    dues at nothing; the semaphores at zero and the launch credit are not needed. -/
theorem hrest_init : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noPairs noLevel)
      ⊢ (|={Set.univ}=> bigSep Finset.univ (fun c : Dev nD => rest (F := F) c) : sProp 𝕄) := by
  refine Pipeline.initEach noPairs noLevel fun c => ?_
  iintro ⟨⟨-, HO, -, Hp, -⟩, -⟩
  imodintro
  isplitl [Hp]; · iexists _; iexact Hp
  iexists ∅; iexact HO

/-- THE FRAME: from any memory with every counter at zero, every weakly fair execution of @main on the TensorCores
    terminates without fault, and each of the six argument arrays ends holding what it held at launch. By the
    conditional frame of the imported regions module at the two calls' segments: no core owes anything, the rest state is `rest` throughout,
    the contents the calls leave are `outs`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () Variants.none noPairs noLevel (fun _ _ => rfl) ρ (outs m) (pdats m) 0 (fun _ => iprop(emp)) u₀ hu₀
    (fun _ c => rest c) (hrest_init ρ) (fun c => by iintro ⟨-, H⟩; iexact H)
    (reg0 m) (fun _ => .rfl) (fun _ => .rfl) (reg1 m) (fun _ => .rfl) (fun _ => .rfl)

/-! ## The run, with the result read off -/

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every weakly fair execution of @main terminates without fault, the result array `main_v47` ends holding
    what call 1 leaves in it — the write-backs of its 16 points over the contents it found — and the six arguments
    end as launched. @main is its twelve segments in order, the nine
    host stretches, call 0, the three operations between the calls, call 1; the thread states chain; the launch makes
    the first one; and the last one, every unscoped buffer at `V12`, is read against the final memory — at the
    arguments, which no segment writes, and at the result array. -/
theorem run : θ_run defs (onTc (τ := τ) (main (F := F))) ⟨m, fun _ => 0, ρ⟩ (fun r => ∀ c : Dev nD,
      r.2.mem ((c.tc : Thread nD τ).loc main_v47) = (dat1 (entry1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ Variants.none noPairs noLevel m ρ main
    (Gen.segs m (outs m) Variants.none noPairs noLevel (fun _ c => rest c) () (pdats m) (reg0 m) (reg1 m))
    (fun c Q => by
      rewrite [main_chain c, Pipeline.Seg.run_eq_chain,
        show (Gen.segs m (outs m) Variants.none noPairs noLevel (fun _ c => rest c) () (pdats m) (reg0 m) (reg1 m) c).map Pipeline.Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    0 (fun _ _ => rfl) (fun _ => iprop(emp)) u₀ hu₀
    (T₀ := fun c => iprop(StableHlo.held (c : Thread nD τ) (Pipeline.ucRefs τ sig) (V0 m c) ∗ rest c))
    (Tₙ := fun c => StableHlo.held (c : Thread nD τ) (Pipeline.ucRefs τ sig) (V12 m (outs m) c))
    (hch := fun c => ⟨.rfl, .rfl, .rfl, .rfl, .rfl, .rfl, .rfl, .rfl, .rfl, .rfl, .rfl, .rfl,
      sep_mono .rfl (by iintro ⟨-, H⟩; iexact H)⟩)
    (hinit := ?_)
    (QY := fun c s => s.mem ((c.tc : Thread nD τ).loc main_v47) = (dat1 (entry1 m) c).arrAt 5 cfg1.N
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h => h)
  · -- the launch, core by core: the unscoped buffers are held at the launch memory, the generator register and the
    -- dues (nothing) make `rest`; the semaphores at zero and the launch credit are not needed
    refine Pipeline.initEach noPairs noLevel fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the last thread state read against the final memory, buffer by buffer
    unfold StableHlo.held
    iintro ⟨Hh, HSI⟩
    ihave Hr := (pointsTo_read_all (Pipeline.ucRefs τ sig) (fun b => ((c : Thread nD τ).1, b)) (V12 m (outs m) c) s') $$ [Hh HSI]
    · isplitl [Hh] <;> iassumption
    icases Hr with ⟨%h, HSI⟩
    imodintro
    isplitr
    · ipureintro
      exact ⟨(h (Proc.devRef .tc main_v47) (mem_uc main_v47 (by decide))).trans (V12_v47 m c),
        (h (Proc.devRef .tc main_arg0) (mem_uc main_arg0 (by decide))).trans (V12_main_arg0 m (outs m) c),
        (h (Proc.devRef .tc main_arg1) (mem_uc main_arg1 (by decide))).trans (V12_main_arg1 m (outs m) c),
        (h (Proc.devRef .tc main_arg2) (mem_uc main_arg2 (by decide))).trans (V12_main_arg2 m (outs m) c),
        (h (Proc.devRef .tc main_arg3) (mem_uc main_arg3 (by decide))).trans (V12_main_arg3 m (outs m) c),
        (h (Proc.devRef .tc main_arg4) (mem_uc main_arg4 (by decide))).trans (V12_main_arg4 m (outs m) c),
        (h (Proc.devRef .tc main_arg5) (mem_uc main_arg5 (by decide))).trans (V12_main_arg5 m (outs m) c)⟩
    · iexact HSI

end Cert.Kernel.TwoCalls

end
-- ==== Proof.Calls.lean ====
/-
  The two kernel calls of the idealized kernel program, as data: for each call, a window's block at a grid point read
  off the array the call finds, what the body leaves in its output window's buffer as a function of the input
  blocks, and the per-point record of buffer contents the pipeline library takes.

  Call 0 works on a block of eight graphs: from the eight 256×256 adjacency matrices it stores the eight rows
  (one per walk length 1…8) of return probabilities of every node, an 8×8×256 block. Call 1 works on a tile of
  4096 nodes: from the tile's clipped in-degrees, its 4096×8 return probabilities, the degree table, the transposed
  projection weights and the bias it stores the 4096×256 tile of the result.
-/
import proofs.«146736_j68667937129202_2_alg».proof.Proof.Gen.KernelIdeal.Launch
import proofs.«146736_j68667937129202_2_alg».proof.Proof.Gen.KernelIdeal.Skeleton
import proofs.«146736_j68667937129202_2_alg».proof.Proof.Gen.KernelIdeal.Points
import proofs.«146736_j68667937129202_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.TwoCalls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- The contents of the TensorCore's buffers when a call is entered: the parameter both calls' data are stated at.
variable (V : (c : Dev nD) → (b : Ref sig .tc) → Buf (Elt F) ((c : Thread nD τ).loc b))

/-! ## Call 0: return probabilities of a block of eight graphs -/

/-- Window `w`'s block at point `t` of call 0, read off its array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 8×256×256 input buffer and the whole 8×8×256 output buffer, as the rectangles the body loads and stores. -/
abbrev rectAdj : Rect S8x256x256 := Rect.unit (s := S8x256x256) ![0, 0, 0] S8x256x256.size inb_S8x256x256_S8x256x256_0_0_0
abbrev rectRet : Rect S8x8x256 := Rect.unit (s := S8x8x256) ![0, 0, 0] S8x8x256.size inb_S8x8x256_S8x8x256_0_0_0

/-- What the body of call 0 stores: the eight rows of return probabilities, from the block of eight adjacency matrices. -/
def retRows (a : Vec F S8x256x256 .f32) : FVec F S8x8x256 .f32 :=
  k0_pay1 (k0_pay3 a) (k0_pay4 (F := F)) (k0_pay5 a) (k0_pay7 a) (k0_pay9 a) (k0_pay10 a) (k0_pay11 a)

/-- The output window's buffer after the body of call 0: its one store over the whole buffer. -/
def out0 (x0 : Vec F S8x256x256 .f32) : Vec F S8x8x256 .f32 :=
  View.canon [⟨rectRet, retRows (View.ld x0 rectAdj)⟩]

/-- The per-point record of call 0 on core `c`: the arrays as found; after the body the input buffer at its block and
    the output buffer at `out0` of the input block; the class invariant; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => out0 (blk0 V c 0 t)
  Φ _ := Pipeline.ΦA spec0 c
  q _ := fullShare
  owed _ := 0

/-! ## Call 1: the embedding of a tile of 4096 nodes -/

/-- Window `w`'s block at point `t` of call 1, read off its array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rectDeg : Rect S4096 := Rect.unit (s := S4096) ![0] S4096.size inb_S4096_S4096_0
abbrev rectWalk : Rect S4096x8 := Rect.unit (s := S4096x8) ![0, 0] S4096x8.size inb_S4096x8_S4096x8_0_0
abbrev rectTab : Rect S256x256 := Rect.unit (s := S256x256) ![0, 0] S256x256.size inb_S256x256_S256x256_0_0
abbrev rectW : Rect S8x256 := Rect.unit (s := S8x256) ![0, 0] S8x256.size inb_S8x256_S8x256_0_0
abbrev rectBias : Rect S256 := Rect.unit (s := S256) ![0] S256.size inb_S256_S256_0
abbrev rectOut : Rect S4096x256 := Rect.unit (s := S4096x256) ![0, 0] S4096x256.size inb_S4096x256_S4096x256_0_0

/-- The output window's buffer after the body of call 1: its one store over the whole buffer, the tile of the result
    from the tile's degrees `x0`, its return probabilities `x1`, the table `x2`, the weights `x3` and the bias `x4`. -/
def out1 (x0 : Vec F S4096 .i32) (x1 : Vec F S4096x8 .f32) (x2 : Vec F S256x256 .f32) (x3 : Vec F S8x256 .f32) (x4 : Vec F S256 .f32) :
    Vec F S4096x256 .f32 :=
  View.canon [⟨rectOut, k1_pay1 (View.ld x0 rectDeg) (View.ld x2 rectTab) (View.ld x1 rectWalk) (View.ld x3 rectW) (View.ld x4 rectBias)⟩]

/-- The per-point record of call 1 on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => out1 (blk1 V c 0 t) (blk1 V c 1 t) (blk1 V c 2 t) (blk1 V c 3 t) (blk1 V c 4 t)
  Φ _ := Pipeline.ΦA spec1 c
  q _ := fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]
theorem after0_0 (c : Dev nD) (t : Fin cfg0.N) : (dat0 V c).after 0 t = blk0 V c 0 t := by dsimp only [dat0]
theorem after0_1 (c : Dev nD) (t : Fin cfg0.N) : (dat0 V c).after 1 t = out0 (blk0 V c 0 t) := by dsimp only [dat0]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) :
    (dat1 V c).after 5 t = out1 (blk1 V c 0 t) (blk1 V c 1 t) (blk1 V c 2 t) (blk1 V c 3 t) (blk1 V c 4 t) := by dsimp only [dat1]

end Cert.KernelIdeal.TwoCalls

end
-- ==== Proof.CallsRun.lean ====
/-
  The frame of the idealized kernel program's two kernel calls, and the run of @main.

  Per call, at the contents `V` of the TensorCore's buffers when the call is entered: the body's triple on whole staging
  buffers (each input buffer holding its block, the output buffer holding anything, the body ends with the inputs as
  they were and the output at its one store), and from it the pipeline library's body obligation at every grid point.
  Then the two calls as segments of @main between the host stretches' states, the frame claim (every argument ends as
  launched), and the same run with the result buffer read off the last state.
-/
import proofs.«146736_j68667937129202_2_alg».proof.Proof.Calls

set_option maxRecDepth 16384

noncomputable section

namespace Cert.KernelIdeal.TwoCalls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Calls

variable (V : (c : Dev nD) → (b : Ref sig .tc) → Buf (Elt F) ((c : Thread nD τ).loc b))

/-! ## Call 0 -/

/-- The input window of call 0 is fetched at every point and never cut, so whatever the record's bookkeeping says
    its current staging buffer held before, at the body's entry it holds the point's block. Stated for any record
    whose array is `V`'s and whose body leaves the input block in place. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl)
      (fun t => by rw [hafter]; unfold Dat.blockOf blk0; rw [hA]; try rfl) t d).trans
    (by unfold Dat.fetched Dat.blockOf blk0; rw [hA]; try rfl)

theorem before0_0 (c : Dev nD) (t : Fin cfg0.N) (d) : (dat0 V c).before 0 t d = blk0 V c 0 t :=
  before0_0_of V (dat0 V c) (A_eq0 V c 0) (after0_0 V c) t d

/-- The one store of call 0 is over the whole 8×8×256 buffer, so every index of the buffer lies in it. -/
theorem cover0 (p : Vec F S8x8x256 .f32) (y : S8x8x256.Idx) :
    ∃ pc ∈ ([⟨rectRet, p⟩] : List (View.Piece (Elt F) S8x8x256 .f32)), y ∈ pc.1.set :=
  View.cover_of_tiled [⟨rectRet, p⟩] S8x8x256.size (by rfl) y

set_option maxHeartbeats 1000000 in
/-- The body of call 0 on whole staging buffers. With the input buffer holding `x0` and the output buffer holding
    anything, the body reads the eight adjacency matrices, computes the eight rows of return probabilities, reads the
    output buffer (the value is dropped) and stores the rows over the whole of it: it ends with the input buffer as it
    was and the output buffer at `out0 x0`, whatever it held before, because the store covers the buffer. -/
theorem sound_kernel0 (c : Dev nD) (E : Set ℕ) (i : grid0.Coords)
    (arg1 : Memref sig .tc .vmem S8x256x256 .f32) (harg1 : arg1.IsWhole)
    (arg2 : Memref sig .tc .vmem S8x8x256 .f32) (harg2 : arg2.IsWhole)
    (x0 : Vec F S8x256x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0 x0)) -∗ K ⟨⟩))
      ⊢ wp frame (wpE (defs₀ (F := F)) Variants.none c none) E (cc0__power_kernel i arg1 harg1 arg2 harg2) K := by
  simp only [cc0__power_kernel_eq_skeleton]; unfold cc0__power_kernel_skel
  simp only [k0_part1_eq_skeleton]; unfold k0_part1_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-- What the pipeline hands the body of call 0 at point `t`: the class invariant, the core's dues, and each window's
    current staging buffer at what the record says it holds before the body. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What the body of call 0 hands back at point `t`: the invariant and the dues at the next point, each window's
    staging buffer at the record's contents after the body. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body of call 0 at any point: its input buffer holds the point's block of adjacency matrices, so the body's
    triple applies; the invariant and the dues do not depend on the point and are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline library's obligation on the body of call 0, at every point. -/
theorem body_obligation0 (c : Dev nD) : BodyObligation (dat0 (F := F) V c) (defs₀ (F := F)) Variants.none () Set.univ := fun t => by
  rw [bigSep_W0, bigSep_W0]
  exact sound_body0 V c t

/-! ## Call 1 -/

/-! Each of the five input windows of call 1 is uncut and never idle: the tile's degrees and return probabilities are
    fetched at every point; the degree table, the weights and the bias are fetched at the first point only and their
    block index never moves. Either way the current staging buffer holds the point's block at the body's entry. -/

theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl)
      (fun t => by rw [hafter]; unfold Dat.blockOf blk1; rw [hA]; try rfl) t d).trans
    (by unfold Dat.fetched Dat.blockOf blk1; rw [hA]; try rfl)

theorem before1_0 (c : Dev nD) (t : Fin cfg1.N) (d) : (dat1 V c).before 0 t d = blk1 V c 0 t :=
  before1_0_of V (dat1 V c) (A_eq1 V c 0) (after1_0 V c) t d

theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl)
      (fun t => by rw [hafter]; unfold Dat.blockOf blk1; rw [hA]; try rfl) t d).trans
    (by unfold Dat.fetched Dat.blockOf blk1; rw [hA]; try rfl)

theorem before1_1 (c : Dev nD) (t : Fin cfg1.N) (d) : (dat1 V c).before 1 t d = blk1 V c 1 t :=
  before1_1_of V (dat1 V c) (A_eq1 V c 1) (after1_1 V c) t d

theorem before1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl)
      (fun t => by rw [hafter]; unfold Dat.blockOf blk1; rw [hA]; try rfl) t d).trans
    (by unfold Dat.fetched Dat.blockOf blk1; rw [hA]; try rfl)

theorem before1_2 (c : Dev nD) (t : Fin cfg1.N) (d) : (dat1 V c).before 2 t d = blk1 V c 2 t :=
  before1_2_of V (dat1 V c) (A_eq1 V c 2) (after1_2 V c) t d

theorem before1_3_of {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl)
      (fun t => by rw [hafter]; unfold Dat.blockOf blk1; rw [hA]; try rfl) t d).trans
    (by unfold Dat.fetched Dat.blockOf blk1; rw [hA]; try rfl)

theorem before1_3 (c : Dev nD) (t : Fin cfg1.N) (d) : (dat1 V c).before 3 t d = blk1 V c 3 t :=
  before1_3_of V (dat1 V c) (A_eq1 V c 3) (after1_3 V c) t d

theorem before1_4_of {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl)
      (fun t => by rw [hafter]; unfold Dat.blockOf blk1; rw [hA]; try rfl) t d).trans
    (by unfold Dat.fetched Dat.blockOf blk1; rw [hA]; try rfl)

theorem before1_4 (c : Dev nD) (t : Fin cfg1.N) (d) : (dat1 V c).before 4 t d = blk1 V c 4 t :=
  before1_4_of V (dat1 V c) (A_eq1 V c 4) (after1_4 V c) t d

/-- The one store of call 1 is over the whole 4096×256 buffer. -/
theorem cover1 (p : Vec F S4096x256 .f32) (y : S4096x256.Idx) :
    ∃ pc ∈ ([⟨rectOut, p⟩] : List (View.Piece (Elt F) S4096x256 .f32)), y ∈ pc.1.set :=
  View.cover_of_tiled [⟨rectOut, p⟩] S4096x256.size (by rfl) y

set_option maxHeartbeats 1000000 in
/-- The body of call 1 on whole staging buffers. With the five input buffers holding `x0 … x4` and the output buffer
    holding anything, the body reads the inputs, computes the tile of the result, reads the output buffer (the value is
    dropped) and stores the tile over the whole of it: the inputs end as they were, the output at `out1 x0 … x4`. -/
theorem sound_kernel1 (c : Dev nD) (E : Set ℕ) (i : grid1.Coords)
    (arg1 : Memref sig .tc .vmem S4096 .i32) (harg1 : arg1.IsWhole)
    (arg2 : Memref sig .tc .vmem S4096x8 .f32) (harg2 : arg2.IsWhole)
    (arg3 : Memref sig .tc .vmem S256x256 .f32) (harg3 : arg3.IsWhole)
    (arg4 : Memref sig .tc .vmem S8x256 .f32) (harg4 : arg4.IsWhole)
    (arg5 : Memref sig .tc .vmem S256 .f32) (harg5 : arg5.IsWhole)
    (arg6 : Memref sig .tc .vmem S4096x256 .f32) (harg6 : arg6.IsWhole)
    (x0 : Vec F S4096 .i32) (x1 : Vec F S4096x8 .f32) (x2 : Vec F S256x256 .f32) (x3 : Vec F S8x256 .f32) (x4 : Vec F S256 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1 x0 x1 x2 x3 x4)) -∗ K ⟨⟩))
      ⊢ wp frame (wpE (defs₀ (F := F)) Variants.none c none) E
          (cc1__embed_kernel i arg1 harg1 arg2 harg2 arg3 harg3 arg4 harg4 arg5 harg5 arg6 harg6) K := by
  simp only [cc1__embed_kernel_eq_skeleton]; unfold cc1__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1 _)

/-- What the pipeline hands the body of call 1 at point `t`, window by window. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What the body of call 1 hands back at point `t`. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body of call 1 at any point: each input buffer holds the point's block, so the body's triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (blk1 V c 0 t) (blk1 V c 1 t) (blk1 V c 2 t) (blk1 V c 3 t) (blk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline library's obligation on the body of call 1, at every point. -/
theorem body_obligation1 (c : Dev nD) : BodyObligation (dat1 (F := F) V c) (defs₀ (F := F)) Variants.none () Set.univ := fun t => by
  rw [bigSep_W1, bigSep_W1]
  exact sound_body1 V c t

end Calls

/-! # The run of @main -/

variable (m : (ℓ : Loc nD τ sig) → Buf (Elt F) ℓ) (ρ : Dev nD → PrngReg)

/-! ## The contents the two calls find and leave -/

/-- What call 0 finds in the TensorCore's buffers: the launch memory after the nine host stretches before it. -/
abbrev entry0 : (c : Dev nD) → (b : Ref sig .tc) → Buf (Elt F) ((c : Thread nD τ).loc b) := fun c b => V9 m c b

/-- What call 0 leaves in its output array: the write-backs of its 32 points, folded. -/
def left0 (c : Dev nD) : Buf (Elt F) ((c : Thread nD τ).loc main_v43) := (dat0 (entry0 m) c).arrAt 1 cfg0.N

/-- The contents the regions leave, with call 0's filled in (and only read there). -/
def outs10 : Outs (F := F) := fun _ r c => Function.update (V9 m c) main_v43 (left0 m c) r

/-- What call 1 finds: call 0's result in place, then the transpose, the reshape and the transpose between the calls. -/
abbrev entry1 : (c : Dev nD) → (b : Ref sig .tc) → Buf (Elt F) ((c : Thread nD τ).loc b) := fun c b => V11 m (outs10 m) c b

/-- What call 1 leaves in its output array: the write-backs of its 16 points, folded. -/
def left1 (c : Dev nD) : Buf (Elt F) ((c : Thread nD τ).loc main_v47) := (dat1 (entry1 m) c).arrAt 5 cfg1.N

/-- The contents the two calls leave in the buffers they may change: after call 0 (index 10) every buffer as call 0
    found it except its output array at `left0`; after call 1 every buffer as call 1 found it except its output
    array at `left1`. -/
def outs : Outs (F := F) := fun j r c =>
  if j = 10 then Function.update (V9 m c) main_v43 (left0 m c) r
  else Function.update (V11 m (outs10 m) c) main_v47 (left1 m c) r

theorem outs_10 (c : Dev nD) : outs m 10 main_v43 c = left0 m c := by
  unfold outs; rw [if_pos rfl]; exact Function.update_self ..

theorem outs_12 (c : Dev nD) : outs m 12 main_v47 c = left1 m c := by
  unfold outs; rw [if_neg (by decide)]; exact Function.update_self ..

theorem outs10_10 (c : Dev nD) : outs10 m 10 main_v43 c = left0 m c := by
  unfold outs10; exact Function.update_self ..

/-- After call 0 the buffers are as it found them, its output array at `left0`. -/
theorem V10_outs (c : Dev nD) : V10 m (outs m) c = Function.update (V9 m c) main_v43 (left0 m c) := by
  show Function.update (V9 m c) main_v43 (outs m 10 main_v43 c) = _
  rw [outs_10]

theorem V10_outs10 (c : Dev nD) : V10 m (outs10 m) c = Function.update (V9 m c) main_v43 (left0 m c) := by
  show Function.update (V9 m c) main_v43 (outs10 m 10 main_v43 c) = _
  rw [outs10_10]

/-- Call 1 finds the buffers the three host operations after call 0 leave. -/
theorem entry1_eq (c : Dev nD) (b : Ref sig .tc) : entry1 m c b = V11 m (outs m) c b := by
  show StableHlo.after hostOps1 (V10 m (outs10 m) c) b = StableHlo.after hostOps1 (V10 m (outs m) c) b
  rw [V10_outs, V10_outs10]

theorem V11_outs (c : Dev nD) : V11 m (outs m) c = V11 m (outs10 m) c := by
  show StableHlo.after hostOps1 (V10 m (outs m) c) = StableHlo.after hostOps1 (V10 m (outs10 m) c)
  rw [V10_outs, V10_outs10]

/-- After call 0 its output array holds what the call leaves there. -/
theorem entry1_v43 (c : Dev nD) : V10 m (outs m) c main_v43 = (dat0 (entry0 m) c).arrAt 1 cfg0.N := by
  rw [V10_outs]; exact Function.update_self ..

/-- After call 1 its output array holds what the call leaves there. -/
theorem V12_v47 (c : Dev nD) : V12 m (outs m) c main_v47 = (dat1 (entry1 m) c).arrAt 5 cfg1.N := by
  show Function.update (V11 m (outs m) c) main_v47 (outs m 12 main_v47 c) main_v47 = _
  rw [outs_12]; exact Function.update_self ..

/-- The buffers after each call, read at the TensorCore's references. -/
abbrev exit0 : (c : Dev nD) → (b : Ref sig .tc) → Buf (Elt F) ((c : Thread nD τ).loc b) := fun c b => V10 m (outs m) c b
abbrev exit1 : (c : Dev nD) → (b : Ref sig .tc) → Buf (Elt F) ((c : Thread nD τ).loc b) := fun c b => V12 m (outs m) c b

/-! ## What each call's arrays hold when it exits, and that nothing else moved -/

/-- Call 0's arrays at its exit: the input array as found (no window writes it back), the output array at `left0`. -/
theorem hF0 (c : Dev nD) : ∀ w : Fin 2, (dat0 (entry0 m) c).arrAt w cfg0.N = exit0 m c (Pipeline.arrRef spec0 w)
  | ⟨0, _⟩ => ((dat0 (entry0 m) c).arrAt_in 0 rfl _).trans <| (A_eq0 (entry0 m) c 0).trans (V10_of m (outs m) c main_v42 (by decide)).symm
  | ⟨1, _⟩ => (entry1_v43 m c).symm
  | ⟨_ + 2, h⟩ => absurd h (Nat.not_lt.2 (Nat.le_add_left _ _))

/-- Off call 0's arrays the buffers at its exit are those at its entry. -/
theorem hrest0 (c : Dev nD) : ∀ b, b ∉ Finset.univ.image (Pipeline.arrRef spec0) → exit0 m c b = entry0 m c b :=
  fun b hb => V10_of m (outs m) c b fun hmem => hb (Finset.mem_image.mpr ⟨1, Finset.mem_univ _, (List.mem_singleton.mp hmem).symm⟩)

/-- Call 1's arrays at its exit: the five input arrays as found, the output array at `left1`. -/
theorem hF1 (c : Dev nD) : ∀ w : Fin 6, (dat1 (entry1 m) c).arrAt w cfg1.N = exit1 m c (Pipeline.arrRef spec1 w)
  | ⟨0, _⟩ => ((dat1 (entry1 m) c).arrAt_in 0 rfl _).trans <| (A_eq1 (entry1 m) c 0).trans <| (entry1_eq m c main_v11).trans (V12_of m (outs m) c main_v11 (by decide)).symm
  | ⟨1, _⟩ => ((dat1 (entry1 m) c).arrAt_in 1 rfl _).trans <| (A_eq1 (entry1 m) c 1).trans <| (entry1_eq m c main_v45).trans (V12_of m (outs m) c main_v45 (by decide)).symm
  | ⟨2, _⟩ => ((dat1 (entry1 m) c).arrAt_in 2 rfl _).trans <| (A_eq1 (entry1 m) c 2).trans <| (entry1_eq m c main_arg3).trans (V12_of m (outs m) c main_arg3 (by decide)).symm
  | ⟨3, _⟩ => ((dat1 (entry1 m) c).arrAt_in 3 rfl _).trans <| (A_eq1 (entry1 m) c 3).trans <| (entry1_eq m c main_v46).trans (V12_of m (outs m) c main_v46 (by decide)).symm
  | ⟨4, _⟩ => ((dat1 (entry1 m) c).arrAt_in 4 rfl _).trans <| (A_eq1 (entry1 m) c 4).trans <| (entry1_eq m c main_arg5).trans (V12_of m (outs m) c main_arg5 (by decide)).symm
  | ⟨5, _⟩ => (V12_v47 m c).symm
  | ⟨_ + 6, h⟩ => absurd h (Nat.not_lt.2 (Nat.le_add_left _ _))

/-- Off call 1's arrays the buffers at its exit are those at its entry. -/
theorem hrest1 (c : Dev nD) : ∀ b, b ∉ Finset.univ.image (Pipeline.arrRef spec1) → exit1 m c b = entry1 m c b :=
  fun b hb => (V12_of m (outs m) c b fun hmem => hb (Finset.mem_image.mpr ⟨5, Finset.mem_univ _, (List.mem_singleton.mp hmem).symm⟩)).trans
    (entry1_eq m c b).symm

/-! ## The proof data, the levels and what rides beside the buffers -/

/-- Each call's record at the contents it finds. -/
def pdats : (p : Fin 2) → (c : Dev nD) → Dat τ (Elt F) Unit ℕ (UR sig nD τ) ℕ (cfgs p) c
  | ⟨0, _⟩ => fun c => dat0 (entry0 m) c
  | ⟨1, _⟩ => fun c => dat1 (entry1 m) c

/-- No core ever owes another anything in this program: no pair is assigned a level. -/
abbrev noPairs : GSem nD τ sig → Finset Unit := fun _ => ∅
abbrev noLevel : GSem nD τ sig → Unit → ℕ := fun _ _ => 0

/-- Beside the buffers a core carries its generator register, at some state (a call's class invariant takes it in and
    gives it back), and its dues, which are nothing. -/
abbrev rest (c : Dev nD) : sProp 𝕄 := iprop((∃ r, prngReg c r) ∗ ∃ W, owes (c : Thread nD τ) (0 : CellTallies nD τ sig Unit) W)

/-! ## The two calls as segments of @main -/

set_option backward.isDefEq.respectTransparency.types false in
/-- Call 0 as a segment, entered with every unscoped buffer at `V9` and left with them at `V10`. At entry its two
    arrays are split off the unscoped buffers; the generator register goes into the class invariant and comes back;
    at exit the arrays, now at what the pipeline leaves, are put back among the unscoped buffers: the input array
    where it was, the output array at `left0`, nothing else moved. The call has no semaphore of its own and owes nothing. -/
def reg0 : Pipeline.RegionSeg (pcfgs (F := F)) adm (pdats m) () defs₀ Variants.none noPairs noLevel 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ noPairs noLevel 0 fun _ _ => rfl
  pre c := iprop(StableHlo.held (c : Thread nD τ) (Pipeline.ucRefs τ sig) (V9 m c) ∗ rest c)
  post c := iprop(StableHlo.held (c : Thread nD τ) (Pipeline.ucRefs τ sig) (V10 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment, entered with every unscoped buffer at `V11` and left with them at `V12`: its six arrays split
    off at entry and put back at exit, the five input arrays where they were and the output array at `left1`. -/
def reg1 : Pipeline.RegionSeg (pcfgs (F := F)) adm (pdats m) () defs₀ Variants.none noPairs noLevel 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ noPairs noLevel 1 fun _ _ => rfl
  pre c := iprop(StableHlo.held (c : Thread nD τ) (Pipeline.ucRefs τ sig) (V11 m (outs m) c) ∗ rest c)
  post c := iprop(StableHlo.held (c : Thread nD τ) (Pipeline.ucRefs τ sig) (V12 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none, V11_outs]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

/-- The launch's ghost element: the pipeline library's, over both calls' staging cells; no further ghost resource. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (u₀ : UR sig nD τ) : sProp 𝕄) ⊢ BI.own (emb₁ (u₀ : UR sig nD τ)) from .rfl)
    iexact Hu
  iapply (show (BI.emp : sProp 𝕄) ⊢ bigSep Finset.univ (fun _ : Dev nD => (BI.emp : sProp 𝕄)) from by rw [BI.bigSep_emp_const])
  iempintro

/-- What the launch deals each core besides its buffers makes `rest`: the generator register at its launch state, the
    dues at nothing; the semaphores at zero and the launch credit are not needed. -/
theorem hrest_init : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noPairs noLevel)
      ⊢ (|={Set.univ}=> bigSep Finset.univ (fun c : Dev nD => rest (F := F) c) : sProp 𝕄) := by
  refine Pipeline.initEach noPairs noLevel fun c => ?_
  iintro ⟨⟨-, HO, -, Hp, -⟩, -⟩
  imodintro
  isplitl [Hp]; · iexists _; iexact Hp
  iexists ∅; iexact HO

/-- THE FRAME: from any memory with every counter at zero, every weakly fair execution of @main on the TensorCores
    terminates without fault, and each of the six argument arrays ends holding what it held at launch. By the
    conditional frame of the imported regions module at the two calls' segments: no core owes anything, the rest state is `rest` throughout,
    the contents the calls leave are `outs`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Gen.frame_cond m emb₁ () Variants.none noPairs noLevel (fun _ _ => rfl) ρ (outs m) (pdats m) 0 (fun _ => iprop(emp)) u₀ hu₀
    (fun _ c => rest c) (hrest_init ρ) (fun c => by iintro ⟨-, H⟩; iexact H)
    (reg0 m) (fun _ => .rfl) (fun _ => .rfl) (reg1 m) (fun _ => .rfl) (fun _ => .rfl)

/-! ## The run, with the result read off -/

/-- An unscoped TensorCore reference is among those the thread states hold. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every weakly fair execution of @main terminates without fault, the result array `main_v47` ends holding
    what call 1 leaves in it — the write-backs of its 16 points over the contents it found — and the six arguments
    end as launched. @main is its twelve segments in order, the nine
    host stretches, call 0, the three operations between the calls, call 1; the thread states chain; the launch makes
    the first one; and the last one, every unscoped buffer at `V12`, is read against the final memory — at the
    arguments, which no segment writes, and at the result array. -/
theorem run : θ_run defs (onTc (τ := τ) (main (F := F))) ⟨m, fun _ => 0, ρ⟩ (fun r => ∀ c : Dev nD,
      r.2.mem ((c.tc : Thread nD τ).loc main_v47) = (dat1 (entry1 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine Pipeline.θ_run_regions_kit_dev (pcfgs (F := F)) adm (pdats m) () cellOf_inj emb₁ defs₀ Variants.none noPairs noLevel m ρ main
    (Gen.segs m (outs m) Variants.none noPairs noLevel (fun _ c => rest c) () (pdats m) (reg0 m) (reg1 m))
    (fun c Q => by
      rewrite [main_chain c, Pipeline.Seg.run_eq_chain,
        show (Gen.segs m (outs m) Variants.none noPairs noLevel (fun _ c => rest c) () (pdats m) (reg0 m) (reg1 m) c).map Pipeline.Seg.prog = [
          StableHlo.seq hostOps0, StableHlo.seq hostOps0_1, StableHlo.seq hostOps0_2, StableHlo.seq hostOps0_3,
          StableHlo.seq hostOps0_4, StableHlo.seq hostOps0_5, StableHlo.seq hostOps0_6, StableHlo.seq hostOps0_7,
          StableHlo.seq hostOps0_8,
          Prog.lift (.customCall (Pipeline.entry 0) ()),
          StableHlo.seq hostOps1,
          Prog.lift (.customCall (Pipeline.entry 1) ()) ] from rfl]
      exact .rfl)
    (fun c => by simp only [Gen.segs, Pipeline.Seg.pipes_host, Pipeline.Seg.pipes_region, Pipeline.Seg.pipes_nil]; decide)
    0 (fun _ _ => rfl) (fun _ => iprop(emp)) u₀ hu₀
    (T₀ := fun c => iprop(StableHlo.held (c : Thread nD τ) (Pipeline.ucRefs τ sig) (V0 m c) ∗ rest c))
    (Tₙ := fun c => StableHlo.held (c : Thread nD τ) (Pipeline.ucRefs τ sig) (V12 m (outs m) c))
    (hch := fun c => ⟨.rfl, .rfl, .rfl, .rfl, .rfl, .rfl, .rfl, .rfl, .rfl, .rfl, .rfl, .rfl,
      sep_mono .rfl (by iintro ⟨-, H⟩; iexact H)⟩)
    (hinit := ?_)
    (QY := fun c s => s.mem ((c.tc : Thread nD τ).loc main_v47) = (dat1 (entry1 m) c).arrAt 5 cfg1.N
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5))
    (hfin := fun c s' => ?_) (hQ := fun _ h => h)
  · -- the launch, core by core: the unscoped buffers are held at the launch memory, the generator register and the
    -- dues (nothing) make `rest`; the semaphores at zero and the launch credit are not needed
    refine Pipeline.initEach noPairs noLevel fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · -- the end: the last thread state read against the final memory, buffer by buffer
    unfold StableHlo.held
    iintro ⟨Hh, HSI⟩
    ihave Hr := (pointsTo_read_all (Pipeline.ucRefs τ sig) (fun b => ((c : Thread nD τ).1, b)) (V12 m (outs m) c) s') $$ [Hh HSI]
    · isplitl [Hh] <;> iassumption
    icases Hr with ⟨%h, HSI⟩
    imodintro
    isplitr
    · ipureintro
      exact ⟨(h (Proc.devRef .tc main_v47) (mem_uc main_v47 (by decide))).trans (V12_v47 m c),
        (h (Proc.devRef .tc main_arg0) (mem_uc main_arg0 (by decide))).trans (V12_main_arg0 m (outs m) c),
        (h (Proc.devRef .tc main_arg1) (mem_uc main_arg1 (by decide))).trans (V12_main_arg1 m (outs m) c),
        (h (Proc.devRef .tc main_arg2) (mem_uc main_arg2 (by decide))).trans (V12_main_arg2 m (outs m) c),
        (h (Proc.devRef .tc main_arg3) (mem_uc main_arg3 (by decide))).trans (V12_main_arg3 m (outs m) c),
        (h (Proc.devRef .tc main_arg4) (mem_uc main_arg4 (by decide))).trans (V12_main_arg4 m (outs m) c),
        (h (Proc.devRef .tc main_arg5) (mem_uc main_arg5 (by decide))).trans (V12_main_arg5 m (outs m) c)⟩
    · iexact HSI

end Cert.KernelIdeal.TwoCalls

end
-- ==== Proof.ReferenceLemmas.lean ====
/- Small facts about the fold of a line of host operations used to read the reference program's run: the fold over a
   concatenation, a concatenation operation's result at three and at eight literal operands, the two tactics that
   compute a fold at one reference and place a written buffer among a listed set, and the names of the launch
   contents the result depends on. -/
import proofs.«146736_j68667937129202_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is among a listed set of references. -/
macro "writes_mem" : tactic =>
  `(tactic| (simp only [StableHlo.nullary_writes, StableHlo.unary_writes, StableHlo.binary_writes, StableHlo.ternary_writes,
      StableHlo.quaternary_writes, StableHlo.reshape_writes, StableHlo.binaryIndexed_writes, StableHlo.unaryIndexed_writes,
      StableHlo.nary_writes, Finset.singleton_subset_iff, List.mem_toFinset]; exact List.mem_map_of_mem (by decide)))

/-- The fold over two lines one after the other is the second's over the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- A three-operand operation's result with each operand's contents at its own reference. -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- An eight-operand operation's result with each operand's contents at its own reference. -/
theorem nary8_result {x0 x1 x2 x3 x4 x5 x6 x7 y : Ref sig .tc}
    (f : ((k : Fin 8) → ((![x0, x1, x2, x3, x4, x5, x6, x7] : Fin 8 → Ref sig .tc) k).ty.Contents (Elt F)) → y.ty.Contents (Elt F)) (hxs hy)
    (V : Valuation τ sig (Elt F)) :
    (nary (τ := τ) ![x0, x1, x2, x3, x4, x5, x6, x7] y f hxs hy).result V (Proc.devRef .tc y)
      = f (Fin.cons (V (Proc.devRef .tc x0)) (Fin.cons (V (Proc.devRef .tc x1)) (Fin.cons (V (Proc.devRef .tc x2)) (Fin.cons (V (Proc.devRef .tc x3))
          (Fin.cons (V (Proc.devRef .tc x4)) (Fin.cons (V (Proc.devRef .tc x5)) (Fin.cons (V (Proc.devRef .tc x6)) (Fin.cons (V (Proc.devRef .tc x7)) (fun i => i.elim0))))))))) := by
  rw [nary_result]; congr 1; funext k; fin_cases k <;> rfl

/-- The fold at one reference, computed: each operation's result at its own buffer is its function's value, at any
    other reference what was there. -/
macro "after_results'" : tactic =>
  `(tactic| (simp only [after_cons, after_nil]
             repeat (first
               | rw [nullary_result] | rw [unary_result] | rw [binary_result] | rw [ternary_result]
               | rw [reshape_result] | rw [nary3_result] | rw [nary8_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

section Values

variable (m : (ℓ : Loc nD τ sig) → Buf (Elt F) ℓ) (c : Dev nD)

/-- The launch contents of the arguments the result depends on: the edge list, the table, the weights, the bias. -/
abbrev argE : (⟨S2x524288, .i32⟩ : BufTy).Contents (Elt F) := m ((c.tc : Thread nD τ).loc main_arg1)
abbrev argTab : (⟨S256x256, .f32⟩ : BufTy).Contents (Elt F) := m ((c.tc : Thread nD τ).loc main_arg3)
abbrev argW : (⟨S256x8, .f32⟩ : BufTy).Contents (Elt F) := m ((c.tc : Thread nD τ).loc main_arg4)
abbrev argB : (⟨S256, .f32⟩ : BufTy).Contents (Elt F) := m ((c.tc : Thread nD τ).loc main_arg5)

/-- The device's buffers at launch. -/
abbrev V0 : Valuation τ sig (Elt F) := fun b => m (c, b)

end Values

end Cert.ReferenceIdeal.HostRun

end
-- ==== Proof.ReferenceOpsList.lean ====
/- The reference program's @main as the list of its host operations — each module-local function it calls written
   out at that call's own buffers, in program order —, that each touches TensorCore references only, and the
   references they write. -/
import proofs.«146736_j68667937129202_2_alg».proof.Proof.ReferenceLemmas

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- @main's 262 operations, in order; a called function's body stands where the call is. -/
abbrev ops : List (HloOp τ sig (Elt F)) :=
  [ StableHlo.nullary main_c (constantI S_ 32 0#32),
    StableHlo.unary main_c main_v0 (broadcastInDim S65536 ![] bcast_S_S65536 : (⟨S_, .i32⟩ : BufTy).Contents (Elt F) → (⟨S65536, .i32⟩ : BufTy).Contents (Elt F)),
    StableHlo.unary main_arg1 main_v1 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v1 main_v2 rfl shapeCasts_S1x524288_S524288,
    StableHlo.nullary main_c_0 (constantI S_ 32 0#32),
    StableHlo.unary main_c_0 main_v3 (broadcastInDim S524288 ![] bcast_S_S524288 : (⟨S_, .i32⟩ : BufTy).Contents (Elt F) → (⟨S524288, .i32⟩ : BufTy).Contents (Elt F)),
    StableHlo.binary main_v2 main_v3 main_v4 (cmpi .slt : (⟨S524288, .i32⟩ : BufTy).Contents (Elt F) → (⟨S524288, .i32⟩ : BufTy).Contents (Elt F) → (⟨S524288, .i1⟩ : BufTy).Contents (Elt F)),
    StableHlo.nullary main_c_1 (constantI S_ 32 65536#32),
    StableHlo.unary main_c_1 main_v5 (broadcastInDim S524288 ![] bcast_S_S524288 : (⟨S_, .i32⟩ : BufTy).Contents (Elt F) → (⟨S524288, .i32⟩ : BufTy).Contents (Elt F)),
    StableHlo.binary main_v2 main_v5 main_v6 (addi : (⟨S524288, .i32⟩ : BufTy).Contents (Elt F) → (⟨S524288, .i32⟩ : BufTy).Contents (Elt F) → (⟨S524288, .i32⟩ : BufTy).Contents (Elt F)),
    StableHlo.ternary main_v4 main_v6 main_v2 main_v7 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v7 main_v8 (broadcastInDim S524288x1 ![0] bcast_S524288_S524288x1_0 : (⟨S524288, .i32⟩ : BufTy).Contents (Elt F) → (⟨S524288x1, .i32⟩ : BufTy).Contents (Elt F)),
    StableHlo.nullary main_c_2 (constantI S_ 32 1#32),
    StableHlo.unary main_c_2 main_v9 (broadcastInDim S524288 ![] bcast_S_S524288 : (⟨S_, .i32⟩ : BufTy).Contents (Elt F) → (⟨S524288, .i32⟩ : BufTy).Contents (Elt F)),
    StableHlo.ternary main_v0 main_v8 main_v9 main_v10 ((fun x i u => Host.scatter scatter_S65536_S524288x1_S524288_n_0_0_1 IntOp.addi x i u) : (⟨S65536, .i32⟩ : BufTy).Contents (Elt F) → (⟨S524288x1, .i32⟩ : BufTy).Contents (Elt F) → (⟨S524288, .i32⟩ : BufTy).Contents (Elt F) → (⟨S65536, .i32⟩ : BufTy).Contents (Elt F)),
    StableHlo.nullary main_c_3 (constantI S_ 32 0#32),
    StableHlo.nullary main_c_4 (constantI S_ 32 255#32),
    StableHlo.TRef.unary (.of main_c_3 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S65536, .i32⟩) (broadcastInDim S65536 ![] bcast_S_S65536),
    StableHlo.TRef.binary (.of main_call0_v1 : StableHlo.TRef sig ⟨S65536, .i32⟩) (.of main_v10 : StableHlo.TRef sig ⟨S65536, .i32⟩) (.of main_call0_v2 : StableHlo.TRef sig ⟨S65536, .i32⟩) maxsi,
    StableHlo.TRef.unary (.of main_c_4 : StableHlo.TRef sig ⟨S_, .i32⟩) (.of main_call0_v3 : StableHlo.TRef sig ⟨S_, .i32⟩) id,
    StableHlo.TRef.unary (.of main_call0_v3 : StableHlo.TRef sig ⟨S_, .i32⟩) (.of main_call0_v4 : StableHlo.TRef sig ⟨S65536, .i32⟩) (broadcastInDim S65536 ![] bcast_S_S65536),
    StableHlo.TRef.binary (.of main_call0_v4 : StableHlo.TRef sig ⟨S65536, .i32⟩) (.of main_call0_v2 : StableHlo.TRef sig ⟨S65536, .i32⟩) (.of main_v11 : StableHlo.TRef sig ⟨S65536, .i32⟩) minsi,
    StableHlo.nullary main_c_5 (constantI S_ 32 0#32),
    StableHlo.unary main_c_5 main_v12 (broadcastInDim S65536 ![] bcast_S_S65536 : (⟨S_, .i32⟩ : BufTy).Contents (Elt F) → (⟨S65536, .i32⟩ : BufTy).Contents (Elt F)),
    StableHlo.binary main_v11 main_v12 main_v13 (cmpi .slt : (⟨S65536, .i32⟩ : BufTy).Contents (Elt F) → (⟨S65536, .i32⟩ : BufTy).Contents (Elt F) → (⟨S65536, .i1⟩ : BufTy).Contents (Elt F)),
    StableHlo.nullary main_c_6 (constantI S_ 32 256#32),
    StableHlo.unary main_c_6 main_v14 (broadcastInDim S65536 ![] bcast_S_S65536 : (⟨S_, .i32⟩ : BufTy).Contents (Elt F) → (⟨S65536, .i32⟩ : BufTy).Contents (Elt F)),
    StableHlo.binary main_v11 main_v14 main_v15 (addi : (⟨S65536, .i32⟩ : BufTy).Contents (Elt F) → (⟨S65536, .i32⟩ : BufTy).Contents (Elt F) → (⟨S65536, .i32⟩ : BufTy).Contents (Elt F)),
    StableHlo.ternary main_v13 main_v15 main_v11 main_v16 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v16 main_v17 (broadcastInDim S65536x1 ![0] bcast_S65536_S65536x1_0 : (⟨S65536, .i32⟩ : BufTy).Contents (Elt F) → (⟨S65536x1, .i32⟩ : BufTy).Contents (Elt F)),
    StableHlo.binary main_arg3 main_v17 main_v18 ((fun x i => Host.gather gather_S256x256_S65536x1_S65536x256_1_0_n_n_0_1_1256 x i) : (⟨S256x256, .f32⟩ : BufTy).Contents (Elt F) → (⟨S65536x1, .i32⟩ : BufTy).Contents (Elt F) → (⟨S65536x256, .f32⟩ : BufTy).Contents (Elt F)),
    StableHlo.unary main_arg1 main_v19 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v19 main_v20 rfl shapeCasts_S1x524288_S524288,
    StableHlo.nullary main_c_7 (constantI S_ 32 256#32),
    StableHlo.TRef.unary (.of main_c_7 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S524288, .i32⟩) (broadcastInDim S524288 ![] bcast_S_S524288),
    StableHlo.TRef.binary (.of main_v20 : StableHlo.TRef sig ⟨S524288, .i32⟩) (.of main_call1_v1 : StableHlo.TRef sig ⟨S524288, .i32⟩) (.of main_call1_v2 : StableHlo.TRef sig ⟨S524288, .i32⟩) Host.divsi,
    StableHlo.TRef.unary (.of main_v20 : StableHlo.TRef sig ⟨S524288, .i32⟩) (.of main_call1_v3 : StableHlo.TRef sig ⟨S524288, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S524288, .i32⟩) (broadcastInDim S524288 ![] bcast_S_S524288),
    StableHlo.TRef.binary (.of main_call1_v3 : StableHlo.TRef sig ⟨S524288, .i32⟩) (.of main_call1_v5 : StableHlo.TRef sig ⟨S524288, .i32⟩) (.of main_call1_v6 : StableHlo.TRef sig ⟨S524288, .i1⟩) (cmpi .ne),
    StableHlo.TRef.unary (.of main_call1_v0 : StableHlo.TRef sig ⟨S_, .i32⟩) (.of main_call1_v7 : StableHlo.TRef sig ⟨S524288, .i32⟩) (broadcastInDim S524288 ![] bcast_S_S524288),
    StableHlo.TRef.binary (.of main_v20 : StableHlo.TRef sig ⟨S524288, .i32⟩) (.of main_call1_v7 : StableHlo.TRef sig ⟨S524288, .i32⟩) (.of main_call1_v8 : StableHlo.TRef sig ⟨S524288, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S524288, .i32⟩) (broadcastInDim S524288 ![] bcast_S_S524288),
    StableHlo.TRef.binary (.of main_call1_v8 : StableHlo.TRef sig ⟨S524288, .i32⟩) (.of main_call1_v9 : StableHlo.TRef sig ⟨S524288, .i32⟩) (.of main_call1_v10 : StableHlo.TRef sig ⟨S524288, .i1⟩) (cmpi .ne),
    StableHlo.TRef.binary (.of main_call1_v6 : StableHlo.TRef sig ⟨S524288, .i1⟩) (.of main_call1_v10 : StableHlo.TRef sig ⟨S524288, .i1⟩) (.of main_call1_v11 : StableHlo.TRef sig ⟨S524288, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S524288, .i32⟩) (broadcastInDim S524288 ![] bcast_S_S524288),
    StableHlo.TRef.binary (.of main_call1_v2 : StableHlo.TRef sig ⟨S524288, .i32⟩) (.of main_call1_v12 : StableHlo.TRef sig ⟨S524288, .i32⟩) (.of main_call1_v13 : StableHlo.TRef sig ⟨S524288, .i32⟩) subi,
    StableHlo.TRef.ternary (.of main_call1_v11 : StableHlo.TRef sig ⟨S524288, .i1⟩) (.of main_call1_v13 : StableHlo.TRef sig ⟨S524288, .i32⟩) (.of main_call1_v2 : StableHlo.TRef sig ⟨S524288, .i32⟩) (.of main_v21 : StableHlo.TRef sig ⟨S524288, .i32⟩) select,
    StableHlo.unary main_arg1 main_v22 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v22 main_v23 rfl shapeCasts_S1x524288_S524288,
    StableHlo.nullary main_c_8 (constantI S_ 32 256#32),
    StableHlo.TRef.unary (.of main_c_8 : StableHlo.TRef sig ⟨S_, .i32⟩) (.of main_call2_v0 : StableHlo.TRef sig ⟨S_, .i32⟩) id,
    StableHlo.TRef.nullary (.of main_call2_c : StableHlo.TRef sig ⟨S_, .i32⟩) (constantI S_ 32 0#32),
    StableHlo.TRef.binary (.of main_call2_v0 : StableHlo.TRef sig ⟨S_, .i32⟩) (.of main_call2_c : StableHlo.TRef sig ⟨S_, .i32⟩) (.of main_call2_v1 : StableHlo.TRef sig ⟨S_, .i1⟩) (cmpi .eq),
    StableHlo.TRef.nullary (.of main_call2_c_0 : StableHlo.TRef sig ⟨S_, .i32⟩) (constantI S_ 32 1#32),
    StableHlo.TRef.ternary (.of main_call2_v1 : StableHlo.TRef sig ⟨S_, .i1⟩) (.of main_call2_c_0 : StableHlo.TRef sig ⟨S_, .i32⟩) (.of main_call2_v0 : StableHlo.TRef sig ⟨S_, .i32⟩) (.of main_call2_v2 : StableHlo.TRef sig ⟨S_, .i32⟩) select,
    StableHlo.TRef.unary (.of main_call2_v2 : StableHlo.TRef sig ⟨S_, .i32⟩) (.of main_call2_v3 : StableHlo.TRef sig ⟨S524288, .i32⟩) (broadcastInDim S524288 ![] bcast_S_S524288),
    StableHlo.TRef.binary (.of main_v23 : StableHlo.TRef sig ⟨S524288, .i32⟩) (.of main_call2_v3 : StableHlo.TRef sig ⟨S524288, .i32⟩) (.of main_call2_v4 : StableHlo.TRef sig ⟨S524288, .i32⟩) Host.remsi,
    StableHlo.TRef.nullary (.of main_call2_c_1 : StableHlo.TRef sig ⟨S_, .i32⟩) (constantI S_ 32 0#32),
    StableHlo.TRef.unary (.of main_call2_c_1 : StableHlo.TRef sig ⟨S_, .i32⟩) (.of main_call2_v5 : StableHlo.TRef sig ⟨S524288, .i32⟩) (broadcastInDim S524288 ![] bcast_S_S524288),
    StableHlo.TRef.binary (.of main_call2_v4 : StableHlo.TRef sig ⟨S524288, .i32⟩) (.of main_call2_v5 : StableHlo.TRef sig ⟨S524288, .i32⟩) (.of main_call2_v6 : StableHlo.TRef sig ⟨S524288, .i1⟩) (cmpi .ne),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v7 : StableHlo.TRef sig ⟨S524288, .i32⟩) (broadcastInDim S524288 ![] bcast_S_S524288),
    StableHlo.TRef.binary (.of main_call2_v4 : StableHlo.TRef sig ⟨S524288, .i32⟩) (.of main_call2_v7 : StableHlo.TRef sig ⟨S524288, .i32⟩) (.of main_call2_v8 : StableHlo.TRef sig ⟨S524288, .i1⟩) (cmpi .slt),
    StableHlo.TRef.nullary (.of main_call2_c_3 : StableHlo.TRef sig ⟨S_, .i32⟩) (constantI S_ 32 0#32),
    StableHlo.TRef.binary (.of main_call2_v2 : StableHlo.TRef sig ⟨S_, .i32⟩) (.of main_call2_c_3 : StableHlo.TRef sig ⟨S_, .i32⟩) (.of main_call2_v9 : StableHlo.TRef sig ⟨S_, .i1⟩) (cmpi .slt),
    StableHlo.TRef.unary (.of main_call2_v9 : StableHlo.TRef sig ⟨S_, .i1⟩) (.of main_call2_v10 : StableHlo.TRef sig ⟨S524288, .i1⟩) (broadcastInDim S524288 ![] bcast_S_S524288),
    StableHlo.TRef.binary (.of main_call2_v8 : StableHlo.TRef sig ⟨S524288, .i1⟩) (.of main_call2_v10 : StableHlo.TRef sig ⟨S524288, .i1⟩) (.of main_call2_v11 : StableHlo.TRef sig ⟨S524288, .i1⟩) (cmpi .ne),
    StableHlo.TRef.binary (.of main_call2_v11 : StableHlo.TRef sig ⟨S524288, .i1⟩) (.of main_call2_v6 : StableHlo.TRef sig ⟨S524288, .i1⟩) (.of main_call2_v12 : StableHlo.TRef sig ⟨S524288, .i1⟩) andi,
    StableHlo.TRef.unary (.of main_call2_v2 : StableHlo.TRef sig ⟨S_, .i32⟩) (.of main_call2_v13 : StableHlo.TRef sig ⟨S524288, .i32⟩) (broadcastInDim S524288 ![] bcast_S_S524288),
    StableHlo.TRef.binary (.of main_call2_v4 : StableHlo.TRef sig ⟨S524288, .i32⟩) (.of main_call2_v13 : StableHlo.TRef sig ⟨S524288, .i32⟩) (.of main_call2_v14 : StableHlo.TRef sig ⟨S524288, .i32⟩) addi,
    StableHlo.TRef.ternary (.of main_call2_v12 : StableHlo.TRef sig ⟨S524288, .i1⟩) (.of main_call2_v14 : StableHlo.TRef sig ⟨S524288, .i32⟩) (.of main_call2_v4 : StableHlo.TRef sig ⟨S524288, .i32⟩) (.of main_v24 : StableHlo.TRef sig ⟨S524288, .i32⟩) select,
    StableHlo.unary main_arg1 main_v25 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v25 main_v26 rfl shapeCasts_S1x524288_S524288,
    StableHlo.nullary main_c_9 (constantI S_ 32 256#32),
    StableHlo.TRef.unary (.of main_c_9 : StableHlo.TRef sig ⟨S_, .i32⟩) (.of main_call3_v0 : StableHlo.TRef sig ⟨S_, .i32⟩) id,
    StableHlo.TRef.nullary (.of main_call3_c : StableHlo.TRef sig ⟨S_, .i32⟩) (constantI S_ 32 0#32),
    StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq),
    StableHlo.TRef.nullary (.of main_call3_c_0 : StableHlo.TRef sig ⟨S_, .i32⟩) (constantI S_ 32 1#32),
    StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select,
    StableHlo.TRef.unary (.of main_call3_v2 : StableHlo.TRef sig ⟨S_, .i32⟩) (.of main_call3_v3 : StableHlo.TRef sig ⟨S524288, .i32⟩) (broadcastInDim S524288 ![] bcast_S_S524288),
    StableHlo.TRef.binary (.of main_v26 : StableHlo.TRef sig ⟨S524288, .i32⟩) (.of main_call3_v3 : StableHlo.TRef sig ⟨S524288, .i32⟩) (.of main_call3_v4 : StableHlo.TRef sig ⟨S524288, .i32⟩) Host.remsi,
    StableHlo.TRef.nullary (.of main_call3_c_1 : StableHlo.TRef sig ⟨S_, .i32⟩) (constantI S_ 32 0#32),
    StableHlo.TRef.unary (.of main_call3_c_1 : StableHlo.TRef sig ⟨S_, .i32⟩) (.of main_call3_v5 : StableHlo.TRef sig ⟨S524288, .i32⟩) (broadcastInDim S524288 ![] bcast_S_S524288),
    StableHlo.TRef.binary (.of main_call3_v4 : StableHlo.TRef sig ⟨S524288, .i32⟩) (.of main_call3_v5 : StableHlo.TRef sig ⟨S524288, .i32⟩) (.of main_call3_v6 : StableHlo.TRef sig ⟨S524288, .i1⟩) (cmpi .ne),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v7 : StableHlo.TRef sig ⟨S524288, .i32⟩) (broadcastInDim S524288 ![] bcast_S_S524288),
    StableHlo.TRef.binary (.of main_call3_v4 : StableHlo.TRef sig ⟨S524288, .i32⟩) (.of main_call3_v7 : StableHlo.TRef sig ⟨S524288, .i32⟩) (.of main_call3_v8 : StableHlo.TRef sig ⟨S524288, .i1⟩) (cmpi .slt),
    StableHlo.TRef.nullary (.of main_call3_c_3 : StableHlo.TRef sig ⟨S_, .i32⟩) (constantI S_ 32 0#32),
    StableHlo.TRef.binary (.of main_call3_v2 : StableHlo.TRef sig ⟨S_, .i32⟩) (.of main_call3_c_3 : StableHlo.TRef sig ⟨S_, .i32⟩) (.of main_call3_v9 : StableHlo.TRef sig ⟨S_, .i1⟩) (cmpi .slt),
    StableHlo.TRef.unary (.of main_call3_v9 : StableHlo.TRef sig ⟨S_, .i1⟩) (.of main_call3_v10 : StableHlo.TRef sig ⟨S524288, .i1⟩) (broadcastInDim S524288 ![] bcast_S_S524288),
    StableHlo.TRef.binary (.of main_call3_v8 : StableHlo.TRef sig ⟨S524288, .i1⟩) (.of main_call3_v10 : StableHlo.TRef sig ⟨S524288, .i1⟩) (.of main_call3_v11 : StableHlo.TRef sig ⟨S524288, .i1⟩) (cmpi .ne),
    StableHlo.TRef.binary (.of main_call3_v11 : StableHlo.TRef sig ⟨S524288, .i1⟩) (.of main_call3_v6 : StableHlo.TRef sig ⟨S524288, .i1⟩) (.of main_call3_v12 : StableHlo.TRef sig ⟨S524288, .i1⟩) andi,
    StableHlo.TRef.unary (.of main_call3_v2 : StableHlo.TRef sig ⟨S_, .i32⟩) (.of main_call3_v13 : StableHlo.TRef sig ⟨S524288, .i32⟩) (broadcastInDim S524288 ![] bcast_S_S524288),
    StableHlo.TRef.binary (.of main_call3_v4 : StableHlo.TRef sig ⟨S524288, .i32⟩) (.of main_call3_v13 : StableHlo.TRef sig ⟨S524288, .i32⟩) (.of main_call3_v14 : StableHlo.TRef sig ⟨S524288, .i32⟩) addi,
    StableHlo.TRef.ternary (.of main_call3_v12 : StableHlo.TRef sig ⟨S524288, .i1⟩) (.of main_call3_v14 : StableHlo.TRef sig ⟨S524288, .i32⟩) (.of main_call3_v4 : StableHlo.TRef sig ⟨S524288, .i32⟩) (.of main_v27 : StableHlo.TRef sig ⟨S524288, .i32⟩) select,
    StableHlo.nullary main_cst (constant S_ .f32 0x00000000#32),
    StableHlo.unary main_cst main_v28 (broadcastInDim S256x256x256 ![] bcast_S_S256x256x256 : (⟨S_, .f32⟩ : BufTy).Contents (Elt F) → (⟨S256x256x256, .f32⟩ : BufTy).Contents (Elt F)),
    StableHlo.nullary main_c_10 (constantI S_ 32 0#32),
    StableHlo.unary main_c_10 main_v29 (broadcastInDim S524288 ![] bcast_S_S524288 : (⟨S_, .i32⟩ : BufTy).Contents (Elt F) → (⟨S524288, .i32⟩ : BufTy).Contents (Elt F)),
    StableHlo.binary main_v21 main_v29 main_v30 (cmpi .slt : (⟨S524288, .i32⟩ : BufTy).Contents (Elt F) → (⟨S524288, .i32⟩ : BufTy).Contents (Elt F) → (⟨S524288, .i1⟩ : BufTy).Contents (Elt F)),
    StableHlo.nullary main_c_11 (constantI S_ 32 256#32),
    StableHlo.unary main_c_11 main_v31 (broadcastInDim S524288 ![] bcast_S_S524288 : (⟨S_, .i32⟩ : BufTy).Contents (Elt F) → (⟨S524288, .i32⟩ : BufTy).Contents (Elt F)),
    StableHlo.binary main_v21 main_v31 main_v32 (addi : (⟨S524288, .i32⟩ : BufTy).Contents (Elt F) → (⟨S524288, .i32⟩ : BufTy).Contents (Elt F) → (⟨S524288, .i32⟩ : BufTy).Contents (Elt F)),
    StableHlo.ternary main_v30 main_v32 main_v21 main_v33 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_12 (constantI S_ 32 0#32),
    StableHlo.unary main_c_12 main_v34 (broadcastInDim S524288 ![] bcast_S_S524288 : (⟨S_, .i32⟩ : BufTy).Contents (Elt F) → (⟨S524288, .i32⟩ : BufTy).Contents (Elt F)),
    StableHlo.binary main_v24 main_v34 main_v35 (cmpi .slt : (⟨S524288, .i32⟩ : BufTy).Contents (Elt F) → (⟨S524288, .i32⟩ : BufTy).Contents (Elt F) → (⟨S524288, .i1⟩ : BufTy).Contents (Elt F)),
    StableHlo.nullary main_c_13 (constantI S_ 32 256#32),
    StableHlo.unary main_c_13 main_v36 (broadcastInDim S524288 ![] bcast_S_S524288 : (⟨S_, .i32⟩ : BufTy).Contents (Elt F) → (⟨S524288, .i32⟩ : BufTy).Contents (Elt F)),
    StableHlo.binary main_v24 main_v36 main_v37 (addi : (⟨S524288, .i32⟩ : BufTy).Contents (Elt F) → (⟨S524288, .i32⟩ : BufTy).Contents (Elt F) → (⟨S524288, .i32⟩ : BufTy).Contents (Elt F)),
    StableHlo.ternary main_v35 main_v37 main_v24 main_v38 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.nullary main_c_14 (constantI S_ 32 0#32),
    StableHlo.unary main_c_14 main_v39 (broadcastInDim S524288 ![] bcast_S_S524288 : (⟨S_, .i32⟩ : BufTy).Contents (Elt F) → (⟨S524288, .i32⟩ : BufTy).Contents (Elt F)),
    StableHlo.binary main_v27 main_v39 main_v40 (cmpi .slt : (⟨S524288, .i32⟩ : BufTy).Contents (Elt F) → (⟨S524288, .i32⟩ : BufTy).Contents (Elt F) → (⟨S524288, .i1⟩ : BufTy).Contents (Elt F)),
    StableHlo.nullary main_c_15 (constantI S_ 32 256#32),
    StableHlo.unary main_c_15 main_v41 (broadcastInDim S524288 ![] bcast_S_S524288 : (⟨S_, .i32⟩ : BufTy).Contents (Elt F) → (⟨S524288, .i32⟩ : BufTy).Contents (Elt F)),
    StableHlo.binary main_v27 main_v41 main_v42 (addi : (⟨S524288, .i32⟩ : BufTy).Contents (Elt F) → (⟨S524288, .i32⟩ : BufTy).Contents (Elt F) → (⟨S524288, .i32⟩ : BufTy).Contents (Elt F)),
    StableHlo.ternary main_v40 main_v42 main_v27 main_v43 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v33 main_v44 (broadcastInDim S524288x1 ![0] bcast_S524288_S524288x1_0 : (⟨S524288, .i32⟩ : BufTy).Contents (Elt F) → (⟨S524288x1, .i32⟩ : BufTy).Contents (Elt F)),
    StableHlo.unary main_v38 main_v45 (broadcastInDim S524288x1 ![0] bcast_S524288_S524288x1_0 : (⟨S524288, .i32⟩ : BufTy).Contents (Elt F) → (⟨S524288x1, .i32⟩ : BufTy).Contents (Elt F)),
    StableHlo.unary main_v43 main_v46 (broadcastInDim S524288x1 ![0] bcast_S524288_S524288x1_0 : (⟨S524288, .i32⟩ : BufTy).Contents (Elt F) → (⟨S524288x1, .i32⟩ : BufTy).Contents (Elt F)),
    StableHlo.nary ![main_v44, main_v45, main_v46] main_v47 (fun u => concatenate S524288x3 1 [⟨S524288x1, u 0⟩, ⟨S524288x1, u 1⟩, ⟨S524288x1, u 2⟩] concatenates_S524288x1_S524288x1_S524288x1_S524288x3_d1),
    StableHlo.nullary main_cst_16 (constant S_ .f32 0x3F800000#32),
    StableHlo.unary main_cst_16 main_v48 (broadcastInDim S524288 ![] bcast_S_S524288 : (⟨S_, .f32⟩ : BufTy).Contents (Elt F) → (⟨S524288, .f32⟩ : BufTy).Contents (Elt F)),
    StableHlo.ternary main_v28 main_v47 main_v48 main_v49 ((fun x i u => Host.scatter scatter_S256x256x256_S524288x3_S524288_n_012_012_1 (fun _ b => b) x i u) : (⟨S256x256x256, .f32⟩ : BufTy).Contents (Elt F) → (⟨S524288x3, .i32⟩ : BufTy).Contents (Elt F) → (⟨S524288, .f32⟩ : BufTy).Contents (Elt F) → (⟨S256x256x256, .f32⟩ : BufTy).Contents (Elt F)),
    StableHlo.unary main_v49 main_v50 ((transpose S256x256x256 [0, 2, 1] · transposes_S256x256x256_S256x256x256_0_2_1) : (⟨S256x256x256, .f32⟩ : BufTy).Contents (Elt F) → (⟨S256x256x256, .f32⟩ : BufTy).Contents (Elt F)),
    StableHlo.binary main_v49 main_v50 main_v51 (addf : (⟨S256x256x256, .f32⟩ : BufTy).Contents (Elt F) → (⟨S256x256x256, .f32⟩ : BufTy).Contents (Elt F) → (⟨S256x256x256, .f32⟩ : BufTy).Contents (Elt F)),
    StableHlo.nullary main_cst_17 (constant S_ .f32 0x00000000#32),
    StableHlo.unary main_cst_17 main_v52 (broadcastInDim S256x256x256 ![] bcast_S_S256x256x256 : (⟨S_, .f32⟩ : BufTy).Contents (Elt F) → (⟨S256x256x256, .f32⟩ : BufTy).Contents (Elt F)),
    StableHlo.binary main_v51 main_v52 main_v53 (cmpf .ogt : (⟨S256x256x256, .f32⟩ : BufTy).Contents (Elt F) → (⟨S256x256x256, .f32⟩ : BufTy).Contents (Elt F) → (⟨S256x256x256, .i1⟩ : BufTy).Contents (Elt F)),
    StableHlo.unary main_v53 main_v54 (uitofp .f32 : (⟨S256x256x256, .i1⟩ : BufTy).Contents (Elt F) → (⟨S256x256x256, .f32⟩ : BufTy).Contents (Elt F)),
    StableHlo.nullary main_cst_18 (constant S_ .f32 0x00000000#32),
    StableHlo.binary main_v54 main_cst_18 main_v55 ((fun x v => Host.reduceAdd x v reducesTo_S256x256x256_S256x256_d2 h_S_) : (⟨S256x256x256, .f32⟩ : BufTy).Contents (Elt F) → (⟨S_, .f32⟩ : BufTy).Contents (Elt F) → (⟨S256x256, .f32⟩ : BufTy).Contents (Elt F)),
    StableHlo.nullary main_cst_19 (constant S_ .f32 0x00000000#32),
    StableHlo.unary main_cst_19 main_v56 (broadcastInDim S256x256 ![] bcast_S_S256x256 : (⟨S_, .f32⟩ : BufTy).Contents (Elt F) → (⟨S256x256, .f32⟩ : BufTy).Contents (Elt F)),
    StableHlo.binary main_v55 main_v56 main_v57 (cmpf .ogt : (⟨S256x256, .f32⟩ : BufTy).Contents (Elt F) → (⟨S256x256, .f32⟩ : BufTy).Contents (Elt F) → (⟨S256x256, .i1⟩ : BufTy).Contents (Elt F)),
    StableHlo.nullary main_cst_20 (constant S_ .f32 0x00000000#32),
    StableHlo.unary main_cst_20 main_v58 (broadcastInDim S256x256 ![] bcast_S_S256x256 : (⟨S_, .f32⟩ : BufTy).Contents (Elt F) → (⟨S256x256, .f32⟩ : BufTy).Contents (Elt F)),
    StableHlo.binary main_v55 main_v58 main_v59 (cmpf .ogt : (⟨S256x256, .f32⟩ : BufTy).Contents (Elt F) → (⟨S256x256, .f32⟩ : BufTy).Contents (Elt F) → (⟨S256x256, .i1⟩ : BufTy).Contents (Elt F)),
    StableHlo.nullary main_cst_21 (constant S_ .f32 0x3F800000#32),
    StableHlo.TRef.unary (.of main_cst_21 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S256x256, .f32⟩) (broadcastInDim S256x256 ![] bcast_S_S256x256),
    StableHlo.TRef.ternary (.of main_v59 : StableHlo.TRef sig ⟨S256x256, .i1⟩) (.of main_v55 : StableHlo.TRef sig ⟨S256x256, .f32⟩) (.of main_call4_v1 : StableHlo.TRef sig ⟨S256x256, .f32⟩) (.of main_v60 : StableHlo.TRef sig ⟨S256x256, .f32⟩) select,
    StableHlo.nullary main_cst_22 (constant S_ .f32 0x3F800000#32),
    StableHlo.unary main_cst_22 main_v61 (broadcastInDim S256x256 ![] bcast_S_S256x256 : (⟨S_, .f32⟩ : BufTy).Contents (Elt F) → (⟨S256x256, .f32⟩ : BufTy).Contents (Elt F)),
    StableHlo.binary main_v61 main_v60 main_v62 (Host.divf : (⟨S256x256, .f32⟩ : BufTy).Contents (Elt F) → (⟨S256x256, .f32⟩ : BufTy).Contents (Elt F) → (⟨S256x256, .f32⟩ : BufTy).Contents (Elt F)),
    StableHlo.nullary main_cst_23 (constant S_ .f32 0x00000000#32),
    StableHlo.TRef.unary (.of main_cst_23 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S256x256, .f32⟩) (broadcastInDim S256x256 ![] bcast_S_S256x256),
    StableHlo.TRef.ternary (.of main_v57 : StableHlo.TRef sig ⟨S256x256, .i1⟩) (.of main_v62 : StableHlo.TRef sig ⟨S256x256, .f32⟩) (.of main_call5_v1 : StableHlo.TRef sig ⟨S256x256, .f32⟩) (.of main_v63 : StableHlo.TRef sig ⟨S256x256, .f32⟩) select,
    StableHlo.unary main_v63 main_v64 (broadcastInDim S256x1x256 ![0, 2] bcast_S256x256_S256x1x256_0_2 : (⟨S256x256, .f32⟩ : BufTy).Contents (Elt F) → (⟨S256x1x256, .f32⟩ : BufTy).Contents (Elt F)),
    StableHlo.unary main_v64 main_v65 (broadcastInDim S256x256x256 ![0, 1, 2] bcast_S256x1x256_S256x256x256_0_1_2 : (⟨S256x1x256, .f32⟩ : BufTy).Contents (Elt F) → (⟨S256x256x256, .f32⟩ : BufTy).Contents (Elt F)),
    StableHlo.binary main_v54 main_v65 main_v66 (mulf : (⟨S256x256x256, .f32⟩ : BufTy).Contents (Elt F) → (⟨S256x256x256, .f32⟩ : BufTy).Contents (Elt F) → (⟨S256x256x256, .f32⟩ : BufTy).Contents (Elt F)),
    StableHlo.nullary main_v67 (iotaInDim S256x256 32 0),
    StableHlo.nullary main_v68 (iotaInDim S256x256 32 1),
    StableHlo.nullary main_c_24 (constantI S_ 32 0#32),
    StableHlo.unary main_c_24 main_v69 (broadcastInDim S256x256 ![] bcast_S_S256x256 : (⟨S_, .i32⟩ : BufTy).Contents (Elt F) → (⟨S256x256, .i32⟩ : BufTy).Contents (Elt F)),
    StableHlo.binary main_v67 main_v69 main_v70 (addi : (⟨S256x256, .i32⟩ : BufTy).Contents (Elt F) → (⟨S256x256, .i32⟩ : BufTy).Contents (Elt F) → (⟨S256x256, .i32⟩ : BufTy).Contents (Elt F)),
    StableHlo.binary main_v70 main_v68 main_v71 (cmpi .eq : (⟨S256x256, .i32⟩ : BufTy).Contents (Elt F) → (⟨S256x256, .i32⟩ : BufTy).Contents (Elt F) → (⟨S256x256, .i1⟩ : BufTy).Contents (Elt F)),
    StableHlo.unary main_v71 main_v72 (uitofp .f32 : (⟨S256x256, .i1⟩ : BufTy).Contents (Elt F) → (⟨S256x256, .f32⟩ : BufTy).Contents (Elt F)),
    StableHlo.unary main_v72 main_v73 (broadcastInDim S256x256x256 ![1, 2] bcast_S256x256_S256x256x256_1_2 : (⟨S256x256, .f32⟩ : BufTy).Contents (Elt F) → (⟨S256x256x256, .f32⟩ : BufTy).Contents (Elt F)),
    StableHlo.binary main_v73 main_v66 main_v74 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.nullary main_v75 (iotaInDim S256x256 32 0),
    StableHlo.nullary main_v76 (iotaInDim S256x256 32 1),
    StableHlo.binary main_v75 main_v76 main_v77 (cmpi .eq : (⟨S256x256, .i32⟩ : BufTy).Contents (Elt F) → (⟨S256x256, .i32⟩ : BufTy).Contents (Elt F) → (⟨S256x256, .i1⟩ : BufTy).Contents (Elt F)),
    StableHlo.unary main_v77 main_v78 (broadcastInDim S256x256x256 ![1, 2] bcast_S256x256_S256x256x256_1_2 : (⟨S256x256, .i1⟩ : BufTy).Contents (Elt F) → (⟨S256x256x256, .i1⟩ : BufTy).Contents (Elt F)),
    StableHlo.nullary main_cst_25 (constant S_ .f32 0x00000000#32),
    StableHlo.unary main_cst_25 main_v79 (broadcastInDim S256x256x256 ![] bcast_S_S256x256x256 : (⟨S_, .f32⟩ : BufTy).Contents (Elt F) → (⟨S256x256x256, .f32⟩ : BufTy).Contents (Elt F)),
    StableHlo.ternary main_v78 main_v74 main_v79 main_v80 (select : (⟨S256x256x256, .i1⟩ : BufTy).Contents (Elt F) → (⟨S256x256x256, .f32⟩ : BufTy).Contents (Elt F) → (⟨S256x256x256, .f32⟩ : BufTy).Contents (Elt F) → (⟨S256x256x256, .f32⟩ : BufTy).Contents (Elt F)),
    StableHlo.nullary main_cst_26 (constant S_ .f32 0x00000000#32),
    StableHlo.binary main_v80 main_cst_26 main_v81 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)),
    StableHlo.binary main_v74 main_v66 main_v82 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.nullary main_v83 (iotaInDim S256x256 32 0),
    StableHlo.nullary main_v84 (iotaInDim S256x256 32 1),
    StableHlo.binary main_v83 main_v84 main_v85 (cmpi .eq : (⟨S256x256, .i32⟩ : BufTy).Contents (Elt F) → (⟨S256x256, .i32⟩ : BufTy).Contents (Elt F) → (⟨S256x256, .i1⟩ : BufTy).Contents (Elt F)),
    StableHlo.unary main_v85 main_v86 (broadcastInDim S256x256x256 ![1, 2] bcast_S256x256_S256x256x256_1_2 : (⟨S256x256, .i1⟩ : BufTy).Contents (Elt F) → (⟨S256x256x256, .i1⟩ : BufTy).Contents (Elt F)),
    StableHlo.nullary main_cst_27 (constant S_ .f32 0x00000000#32),
    StableHlo.unary main_cst_27 main_v87 (broadcastInDim S256x256x256 ![] bcast_S_S256x256x256 : (⟨S_, .f32⟩ : BufTy).Contents (Elt F) → (⟨S256x256x256, .f32⟩ : BufTy).Contents (Elt F)),
    StableHlo.ternary main_v86 main_v82 main_v87 main_v88 (select : (⟨S256x256x256, .i1⟩ : BufTy).Contents (Elt F) → (⟨S256x256x256, .f32⟩ : BufTy).Contents (Elt F) → (⟨S256x256x256, .f32⟩ : BufTy).Contents (Elt F) → (⟨S256x256x256, .f32⟩ : BufTy).Contents (Elt F)),
    StableHlo.nullary main_cst_28 (constant S_ .f32 0x00000000#32),
    StableHlo.binary main_v88 main_cst_28 main_v89 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)),
    StableHlo.binary main_v82 main_v66 main_v90 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.nullary main_v91 (iotaInDim S256x256 32 0),
    StableHlo.nullary main_v92 (iotaInDim S256x256 32 1),
    StableHlo.binary main_v91 main_v92 main_v93 (cmpi .eq : (⟨S256x256, .i32⟩ : BufTy).Contents (Elt F) → (⟨S256x256, .i32⟩ : BufTy).Contents (Elt F) → (⟨S256x256, .i1⟩ : BufTy).Contents (Elt F)),
    StableHlo.unary main_v93 main_v94 (broadcastInDim S256x256x256 ![1, 2] bcast_S256x256_S256x256x256_1_2 : (⟨S256x256, .i1⟩ : BufTy).Contents (Elt F) → (⟨S256x256x256, .i1⟩ : BufTy).Contents (Elt F)),
    StableHlo.nullary main_cst_29 (constant S_ .f32 0x00000000#32),
    StableHlo.unary main_cst_29 main_v95 (broadcastInDim S256x256x256 ![] bcast_S_S256x256x256 : (⟨S_, .f32⟩ : BufTy).Contents (Elt F) → (⟨S256x256x256, .f32⟩ : BufTy).Contents (Elt F)),
    StableHlo.ternary main_v94 main_v90 main_v95 main_v96 (select : (⟨S256x256x256, .i1⟩ : BufTy).Contents (Elt F) → (⟨S256x256x256, .f32⟩ : BufTy).Contents (Elt F) → (⟨S256x256x256, .f32⟩ : BufTy).Contents (Elt F) → (⟨S256x256x256, .f32⟩ : BufTy).Contents (Elt F)),
    StableHlo.nullary main_cst_30 (constant S_ .f32 0x00000000#32),
    StableHlo.binary main_v96 main_cst_30 main_v97 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)),
    StableHlo.binary main_v90 main_v66 main_v98 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.nullary main_v99 (iotaInDim S256x256 32 0),
    StableHlo.nullary main_v100 (iotaInDim S256x256 32 1),
    StableHlo.binary main_v99 main_v100 main_v101 (cmpi .eq : (⟨S256x256, .i32⟩ : BufTy).Contents (Elt F) → (⟨S256x256, .i32⟩ : BufTy).Contents (Elt F) → (⟨S256x256, .i1⟩ : BufTy).Contents (Elt F)),
    StableHlo.unary main_v101 main_v102 (broadcastInDim S256x256x256 ![1, 2] bcast_S256x256_S256x256x256_1_2 : (⟨S256x256, .i1⟩ : BufTy).Contents (Elt F) → (⟨S256x256x256, .i1⟩ : BufTy).Contents (Elt F)),
    StableHlo.nullary main_cst_31 (constant S_ .f32 0x00000000#32),
    StableHlo.unary main_cst_31 main_v103 (broadcastInDim S256x256x256 ![] bcast_S_S256x256x256 : (⟨S_, .f32⟩ : BufTy).Contents (Elt F) → (⟨S256x256x256, .f32⟩ : BufTy).Contents (Elt F)),
    StableHlo.ternary main_v102 main_v98 main_v103 main_v104 (select : (⟨S256x256x256, .i1⟩ : BufTy).Contents (Elt F) → (⟨S256x256x256, .f32⟩ : BufTy).Contents (Elt F) → (⟨S256x256x256, .f32⟩ : BufTy).Contents (Elt F) → (⟨S256x256x256, .f32⟩ : BufTy).Contents (Elt F)),
    StableHlo.nullary main_cst_32 (constant S_ .f32 0x00000000#32),
    StableHlo.binary main_v104 main_cst_32 main_v105 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)),
    StableHlo.binary main_v98 main_v66 main_v106 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.nullary main_v107 (iotaInDim S256x256 32 0),
    StableHlo.nullary main_v108 (iotaInDim S256x256 32 1),
    StableHlo.binary main_v107 main_v108 main_v109 (cmpi .eq : (⟨S256x256, .i32⟩ : BufTy).Contents (Elt F) → (⟨S256x256, .i32⟩ : BufTy).Contents (Elt F) → (⟨S256x256, .i1⟩ : BufTy).Contents (Elt F)),
    StableHlo.unary main_v109 main_v110 (broadcastInDim S256x256x256 ![1, 2] bcast_S256x256_S256x256x256_1_2 : (⟨S256x256, .i1⟩ : BufTy).Contents (Elt F) → (⟨S256x256x256, .i1⟩ : BufTy).Contents (Elt F)),
    StableHlo.nullary main_cst_33 (constant S_ .f32 0x00000000#32),
    StableHlo.unary main_cst_33 main_v111 (broadcastInDim S256x256x256 ![] bcast_S_S256x256x256 : (⟨S_, .f32⟩ : BufTy).Contents (Elt F) → (⟨S256x256x256, .f32⟩ : BufTy).Contents (Elt F)),
    StableHlo.ternary main_v110 main_v106 main_v111 main_v112 (select : (⟨S256x256x256, .i1⟩ : BufTy).Contents (Elt F) → (⟨S256x256x256, .f32⟩ : BufTy).Contents (Elt F) → (⟨S256x256x256, .f32⟩ : BufTy).Contents (Elt F) → (⟨S256x256x256, .f32⟩ : BufTy).Contents (Elt F)),
    StableHlo.nullary main_cst_34 (constant S_ .f32 0x00000000#32),
    StableHlo.binary main_v112 main_cst_34 main_v113 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)),
    StableHlo.binary main_v106 main_v66 main_v114 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.nullary main_v115 (iotaInDim S256x256 32 0),
    StableHlo.nullary main_v116 (iotaInDim S256x256 32 1),
    StableHlo.binary main_v115 main_v116 main_v117 (cmpi .eq : (⟨S256x256, .i32⟩ : BufTy).Contents (Elt F) → (⟨S256x256, .i32⟩ : BufTy).Contents (Elt F) → (⟨S256x256, .i1⟩ : BufTy).Contents (Elt F)),
    StableHlo.unary main_v117 main_v118 (broadcastInDim S256x256x256 ![1, 2] bcast_S256x256_S256x256x256_1_2 : (⟨S256x256, .i1⟩ : BufTy).Contents (Elt F) → (⟨S256x256x256, .i1⟩ : BufTy).Contents (Elt F)),
    StableHlo.nullary main_cst_35 (constant S_ .f32 0x00000000#32),
    StableHlo.unary main_cst_35 main_v119 (broadcastInDim S256x256x256 ![] bcast_S_S256x256x256 : (⟨S_, .f32⟩ : BufTy).Contents (Elt F) → (⟨S256x256x256, .f32⟩ : BufTy).Contents (Elt F)),
    StableHlo.ternary main_v118 main_v114 main_v119 main_v120 (select : (⟨S256x256x256, .i1⟩ : BufTy).Contents (Elt F) → (⟨S256x256x256, .f32⟩ : BufTy).Contents (Elt F) → (⟨S256x256x256, .f32⟩ : BufTy).Contents (Elt F) → (⟨S256x256x256, .f32⟩ : BufTy).Contents (Elt F)),
    StableHlo.nullary main_cst_36 (constant S_ .f32 0x00000000#32),
    StableHlo.binary main_v120 main_cst_36 main_v121 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)),
    StableHlo.binary main_v114 main_v66 main_v122 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.nullary main_v123 (iotaInDim S256x256 32 0),
    StableHlo.nullary main_v124 (iotaInDim S256x256 32 1),
    StableHlo.binary main_v123 main_v124 main_v125 (cmpi .eq : (⟨S256x256, .i32⟩ : BufTy).Contents (Elt F) → (⟨S256x256, .i32⟩ : BufTy).Contents (Elt F) → (⟨S256x256, .i1⟩ : BufTy).Contents (Elt F)),
    StableHlo.unary main_v125 main_v126 (broadcastInDim S256x256x256 ![1, 2] bcast_S256x256_S256x256x256_1_2 : (⟨S256x256, .i1⟩ : BufTy).Contents (Elt F) → (⟨S256x256x256, .i1⟩ : BufTy).Contents (Elt F)),
    StableHlo.nullary main_cst_37 (constant S_ .f32 0x00000000#32),
    StableHlo.unary main_cst_37 main_v127 (broadcastInDim S256x256x256 ![] bcast_S_S256x256x256 : (⟨S_, .f32⟩ : BufTy).Contents (Elt F) → (⟨S256x256x256, .f32⟩ : BufTy).Contents (Elt F)),
    StableHlo.ternary main_v126 main_v122 main_v127 main_v128 (select : (⟨S256x256x256, .i1⟩ : BufTy).Contents (Elt F) → (⟨S256x256x256, .f32⟩ : BufTy).Contents (Elt F) → (⟨S256x256x256, .f32⟩ : BufTy).Contents (Elt F) → (⟨S256x256x256, .f32⟩ : BufTy).Contents (Elt F)),
    StableHlo.nullary main_cst_38 (constant S_ .f32 0x00000000#32),
    StableHlo.binary main_v128 main_cst_38 main_v129 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)),
    StableHlo.binary main_v122 main_v66 main_v130 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)),
    StableHlo.nullary main_v131 (iotaInDim S256x256 32 0),
    StableHlo.nullary main_v132 (iotaInDim S256x256 32 1),
    StableHlo.binary main_v131 main_v132 main_v133 (cmpi .eq : (⟨S256x256, .i32⟩ : BufTy).Contents (Elt F) → (⟨S256x256, .i32⟩ : BufTy).Contents (Elt F) → (⟨S256x256, .i1⟩ : BufTy).Contents (Elt F)),
    StableHlo.unary main_v133 main_v134 (broadcastInDim S256x256x256 ![1, 2] bcast_S256x256_S256x256x256_1_2 : (⟨S256x256, .i1⟩ : BufTy).Contents (Elt F) → (⟨S256x256x256, .i1⟩ : BufTy).Contents (Elt F)),
    StableHlo.nullary main_cst_39 (constant S_ .f32 0x00000000#32),
    StableHlo.unary main_cst_39 main_v135 (broadcastInDim S256x256x256 ![] bcast_S_S256x256x256 : (⟨S_, .f32⟩ : BufTy).Contents (Elt F) → (⟨S256x256x256, .f32⟩ : BufTy).Contents (Elt F)),
    StableHlo.ternary main_v134 main_v130 main_v135 main_v136 (select : (⟨S256x256x256, .i1⟩ : BufTy).Contents (Elt F) → (⟨S256x256x256, .f32⟩ : BufTy).Contents (Elt F) → (⟨S256x256x256, .f32⟩ : BufTy).Contents (Elt F) → (⟨S256x256x256, .f32⟩ : BufTy).Contents (Elt F)),
    StableHlo.nullary main_cst_40 (constant S_ .f32 0x00000000#32),
    StableHlo.binary main_v136 main_cst_40 main_v137 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)),
    StableHlo.unary main_v81 main_v138 (broadcastInDim S256x256x1 ![0, 1] bcast_S256x256_S256x256x1_0_1 : (⟨S256x256, .f32⟩ : BufTy).Contents (Elt F) → (⟨S256x256x1, .f32⟩ : BufTy).Contents (Elt F)),
    StableHlo.unary main_v89 main_v139 (broadcastInDim S256x256x1 ![0, 1] bcast_S256x256_S256x256x1_0_1 : (⟨S256x256, .f32⟩ : BufTy).Contents (Elt F) → (⟨S256x256x1, .f32⟩ : BufTy).Contents (Elt F)),
    StableHlo.unary main_v97 main_v140 (broadcastInDim S256x256x1 ![0, 1] bcast_S256x256_S256x256x1_0_1 : (⟨S256x256, .f32⟩ : BufTy).Contents (Elt F) → (⟨S256x256x1, .f32⟩ : BufTy).Contents (Elt F)),
    StableHlo.unary main_v105 main_v141 (broadcastInDim S256x256x1 ![0, 1] bcast_S256x256_S256x256x1_0_1 : (⟨S256x256, .f32⟩ : BufTy).Contents (Elt F) → (⟨S256x256x1, .f32⟩ : BufTy).Contents (Elt F)),
    StableHlo.unary main_v113 main_v142 (broadcastInDim S256x256x1 ![0, 1] bcast_S256x256_S256x256x1_0_1 : (⟨S256x256, .f32⟩ : BufTy).Contents (Elt F) → (⟨S256x256x1, .f32⟩ : BufTy).Contents (Elt F)),
    StableHlo.unary main_v121 main_v143 (broadcastInDim S256x256x1 ![0, 1] bcast_S256x256_S256x256x1_0_1 : (⟨S256x256, .f32⟩ : BufTy).Contents (Elt F) → (⟨S256x256x1, .f32⟩ : BufTy).Contents (Elt F)),
    StableHlo.unary main_v129 main_v144 (broadcastInDim S256x256x1 ![0, 1] bcast_S256x256_S256x256x1_0_1 : (⟨S256x256, .f32⟩ : BufTy).Contents (Elt F) → (⟨S256x256x1, .f32⟩ : BufTy).Contents (Elt F)),
    StableHlo.unary main_v137 main_v145 (broadcastInDim S256x256x1 ![0, 1] bcast_S256x256_S256x256x1_0_1 : (⟨S256x256, .f32⟩ : BufTy).Contents (Elt F) → (⟨S256x256x1, .f32⟩ : BufTy).Contents (Elt F)),
    StableHlo.nary ![main_v138, main_v139, main_v140, main_v141, main_v142, main_v143, main_v144, main_v145] main_v146 (fun u => concatenate S256x256x8 2 [⟨S256x256x1, u 0⟩, ⟨S256x256x1, u 1⟩, ⟨S256x256x1, u 2⟩, ⟨S256x256x1, u 3⟩, ⟨S256x256x1, u 4⟩, ⟨S256x256x1, u 5⟩, ⟨S256x256x1, u 6⟩, ⟨S256x256x1, u 7⟩] concatenates_S256x256x1_S256x256x1_S256x256x1_S256x256x1_S256x256x1_S256x256x1_S256x256x1_S256x256x1_S256x256x8_d2),
    StableHlo.reshape main_v146 main_v147 rfl shapeCasts_S256x256x8_S65536x8,
    StableHlo.unary main_arg4 main_v148 ((transpose S8x256 [1, 0] · transposes_S256x8_S8x256_1_0) : (⟨S256x8, .f32⟩ : BufTy).Contents (Elt F) → (⟨S8x256, .f32⟩ : BufTy).Contents (Elt F)),
    StableHlo.binary main_v147 main_v148 main_v149 ((fun l r => Host.dotGeneral dot_S65536x8_S8x256_S65536x256_1_0_0_1_n_n none l r) : (⟨S65536x8, .f32⟩ : BufTy).Contents (Elt F) → (⟨S8x256, .f32⟩ : BufTy).Contents (Elt F) → (⟨S65536x256, .f32⟩ : BufTy).Contents (Elt F)),
    StableHlo.binary main_v18 main_v149 main_v150 (addf : (⟨S65536x256, .f32⟩ : BufTy).Contents (Elt F) → (⟨S65536x256, .f32⟩ : BufTy).Contents (Elt F) → (⟨S65536x256, .f32⟩ : BufTy).Contents (Elt F)),
    StableHlo.unary main_arg5 main_v151 (broadcastInDim S1x256 ![1] bcast_S256_S1x256_1 : (⟨S256, .f32⟩ : BufTy).Contents (Elt F) → (⟨S1x256, .f32⟩ : BufTy).Contents (Elt F)),
    StableHlo.unary main_v151 main_v152 (broadcastInDim S65536x256 ![0, 1] bcast_S1x256_S65536x256_0_1 : (⟨S1x256, .f32⟩ : BufTy).Contents (Elt F) → (⟨S65536x256, .f32⟩ : BufTy).Contents (Elt F)),
    StableHlo.binary main_v150 main_v152 main_v153 (addf : (⟨S65536x256, .f32⟩ : BufTy).Contents (Elt F) → (⟨S65536x256, .f32⟩ : BufTy).Contents (Elt F) → (⟨S65536x256, .f32⟩ : BufTy).Contents (Elt F)) ]

/-- Every operation touches TensorCore references only. -/
theorem ops_sub : (ops : List (HloOp τ sig (Elt F))).Forall fun op => op.bufs ⊆ tcRefs τ sig :=
  ⟨StableHlo.nullary_bufs_sub .., StableHlo.unary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.unary_bufs_sub .., StableHlo.ternary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.reshape_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.unary_bufs_sub .., StableHlo.reshape_bufs_sub .., StableHlo.nullary_bufs_sub .., StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.nary_bufs_sub .., StableHlo.nullary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.ternary_bufs_sub .., StableHlo.nullary_bufs_sub .., StableHlo.binary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.ternary_bufs_sub .., StableHlo.nullary_bufs_sub .., StableHlo.binary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.ternary_bufs_sub .., StableHlo.nullary_bufs_sub .., StableHlo.binary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.ternary_bufs_sub .., StableHlo.nullary_bufs_sub .., StableHlo.binary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.ternary_bufs_sub .., StableHlo.nullary_bufs_sub .., StableHlo.binary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.ternary_bufs_sub .., StableHlo.nullary_bufs_sub .., StableHlo.binary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.ternary_bufs_sub .., StableHlo.nullary_bufs_sub .., StableHlo.binary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.ternary_bufs_sub .., StableHlo.nullary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.reshape_bufs_sub .., StableHlo.unary_bufs_sub .., StableHlo.binary_bufs_sub .., StableHlo.binary_bufs_sub .., StableHlo.unary_bufs_sub .., StableHlo.unary_bufs_sub .., StableHlo.binary_bufs_sub ..⟩

/-- The references the operations write: one per operation, its result. -/
abbrev ops_W : List (Ref sig .tc) := [main_c, main_v0, main_v1, main_v2, main_c_0, main_v3, main_v4, main_c_1, main_v5, main_v6, main_v7, main_v8, main_c_2, main_v9, main_v10, main_c_3, main_c_4, main_call0_v0, main_call0_v1, main_call0_v2, main_call0_v3, main_call0_v4, main_v11, main_c_5, main_v12, main_v13, main_c_6, main_v14, main_v15, main_v16, main_v17, main_v18, main_v19, main_v20, main_c_7, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v21, main_v22, main_v23, main_c_8, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v24, main_v25, main_v26, main_c_9, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v27, main_cst, main_v28, main_c_10, main_v29, main_v30, main_c_11, main_v31, main_v32, main_v33, main_c_12, main_v34, main_v35, main_c_13, main_v36, main_v37, main_v38, main_c_14, main_v39, main_v40, main_c_15, main_v41, main_v42, main_v43, main_v44, main_v45, main_v46, main_v47, main_cst_16, main_v48, main_v49, main_v50, main_v51, main_cst_17, main_v52, main_v53, main_v54, main_cst_18, main_v55, main_cst_19, main_v56, main_v57, main_cst_20, main_v58, main_v59, main_cst_21, main_call4_v0, main_call4_v1, main_v60, main_cst_22, main_v61, main_v62, main_cst_23, main_call5_v0, main_call5_v1, main_v63, main_v64, main_v65, main_v66, main_v67, main_v68, main_c_24, main_v69, main_v70, main_v71, main_v72, main_v73, main_v74, main_v75, main_v76, main_v77, main_v78, main_cst_25, main_v79, main_v80, main_cst_26, main_v81, main_v82, main_v83, main_v84, main_v85, main_v86, main_cst_27, main_v87, main_v88, main_cst_28, main_v89, main_v90, main_v91, main_v92, main_v93, main_v94, main_cst_29, main_v95, main_v96, main_cst_30, main_v97, main_v98, main_v99, main_v100, main_v101, main_v102, main_cst_31, main_v103, main_v104, main_cst_32, main_v105, main_v106, main_v107, main_v108, main_v109, main_v110, main_cst_33, main_v111, main_v112, main_cst_34, main_v113, main_v114, main_v115, main_v116, main_v117, main_v118, main_cst_35, main_v119, main_v120, main_cst_36, main_v121, main_v122, main_v123, main_v124, main_v125, main_v126, main_cst_37, main_v127, main_v128, main_cst_38, main_v129, main_v130, main_v131, main_v132, main_v133, main_v134, main_cst_39, main_v135, main_v136, main_cst_40, main_v137, main_v138, main_v139, main_v140, main_v141, main_v142, main_v143, main_v144, main_v145, main_v146, main_v147, main_v148, main_v149, main_v150, main_v151, main_v152, main_v153]

set_option maxHeartbeats 4000000 in
theorem ops_writes : (ops : List (HloOp τ sig (Elt F))).Forall fun op => op.writes ⊆ (ops_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩

end Cert.ReferenceIdeal.HostRun

end
-- ==== Proof.ReferenceOps.lean ====
/- The reference program's run read back: @main is the straight line of its listed host operations; every weakly
   fair execution terminates with each buffer at the fold of the operations' results over its launch contents; the
   arguments are written by no operation and so end unchanged. -/
import proofs.«146736_j68667937129202_2_alg».proof.Proof.ReferenceOpsList

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
set_option maxRecDepth 100000 in
/-- @main is the straight line of these operations. -/
theorem main_eq (c : Dev nD) : main (F := F) c = seq ops := rfl

/-- The signature scopes no buffer and no semaphore: every buffer is a tensor value's. -/
theorem scopedRefs_eq : (Finset.univ.filter fun b : Ref sig .tc => b.isScoped) = ∅ := by decide
theorem scopedSems_eq : (Finset.univ.filter fun sm : SemLoc sig => sm.isScoped .tc) = ∅ := by decide

/-- Every operation determines its results. -/
theorem ops_fresh : (ops : List (HloOp τ sig (Elt F))).Forall fun op => op.fresh = ∅ := by
  simp only [List.Forall]; repeat' constructor

/-- On every device, for any float values, from any memory with zero counters: every weakly fair execution of
    @main terminates, and each buffer ends at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (fun b => m (c, b)) (Proc.devRef .tc b) :=
  run_seq scopedRefs_eq scopedSems_eq defs main (fun _ => ops) main_eq (fun _ => ops_sub) m ρ
    (fun _ => List.forall_iff_forall_mem.mp ops_fresh)

/-- A reference no operation writes holds its launch contents after the line. -/
theorem after_ops_of_not_mem (V : Valuation τ sig (Elt F)) (r : Ref sig .tc) (h : r ∉ ops_W) :
    after ops V (Proc.devRef .tc r) = V (Proc.devRef .tc r) :=
  after_of_writes_sub ops V ops_writes h

/-- @main runs, and its six arguments end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_arg0).trans (after_ops_of_not_mem _ main_arg0 (by decide)),
      (h c main_arg1).trans (after_ops_of_not_mem _ main_arg1 (by decide)),
      (h c main_arg2).trans (after_ops_of_not_mem _ main_arg2 (by decide)),
      (h c main_arg3).trans (after_ops_of_not_mem _ main_arg3 (by decide)),
      (h c main_arg4).trans (after_ops_of_not_mem _ main_arg4 (by decide)),
      (h c main_arg5).trans (after_ops_of_not_mem _ main_arg5 (by decide))⟩)
    (run_after m ρ)

end Cert.ReferenceIdeal.HostRun

end
-- ==== Proof.ReferenceSteps.lean ====
/- One pure function per mathematical step of the reference program's @main (the in-degree count, the clip, the
   gather, the index arithmetic of the edge list, the adjacency scatter, its symmetrization and normalization, one
   step of the walk, a power's diagonal, the readout): the program's own operations of that step composed, stated
   for any float values. -/
import proofs.«146736_j68667937129202_2_alg».proof.Proof.Gen.ReferenceIdeal

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The in-degree count: a zero vector over the 65536 nodes with one added at each edge's destination (row 1 of the edge list, a negative entry counted from the end). -/
def rawInDegree (e : (⟨S2x524288, .i32⟩ : BufTy).Contents (Elt F)) : (⟨S65536, .i32⟩ : BufTy).Contents (Elt F) :=
  let v2 : (⟨S524288, .i32⟩ : BufTy).Contents (Elt F) := (fun i => shapeCast S524288 ((extractStridedSlice S1x524288 ![1, 0] · slices_S2x524288_S1x524288_1_0) e) shapeCasts_S1x524288_S524288 i)
  ((fun x i u => Host.scatter scatter_S65536_S524288x1_S524288_n_0_0_1 IntOp.addi x i u) ((broadcastInDim S65536 ![] bcast_S_S65536) (constantI S_ 32 0#32 : (⟨S_, .i32⟩ : BufTy).Contents (Elt F))) ((broadcastInDim S524288x1 ![0] bcast_S524288_S524288x1_0) (select ((cmpi .slt) v2 ((broadcastInDim S524288 ![] bcast_S_S524288) (constantI S_ 32 0#32 : (⟨S_, .i32⟩ : BufTy).Contents (Elt F)))) (addi v2 ((broadcastInDim S524288 ![] bcast_S_S524288) (constantI S_ 32 65536#32 : (⟨S_, .i32⟩ : BufTy).Contents (Elt F)))) v2)) ((broadcastInDim S524288 ![] bcast_S_S524288) (constantI S_ 32 1#32 : (⟨S_, .i32⟩ : BufTy).Contents (Elt F))))

/-- A count clipped to the interval [0, 255]. -/
def clipDegree (d : (⟨S65536, .i32⟩ : BufTy).Contents (Elt F)) : (⟨S65536, .i32⟩ : BufTy).Contents (Elt F) :=
  (minsi ((broadcastInDim S65536 ![] bcast_S_S65536) (id (constantI S_ 32 255#32 : (⟨S_, .i32⟩ : BufTy).Contents (Elt F)))) (maxsi ((broadcastInDim S65536 ![] bcast_S_S65536) (id (constantI S_ 32 0#32 : (⟨S_, .i32⟩ : BufTy).Contents (Elt F)))) d))

/-- Row `d n` of the 256 × 256 table for each node `n` (a negative index counted from the end). -/
def gatherRowsAt (d : (⟨S65536, .i32⟩ : BufTy).Contents (Elt F)) (tab : (⟨S256x256, .f32⟩ : BufTy).Contents (Elt F)) : (⟨S65536x256, .f32⟩ : BufTy).Contents (Elt F) :=
  ((fun x i => Host.gather gather_S256x256_S65536x1_S65536x256_1_0_n_n_0_1_1256 x i) tab ((broadcastInDim S65536x1 ![0] bcast_S65536_S65536x1_0) (select ((cmpi .slt) d ((broadcastInDim S65536 ![] bcast_S_S65536) (constantI S_ 32 0#32 : (⟨S_, .i32⟩ : BufTy).Contents (Elt F)))) (addi d ((broadcastInDim S65536 ![] bcast_S_S65536) (constantI S_ 32 256#32 : (⟨S_, .i32⟩ : BufTy).Contents (Elt F)))) d)))

/-- Row 0 of the edge list — each edge's source node, numbered across all graphs — as a vector. -/
def edgeRow0 (e : (⟨S2x524288, .i32⟩ : BufTy).Contents (Elt F)) : (⟨S524288, .i32⟩ : BufTy).Contents (Elt F) :=
  (fun i => shapeCast S524288 ((extractStridedSlice S1x524288 ![0, 0] · slices_S2x524288_S1x524288_0_0) e) shapeCasts_S1x524288_S524288 i)

/-- Floor division of each entry by 256: the truncated quotient, less one where the signs differ and the remainder is not zero. -/
def floorDiv256 (r : (⟨S524288, .i32⟩ : BufTy).Contents (Elt F)) : (⟨S524288, .i32⟩ : BufTy).Contents (Elt F) :=
  let tv0 : (⟨S_, .i32⟩ : BufTy).Contents (Elt F) := (id (constantI S_ 32 256#32 : (⟨S_, .i32⟩ : BufTy).Contents (Elt F)))
  let tv2 : (⟨S524288, .i32⟩ : BufTy).Contents (Elt F) := (Host.divsi r ((broadcastInDim S524288 ![] bcast_S_S524288) tv0))
  (select (andi ((cmpi .ne) (signi r) ((broadcastInDim S524288 ![] bcast_S_S524288) (signi tv0))) ((cmpi .ne) (Host.remsi r ((broadcastInDim S524288 ![] bcast_S_S524288) tv0)) ((broadcastInDim S524288 ![] bcast_S_S524288) (constantI S_ 32 0#32 : (⟨S_, .i32⟩ : BufTy).Contents (Elt F))))) (subi tv2 ((broadcastInDim S524288 ![] bcast_S_S524288) (constantI S_ 32 1#32 : (⟨S_, .i32⟩ : BufTy).Contents (Elt F)))) tv2)

/-- The remainder of each entry modulo 256 with the sign of the divisor: the truncated remainder, plus 256 where it is not zero and negative. -/
def floorMod256 (r : (⟨S524288, .i32⟩ : BufTy).Contents (Elt F)) : (⟨S524288, .i32⟩ : BufTy).Contents (Elt F) :=
  let tv0 : (⟨S_, .i32⟩ : BufTy).Contents (Elt F) := (id (constantI S_ 32 256#32 : (⟨S_, .i32⟩ : BufTy).Contents (Elt F)))
  let tv2 : (⟨S_, .i32⟩ : BufTy).Contents (Elt F) := (select ((cmpi .eq) tv0 (constantI S_ 32 0#32 : (⟨S_, .i32⟩ : BufTy).Contents (Elt F))) (constantI S_ 32 1#32 : (⟨S_, .i32⟩ : BufTy).Contents (Elt F)) tv0)
  let tv4 : (⟨S524288, .i32⟩ : BufTy).Contents (Elt F) := (Host.remsi r ((broadcastInDim S524288 ![] bcast_S_S524288) tv2))
  (select (andi ((cmpi .ne) ((cmpi .slt) tv4 ((broadcastInDim S524288 ![] bcast_S_S524288) (constantI S_ 32 0#32 : (⟨S_, .i32⟩ : BufTy).Contents (Elt F)))) ((broadcastInDim S524288 ![] bcast_S_S524288) ((cmpi .slt) tv2 (constantI S_ 32 0#32 : (⟨S_, .i32⟩ : BufTy).Contents (Elt F))))) ((cmpi .ne) tv4 ((broadcastInDim S524288 ![] bcast_S_S524288) (constantI S_ 32 0#32 : (⟨S_, .i32⟩ : BufTy).Contents (Elt F))))) (addi tv4 ((broadcastInDim S524288 ![] bcast_S_S524288) tv2)) tv4)

/-- Row 1 of the edge list — each edge's destination node, numbered across all graphs — as a vector. -/
def edgeRow1 (e : (⟨S2x524288, .i32⟩ : BufTy).Contents (Elt F)) : (⟨S524288, .i32⟩ : BufTy).Contents (Elt F) :=
  (fun i => shapeCast S524288 ((extractStridedSlice S1x524288 ![1, 0] · slices_S2x524288_S1x524288_1_0) e) shapeCasts_S1x524288_S524288 i)

/-- The zero 256 × 256 × 256 tensor: one empty 256 × 256 adjacency matrix per graph. -/
def zeroAdj : (⟨S256x256x256, .f32⟩ : BufTy).Contents (Elt F) :=
  ((broadcastInDim S256x256x256 ![] bcast_S_S256x256x256) (constant S_ .f32 0x00000000#32 : (⟨S_, .f32⟩ : BufTy).Contents (Elt F)))

/-- An index into an axis of length 256, a negative one counted from the end. -/
def wrapIndex256 (x : (⟨S524288, .i32⟩ : BufTy).Contents (Elt F)) : (⟨S524288, .i32⟩ : BufTy).Contents (Elt F) :=
  (select ((cmpi .slt) x ((broadcastInDim S524288 ![] bcast_S_S524288) (constantI S_ 32 0#32 : (⟨S_, .i32⟩ : BufTy).Contents (Elt F)))) (addi x ((broadcastInDim S524288 ![] bcast_S_S524288) (constantI S_ 32 256#32 : (⟨S_, .i32⟩ : BufTy).Contents (Elt F)))) x)

/-- The index triples (graph, source, destination), one row per edge. -/
def edgeTriples (g : (⟨S524288, .i32⟩ : BufTy).Contents (Elt F)) (s : (⟨S524288, .i32⟩ : BufTy).Contents (Elt F)) (t : (⟨S524288, .i32⟩ : BufTy).Contents (Elt F)) : (⟨S524288x3, .i32⟩ : BufTy).Contents (Elt F) :=
  (concatenate S524288x3 1 [⟨S524288x1, ((broadcastInDim S524288x1 ![0] bcast_S524288_S524288x1_0) g)⟩, ⟨S524288x1, ((broadcastInDim S524288x1 ![0] bcast_S524288_S524288x1_0) s)⟩, ⟨S524288x1, ((broadcastInDim S524288x1 ![0] bcast_S524288_S524288x1_0) t)⟩] concatenates_S524288x1_S524288x1_S524288x1_S524288x3_d1)

/-- The tensor `z` with one written at each index triple. -/
def scatterOnes (z : (⟨S256x256x256, .f32⟩ : BufTy).Contents (Elt F)) (idx : (⟨S524288x3, .i32⟩ : BufTy).Contents (Elt F)) : (⟨S256x256x256, .f32⟩ : BufTy).Contents (Elt F) :=
  ((fun x i u => Host.scatter scatter_S256x256x256_S524288x3_S524288_n_012_012_1 (fun _ b => b) x i u) z idx ((broadcastInDim S524288 ![] bcast_S_S524288) (constant S_ .f32 0x3F800000#32 : (⟨S_, .f32⟩ : BufTy).Contents (Elt F))))

/-- The symmetrized 0/1 adjacency: one where `a + aᵀ` (each graph's matrix transposed) is positive. -/
def symAdj (a : (⟨S256x256x256, .f32⟩ : BufTy).Contents (Elt F)) : (⟨S256x256x256, .f32⟩ : BufTy).Contents (Elt F) :=
  ((uitofp .f32) ((cmpf .ogt) (addf a ((transpose S256x256x256 [0, 2, 1] · transposes_S256x256x256_S256x256x256_0_2_1) a)) ((broadcastInDim S256x256x256 ![] bcast_S_S256x256x256) (constant S_ .f32 0x00000000#32 : (⟨S_, .f32⟩ : BufTy).Contents (Elt F)))))

/-- Row sums of each graph's matrix: the node degrees. -/
def degree (s : (⟨S256x256x256, .f32⟩ : BufTy).Contents (Elt F)) : (⟨S256x256, .f32⟩ : BufTy).Contents (Elt F) :=
  ((fun x v => Host.reduceAdd x v reducesTo_S256x256x256_S256x256_d2 h_S_) s (constant S_ .f32 0x00000000#32 : (⟨S_, .f32⟩ : BufTy).Contents (Elt F)))

/-- The reciprocal of each positive degree (of one where the degree is not positive), and zero where the degree is not positive. -/
def invDegree (deg : (⟨S256x256, .f32⟩ : BufTy).Contents (Elt F)) : (⟨S256x256, .f32⟩ : BufTy).Contents (Elt F) :=
  (select ((cmpf .ogt) deg ((broadcastInDim S256x256 ![] bcast_S_S256x256) (constant S_ .f32 0x00000000#32 : (⟨S_, .f32⟩ : BufTy).Contents (Elt F)))) (Host.divf ((broadcastInDim S256x256 ![] bcast_S_S256x256) (constant S_ .f32 0x3F800000#32 : (⟨S_, .f32⟩ : BufTy).Contents (Elt F))) (select ((cmpf .ogt) deg ((broadcastInDim S256x256 ![] bcast_S_S256x256) (constant S_ .f32 0x00000000#32 : (⟨S_, .f32⟩ : BufTy).Contents (Elt F)))) deg ((broadcastInDim S256x256 ![] bcast_S_S256x256) (id (constant S_ .f32 0x3F800000#32 : (⟨S_, .f32⟩ : BufTy).Contents (Elt F)))))) ((broadcastInDim S256x256 ![] bcast_S_S256x256) (id (constant S_ .f32 0x00000000#32 : (⟨S_, .f32⟩ : BufTy).Contents (Elt F)))))

/-- Entry (g, i, j) of `s` scaled by `dinv (g, j)`. -/
def scaleCols (dinv : (⟨S256x256, .f32⟩ : BufTy).Contents (Elt F)) (s : (⟨S256x256x256, .f32⟩ : BufTy).Contents (Elt F)) : (⟨S256x256x256, .f32⟩ : BufTy).Contents (Elt F) :=
  (mulf s ((broadcastInDim S256x256x256 ![0, 1, 2] bcast_S256x1x256_S256x256x256_0_1_2) ((broadcastInDim S256x1x256 ![0, 2] bcast_S256x256_S256x1x256_0_2) dinv)))

/-- The 256 × 256 identity matrix, once per graph. -/
def eyeBatch : (⟨S256x256x256, .f32⟩ : BufTy).Contents (Elt F) :=
  ((broadcastInDim S256x256x256 ![1, 2] bcast_S256x256_S256x256x256_1_2) ((uitofp .f32) ((cmpi .eq) (addi (iotaInDim S256x256 32 0 : (⟨S256x256, .i32⟩ : BufTy).Contents (Elt F)) ((broadcastInDim S256x256 ![] bcast_S_S256x256) (constantI S_ 32 0#32 : (⟨S_, .i32⟩ : BufTy).Contents (Elt F)))) (iotaInDim S256x256 32 1 : (⟨S256x256, .i32⟩ : BufTy).Contents (Elt F)))))

/-- One step of the walk: the per-graph matrix product `p · T`. -/
def walkStep (p : (⟨S256x256x256, .f32⟩ : BufTy).Contents (Elt F)) (T : (⟨S256x256x256, .f32⟩ : BufTy).Contents (Elt F)) : (⟨S256x256x256, .f32⟩ : BufTy).Contents (Elt F) :=
  ((fun l r => Host.dotGeneral dot_S256x256x256_S256x256x256_S256x256x256_2_1_1_2_0_0 none l r) p T)

/-- The diagonal of each graph's matrix, as the sum over the row index of the matrix masked by the identity. -/
def batchDiag (p : (⟨S256x256x256, .f32⟩ : BufTy).Contents (Elt F)) : (⟨S256x256, .f32⟩ : BufTy).Contents (Elt F) :=
  ((fun x v => Host.reduceAdd x v reducesTo_S256x256x256_S256x256_d1 h_S_) (select ((broadcastInDim S256x256x256 ![1, 2] bcast_S256x256_S256x256x256_1_2) ((cmpi .eq) (iotaInDim S256x256 32 0 : (⟨S256x256, .i32⟩ : BufTy).Contents (Elt F)) (iotaInDim S256x256 32 1 : (⟨S256x256, .i32⟩ : BufTy).Contents (Elt F)))) p ((broadcastInDim S256x256x256 ![] bcast_S_S256x256x256) (constant S_ .f32 0x00000000#32 : (⟨S_, .f32⟩ : BufTy).Contents (Elt F)))) (constant S_ .f32 0x00000000#32 : (⟨S_, .f32⟩ : BufTy).Contents (Elt F)))

/-- Eight 256 × 256 matrices stacked along a new last axis and flattened to 65536 × 8: one row of eight features per node. -/
def stackFeatures (r0 : (⟨S256x256, .f32⟩ : BufTy).Contents (Elt F)) (r1 : (⟨S256x256, .f32⟩ : BufTy).Contents (Elt F)) (r2 : (⟨S256x256, .f32⟩ : BufTy).Contents (Elt F)) (r3 : (⟨S256x256, .f32⟩ : BufTy).Contents (Elt F)) (r4 : (⟨S256x256, .f32⟩ : BufTy).Contents (Elt F)) (r5 : (⟨S256x256, .f32⟩ : BufTy).Contents (Elt F)) (r6 : (⟨S256x256, .f32⟩ : BufTy).Contents (Elt F)) (r7 : (⟨S256x256, .f32⟩ : BufTy).Contents (Elt F)) : (⟨S65536x8, .f32⟩ : BufTy).Contents (Elt F) :=
  (fun i => shapeCast S65536x8 (concatenate S256x256x8 2 [⟨S256x256x1, ((broadcastInDim S256x256x1 ![0, 1] bcast_S256x256_S256x256x1_0_1) r0)⟩, ⟨S256x256x1, ((broadcastInDim S256x256x1 ![0, 1] bcast_S256x256_S256x256x1_0_1) r1)⟩, ⟨S256x256x1, ((broadcastInDim S256x256x1 ![0, 1] bcast_S256x256_S256x256x1_0_1) r2)⟩, ⟨S256x256x1, ((broadcastInDim S256x256x1 ![0, 1] bcast_S256x256_S256x256x1_0_1) r3)⟩, ⟨S256x256x1, ((broadcastInDim S256x256x1 ![0, 1] bcast_S256x256_S256x256x1_0_1) r4)⟩, ⟨S256x256x1, ((broadcastInDim S256x256x1 ![0, 1] bcast_S256x256_S256x256x1_0_1) r5)⟩, ⟨S256x256x1, ((broadcastInDim S256x256x1 ![0, 1] bcast_S256x256_S256x256x1_0_1) r6)⟩, ⟨S256x256x1, ((broadcastInDim S256x256x1 ![0, 1] bcast_S256x256_S256x256x1_0_1) r7)⟩] concatenates_S256x256x1_S256x256x1_S256x256x1_S256x256x1_S256x256x1_S256x256x1_S256x256x1_S256x256x1_S256x256x8_d2) shapeCasts_S256x256x8_S65536x8 i)

/-- The gathered rows plus the features times the transposed weights, plus the bias on every row. -/
def readout (w : (⟨S256x8, .f32⟩ : BufTy).Contents (Elt F)) (feats : (⟨S65536x8, .f32⟩ : BufTy).Contents (Elt F)) (rows : (⟨S65536x256, .f32⟩ : BufTy).Contents (Elt F)) (b : (⟨S256, .f32⟩ : BufTy).Contents (Elt F)) : (⟨S65536x256, .f32⟩ : BufTy).Contents (Elt F) :=
  (addf (addf rows ((fun l r => Host.dotGeneral dot_S65536x8_S8x256_S65536x256_1_0_0_1_n_n none l r) feats ((transpose S8x256 [1, 0] · transposes_S256x8_S8x256_1_0) w))) ((broadcastInDim S65536x256 ![0, 1] bcast_S1x256_S65536x256_0_1) ((broadcastInDim S1x256 ![1] bcast_S256_S1x256_1) b)))

end Cert.ReferenceIdeal.HostRun

end
-- ==== Proof.ReferenceTerm.lean ====
/- What the reference program computes, as a term: the steps' pure functions composed in the program's order — the
   clipped in-degree and the rows gathered by it, the adjacency tensor of the edge list, the walk's transition tensor,
   its powers and their diagonals, the eight features, and the result. -/
import proofs.«146736_j68667937129202_2_alg».proof.Proof.ReferenceSteps

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## The program's values, composed -/

/-- The in-degree of each node, clipped to [0, 255]. -/
def inDegree (e : (⟨S2x524288, .i32⟩ : BufTy).Contents (Elt F)) : (⟨S65536, .i32⟩ : BufTy).Contents (Elt F) := clipDegree (rawInDegree e)
/-- Each node's row of the table, by its clipped in-degree. -/
def gatherRows (tab : (⟨S256x256, .f32⟩ : BufTy).Contents (Elt F)) (e : (⟨S2x524288, .i32⟩ : BufTy).Contents (Elt F)) : (⟨S65536x256, .f32⟩ : BufTy).Contents (Elt F) := gatherRowsAt (inDegree e) tab
/-- Each edge's graph: its source divided by 256. -/
def graphIndex (e : (⟨S2x524288, .i32⟩ : BufTy).Contents (Elt F)) : (⟨S524288, .i32⟩ : BufTy).Contents (Elt F) := wrapIndex256 (floorDiv256 (edgeRow0 e))
/-- Each edge's source node within its graph: the source modulo 256. -/
def srcIndex (e : (⟨S2x524288, .i32⟩ : BufTy).Contents (Elt F)) : (⟨S524288, .i32⟩ : BufTy).Contents (Elt F) := wrapIndex256 (floorMod256 (edgeRow0 e))
/-- Each edge's destination node within its graph: the destination modulo 256. -/
def dstIndex (e : (⟨S2x524288, .i32⟩ : BufTy).Contents (Elt F)) : (⟨S524288, .i32⟩ : BufTy).Contents (Elt F) := wrapIndex256 (floorMod256 (edgeRow1 e))
/-- The directed adjacency tensor: one at (graph, source, destination) of every edge. -/
def adjacency (e : (⟨S2x524288, .i32⟩ : BufTy).Contents (Elt F)) : (⟨S256x256x256, .f32⟩ : BufTy).Contents (Elt F) :=
  scatterOnes zeroAdj (edgeTriples (graphIndex e) (srcIndex e) (dstIndex e))
/-- The walk's transition tensor: the symmetrized adjacency, entry (g, i, j) divided by the degree of node j. -/
def walkMatrix (e : (⟨S2x524288, .i32⟩ : BufTy).Contents (Elt F)) : (⟨S256x256x256, .f32⟩ : BufTy).Contents (Elt F) :=
  scaleCols (invDegree (degree (symAdj (adjacency e)))) (symAdj (adjacency e))
/-- The walk's powers: `walkPower k e` is the identity times the transition tensor `k + 1` times. -/
def walkPower : ℕ → (⟨S2x524288, .i32⟩ : BufTy).Contents (Elt F) → (⟨S256x256x256, .f32⟩ : BufTy).Contents (Elt F)
  | 0, e => walkStep eyeBatch (walkMatrix e)
  | k + 1, e => walkStep (walkPower k e) (walkMatrix e)
theorem walkPower_zero (e : (⟨S2x524288, .i32⟩ : BufTy).Contents (Elt F)) : walkPower 0 e = walkStep eyeBatch (walkMatrix e) := rfl
theorem walkPower_succ (k : ℕ) (e : (⟨S2x524288, .i32⟩ : BufTy).Contents (Elt F)) : walkPower (k + 1) e = walkStep (walkPower k e) (walkMatrix e) := rfl
/-- The return probabilities after `k + 1` steps: the diagonals of the power. -/
def returnProb (k : ℕ) (e : (⟨S2x524288, .i32⟩ : BufTy).Contents (Elt F)) : (⟨S256x256, .f32⟩ : BufTy).Contents (Elt F) := batchDiag (walkPower k e)
/-- The eight return-probability features of each node. -/
def walkFeatures (e : (⟨S2x524288, .i32⟩ : BufTy).Contents (Elt F)) : (⟨S65536x8, .f32⟩ : BufTy).Contents (Elt F) :=
  stackFeatures (returnProb 0 e) (returnProb 1 e) (returnProb 2 e) (returnProb 3 e) (returnProb 4 e) (returnProb 5 e) (returnProb 6 e) (returnProb 7 e)
/-- The program's result: the gathered rows plus the walk features through the linear layer. -/
def result (e : (⟨S2x524288, .i32⟩ : BufTy).Contents (Elt F)) (tab : (⟨S256x256, .f32⟩ : BufTy).Contents (Elt F)) (w : (⟨S256x8, .f32⟩ : BufTy).Contents (Elt F)) (b : (⟨S256, .f32⟩ : BufTy).Contents (Elt F)) : (⟨S65536x256, .f32⟩ : BufTy).Contents (Elt F) :=
  readout w (walkFeatures e) (gatherRows tab e) b

end Cert.ReferenceIdeal.HostRun

end
-- ==== Proof.CallsHost.lean ====
/-
  The host operations around the two kernel calls, read as terms of the launch memory.

  Before call 0 the host builds, from the edge list, the in-degree of every node clipped to 0 … 255 and the directed
  adjacency tensor (a one at (graph, source, destination) of every edge); these are the same operations, in the same
  order, as the reference program's, so each array is the reference's own function of the edge list. Between the calls
  every graph's 8 × 256 matrix of return probabilities is transposed and the 256 graphs are stacked node-major into one
  65536 × 8 matrix (row 256 g + v, column k is entry (g, k, v)), and the projection weights are transposed. The degree
  table and the bias reach call 1 as launched.
-/
import proofs.«146736_j68667937129202_2_alg».proof.Proof.CallsRun
import proofs.«146736_j68667937129202_2_alg».proof.Proof.ReferenceTerm
import Idealize.ShloMosaic.Lib.Pipeline.Value
import Idealize.ShloMosaic.Lib.ValueIdx
import Idealize.ShloMosaic.Lib.ValueLayout

set_option maxRecDepth 16384

noncomputable section

namespace Cert.KernelIdeal.TwoCalls

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-! ## Between the calls -/

section Between

variable (outs : Outs (F := F))

/-- Between the calls the return probabilities are laid out node-major: every graph's 8 × 256 matrix is transposed and
    the 256 graphs' 256 × 8 matrices are stacked into one 65536 × 8 matrix. -/
theorem V11_v45 (c : Dev nD) : (V11 m outs c main_v45 : Vec F S65536x8 .f32)
    = shapeCast S65536x8 (transpose S256x256x8 [0, 2, 1] (V10 m outs c main_v43 : Vec F S256x8x256 .f32)
        transposes_S256x8x256_S256x256x8_0_2_1) shapeCasts_S256x256x8_S65536x8 := by
  show StableHlo.after hostOps1 (V10 m outs c) (Proc.devRef .tc main_v45) = _
  after_results
  rfl

/-- Row r = 256 g + v of that matrix at walk length k is entry (g, k, v) of call 0's output array. -/
theorem V11_v45_apply (c : Dev nD) (r : Fin 65536) (k : Fin 8) :
    (V11 m outs c main_v45 : Vec F S65536x8 .f32) (ix2 r k)
      = (V10 m outs c main_v43 : Vec F S256x8x256 .f32)
          (ix3 (⟨r.val / 256, by have := r.isLt; omega⟩ : Fin 256) k (⟨r.val % 256, Nat.mod_lt _ (by decide)⟩ : Fin 256)) := by
  rw [V11_v45]
  refine (shapeCast_apply _ shapeCasts_S256x256x8_S65536x8 (ix2 r k)
    (ix3 (⟨r.val / 256, by have := r.isLt; omega⟩ : Fin 256) (⟨r.val % 256, Nat.mod_lt _ (by decide)⟩ : Fin 256) k) ?_).trans ?_
  · rw [Shape.rowMajor_val_three, Shape.rowMajor_val_two]
    show (r.val / 256 * 256 + r.val % 256) * 8 + k.val = r.val * 8 + k.val
    omega
  · exact transpose_ix3_021_apply _ _ _ _ _

/-- No host stretch and no call writes the weight argument before the transpose reads it. -/
theorem V10_arg4 (c : Dev nD) : V10 m outs c main_arg4 = m (c, main_arg4) :=
  (V10_of m outs c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans rfl

/-- The projection weights are transposed before call 1. -/
theorem V11_v46 (c : Dev nD) : (V11 m outs c main_v46 : Vec F S8x256 .f32)
    = transpose S8x256 [1, 0] (m (c, main_arg4) : Vec F S256x8 .f32) transposes_S256x8_S8x256_1_0 := by
  show StableHlo.after hostOps1 (V10 m outs c) (Proc.devRef .tc main_v46) = _
  after_results
  rw [V10_arg4]

/-- Entry (k, h) of the transposed weights is entry (h, k) of the weight argument. -/
theorem V11_v46_apply (c : Dev nD) (k : Fin 8) (h : Fin 256) :
    (V11 m outs c main_v46 : Vec F S8x256 .f32) (ix2 k h) = (m (c, main_arg4) : Vec F S256x8 .f32) (ix2 h k) := by
  rw [V11_v46]
  exact transpose_ix2_apply _ _ _ _

/-- The degree table and the bias reach call 1 as launched; the clipped in-degrees as the second host stretch left them. -/
theorem V11_arg3 (c : Dev nD) : V11 m outs c main_arg3 = m (c, main_arg3) :=
  (V11_of m outs c main_arg3 (by decide)).trans <| (V10_of m outs c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans rfl
theorem V11_arg5 (c : Dev nD) : V11 m outs c main_arg5 = m (c, main_arg5) :=
  (V11_of m outs c main_arg5 (by decide)).trans <| (V10_of m outs c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans rfl
theorem V11_v11 (c : Dev nD) : V11 m outs c main_v11 = V2 m c main_v11 :=
  (V11_of m outs c main_v11 (by decide)).trans <| (V10_of m outs c main_v11 (by decide)).trans <| (V9_of m c main_v11 (by decide)).trans <| (V8_of m c main_v11 (by decide)).trans <| (V7_of m c main_v11 (by decide)).trans <| (V6_of m c main_v11 (by decide)).trans <| (V5_of m c main_v11 (by decide)).trans <| (V4_of m c main_v11 (by decide)).trans <| (V3_of m c main_v11 (by decide)).trans rfl

end Between

/-! ## What call 1 finds, in terms of what call 0 left and of the launch memory -/

/-- Call 1 finds call 0's output array where call 0 left it. -/
theorem V10_outs10_v43 (c : Dev nD) : V10 m (outs10 m) c main_v43 = left0 m c := by
  rw [V10_outs10]; exact Function.update_self ..

/-- Row r = 256 g + v, column k of the return probabilities call 1 reads is entry (g, k, v) of what call 0 left. -/
theorem host_walk_apply (c : Dev nD) (r : Fin 65536) (k : Fin 8) :
    (entry1 m c main_v45 : Vec F S65536x8 .f32) (ix2 r k)
      = (left0 m c : Vec F S256x8x256 .f32)
          (ix3 (⟨r.val / 256, by have := r.isLt; omega⟩ : Fin 256) k (⟨r.val % 256, Nat.mod_lt _ (by decide)⟩ : Fin 256)) := by
  show (V11 m (outs10 m) c main_v45 : Vec F S65536x8 .f32) (ix2 r k) = _
  rw [V11_v45_apply, V10_outs10_v43]

/-- Entry (k, h) of the weights call 1 reads is entry (h, k) of the weight argument. -/
theorem host_wT_apply (c : Dev nD) (k : Fin 8) (h : Fin 256) :
    (entry1 m c main_v46 : Vec F S8x256 .f32) (ix2 k h) = (m ((c : Thread nD τ).loc main_arg4) : Vec F S256x8 .f32) (ix2 h k) :=
  V11_v46_apply m (outs10 m) c k h

/-- Call 1 reads the degree table and the bias as launched. -/
theorem host_tab (c : Dev nD) : entry1 m c main_arg3 = m ((c : Thread nD τ).loc main_arg3) := V11_arg3 m (outs10 m) c
theorem host_bias (c : Dev nD) : entry1 m c main_arg5 = m ((c : Thread nD τ).loc main_arg5) := V11_arg5 m (outs10 m) c

/-! ## Before call 0: the clipped in-degrees -/

/-- The clip stretch as a term: the count `d` clamped between the bound `lo` below and the bound `hi` above. -/
def clipTerm (hi lo : (⟨S_, .i32⟩ : BufTy).Contents (Elt F)) (d : (⟨S65536, .i32⟩ : BufTy).Contents (Elt F)) :
    (⟨S65536, .i32⟩ : BufTy).Contents (Elt F) :=
  minsi ((broadcastInDim S65536 ![] bcast_S_S65536) (id hi)) (maxsi ((broadcastInDim S65536 ![] bcast_S_S65536) (id lo)) d)

set_option maxHeartbeats 1000000 in
/-- What the clip stretch leaves in the clipped in-degrees, over any contents it finds. -/
theorem clip_val (W : Valuation τ sig (Elt F)) :
    StableHlo.after hostOps0_1 W (Proc.devRef .tc main_v11)
      = clipTerm (W (Proc.devRef .tc main_c_4)) (W (Proc.devRef .tc main_c_3)) (W (Proc.devRef .tc main_v10)) := by
  after_results <;> rfl

set_option maxHeartbeats 1000000 in
/-- The first host stretch leaves the upper bound 255 … -/
theorem const_hi (W : Valuation τ sig (Elt F)) :
    StableHlo.after hostOps0 W (Proc.devRef .tc main_c_4) = (constantI S_ 32 255#32 : (⟨S_, .i32⟩ : BufTy).Contents (Elt F)) := by
  after_results <;> rfl

set_option maxHeartbeats 1000000 in
/-- … the lower bound 0 … -/
theorem const_lo (W : Valuation τ sig (Elt F)) :
    StableHlo.after hostOps0 W (Proc.devRef .tc main_c_3) = (constantI S_ 32 0#32 : (⟨S_, .i32⟩ : BufTy).Contents (Elt F)) := by
  after_results <;> rfl

set_option maxHeartbeats 2000000 in
/-- … and the raw in-degree count of the edge list it finds: the reference's own count, the same operations in the same order. -/
theorem raw_val (W : Valuation τ sig (Elt F)) :
    StableHlo.after hostOps0 W (Proc.devRef .tc main_v10) = Cert.ReferenceIdeal.HostRun.rawInDegree (W (Proc.devRef .tc main_arg1)) := by
  after_results <;> rfl

/-- The edge list reaches every host stretch as launched. -/
theorem V0_arg1 (c : Dev nD) : V0 m c (Proc.devRef .tc main_arg1) = m ((c : Thread nD τ).loc main_arg1) := rfl

/-- Call 1 reads the reference's clipped in-degrees of the edge list: the count of the first host stretch, clamped by the
    second, untouched since. -/
theorem host_deg (c : Dev nD) :
    entry1 m c main_v11 = Cert.ReferenceIdeal.HostRun.inDegree (m ((c : Thread nD τ).loc main_arg1)) := by
  refine (V11_v11 m (outs10 m) c).trans ?_
  refine (clip_val (V1 m c)).trans ?_
  have h4 : V1 m c (Proc.devRef .tc main_c_4) = (constantI S_ 32 255#32 : (⟨S_, .i32⟩ : BufTy).Contents (Elt F)) := const_hi (V0 m c)
  have h3 : V1 m c (Proc.devRef .tc main_c_3) = (constantI S_ 32 0#32 : (⟨S_, .i32⟩ : BufTy).Contents (Elt F)) := const_lo (V0 m c)
  have h10 : V1 m c (Proc.devRef .tc main_v10) = Cert.ReferenceIdeal.HostRun.rawInDegree (m ((c : Thread nD τ).loc main_arg1)) := raw_val (V0 m c)
  rw [h4, h3, h10]
  rfl

end Cert.KernelIdeal.TwoCalls

end
-- ==== Proof.CallsHostAdj.lean ====
/-
  The adjacency tensor call 0 reads, as the reference's own function of the edge list.

  Before call 0 the host computes, for every edge, its graph number (the floor of its source node by 256), its source
  and its destination inside the graph (the node numbers modulo 256), wraps each as an index into an axis of length 256,
  stacks the three into one index triple per edge and writes a one at every triple of the zero 256 × 256 × 256 tensor.
  These are the reference program's operations in the reference program's order, so each stretch leaves the reference's
  own term of what it finds, and the tensor is the reference's adjacency of the edge list.
-/
import proofs.«146736_j68667937129202_2_alg».proof.Proof.CallsRun
import proofs.«146736_j68667937129202_2_alg».proof.Proof.ReferenceTerm
import Idealize.ShloMosaic.Lib.Pipeline.Value
import Idealize.ShloMosaic.Lib.ValueIdx
import Idealize.ShloMosaic.Lib.ValueLayout

set_option maxRecDepth 16384

noncomputable section

namespace Cert.KernelIdeal.TwoCalls

open Cert.KernelIdeal Cert.KernelIdeal.Gen
open Idealize.ShloMosaic Idealize.ShloMosaic.TcCoe Idealize.ShloMosaic.ValueIdx
open Idealize.SL.Sem

variable {F : FTy → Type} [FloatOps F]
variable (m : (ℓ : Loc nD τ sig) → Buf (Elt F) ℓ)

/-! ## Before call 0: the adjacency tensor -/

section Adjacency

open Idealize.ShloMosaic.StableHlo

/-- Two host stretches one after the other are one stretch. -/
theorem after_two (l₁ l₂ : List (HloOp τ sig (Elt F))) (W : Valuation τ sig (Elt F)) :
    after l₂ (after l₁ W) = after (l₁ ++ l₂) W := by
  induction l₁ generalizing W with
  | nil => rfl
  | cons op l ih => rw [List.cons_append, after_cons, after_cons, ih]

/-- A three-operand operation's result with each operand's contents at its own reference. -/
theorem nary3_result {x a b y : Ref sig .tc}
    (f : ((k : Fin 3) → ((![x, a, b] : Fin 3 → Ref sig .tc) k).ty.Contents (Elt F)) → y.ty.Contents (Elt F)) (hxs hy)
    (W : Valuation τ sig (Elt F)) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

/-- The fold at one reference, computed: each operation's result at its own buffer is its function's value, at any
    other reference what was there. -/
local macro "fold_results" : tactic =>
  `(tactic| (simp only [after_cons, after_nil]
             repeat (first
               | rw [nullary_result] | rw [unary_result] | rw [binary_result] | rw [ternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

set_option maxHeartbeats 4000000 in
/-- The third and fourth host stretches leave each edge's graph number before wrapping: the floor of its source node by 256. -/
theorem graph_val (W : Valuation τ sig (Elt F)) :
    after hostOps0_3 (after hostOps0_2 W) (Proc.devRef .tc main_v14)
      = Cert.ReferenceIdeal.HostRun.floorDiv256 (Cert.ReferenceIdeal.HostRun.edgeRow0 (W (Proc.devRef .tc main_arg1))) := by
  rw [after_two]
  dsimp only [hostOps0_2, hostOps0_3, List.cons_append, List.nil_append]
  fold_results <;> rfl

set_option maxHeartbeats 4000000 in
/-- The fifth and sixth leave each edge's source node inside its graph before wrapping: its source node modulo 256. -/
theorem src_val (W : Valuation τ sig (Elt F)) :
    after hostOps0_5 (after hostOps0_4 W) (Proc.devRef .tc main_v17)
      = Cert.ReferenceIdeal.HostRun.floorMod256 (Cert.ReferenceIdeal.HostRun.edgeRow0 (W (Proc.devRef .tc main_arg1))) := by
  rw [after_two]
  dsimp only [hostOps0_4, hostOps0_5, List.cons_append, List.nil_append]
  fold_results <;> rfl

set_option maxHeartbeats 4000000 in
/-- The seventh and eighth leave each edge's destination node inside its graph before wrapping: its destination node modulo 256. -/
theorem dst_val (W : Valuation τ sig (Elt F)) :
    after hostOps0_7 (after hostOps0_6 W) (Proc.devRef .tc main_v20)
      = Cert.ReferenceIdeal.HostRun.floorMod256 (Cert.ReferenceIdeal.HostRun.edgeRow1 (W (Proc.devRef .tc main_arg1))) := by
  rw [after_two]
  dsimp only [hostOps0_6, hostOps0_7, List.cons_append, List.nil_append]
  fold_results <;> rfl

set_option maxHeartbeats 8000000 in
/-- The ninth wraps the three index vectors it finds, stacks them into one triple per edge and writes a one at every
    triple of the zero tensor. -/
theorem scatter_val (W : Valuation τ sig (Elt F)) :
    after hostOps0_8 W (Proc.devRef .tc main_v42)
      = Cert.ReferenceIdeal.HostRun.scatterOnes Cert.ReferenceIdeal.HostRun.zeroAdj
          (Cert.ReferenceIdeal.HostRun.edgeTriples
            (Cert.ReferenceIdeal.HostRun.wrapIndex256 (W (Proc.devRef .tc main_v14)))
            (Cert.ReferenceIdeal.HostRun.wrapIndex256 (W (Proc.devRef .tc main_v17)))
            (Cert.ReferenceIdeal.HostRun.wrapIndex256 (W (Proc.devRef .tc main_v20)))) := by
  dsimp only [hostOps0_8]
  fold_results <;> rfl

end Adjacency

/-- The edge list is as launched when each stretch reads it. -/
theorem V2_arg1 (c : Dev nD) : V2 m c (Proc.devRef .tc main_arg1) = m ((c : Thread nD τ).loc main_arg1) :=
  (V2_of m c main_arg1 (by decide)).trans <| (V1_of m c main_arg1 (by decide)).trans rfl
theorem V4_arg1 (c : Dev nD) : V4 m c (Proc.devRef .tc main_arg1) = m ((c : Thread nD τ).loc main_arg1) :=
  (V4_of m c main_arg1 (by decide)).trans <| (V3_of m c main_arg1 (by decide)).trans (V2_arg1 m c)
theorem V6_arg1 (c : Dev nD) : V6 m c (Proc.devRef .tc main_arg1) = m ((c : Thread nD τ).loc main_arg1) :=
  (V6_of m c main_arg1 (by decide)).trans <| (V5_of m c main_arg1 (by decide)).trans (V4_arg1 m c)

/-- Call 0 reads the reference's adjacency tensor of the edge list: the graph, source and destination index of every edge
    computed by the host stretches before it, each untouched until the scatter reads it. -/
theorem host_adj (c : Dev nD) :
    entry0 m c main_v42 = Cert.ReferenceIdeal.HostRun.adjacency (m ((c : Thread nD τ).loc main_arg1)) := by
  refine (scatter_val (V8 m c)).trans ?_
  have hg : V8 m c (Proc.devRef .tc main_v14)
      = Cert.ReferenceIdeal.HostRun.floorDiv256 (Cert.ReferenceIdeal.HostRun.edgeRow0 (m ((c : Thread nD τ).loc main_arg1))) :=
    (V8_of m c main_v14 (by decide)).trans <| (V7_of m c main_v14 (by decide)).trans <| (V6_of m c main_v14 (by decide)).trans <|
      (V5_of m c main_v14 (by decide)).trans <| (graph_val (V2 m c)).trans (by rw [V2_arg1])
  have hs : V8 m c (Proc.devRef .tc main_v17)
      = Cert.ReferenceIdeal.HostRun.floorMod256 (Cert.ReferenceIdeal.HostRun.edgeRow0 (m ((c : Thread nD τ).loc main_arg1))) :=
    (V8_of m c main_v17 (by decide)).trans <| (V7_of m c main_v17 (by decide)).trans <| (src_val (V4 m c)).trans (by rw [V4_arg1])
  have hd : V8 m c (Proc.devRef .tc main_v20)
      = Cert.ReferenceIdeal.HostRun.floorMod256 (Cert.ReferenceIdeal.HostRun.edgeRow1 (m ((c : Thread nD τ).loc main_arg1))) :=
    (dst_val (V6 m c)).trans (by rw [V6_arg1])
  rw [hg, hs, hd]
  rfl

end Cert.KernelIdeal.TwoCalls

end
-- ==== Proof.CallsValue.lean ====
/-
  The two kernel calls' output arrays after the run, in closed form, and the host operations around the calls read as
  terms.

  Call 0 visits 32 blocks of eight graphs; the block at point t is graphs 8t … 8t+7 of the adjacency array, and what the
  point writes back is rows 8t … 8t+7 of the array of return probabilities. The blocks tile the output array (graph g
  lies in block g / 8), so after the call the array is ONE function of the adjacency array: entry (g, k, v) is the
  body's result for the block of eight graphs containing g, read at (g mod 8, k, v).

  Call 1 visits 16 tiles of 4096 nodes; the tile at point t is nodes 4096t … 4096t+4095 of the degree vector and of the
  return-probability matrix, while the table, the weights and the bias are whole at every point. The tiles cover the
  65536 nodes (node r lies in tile r / 4096), so after the call entry (r, h) of the result is the body's result for the
  tile containing r, read at (r mod 4096, h).
-/
import proofs.«146736_j68667937129202_2_alg».proof.Proof.Calls
import Idealize.ShloMosaic.Lib.Pipeline.Value
import Idealize.ShloMosaic.Lib.ValueIdx

set_option maxRecDepth 16384

noncomputable section

namespace Cert.KernelIdeal.TwoCalls

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F]
variable (V : (c : Dev nD) → (b : Ref sig .tc) → Buf (Elt F) ((c : Thread nD τ).loc b))

/-! ## Call 0: the array of return probabilities -/

/-- The zero offsets of a rank-3 whole-buffer rectangle, as the constant function. -/
theorem zeros3 : (![0, 0, 0] : Fin 3 → Nat) = fun _ => 0 := funext fun a => by fin_cases a <;> rfl

/-- The return probabilities of all 256 graphs as one function of the adjacency array `A`: entry (g, k, v) is the
    body's eight rows for the block of eight graphs 8⌊g/8⌋ … 8⌊g/8⌋+7, read at graph g mod 8, walk length k, node v. -/
def retArray (A : Vec F S256x256x256 .f32) : Vec F S256x8x256 .f32 := fun i =>
  retRows (fun y : S8x256x256.Idx => A (ix3 (⟨8 * ((i 0).val / 8) + (y 0).val, by
      have hi : (i 0).val < 256 := (i 0).isLt
      have hy : (y 0).val < 8 := (y 0).isLt
      omega⟩ : Fin 256) (y 1 : Fin 256) (y 2 : Fin 256)))
    (ix3 (⟨(i 0).val % 8, Nat.mod_lt _ (by decide)⟩ : Fin 8) (i 1 : Fin 8) (i 2 : Fin 256))

/-- The two index maps of call 0 over its 32 points: both windows' block index is (t, 0, 0). -/
theorem idx_facts0 : ∀ t : Fin cfg0.N, win0_0.index t (0 : Fin 3) = t.val
    ∧ win0_0.index t (1 : Fin 3) = 0 ∧ win0_0.index t (2 : Fin 3) = 0
    ∧ win0_1.index t (0 : Fin 3) = t.val
    ∧ win0_1.index t (1 : Fin 3) = 0 ∧ win0_1.index t (2 : Fin 3) = 0 :=
  (by decide +kernel : ∀ t : Fin grid0.N, _)

/-- Call 0 has 32 points. -/
theorem lt_N0 (t : Fin cfg0.N) : t.val < 32 := Nat.lt_of_lt_of_eq t.isLt N_0

/-- The input block of call 0 at point `t`, read off any contents `A` of the adjacency array: graphs 8t … 8t+7. -/
theorem blk_read0 (A : Vec F S256x256x256 .f32) (t : Fin cfg0.N) (y : S8x256x256.Idx) :
    ((cfg0.win 0).blk t).view.read (Elt F) A y
      = A (ix3 (⟨8 * t.val + (y 0).val, by have := lt_N0 t; have : (y 0).val < 8 := (y 0).isLt; omega⟩ : Fin 256) (y 1 : Fin 256) (y 2 : Fin 256)) := by
  obtain ⟨e0, e1, e2, e3, e4, e5⟩ := idx_facts0 t
  show A (((cfg0.win 0).blk t).view.emb y) = A _
  refine congrArg A (funext fun a => Fin.ext ?_)
  match a with
  | ⟨0, _⟩ => show win0_0.index t (0 : Fin 3) * 8 + 1 * (y 0).val = 8 * t.val + (y 0).val; omega
  | ⟨1, _⟩ => show win0_0.index t (1 : Fin 3) * 256 + 1 * (y 1).val = (y 1).val; omega
  | ⟨2, _⟩ => show win0_0.index t (2 : Fin 3) * 256 + 1 * (y 2).val = (y 2).val; omega

/-- Contents `R` of the output block are block `t` of an array `G` as soon as they agree with `G` on rows 8t … 8t+7. -/
theorem cut_eq_read0 (t : Fin cfg0.N) (R : Vec F S8x8x256 .f32) (G : Vec F S256x8x256 .f32)
    (h : ∀ j : S8x8x256.Idx, R j = G (ix3 (⟨8 * t.val + (j 0).val, by have := lt_N0 t; have : (j 0).val < 8 := (j 0).isLt; omega⟩ : Fin 256) (j 1 : Fin 8) (j 2 : Fin 256))) :
    (cfg0.win 1).cut (grid0.coords t) R = ((cfg0.win 1).blk t).view.read (Elt F) G := by
  obtain ⟨e0, e1, e2, e3, e4, e5⟩ := idx_facts0 t
  funext j
  show R j = G (((cfg0.win 1).blk t).view.emb j)
  rw [h j]
  refine congrArg G (funext fun a => Fin.ext ?_)
  match a with
  | ⟨0, _⟩ => show 8 * t.val + (j 0).val = win0_1.index t (0 : Fin 3) * 8 + 1 * (j 0).val; omega
  | ⟨1, _⟩ => show (j 1).val = win0_1.index t (1 : Fin 3) * 8 + 1 * (j 1).val; omega
  | ⟨2, _⟩ => show (j 2).val = win0_1.index t (2 : Fin 3) * 256 + 1 * (j 2).val; omega

/-- The body's result at equal blocks and equal indices. -/
theorem retRows_congr (a a' : Vec F S8x256x256 .f32) (j j' : S8x8x256.Idx) (ha : a = a') (hj : j = j') :
    retRows a j = retRows a' j' := by subst ha; subst hj; rfl

/-- What point `t` of call 0 writes back is block `t` of the array of return probabilities: for a row 8t + j₀ the block of
    eight graphs containing it is the point's own input block, and its position inside is j₀. -/
theorem ret_flushed (c : Dev nD) (t : Fin cfg0.N) :
    (dat0 V c).flushed 1 t = ((cfg0.win 1).blk t).view.read (Elt F) (retArray (V c main_v42)) := by
  show (cfg0.win 1).cut (grid0.coords t) ((dat0 V c).after 1 t) = _
  rw [after0_1]
  unfold out0
  rw [View.canon_unit_zero zeros3]
  simp only [View.ld_unit_zero (S := S8x256x256) zeros3]
  refine cut_eq_read0 t _ _ (fun j => ?_)
  have hj : (j 0).val < 8 := (j 0).isLt
  unfold retArray
  refine retRows_congr _ _ _ _ (funext fun y => ?_) ?_
  · refine (blk_read0 (V c main_v42) t y).trans (congrArg (V c main_v42) (funext fun a => Fin.ext ?_))
    match a with
    | ⟨0, _⟩ => show 8 * t.val + (y 0).val = 8 * ((8 * t.val + (j 0).val) / 8) + (y 0).val; omega
    | ⟨1, _⟩ => rfl
    | ⟨2, _⟩ => rfl
  · funext a; apply Fin.ext
    match a with
    | ⟨0, _⟩ => show (j 0).val = (8 * t.val + (j 0).val) % 8; omega
    | ⟨1, _⟩ => rfl
    | ⟨2, _⟩ => rfl

/-- An index of the output array lies in point `t`'s block iff each coordinate lies in the block's range on its axis. -/
theorem mem_blk0 (t : Fin cfg0.N) (i : S256x8x256.Idx) :
    i ∈ ((cfg0.win 1).blk t).view.set ↔ ∀ a : Fin 3, win0_1.index t a * S8x8x256.size a ≤ (i a).val ∧ (i a).val < win0_1.index t a * S8x8x256.size a + S8x8x256.size a := by
  show i ∈ ((View.whole main_v43).slice (win0_1.rect t)).set ↔ _
  rw [View.set_slice_whole, Rect.mem_set_unit]
  exact Iff.rfl

/-- The 32 blocks of eight graphs tile the output array: graph g lies in block g / 8. -/
theorem ret_cover (i : S256x8x256.Idx) : ∃ t : Fin cfg0.N, (cfg0.win 1).flush t = true ∧ i ∈ ((cfg0.win 1).blk t).view.set := by
  have hi0 : (i 0).val < 256 := (i 0).isLt
  have hi1 : (i 1).val < 8 := (i 1).isLt
  have hi2 : (i 2).val < 256 := (i 2).isLt
  let t : Fin cfg0.N := ⟨(i 0).val / 8, Nat.lt_of_lt_of_eq (by omega : (i 0).val / 8 < 32) N_0.symm⟩
  obtain ⟨e0, e1, e2, e3, e4, e5⟩ := idx_facts0 t
  have e3' : win0_1.index t (0 : Fin 3) = (i 0).val / 8 := e3
  refine ⟨t, flush0_1 t, ?_⟩
  rw [mem_blk0]
  intro a
  match a with
  | ⟨0, _⟩ => show win0_1.index t (0 : Fin 3) * 8 ≤ (i 0).val ∧ (i 0).val < win0_1.index t (0 : Fin 3) * 8 + 8; omega
  | ⟨1, _⟩ => show win0_1.index t (1 : Fin 3) * 8 ≤ (i 1).val ∧ (i 1).val < win0_1.index t (1 : Fin 3) * 8 + 8; omega
  | ⟨2, _⟩ => show win0_1.index t (2 : Fin 3) * 256 ≤ (i 2).val ∧ (i 2).val < win0_1.index t (2 : Fin 3) * 256 + 256; omega

/-- After call 0 the output array holds the return probabilities of every graph, as one function of the adjacency
    array the call found. -/
theorem ret_final (c : Dev nD) : (dat0 V c).arrAt 1 cfg0.N = retArray (V c main_v42) :=
  (dat0 V c).arrAt_eq_of_cover 1 (retArray (V c main_v42)) (fun t _ => ret_flushed V c t) ret_cover

/-! ## Call 1: the embedding of all 65536 nodes -/

/-- The zero offsets of the rank-1 and rank-2 whole-buffer rectangles, as the constant function. -/
theorem zeros1 : (![0] : Fin 1 → Nat) = fun _ => 0 := funext fun a => by fin_cases a; rfl
theorem zeros2 : (![0, 0] : Fin 2 → Nat) = fun _ => 0 := funext fun a => by fin_cases a <;> rfl

/-- The result of call 1 as one function of the five arrays it reads: entry (r, h) is the body's result for the tile of
    4096 nodes 4096⌊r/4096⌋ … 4096⌊r/4096⌋+4095 — that tile of the clipped in-degrees `d` and of the return
    probabilities `wk`, with the whole degree table `tab`, transposed weights `wT` and bias — read at (r mod 4096, h). -/
def embArray (d : IVec S65536 32) (wk : Vec F S65536x8 .f32) (tab : Vec F S256x256 .f32) (wT : Vec F S8x256 .f32)
    (bias : Vec F S256 .f32) : Vec F S65536x256 .f32 := fun i =>
  k1_pay1 (F := F)
    (fun y : S4096.Idx => d (ix1 (⟨4096 * ((i 0).val / 4096) + (y 0).val, by
      have hi : (i 0).val < 65536 := (i 0).isLt
      have hy : (y 0).val < 4096 := (y 0).isLt
      omega⟩ : Fin 65536)))
    tab
    (fun y : S4096x8.Idx => wk (ix2 (⟨4096 * ((i 0).val / 4096) + (y 0).val, by
      have hi : (i 0).val < 65536 := (i 0).isLt
      have hy : (y 0).val < 4096 := (y 0).isLt
      omega⟩ : Fin 65536) (y 1 : Fin 8)))
    wT bias
    (ix2 (⟨(i 0).val % 4096, Nat.mod_lt _ (by decide)⟩ : Fin 4096) (i 1 : Fin 256))

/-- The six index maps of call 1 over its 16 points: the degree, return-probability and result windows' block index is
    t on the node axis and 0 elsewhere; the table's, the weights' and the bias's is 0 on every axis. -/
theorem idx_facts1 : ∀ t : Fin cfg1.N, win1_0.index t (0 : Fin 1) = t.val
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Call 1 has 16 points. -/
theorem lt_N1 (t : Fin cfg1.N) : t.val < 16 := Nat.lt_of_lt_of_eq t.isLt N_1

/-- The degree window's block at point `t`, read off any contents `D`: nodes 4096t … 4096t+4095. -/
theorem blk_read1_0 (D : IVec S65536 32) (t : Fin cfg1.N) (y : S4096.Idx) :
    ((cfg1.win 0).blk t).view.read (Elt F) D y
      = D (ix1 (⟨4096 * t.val + (y 0).val, by have := lt_N1 t; have : (y 0).val < 4096 := (y 0).isLt; omega⟩ : Fin 65536)) := by
  obtain ⟨e0, -⟩ := idx_facts1 t
  show D (((cfg1.win 0).blk t).view.emb y) = D _
  refine congrArg D (funext fun a => Fin.ext ?_)
  match a with
  | ⟨0, _⟩ => show win1_0.index t (0 : Fin 1) * 4096 + 1 * (y 0).val = 4096 * t.val + (y 0).val; omega

/-- The return-probability window's block at point `t`, read off any contents `W`: rows 4096t … 4096t+4095. -/
theorem blk_read1_1 (W : Vec F S65536x8 .f32) (t : Fin cfg1.N) (y : S4096x8.Idx) :
    ((cfg1.win 1).blk t).view.read (Elt F) W y
      = W (ix2 (⟨4096 * t.val + (y 0).val, by have := lt_N1 t; have : (y 0).val < 4096 := (y 0).isLt; omega⟩ : Fin 65536) (y 1 : Fin 8)) := by
  obtain ⟨-, e1, e2, -⟩ := idx_facts1 t
  show W (((cfg1.win 1).blk t).view.emb y) = W _
  refine congrArg W (funext fun a => Fin.ext ?_)
  match a with
  | ⟨0, _⟩ => show win1_1.index t (0 : Fin 2) * 4096 + 1 * (y 0).val = 4096 * t.val + (y 0).val; omega
  | ⟨1, _⟩ => show win1_1.index t (1 : Fin 2) * 8 + 1 * (y 1).val = (y 1).val; omega

/-- The table window's block is the whole table at every point. -/
theorem blk_read1_2 (T : Vec F S256x256 .f32) (t : Fin cfg1.N) : ((cfg1.win 2).blk t).view.read (Elt F) T = T := by
  obtain ⟨-, -, -, e3, e4, -⟩ := idx_facts1 t
  funext y
  show T (((cfg1.win 2).blk t).view.emb y) = T y
  refine congrArg T (funext fun a => Fin.ext ?_)
  match a with
  | ⟨0, _⟩ => show win1_2.index t (0 : Fin 2) * 256 + 1 * (y 0).val = (y 0).val; omega
  | ⟨1, _⟩ => show win1_2.index t (1 : Fin 2) * 256 + 1 * (y 1).val = (y 1).val; omega

/-- The weight window's block is the whole transposed weight matrix at every point. -/
theorem blk_read1_3 (T : Vec F S8x256 .f32) (t : Fin cfg1.N) : ((cfg1.win 3).blk t).view.read (Elt F) T = T := by
  obtain ⟨-, -, -, -, -, e5, e6, -⟩ := idx_facts1 t
  funext y
  show T (((cfg1.win 3).blk t).view.emb y) = T y
  refine congrArg T (funext fun a => Fin.ext ?_)
  match a with
  | ⟨0, _⟩ => show win1_3.index t (0 : Fin 2) * 8 + 1 * (y 0).val = (y 0).val; omega
  | ⟨1, _⟩ => show win1_3.index t (1 : Fin 2) * 256 + 1 * (y 1).val = (y 1).val; omega

/-- The bias window's block is the whole bias at every point. -/
theorem blk_read1_4 (T : Vec F S256 .f32) (t : Fin cfg1.N) : ((cfg1.win 4).blk t).view.read (Elt F) T = T := by
  obtain ⟨-, -, -, -, -, -, -, e7, -⟩ := idx_facts1 t
  funext y
  show T (((cfg1.win 4).blk t).view.emb y) = T y
  refine congrArg T (funext fun a => Fin.ext ?_)
  match a with
  | ⟨0, _⟩ => show win1_4.index t (0 : Fin 1) * 256 + 1 * (y 0).val = (y 0).val; omega

/-- Contents `R` of the result block are block `t` of an array `G` as soon as they agree with `G` on rows 4096t … 4096t+4095. -/
theorem cut_eq_read1 (t : Fin cfg1.N) (R : Vec F S4096x256 .f32) (G : Vec F S65536x256 .f32)
    (h : ∀ j : S4096x256.Idx, R j = G (ix2 (⟨4096 * t.val + (j 0).val, by have := lt_N1 t; have : (j 0).val < 4096 := (j 0).isLt; omega⟩ : Fin 65536) (j 1 : Fin 256))) :
    (cfg1.win 5).cut (grid1.coords t) R = ((cfg1.win 5).blk t).view.read (Elt F) G := by
  obtain ⟨-, -, -, -, -, -, -, -, e8, e9⟩ := idx_facts1 t
  funext j
  show R j = G (((cfg1.win 5).blk t).view.emb j)
  rw [h j]
  refine congrArg G (funext fun a => Fin.ext ?_)
  match a with
  | ⟨0, _⟩ => show 4096 * t.val + (j 0).val = win1_5.index t (0 : Fin 2) * 4096 + 1 * (j 0).val; omega
  | ⟨1, _⟩ => show (j 1).val = win1_5.index t (1 : Fin 2) * 256 + 1 * (j 1).val; omega

/-- The body's result at equal inputs and equal indices. -/
theorem embTile_congr (d d' : Vec F S4096 .i32) (tab tab' : Vec F S256x256 .f32) (wk wk' : Vec F S4096x8 .f32)
    (wT wT' : Vec F S8x256 .f32) (b b' : Vec F S256 .f32) (j j' : S4096x256.Idx)
    (hd : d = d') (htab : tab = tab') (hwk : wk = wk') (hwT : wT = wT') (hb : b = b') (hj : j = j') :
    k1_pay1 d tab wk wT b j = k1_pay1 d' tab' wk' wT' b' j' := by
  subst hd; subst htab; subst hwk; subst hwT; subst hb; subst hj; rfl

/-- What point `t` of call 1 writes back is block `t` of the embedding array: for a row 4096t + j₀ the tile containing it
    is the point's own, and its position inside is j₀. -/
theorem emb_flushed (c : Dev nD) (t : Fin cfg1.N) :
    (dat1 V c).flushed 5 t = ((cfg1.win 5).blk t).view.read (Elt F)
      (embArray (V c main_v11) (V c main_v45) (V c main_arg3) (V c main_v46) (V c main_arg5)) := by
  show (cfg1.win 5).cut (grid1.coords t) ((dat1 V c).after 5 t) = _
  rw [after1_5]
  unfold out1
  rw [View.canon_unit_zero zeros2]
  simp only [View.ld_unit_zero (S := S4096) zeros1, View.ld_unit_zero (S := S256x256) zeros2,
    View.ld_unit_zero (S := S4096x8) zeros2, View.ld_unit_zero (S := S8x256) zeros2, View.ld_unit_zero (S := S256) zeros1]
  refine cut_eq_read1 t _ _ (fun j => ?_)
  have hj : (j 0).val < 4096 := (j 0).isLt
  unfold embArray
  refine embTile_congr _ _ _ _ _ _ _ _ _ _ _ _ (funext fun y => ?_) (blk_read1_2 (V c main_arg3) t) (funext fun y => ?_)
    (blk_read1_3 (V c main_v46) t) (blk_read1_4 (V c main_arg5) t) ?_
  · refine (blk_read1_0 (V c main_v11) t y).trans (congrArg (V c main_v11) (funext fun a => Fin.ext ?_))
    match a with
    | ⟨0, _⟩ => show 4096 * t.val + (y 0).val = 4096 * ((4096 * t.val + (j 0).val) / 4096) + (y 0).val; omega
  · refine (blk_read1_1 (V c main_v45) t y).trans (congrArg (V c main_v45) (funext fun a => Fin.ext ?_))
    match a with
    | ⟨0, _⟩ => show 4096 * t.val + (y 0).val = 4096 * ((4096 * t.val + (j 0).val) / 4096) + (y 0).val; omega
    | ⟨1, _⟩ => rfl
  · funext a; apply Fin.ext
    match a with
    | ⟨0, _⟩ => show (j 0).val = (4096 * t.val + (j 0).val) % 4096; omega
    | ⟨1, _⟩ => rfl

/-- An index of the result array lies in point `t`'s block iff each coordinate lies in the block's range on its axis. -/
theorem mem_blk1 (t : Fin cfg1.N) (i : S65536x256.Idx) :
    i ∈ ((cfg1.win 5).blk t).view.set ↔ ∀ a : Fin 2, win1_5.index t a * S4096x256.size a ≤ (i a).val ∧ (i a).val < win1_5.index t a * S4096x256.size a + S4096x256.size a := by
  show i ∈ ((View.whole main_v47).slice (win1_5.rect t)).set ↔ _
  rw [View.set_slice_whole, Rect.mem_set_unit]
  exact Iff.rfl

/-- The 16 tiles of 4096 nodes cover the result array: node r lies in tile r / 4096. -/
theorem emb_cover (i : S65536x256.Idx) : ∃ t : Fin cfg1.N, (cfg1.win 5).flush t = true ∧ i ∈ ((cfg1.win 5).blk t).view.set := by
  have hi0 : (i 0).val < 65536 := (i 0).isLt
  have hi1 : (i 1).val < 256 := (i 1).isLt
  let t : Fin cfg1.N := ⟨(i 0).val / 4096, Nat.lt_of_lt_of_eq (by omega : (i 0).val / 4096 < 16) N_1.symm⟩
  obtain ⟨-, -, -, -, -, -, -, -, e8, e9⟩ := idx_facts1 t
  have e8' : win1_5.index t (0 : Fin 2) = (i 0).val / 4096 := e8
  refine ⟨t, flush1_5 t, ?_⟩
  rw [mem_blk1]
  intro a
  match a with
  | ⟨0, _⟩ => show win1_5.index t (0 : Fin 2) * 4096 ≤ (i 0).val ∧ (i 0).val < win1_5.index t (0 : Fin 2) * 4096 + 4096; omega
  | ⟨1, _⟩ => show win1_5.index t (1 : Fin 2) * 256 ≤ (i 1).val ∧ (i 1).val < win1_5.index t (1 : Fin 2) * 256 + 256; omega

/-- After call 1 the result array holds the embedding of every node, as one function of the five arrays the call found. -/
theorem emb_final (c : Dev nD) : (dat1 V c).arrAt 5 cfg1.N
    = embArray (V c main_v11) (V c main_v45) (V c main_arg3) (V c main_v46) (V c main_arg5) :=
  (dat1 V c).arrAt_eq_of_cover 5 _ (fun t _ => emb_flushed V c t) emb_cover

end Cert.KernelIdeal.TwoCalls

end
-- ==== Proof.LibBlockLayout.lean ====
/-
  Layout operations on blocks of matrices, read at a block member, a row and a column.

  A block `[a, m, n]` is `a` matrices of `m` rows and `n` columns. Giving a `[a, n]` array a middle unit axis, or a
  matrix a leading one, changes no entry; spreading over an axis repeats the entries along it; the sum over the last
  axis is, per member and row, the sum of the row's entries; and eight `[a, 1, n]` pieces laid one after the other
  along the middle axis read, at middle coordinate `k`, piece `k`.
-/
import Idealize.ShloMosaic.PureOps.Ideal.Laws
import Idealize.ShloMosaic.Lib.ValueIdx
import Idealize.ShloMosaic.Lib.ValueLayout
import Idealize.ShloMosaic.Lib.Pipeline.Value

namespace Idealize.ShloMosaic.BlockLayout

open Idealize.ShloMosaic.ValueIdx

variable {α : Type}

/-- `[a, n] → [a, 1, n]`: the entry at `(p, u, c)` is the entry at `(p, c)`. -/
theorem shapeCast_ab_a1b_apply {a n : ℕ} (x : (⟨2, ![a, n]⟩ : Shape).Idx → α)
    (h : (⟨2, ![a, n]⟩ : Shape).ShapeCasts ⟨3, ![a, 1, n]⟩) (p : Fin a) (u : Fin 1) (c : Fin n) :
    shapeCast ⟨3, ![a, 1, n]⟩ x h (ix3 p u c) = x (ix2 p c) :=
  shapeCast_apply x h _ _ (by
    have hu : u.val = 0 := by omega
    rw [Shape.rowMajor_val_three, Shape.rowMajor_val_two]
    show p.val * n + c.val = (p.val * 1 + u.val) * n + c.val
    rw [hu, Nat.mul_one, Nat.add_zero])

/-- `[a, 1, n]` spread over `m` rows: the entry at `(p, i, c)` is the entry at `(p, 0, c)`. -/
theorem broadcastTo_a1b_amb_apply {a m n : ℕ} (v : (⟨3, ![a, 1, n]⟩ : Shape).Idx → α)
    (h : (⟨3, ![a, 1, n]⟩ : Shape).Broadcasts ⟨3, ![a, m, n]⟩) (p : Fin a) (i : Fin m) (c : Fin n) :
    broadcastTo ⟨3, ![a, m, n]⟩ v h (ix3 p i c) = v (ix3 p (0 : Fin 1) c) := by
  refine broadcastTo_apply v h (ix3 p i c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if n = 1 then 0 else c.val
    split
    · have := c.isLt; omega
    · rfl

/-- One matrix `[1, m, n]` spread over `a` members: the entry at `(p, i, c)` is the entry at `(0, i, c)`. -/
theorem broadcastTo_1mn_amn_apply {a m n : ℕ} (v : (⟨3, ![1, m, n]⟩ : Shape).Idx → α)
    (h : (⟨3, ![1, m, n]⟩ : Shape).Broadcasts ⟨3, ![a, m, n]⟩) (p : Fin a) (i : Fin m) (c : Fin n) :
    broadcastTo ⟨3, ![a, m, n]⟩ v h (ix3 p i c) = v (ix3 (0 : Fin 1) i c) := by
  refine broadcastTo_apply v h (ix3 p i c) (ix3 (0 : Fin 1) i c) fun ax => ?_
  match ax with
  | ⟨0, _⟩ => rfl
  | ⟨1, _⟩ =>
    show i.val = if m = 1 then 0 else i.val
    split
    · have := i.isLt; omega
    · rfl
  | ⟨2, _⟩ =>
    show c.val = if n = 1 then 0 else c.val
    split
    · have := c.isLt; omega
    · rfl

/-- The sum over the last axis of a block `[a, m, n]`, read at member `p` and row `i`, is the sum of that row's entries. -/
theorem lastAxisSum_apply {a m n : ℕ} (src : FVec Ideal ⟨3, ![a, m, n]⟩ .f32)
    (h : Shape.Reduces ⟨3, ![a, m, n]⟩ [(2 : Fin 3)] ⟨2, ![a, m]⟩) (hφ : FKind.Formats .f32)
    (hacc : (0x00000000#32 : BitVec 32) = FKind.add.neutral .f32 hφ) (p : Fin a) (i : Fin m) :
    multiReduction .add [(2 : Fin 3)] ⟨2, ![a, m]⟩ src 0x00000000#32 h hφ hacc (ix2 p i) = ∑ k : Fin n, src (ix3 p i k) :=
  (Ideal.multiReduction_add_single src 0x00000000#32 h hφ hacc (ix2 p i)).trans
    (Finset.sum_congr rfl fun k _ => congrArg src (funext fun d => Fin.ext (by
      match d with
      | ⟨0, _⟩ => rfl
      | ⟨1, _⟩ => rfl
      | ⟨2, _⟩ => rfl)))

/-- Eight `[a, 1, n]` pieces laid along the middle axis: at middle coordinate `k` the block reads piece `k`. -/
theorem concat8_mid_apply {a n : ℕ} (f : Fin 8 → ((⟨3, ![a, 1, n]⟩ : Shape).Idx → α))
    (h : Shape.Concatenates [(⟨3, ![a, 1, n]⟩ : Shape), ⟨3, ![a, 1, n]⟩, ⟨3, ![a, 1, n]⟩, ⟨3, ![a, 1, n]⟩, ⟨3, ![a, 1, n]⟩,
      ⟨3, ![a, 1, n]⟩, ⟨3, ![a, 1, n]⟩, ⟨3, ![a, 1, n]⟩] ⟨3, ![a, 8, n]⟩ 1) (p : Fin a) (k : Fin 8) (c : Fin n) :
    concatenate ⟨3, ![a, 8, n]⟩ 1 [⟨⟨3, ![a, 1, n]⟩, f 0⟩, ⟨⟨3, ![a, 1, n]⟩, f 1⟩, ⟨⟨3, ![a, 1, n]⟩, f 2⟩, ⟨⟨3, ![a, 1, n]⟩, f 3⟩,
      ⟨⟨3, ![a, 1, n]⟩, f 4⟩, ⟨⟨3, ![a, 1, n]⟩, f 5⟩, ⟨⟨3, ![a, 1, n]⟩, f 6⟩, ⟨⟨3, ![a, 1, n]⟩, f 7⟩] h (ix3 p k c)
      = f k (ix3 p (0 : Fin 1) c) := by
  have key : ∀ (kk : ℕ) (hk : kk < 8),
      concatenate ⟨3, ![a, 8, n]⟩ 1 [⟨⟨3, ![a, 1, n]⟩, f 0⟩, ⟨⟨3, ![a, 1, n]⟩, f 1⟩, ⟨⟨3, ![a, 1, n]⟩, f 2⟩, ⟨⟨3, ![a, 1, n]⟩, f 3⟩,
        ⟨⟨3, ![a, 1, n]⟩, f 4⟩, ⟨⟨3, ![a, 1, n]⟩, f 5⟩, ⟨⟨3, ![a, 1, n]⟩, f 6⟩, ⟨⟨3, ![a, 1, n]⟩, f 7⟩] h (ix3 p ⟨kk, hk⟩ c)
        = f ⟨kk, hk⟩ (ix3 p (0 : Fin 1) c) := by
    intro kk hk
    refine concatenate_apply_piece (t := ⟨3, ![a, 8, n]⟩) 1
      [⟨⟨3, ![a, 1, n]⟩, f 0⟩, ⟨⟨3, ![a, 1, n]⟩, f 1⟩, ⟨⟨3, ![a, 1, n]⟩, f 2⟩, ⟨⟨3, ![a, 1, n]⟩, f 3⟩,
        ⟨⟨3, ![a, 1, n]⟩, f 4⟩, ⟨⟨3, ![a, 1, n]⟩, f 5⟩, ⟨⟨3, ![a, 1, n]⟩, f 6⟩, ⟨⟨3, ![a, 1, n]⟩, f 7⟩]
      h (ix3 p ⟨kk, hk⟩ c) kk hk ⟨3, ![a, 1, n]⟩ (f ⟨kk, hk⟩) ?_ rfl kk ?_ (ix3 p (0 : Fin 1) c) ?_ ?_
    · interval_cases kk <;> rfl
    · interval_cases kk <;> rfl
    · intro b hb
      match b with
      | ⟨0, _⟩ => rfl
      | ⟨1, _⟩ => exact absurd rfl hb
      | ⟨2, _⟩ => rfl
    · rfl
  exact key k.val k.isLt

end Idealize.ShloMosaic.BlockLayout
-- ==== Proof.LibContract.lean ====
/-
  A contraction over ONE axis, read as a sum over that axis's coordinate.

  A matrix product on the TensorCore (into a zero accumulator) and the host's `dot_general` are, at the ideal values, the
  sum over the contraction index of the operands' products. When one axis is contracted the contraction index is a single
  coordinate `i < n`, and the sum is the `Fin n`-indexed sum of whatever the two operands are at the operand indices
  that coordinate selects.
-/
import Idealize.ShloMosaic.PureOps.Ideal.Laws
import Idealize.ShloMosaic.Lib.ValueIdx

namespace Idealize.ShloMosaic.ContractSingle

open Idealize.ShloMosaic.ValueIdx

/-- The sum over a one-axis contraction index, with the operands' factors named at each coordinate `i` of the contracted
    axis (`hl`, `hr`), is the sum of the named factors' products over `i`. -/
theorem sum_single {sl sr so : Shape} (d : DotDims sl sr so) (n : Nat) (hrank : d.contr.rank = 1)
    (hsize : d.contr.size ⟨0, by omega⟩ = n) (l : sl.Idx → EReal) (r : sr.Idx → EReal) (j : so.Idx) (L R : Fin n → EReal)
    (hl : ∀ i : Fin n, l (d.lhsIdx j ((contrEquiv1 d n hrank hsize).symm i)) = L i)
    (hr : ∀ i : Fin n, r (d.rhsIdx j ((contrEquiv1 d n hrank hsize).symm i)) = R i) :
    ∑ k : d.contr.Idx, l (d.lhsIdx j k) * r (d.rhsIdx j k) = ∑ i : Fin n, L i * R i := by
  rw [← Equiv.sum_comp (contrEquiv1 d n hrank hsize).symm]
  exact Finset.sum_congr rfl fun i _ => by rw [hl i, hr i]

/-- A TensorCore matrix product into the zero accumulator, one axis contracted, read at an output index. -/
theorem matmul_zero_single {sl sr so : Shape} {φ₁ φ₂ : FTy} (d : DotDims sl sr so) (prec : Option ContractPrecision) (n : Nat)
    (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.matmul d prec lhs rhs (constant so .f32 0x00000000#32) j = ∑ i : Fin n, L i * R i :=
  (Ideal.matmul_constant_zero_apply d prec lhs rhs j).trans (sum_single d n hrank hsize lhs rhs j L R hl hr)

/-- The host's `dot_general`, one axis contracted, read at an output index. -/
theorem dotGeneral_single {sl sr so : Shape} {φ₁ φ₂ : FTy} (d : DotDims sl sr so) (prec : Option ContractPrecision)
    (sched : HostSchedule) (n : Nat) (hrank : d.contr.rank = 1) (hsize : d.contr.size ⟨0, by omega⟩ = n)
    (lhs : FVec Ideal sl φ₁) (rhs : FVec Ideal sr φ₂) (j : so.Idx) (L R : Fin n → EReal)
    (hl : ∀ i : Fin n, lhs (d.lhsIdx j ((contrEquiv1 d n hrank hsize).symm i)) = L i)
    (hr : ∀ i : Fin n, rhs (d.rhsIdx j ((contrEquiv1 d n hrank hsize).symm i)) = R i) :
    FloatOps.dotGeneral d prec sched lhs rhs j = ∑ i : Fin n, L i * R i :=
  (Ideal.dotGeneral_apply d prec sched lhs rhs j).trans (sum_single d n hrank hsize lhs rhs j L R hl hr)

end Idealize.ShloMosaic.ContractSingle
-- ==== Proof.LibBatchProduct.lean ====
/-
  A batched matrix product read at a batch member, a row and a column.

  Operands `[B, M, K]` and `[B, K, N]`, the leading axis a batch axis, the left operand's last axis contracted against
  the right operand's middle axis: the product at `(b, a, c)` — on the TensorCore into a zero accumulator, or the
  host's `dot_general` — is, at the ideal values, the sum over the shared coordinate `k` of the left operand at
  `(b, a, k)` times the right operand at `(b, k, c)`.
-/
import Idealize.ShloMosaic.PureOps.Ideal.Laws
import Idealize.ShloMosaic.Lib.ValueIdx
import proofs.«146736_j68667937129202_2_alg».proof.Proof.LibContract

namespace Idealize.ShloMosaic.BatchProduct

open Idealize.ShloMosaic.ValueIdx

variable {B M K N : Nat} (d : DotDims ⟨3, ![B, M, K]⟩ ⟨3, ![B, K, N]⟩ ⟨3, ![B, M, N]⟩)
  (hcl : d.lhsContracting = [2]) (hcr : d.rhsContracting = [1])
  (hrank : d.contr.rank = 1) (hsize : d.contr.size ⟨0, by omega⟩ = K)
  (hl0 : ∀ (j : (⟨3, ![B, M, N]⟩ : Shape).Idx) (q : d.contr.Idx), (d.lhsIdx j q 0).val = (j 0).val)
  (hl1 : ∀ (j : (⟨3, ![B, M, N]⟩ : Shape).Idx) (q : d.contr.Idx), (d.lhsIdx j q 1).val = (j 1).val)
  (hr0 : ∀ (j : (⟨3, ![B, M, N]⟩ : Shape).Idx) (q : d.contr.Idx), (d.rhsIdx j q 0).val = (j 0).val)
  (hr2 : ∀ (j : (⟨3, ![B, M, N]⟩ : Shape).Idx) (q : d.contr.Idx), (d.rhsIdx j q 2).val = (j 2).val)

include hcl hl0 hl1 in
/-- The left operand's index at output `(b, a, c)` and shared coordinate `k` is `(b, a, k)`. -/
theorem lhsIdx_eq (b : Fin B) (a : Fin M) (c : Fin N) (k : Fin K) :
    d.lhsIdx (ix3 b a c) ((contrEquiv1 d K hrank hsize).symm k) = ix3 b a k := by
  have hk := contrEquiv1_symm_val d K hrank hsize k
  funext x
  refine Fin.ext ?_
  match x with
  | ⟨0, _⟩ => exact hl0 _ _
  | ⟨1, _⟩ => exact hl1 _ _
  | ⟨2, _⟩ => exact (d.lhsIdx_val_of_single hcl _ _).trans hk

include hcr hr0 hr2 in
/-- The right operand's index at output `(b, a, c)` and shared coordinate `k` is `(b, k, c)`. -/
theorem rhsIdx_eq (b : Fin B) (a : Fin M) (c : Fin N) (k : Fin K) :
    d.rhsIdx (ix3 b a c) ((contrEquiv1 d K hrank hsize).symm k) = ix3 b k c := by
  have hk := contrEquiv1_symm_val d K hrank hsize k
  funext x
  refine Fin.ext ?_
  match x with
  | ⟨0, _⟩ => exact hr0 _ _
  | ⟨1, _⟩ => exact (d.rhsIdx_val_of_single hcr _ _).trans hk
  | ⟨2, _⟩ => exact hr2 _ _

include hcl hcr hrank hsize hl0 hl1 hr0 hr2 in
/-- The TensorCore product into the zero accumulator at `(b, a, c)`. -/
theorem matmul_zero_apply {φ₁ φ₂ : FTy} (prec : Option ContractPrecision)
    (lhs : FVec Ideal ⟨3, ![B, M, K]⟩ φ₁) (rhs : FVec Ideal ⟨3, ![B, K, N]⟩ φ₂) (b : Fin B) (a : Fin M) (c : Fin N) :
    FloatOps.matmul d prec lhs rhs (constant ⟨3, ![B, M, N]⟩ .f32 0x00000000#32) (ix3 b a c)
      = ∑ k : Fin K, lhs (ix3 b a k) * rhs (ix3 b k c) :=
  ContractSingle.matmul_zero_single d prec K hrank hsize lhs rhs (ix3 b a c) (fun k => lhs (ix3 b a k)) (fun k => rhs (ix3 b k c))
    (fun k => congrArg lhs (lhsIdx_eq d hcl hrank hsize hl0 hl1 b a c k))
    (fun k => congrArg rhs (rhsIdx_eq d hcr hrank hsize hr0 hr2 b a c k))

include hcl hcr hrank hsize hl0 hl1 hr0 hr2 in
/-- The host's `dot_general` at `(b, a, c)`. -/
theorem dotGeneral_apply {φ₁ φ₂ : FTy} (prec : Option ContractPrecision) (sched : HostSchedule)
    (lhs : FVec Ideal ⟨3, ![B, M, K]⟩ φ₁) (rhs : FVec Ideal ⟨3, ![B, K, N]⟩ φ₂) (b : Fin B) (a : Fin M) (c : Fin N) :
    FloatOps.dotGeneral d prec sched lhs rhs (ix3 b a c) = ∑ k : Fin K, lhs (ix3 b a k) * rhs (ix3 b k c) :=
  ContractSingle.dotGeneral_single d prec sched K hrank hsize lhs rhs (ix3 b a c) (fun k => lhs (ix3 b a k)) (fun k => rhs (ix3 b k c))
    (fun k => congrArg lhs (lhsIdx_eq d hcl hrank hsize hl0 hl1 b a c k))
    (fun k => congrArg rhs (rhsIdx_eq d hcr hrank hsize hr0 hr2 b a c k))

end Idealize.ShloMosaic.BatchProduct
-- ==== Proof.OneEntry.lean ====
/-
  Sums over one row or column of a matrix of extended reals in which a single entry is kept.

  On the extended reals `0 * x = 0` and `1 * x = x` for every `x`, the infinities included, and a finite sum all of
  whose terms but one are zero is that term. So: the product of the unit matrix with any matrix is that matrix; the sum
  over a row of a matrix times the unit matrix's row is the diagonal entry; the sum down a column, every entry off the
  diagonal replaced by zero, is the diagonal entry; and a sum weighted by the indicator of one index picks that index's term.
-/
import Mathlib.Data.EReal.Operations
import Mathlib.Algebra.BigOperators.Group.Finset.Basic

open scoped BigOperators

namespace Cert.OneEntry

variable {ι : Type} [Fintype ι] [DecidableEq ι]

/-- The indicator of `i = j` as an extended real. -/
noncomputable def unit (i j : ι) : EReal := if i = j then 1 else 0

/-- A sum weighted by the indicator of `d` is the term at `d`. -/
theorem sum_unit_mul (d : ι) (f : ι → EReal) : ∑ c, unit d c * f c = f d := by
  rw [Finset.sum_eq_single d]
  · simp [unit]
  · intro c _ hc; simp [unit, Ne.symm hc]
  · intro h; exact absurd (Finset.mem_univ d) h

/-- The unit matrix times `Q` is `Q`. -/
theorem unit_mul (Q : ι → ι → EReal) (i k : ι) : ∑ j, unit i j * Q j k = Q i k :=
  sum_unit_mul i fun j => Q j k

/-- The row of `P` against the unit matrix's row: the diagonal entry. -/
theorem sum_mul_unit (P : ι → ι → EReal) (i : ι) : ∑ j, P i j * unit i j = P i i := by
  rw [Finset.sum_eq_single i]
  · simp [unit]
  · intro c _ hc; simp [unit, Ne.symm hc]
  · intro h; exact absurd (Finset.mem_univ i) h

/-- Down a column, off-diagonal entries replaced by zero: the diagonal entry. -/
theorem sum_ite_col (P : ι → ι → EReal) (i : ι) : ∑ i', (if i' = i then P i' i else 0) = P i i := by
  rw [Finset.sum_eq_single i]
  · simp
  · intro c _ hc; simp [hc]
  · intro h; exact absurd (Finset.mem_univ i) h

end Cert.OneEntry
-- ==== Proof.WalkSpec.lean ====
/-
  Return probabilities of the degree-normalised random walk on one graph, entry by entry over the extended reals.

  For the 256×256 adjacency array `A` of one graph: two nodes are linked when `A i j + A j i > 0`; a node's degree is
  the number of its links; the walk matrix is `T i j = link i j · (1 / degree j)` (the factor `0` for an isolated `j`);
  `power T k` is `T` multiplied `k` more times by `T` on the right, and the return probability of node `n` after
  `k + 1` steps is the diagonal entry `power T k n n`. The float constants stay the words the programs print.
-/
import Idealize.ShloMosaic.PureOps.Ideal
import Idealize.ShloMosaic.PureOps.Ideal.Laws
import proofs.«146736_j68667937129202_2_alg».proof.Proof.OneEntry

noncomputable section

open scoped BigOperators

namespace Cert.WalkSpec

open Idealize.ShloMosaic

/-- The two float words the programs use, read at the ideal values. -/
abbrev zeroW : EReal := Ideal.ofBits .f32 0x00000000#32
abbrev oneW : EReal := Ideal.ofBits .f32 0x3F800000#32

/-- A truth bit as a number: the bit widened to 32 bits and read as a signed integer. -/
def bit (c : BitVec 1) : EReal := (((BitVec.setWidth 32 c).toInt : ℝ) : EReal)

theorem bit_one : bit 1#1 = 1 := by simp [bit]
theorem bit_zero : bit 0#1 = 0 := by simp [bit]

/-- Read unsigned, the bit is the same number. -/
theorem toNat_eq_bit (c : BitVec 1) : ((c.toNat : ℝ) : EReal) = bit c := by
  have h : ∀ c : BitVec 1, (c.toNat : ℤ) = (BitVec.setWidth 32 c).toInt := by decide
  unfold bit
  rw [← h c]
  norm_cast

variable (A : Fin 256 → Fin 256 → EReal)

/-- `1` when `i` and `j` are linked in either direction, else `0`. -/
def link (i j : Fin 256) : EReal := bit (Ideal.cmp .ogt (A i j + A j i) zeroW)

/-- The number of links of node `j`. -/
def degree (j : Fin 256) : EReal := ∑ l : Fin 256, link A j l

/-- `1 / degree j`, and `0` for a node without links. -/
def invDegree (j : Fin 256) : EReal :=
  Scalar.select (Ideal.cmp .ogt (degree A j) zeroW)
    (Ideal.div oneW (Scalar.select (Ideal.cmp .ogt (degree A j) zeroW) (degree A j) oneW)) zeroW

/-- The walk matrix: column `j` of the link matrix scaled by `1 / degree j`. -/
def walk (i j : Fin 256) : EReal := link A i j * invDegree A j

/-- `M` multiplied `k` more times by `M` on the right. -/
def power (M : Fin 256 → Fin 256 → EReal) : ℕ → Fin 256 → Fin 256 → EReal
  | 0 => M
  | k + 1 => fun i l => ∑ j : Fin 256, power M k i j * M j l

/-- The probability of being back at node `n` after `k + 1` steps. -/
def ret (k : ℕ) (n : Fin 256) : EReal := power (walk A) k n n

end Cert.WalkSpec

end
-- ==== Proof.PowerEntry.lean ====
/-
  What the body of the first kernel call stores, entry by entry: for a block `a` of eight adjacency matrices, the entry
  `(p, k, n)` of the stored `[8, 8, 256]` block is the probability that the degree-normalised walk on graph `p` of the
  block, started at node `n`, is back at `n` after `k + 1` steps.

  The body forms the link indicators of `a + aᵀ`, their row sums (the degrees), the walk matrix `T`, then multiplies by
  `T` seven times on the matrix unit; after each product it sums the product against the unit matrix along the rows,
  which is the diagonal, and lays the eight diagonals side by side.
-/
import proofs.«146736_j68667937129202_2_alg».proof.Proof.Gen.KernelIdeal.Skeleton
import proofs.«146736_j68667937129202_2_alg».proof.Proof.LibBlockLayout
import proofs.«146736_j68667937129202_2_alg».proof.Proof.LibBatchProduct
import proofs.«146736_j68667937129202_2_alg».proof.Proof.WalkSpec
import Idealize.ShloMosaic.Lib.ValueLayout
import Idealize.ShloMosaic.Lib.Pipeline.Value

set_option maxRecDepth 16384

noncomputable section

open scoped BigOperators

namespace Cert.KernelIdeal.PowerEntry

open Cert.KernelIdeal Cert.KernelIdeal.Gen
open Idealize.ShloMosaic Idealize.ShloMosaic.ValueIdx Idealize.ShloMosaic.BlockLayout
open Cert.WalkSpec Cert.OneEntry

/-- A block of eight adjacency matrices at the ideal values. -/
abbrev Blk := FVec Ideal S8x256x256 .f32

/-- Graph `p` of the block. -/
def graph (a : Blk) (p : Fin 8) : Fin 256 → Fin 256 → EReal := fun i j => a (ix3 p i j)

/-! ## Links, degrees, the walk matrix -/

/-- The block of link indicators: `1` where `a + aᵀ > 0`. -/
def linkB (a : Blk) : FVec Ideal S8x256x256 .f32 :=
  sitofp .f32 (extui 32 (cmpf .ogt (addf a (transpose S8x256x256 [0, 2, 1] a Gen.transposes_S8x256x256_p0_2_1_S8x256x256))
    (broadcast S8x256x256 (Scalar.ofBits .f32 0x00000000#32))) Gen.natLt_1_32)

theorem linkB_apply (a : Blk) (p : Fin 8) (i j : Fin 256) : linkB a (ix3 p i j) = link (graph a p) i j := by
  have ht : transpose S8x256x256 [0, 2, 1] a Gen.transposes_S8x256x256_p0_2_1_S8x256x256 (ix3 p i j) = a (ix3 p j i) :=
    transpose_ix3_021_apply a _ p i j
  simp only [linkB, sitofp_apply, extui_apply, cmpf_apply, addf_apply, broadcast_apply, ht]
  rfl

/-- The degrees: the link block summed along each row. -/
def degB (a : Blk) : FVec Ideal S8x256 .f32 :=
  multiReduction .add [2] S8x256 (linkB a) 0x00000000#32 Gen.reduces_S8x256x256_S8x256 (.inl rfl) rfl

theorem degB_apply (a : Blk) (p : Fin 8) (j : Fin 256) : degB a (ix2 p j) = degree (graph a p) j :=
  (lastAxisSum_apply (linkB a) Gen.reduces_S8x256x256_S8x256 (.inl rfl) rfl p j).trans
    (Finset.sum_congr rfl fun l _ => linkB_apply a p j l)

/-- The reciprocal degrees, zero where the degree is zero. -/
def invB (a : Blk) : FVec Ideal S8x256 .f32 :=
  select (cmpf .ogt (degB a) (broadcast S8x256 (Scalar.ofBits .f32 0x00000000#32)))
    (divf (broadcast S8x256 (Scalar.ofBits .f32 0x3F800000#32))
      (select (cmpf .ogt (degB a) (broadcast S8x256 (Scalar.ofBits .f32 0x00000000#32))) (degB a)
        (broadcast S8x256 (Scalar.ofBits .f32 0x3F800000#32))))
    (broadcast S8x256 (Scalar.ofBits .f32 0x00000000#32))

theorem invB_apply (a : Blk) (p : Fin 8) (j : Fin 256) : invB a (ix2 p j) = invDegree (graph a p) j := by
  simp only [invB, select_apply, cmpf_apply, divf_apply, broadcast_apply, degB_apply]
  rfl

/-- The body's walk matrix is the link block times the reciprocal degrees spread down the columns. -/
theorem walk_eq (a : Blk) :
    k0_pay2 (F := Ideal) a = mulf (linkB a)
      (broadcastTo S8x256x256 (shapeCast S8x1x256 (invB a) Gen.shapeCasts_S8x256_S8x1x256) Gen.broadcasts_S8x1x256_S8x256x256) := by
  simp only [k0_pay2, shapeCast_self]
  rfl

theorem walk_apply (a : Blk) (p : Fin 8) (i j : Fin 256) : k0_pay2 (F := Ideal) a (ix3 p i j) = walk (graph a p) i j := by
  rw [walk_eq]
  simp only [mulf_apply, broadcastTo_a1b_amb_apply, shapeCast_ab_a1b_apply, linkB_apply, invB_apply]
  rfl

/-! ## The unit matrix and the diagonal -/

theorem bit_cmpi_eq (i j : Fin 256) : bit (IntOp.cmpi .eq (BitVec.ofNat 32 i.val) (BitVec.ofNat 32 j.val)) = unit i j := by
  unfold IntOp.cmpi unit
  by_cases h : i = j
  · subst h; simp [bit_one]
  · have hne : BitVec.ofNat 32 i.val ≠ BitVec.ofNat 32 j.val := by
      intro e
      have e' := congrArg BitVec.toNat e
      simp only [BitVec.toNat_ofNat] at e'
      have hi := i.isLt; have hj := j.isLt
      exact h (Fin.ext (by omega))
    rw [beq_eq_false_iff_ne.mpr hne]
    simp [h, bit_zero]

theorem unit_apply (p : Fin 8) (i j : Fin 256) : k0_pay4 (F := Ideal) (ix3 p i j) = unit i j := by
  simp only [k0_pay4, sitofp_apply, extui_apply, broadcastTo_1mn_amn_apply, shapeCast_ab_1ab_apply]
  show bit (IntOp.cmpi .eq (iota .tc S256x256 32 [0] Gen.iota_S256x256_d0_w32 (ix2 i j))
    (iota .tc S256x256 32 [1] Gen.iota_S256x256_d1_w32 (ix2 i j))) = _
  rw [iota_single_apply, iota_single_apply]
  exact bit_cmpi_eq i j

/-- The sum along the rows of a block against the unit matrix. -/
def diagB (X : FVec Ideal S8x256x256 .f32) : FVec Ideal S8x256 .f32 :=
  multiReduction .add [2] S8x256 (mulf X (k0_pay4 (F := Ideal))) 0x00000000#32 Gen.reduces_S8x256x256_S8x256 (.inl rfl) rfl

theorem diagB_apply (X : FVec Ideal S8x256x256 .f32) (p : Fin 8) (n : Fin 256) : diagB X (ix2 p n) = X (ix3 p n n) :=
  (lastAxisSum_apply (mulf X (k0_pay4 (F := Ideal))) Gen.reduces_S8x256x256_S8x256 (.inl rfl) rfl p n).trans
    ((Finset.sum_congr rfl fun k _ => by rw [mulf_apply, unit_apply]).trans
      (sum_mul_unit (fun i j => X (ix3 p i j)) n))

/-! ## The products -/

/-- One more product by the walk matrix, on the matrix unit into a zero accumulator. -/
def stepB (a : Blk) (X : FVec Ideal S8x256x256 .f32) : FVec Ideal S8x256x256 .f32 :=
  matmul dot_S8x256x256_S8x256x256_S8x256x256_2_1_1_2_0_0 none (truncf .bf16 X Gen.bitsLt_bf16_f32) (k0_pay3 (F := Ideal) a)
    (constant S8x256x256 .f32 0x00000000#32)

theorem stepB_apply (a : Blk) (X : FVec Ideal S8x256x256 .f32) (p : Fin 8) (i l : Fin 256) :
    stepB a X (ix3 p i l) = ∑ j : Fin 256, X (ix3 p i j) * walk (graph a p) j l :=
  (BatchProduct.matmul_zero_apply dot_S8x256x256_S8x256x256_S8x256x256_2_1_1_2_0_0 rfl rfl rfl rfl
      (fun _ _ => rfl) (fun _ _ => rfl) (fun _ _ => rfl) (fun _ _ => rfl) none
      (truncf .bf16 X Gen.bitsLt_bf16_f32) (k0_pay3 (F := Ideal) a) p i l).trans
    (Finset.sum_congr rfl fun j _ => by
      rw [truncf_apply]
      unfold k0_pay3
      rw [truncf_apply, walk_apply])

/-- The walk matrix multiplied `k` more times by itself. -/
def powB (a : Blk) : ℕ → FVec Ideal S8x256x256 .f32
  | 0 => k0_pay2 (F := Ideal) a
  | k + 1 => stepB a (powB a k)

theorem powB_apply (a : Blk) (k : ℕ) (p : Fin 8) (i l : Fin 256) :
    powB a k (ix3 p i l) = power (walk (graph a p)) k i l := by
  induction k generalizing i l with
  | zero => exact walk_apply a p i l
  | succ k ih =>
    show stepB a (powB a k) (ix3 p i l) = ∑ j : Fin 256, power (walk (graph a p)) k i j * walk (graph a p) j l
    rw [stepB_apply]
    exact Finset.sum_congr rfl fun j _ => by rw [ih]

/-- Row `k` of what the body stores, before it is given its middle unit axis. -/
def retB (a : Blk) (k : ℕ) : FVec Ideal S8x256 .f32 := diagB (powB a k)

theorem retB_apply (a : Blk) (k : ℕ) (p : Fin 8) (n : Fin 256) : retB a k (ix2 p n) = ret (graph a p) k n :=
  (diagB_apply (powB a k) p n).trans (powB_apply a k p n n)

/-! ## The stored block -/

/-- Diagonal `k` given its middle unit axis. -/
def rowOf (a : Blk) (k : Fin 8) : FVec Ideal S8x1x256 .f32 :=
  shapeCast S8x1x256 (retB a k.val) Gen.shapeCasts_S8x256_S8x1x256

/-- What the body stores: the eight diagonals, each given a middle unit axis, laid side by side. -/
theorem stored_eq (a : Blk) :
    k0_pay1 (F := Ideal) (k0_pay3 (F := Ideal) a) (k0_pay4 (F := Ideal)) (k0_pay5 (F := Ideal) a) (k0_pay7 (F := Ideal) a)
        (k0_pay9 (F := Ideal) a) (k0_pay10 (F := Ideal) a) (k0_pay11 (F := Ideal) a)
      = concatenate S8x8x256 1 [⟨S8x1x256, rowOf a 0⟩, ⟨S8x1x256, rowOf a 1⟩, ⟨S8x1x256, rowOf a 2⟩, ⟨S8x1x256, rowOf a 3⟩,
          ⟨S8x1x256, rowOf a 4⟩, ⟨S8x1x256, rowOf a 5⟩, ⟨S8x1x256, rowOf a 6⟩, ⟨S8x1x256, rowOf a 7⟩]
          Gen.concatenates_S8x1x256_S8x1x256_S8x1x256_S8x1x256_S8x1x256_S8x1x256_S8x1x256_S8x1x256_S8x8x256_d1 := rfl

/-- Entry `(p, k, n)` of the stored block: the probability that the walk on graph `p` of the block is back at `n`
    after `k + 1` steps. -/
theorem stored_apply (a : Blk) (p : Fin 8) (k : Fin 8) (n : Fin 256) :
    k0_pay1 (F := Ideal) (k0_pay3 (F := Ideal) a) (k0_pay4 (F := Ideal)) (k0_pay5 (F := Ideal) a) (k0_pay7 (F := Ideal) a)
        (k0_pay9 (F := Ideal) a) (k0_pay10 (F := Ideal) a) (k0_pay11 (F := Ideal) a) (ix3 p k n)
      = ret (graph a p) k.val n := by
  rw [stored_eq]
  exact (concat8_mid_apply (rowOf a) _ p k n).trans
    ((shapeCast_ab_a1b_apply (retB a k.val) Gen.shapeCasts_S8x256_S8x1x256 p 0 n).trans (retB_apply a k.val p n))

end Cert.KernelIdeal.PowerEntry

end
-- ==== Proof.LibRowsCols.lean ====
/-
  A matrix product of rows by columns, read at a row and a column.

  When the left operand's columns are contracted against the right operand's rows, the product at `(a, c)` — on the
  TensorCore into a zero accumulator, or the host's `dot_general` — is, at the ideal values, the sum over the shared
  coordinate `k` of the left operand at `(a, k)` times the right operand at `(k, c)`.
-/
import Idealize.ShloMosaic.PureOps.Ideal.Laws
import Idealize.ShloMosaic.Lib.ValueIdx
import proofs.«146736_j68667937129202_2_alg».proof.Proof.LibContract

namespace Idealize.ShloMosaic.RowsCols

open Idealize.ShloMosaic.ValueIdx

variable {M K N : Nat} (d : DotDims ⟨2, ![M, K]⟩ ⟨2, ![K, N]⟩ ⟨2, ![M, N]⟩)
  (hcl : d.lhsContracting = [1]) (hcr : d.rhsContracting = [0])
  (hrank : d.contr.rank = 1) (hsize : d.contr.size ⟨0, by omega⟩ = K)
  (hl0 : ∀ (j : (⟨2, ![M, N]⟩ : Shape).Idx) (q : d.contr.Idx), (d.lhsIdx j q 0).val = (j 0).val)
  (hr1 : ∀ (j : (⟨2, ![M, N]⟩ : Shape).Idx) (q : d.contr.Idx), (d.rhsIdx j q 1).val = (j 1).val)

include hcl hl0 in
/-- The left operand's index at output `(a, c)` and shared coordinate `k` is `(a, k)`. -/
theorem lhsIdx_eq (a : Fin M) (c : Fin N) (k : Fin K) :
    d.lhsIdx (ix2 a c) ((contrEquiv1 d K hrank hsize).symm k) = ix2 a k := by
  have hk := contrEquiv1_symm_val d K hrank hsize k
  funext x
  refine Fin.ext ?_
  match x with
  | ⟨0, _⟩ => exact hl0 _ _
  | ⟨1, _⟩ => exact (d.lhsIdx_val_of_single hcl _ _).trans hk

include hcr hr1 in
/-- The right operand's index at output `(a, c)` and shared coordinate `k` is `(k, c)`. -/
theorem rhsIdx_eq (a : Fin M) (c : Fin N) (k : Fin K) :
    d.rhsIdx (ix2 a c) ((contrEquiv1 d K hrank hsize).symm k) = ix2 k c := by
  have hk := contrEquiv1_symm_val d K hrank hsize k
  funext x
  refine Fin.ext ?_
  match x with
  | ⟨0, _⟩ => exact (d.rhsIdx_val_of_single hcr _ _).trans hk
  | ⟨1, _⟩ => exact hr1 _ _

include hcl hcr hrank hsize hl0 hr1 in
/-- The TensorCore product into the zero accumulator at `(a, c)`. -/
theorem matmul_zero_apply {φ₁ φ₂ : FTy} (prec : Option ContractPrecision)
    (lhs : FVec Ideal ⟨2, ![M, K]⟩ φ₁) (rhs : FVec Ideal ⟨2, ![K, N]⟩ φ₂) (a : Fin M) (c : Fin N) :
    FloatOps.matmul d prec lhs rhs (constant ⟨2, ![M, N]⟩ .f32 0x00000000#32) (ix2 a c) = ∑ k : Fin K, lhs (ix2 a k) * rhs (ix2 k c) :=
  ContractSingle.matmul_zero_single d prec K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

include hcl hcr hrank hsize hl0 hr1 in
/-- The host's `dot_general` at `(a, c)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (a : Fin M) (c : Fin N) :
    FloatOps.dotGeneral d prec sched lhs rhs (ix2 a c) = ∑ k : Fin K, lhs (ix2 a k) * rhs (ix2 k c) :=
  ContractSingle.dotGeneral_single d prec sched K hrank hsize lhs rhs (ix2 a c) (fun k => lhs (ix2 a k)) (fun k => rhs (ix2 k c))
    (fun k => congrArg lhs (lhsIdx_eq d hcl hrank hsize hl0 a c k)) (fun k => congrArg rhs (rhsIdx_eq d hcr hrank hsize hr1 a c k))

end Idealize.ShloMosaic.RowsCols
-- ==== Proof.LibRowLayout.lean ====
/-
  Layout operations on matrices, read at a row and a column.

  Two matrices with the same rows set side by side read, at a column, the left one when the column is inside its width
  and the right one, the left width less, otherwise. Two vectors set end to end read the same way. A column vector
  (one entry per row) spread over the columns reads its row's entry at every column; a vector given a trailing unit
  axis reads its entry at the row. A scalar spread over any shape reads the scalar.
-/
import Idealize.ShloMosaic.Lib.Pipeline.Value
import Idealize.ShloMosaic.Lib.ValueIdx
import Idealize.ShloMosaic.Lib.ValueLayout

namespace Idealize.ShloMosaic.RowLayout

open Idealize.ShloMosaic.ValueIdx

variable {α : Type}

/-- Side by side along the columns: a column inside the left width reads the left matrix there. -/
theorem concat_cols_left {n a b c : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (r : Fin n) (k : Fin c) (k' : Fin a)
    (hk : k'.val = k.val) :
    concatenate ⟨2, ![n, c]⟩ 1 [⟨⟨2, ![n, a]⟩, x₁⟩, ⟨⟨2, ![n, b]⟩, x₂⟩] h (ix2 r k) = x₁ (ix2 r k') :=
  concatenate_pair_apply_left 1 x₁ x₂ h (ix2 r k) rfl (ix2 r k') fun d => by
    match d with
    | ⟨0, _⟩ => rfl
    | ⟨1, _⟩ => exact hk

/-- Side by side along the columns: a column past the left width reads the right matrix, the left width less. -/
theorem concat_cols_right {n a b c : Nat} (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (r : Fin n) (k : Fin c) (k' : Fin b)
    (hk : k'.val + a = k.val) :
    concatenate ⟨2, ![n, c]⟩ 1 [⟨⟨2, ![n, a]⟩, x₁⟩, ⟨⟨2, ![n, b]⟩, x₂⟩] h (ix2 r k) = x₂ (ix2 r k') :=
  concatenate_pair_apply_right 1 x₁ x₂ h (ix2 r k) rfl rfl (ix2 r k') (fun d hd => by
    match d with
    | ⟨0, _⟩ => rfl
    | ⟨1, _⟩ => exact absurd rfl hd) hk

/-- End to end: a position inside the first length reads the first vector there. -/
theorem concat_vec_left {a b c : Nat} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (k : Fin c) (k' : Fin a) (hk : k'.val = k.val) :
    concatenate ⟨1, ![c]⟩ 0 [⟨⟨1, ![a]⟩, x₁⟩, ⟨⟨1, ![b]⟩, x₂⟩] h (ix1 k) = x₁ (ix1 k') :=
  concatenate_pair_apply_left 0 x₁ x₂ h (ix1 k) rfl (ix1 k') fun d => by
    match d with
    | ⟨0, _⟩ => exact hk

/-- End to end: a position past the first length reads the second vector, the first length less. -/
theorem concat_vec_right {a b c : Nat} (x₁ : (⟨1, ![a]⟩ : Shape).Idx → α) (x₂ : (⟨1, ![b]⟩ : Shape).Idx → α)
    (h : Shape.Concatenates [(⟨1, ![a]⟩ : Shape), ⟨1, ![b]⟩] ⟨1, ![c]⟩ 0) (k : Fin c) (k' : Fin b) (hk : k'.val + a = k.val) :
    concatenate ⟨1, ![c]⟩ 0 [⟨⟨1, ![a]⟩, x₁⟩, ⟨⟨1, ![b]⟩, x₂⟩] h (ix1 k) = x₂ (ix1 k') :=
  concatenate_pair_apply_right 0 x₁ x₂ h (ix1 k) rfl rfl (ix1 k') (fun d hd => by
    match d with
    | ⟨0, _⟩ => exact absurd rfl hd) hk

/-- A column vector spread over `b` columns reads, at `(p, c)`, its entry of row `p`. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector given a trailing unit axis reads, at `(p, u)`, its entry `p`. -/
theorem shapeCast_a_a1_apply {a : Nat} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A scalar spread over any shape reads the scalar everywhere. -/
theorem spread_scalar {t : Shape} (h : (⟨0, ![]⟩ : Shape).BroadcastsInDim t ![]) (x : (⟨0, ![]⟩ : Shape).Idx → α) (j : t.Idx) :
    broadcastInDim t ![] h x j = x ix0 :=
  broadcastInDim_apply _ h x j ix0 (fun a => a.elim0)

/-- Two pieces joined along an axis, as a function of the two pieces: the library's `concatenate` of the two-element list of
    the pieces paired with their shapes. -/
def concat2 (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

theorem concat2_eq (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = concat2 t a s₁ s₂ x₁ x₂ h := rfl

end Idealize.ShloMosaic.RowLayout
-- ==== Proof.EmbedEntry.lean ====
/-
  What the body of the second kernel call stores, entry by entry: for a tile of 4096 nodes with clipped in-degrees `d`
  and return probabilities `wk`, the degree table `tab`, the transposed projection weights `wT` and the bias, the
  entry `(p, q)` of the stored `[4096, 256]` tile is

      ∑ c, [d p = c] · tab (c, q)  +  ∑ k, wk (p, k) · wT (k, q)  +  bias q,

  the first sum a product with the one-hot rows of the degrees on the matrix unit, the second the projection.
-/
import proofs.«146736_j68667937129202_2_alg».proof.Proof.Gen.KernelIdeal.Skeleton
import proofs.«146736_j68667937129202_2_alg».proof.Proof.LibRowsCols
import proofs.«146736_j68667937129202_2_alg».proof.Proof.LibRowLayout
import proofs.«146736_j68667937129202_2_alg».proof.Proof.WalkSpec
import Idealize.ShloMosaic.Lib.ValueLayout
import Idealize.ShloMosaic.Lib.Pipeline.Value

set_option maxRecDepth 16384

noncomputable section

open scoped BigOperators

namespace Cert.KernelIdeal.EmbedEntry

open Cert.KernelIdeal Cert.KernelIdeal.Gen
open Idealize.ShloMosaic Idealize.ShloMosaic.ValueIdx Idealize.ShloMosaic.RowLayout
open Cert.WalkSpec Cert.OneEntry

/-- The one-hot rows of the degrees: row `p` has a one in column `d p`. -/
def hotB (d : IVec S4096 32) : FVec Ideal S4096x256 .bf16 :=
  truncf .bf16 (sitofp .f32 (extui 32 (cmpi .eq
    (broadcastTo S4096x256 (shapeCast S4096x1 (shapeCast S4096 d Gen.shapeCasts_S4096_S4096) Gen.shapeCasts_S4096_S4096x1)
      Gen.broadcasts_S4096x1_S4096x256)
    (iota .tc S4096x256 32 [1] Gen.iota_S4096x256_d1_w32)) Gen.natLt_1_32)) Gen.bitsLt_bf16_f32

theorem hotB_apply (d : IVec S4096 32) (p : Fin 4096) (c : Fin 256) :
    hotB d (ix2 p c) = bit (IntOp.cmpi .eq (d (ix1 p)) (BitVec.ofNat 32 c.val)) := by
  simp only [hotB, truncf_apply, sitofp_apply, extui_apply, shapeCast_self]
  show bit (IntOp.cmpi .eq (broadcastTo S4096x256 (shapeCast S4096x1 d Gen.shapeCasts_S4096_S4096x1) Gen.broadcasts_S4096x1_S4096x256 (ix2 p c))
    (iota .tc S4096x256 32 [1] Gen.iota_S4096x256_d1_w32 (ix2 p c))) = _
  rw [iota_single_apply, broadcastTo_a1_ab_apply, shapeCast_a_a1_apply]

/-- The stored tile is the two products and the bias row, added. -/
theorem tile_eq (d : IVec S4096 32) (tab : FVec Ideal S256x256 .f32) (wk : FVec Ideal S4096x8 .f32) (wT : FVec Ideal S8x256 .f32)
    (bias : FVec Ideal S256 .f32) :
    k1_pay1 (F := Ideal) d tab wk wT bias
      = addf (addf
          (matmul dot_S4096x256_S256x256_S4096x256_1_0_0_1_n_n none (hotB d) (truncf .bf16 tab Gen.bitsLt_bf16_f32)
            (constant S4096x256 .f32 0x00000000#32))
          (matmul dot_S4096x8_S8x256_S4096x256_1_0_0_1_n_n none
            (truncf .bf16 (shapeCast S4096x8 wk Gen.shapeCasts_S4096x8_S4096x8) Gen.bitsLt_bf16_f32)
            (truncf .bf16 (shapeCast S8x256 wT Gen.shapeCasts_S8x256_S8x256) Gen.bitsLt_bf16_f32)
            (constant S4096x256 .f32 0x00000000#32)))
        (broadcastTo S4096x256 (shapeCast S1x256 bias Gen.shapeCasts_S256_S1x256) Gen.broadcasts_S1x256_S4096x256) := rfl

theorem tile_apply (d : IVec S4096 32) (tab : FVec Ideal S256x256 .f32) (wk : FVec Ideal S4096x8 .f32) (wT : FVec Ideal S8x256 .f32)
    (bias : FVec Ideal S256 .f32) (p : Fin 4096) (q : Fin 256) :
    k1_pay1 (F := Ideal) d tab wk wT bias (ix2 p q)
      = (∑ c : Fin 256, bit (IntOp.cmpi .eq (d (ix1 p)) (BitVec.ofNat 32 c.val)) * tab (ix2 c q))
        + (∑ k : Fin 8, wk (ix2 p k) * wT (ix2 k q)) + bias (ix1 q) := by
  rw [tile_eq, addf_apply, addf_apply]
  simp only [matmul]
  rw [RowsCols.matmul_zero_apply dot_S4096x256_S256x256_S4096x256_1_0_0_1_n_n rfl rfl rfl rfl (fun _ _ => rfl) (fun _ _ => rfl),
    RowsCols.matmul_zero_apply dot_S4096x8_S8x256_S4096x256_1_0_0_1_n_n rfl rfl rfl rfl (fun _ _ => rfl) (fun _ _ => rfl),
    broadcastTo_1b_ab_apply, shapeCast_a_1a_apply]
  simp only [hotB_apply, truncf_apply, shapeCast_self]

end Cert.KernelIdeal.EmbedEntry

end
-- ==== Proof.KernelEntry.lean ====
/-
  The two arrays the kernel calls leave, entry by entry, at the ideal values.

  The array of return probabilities left by the first call: entry `(g, k, n)` is the probability that the walk on
  graph `g`, started at node `n`, is back at `n` after `k + 1` steps — the block of eight graphs that holds `g` is
  graphs `8⌊g/8⌋ … 8⌊g/8⌋ + 7`, and `g` is member `g mod 8` of it. The result left by the second call: entry `(r, h)` is
  the table row of node `r`'s clipped degree at `h`, plus the projection of its eight return probabilities, plus the
  bias — node `r` is row `r mod 4096` of tile `⌊r/4096⌋`.
-/
import proofs.«146736_j68667937129202_2_alg».proof.Proof.CallsValue
import proofs.«146736_j68667937129202_2_alg».proof.Proof.PowerEntry
import proofs.«146736_j68667937129202_2_alg».proof.Proof.EmbedEntry

set_option maxRecDepth 16384

noncomputable section

open scoped BigOperators

namespace Cert.KernelIdeal.KernelEntry

open Cert.KernelIdeal Cert.KernelIdeal.Gen Cert.KernelIdeal.TwoCalls
open Idealize.ShloMosaic Idealize.ShloMosaic.ValueIdx
open Cert.WalkSpec Cert.KernelIdeal.PowerEntry Cert.KernelIdeal.EmbedEntry

/-- Entry `(g, k, n)` of the array of return probabilities. -/
theorem retArray_apply (A : FVec Ideal S256x256x256 .f32) (g : Fin 256) (k : Fin 8) (n : Fin 256) :
    retArray (F := Ideal) A (ix3 g k n) = ret (fun i j => A (ix3 g i j)) k.val n := by
  have hg : g.val % 8 < 8 := Nat.mod_lt _ (by decide)
  have hb : ∀ y : S8x256x256.Idx, 8 * (g.val / 8) + (y 0).val < 256 := fun y => by
    have := g.isLt; have hy : (y 0).val < 8 := (y 0).isLt; omega
  show retRows (F := Ideal) (fun y : S8x256x256.Idx => A (ix3 (⟨8 * (g.val / 8) + (y 0).val, hb y⟩ : Fin 256) (y 1 : Fin 256) (y 2 : Fin 256)))
      (ix3 (⟨g.val % 8, hg⟩ : Fin 8) k n) = _
  refine (stored_apply _ ⟨g.val % 8, hg⟩ k n).trans ?_
  refine congrArg (fun G => ret G k.val n) (funext fun i => funext fun j => ?_)
  show A (ix3 (⟨8 * (g.val / 8) + g.val % 8, _⟩ : Fin 256) i j) = A (ix3 g i j)
  exact congrArg (fun x => A (ix3 x i j)) (Fin.ext (by show 8 * (g.val / 8) + g.val % 8 = g.val; omega))

/-- Entry `(r, h)` of the result of the second call. -/
theorem embArray_apply (d : IVec S65536 32) (wk : FVec Ideal S65536x8 .f32) (tab : FVec Ideal S256x256 .f32)
    (wT : FVec Ideal S8x256 .f32) (bias : FVec Ideal S256 .f32) (r : Fin 65536) (h : Fin 256) :
    embArray (F := Ideal) d wk tab wT bias (ix2 r h)
      = (∑ c : Fin 256, bit (IntOp.cmpi .eq (d (ix1 r)) (BitVec.ofNat 32 c.val)) * tab (ix2 c h))
        + (∑ k : Fin 8, wk (ix2 r k) * wT (ix2 k h)) + bias (ix1 h) := by
  have hr : r.val % 4096 < 4096 := Nat.mod_lt _ (by decide)
  have hb : ∀ y : ℕ, y < 4096 → 4096 * (r.val / 4096) + y < 65536 := fun y hy => by have := r.isLt; omega
  have e : ∀ hlt, (⟨4096 * (r.val / 4096) + r.val % 4096, hlt⟩ : Fin 65536) = r := fun _ => Fin.ext (by
    show 4096 * (r.val / 4096) + r.val % 4096 = r.val; omega)
  show k1_pay1 (F := Ideal)
      (fun y : S4096.Idx => d (ix1 (⟨4096 * (r.val / 4096) + (y 0).val, hb _ (y 0).isLt⟩ : Fin 65536))) tab
      (fun y : S4096x8.Idx => wk (ix2 (⟨4096 * (r.val / 4096) + (y 0).val, hb _ (y 0).isLt⟩ : Fin 65536) (y 1 : Fin 8))) wT bias
      (ix2 (⟨r.val % 4096, hr⟩ : Fin 4096) h) = _
  refine (tile_apply _ tab _ wT bias ⟨r.val % 4096, hr⟩ h).trans ?_
  show (∑ c : Fin 256, bit (IntOp.cmpi .eq (d (ix1 (⟨4096 * (r.val / 4096) + r.val % 4096, _⟩ : Fin 65536))) (BitVec.ofNat 32 c.val)) * tab (ix2 c h))
      + (∑ k : Fin 8, wk (ix2 (⟨4096 * (r.val / 4096) + r.val % 4096, _⟩ : Fin 65536) k) * wT (ix2 k h)) + bias (ix1 h) = _
  simp only [e]

end Cert.KernelIdeal.KernelEntry

end
-- ==== Proof.ClipFacts.lean ====
/-
  Clipping a signed 32-bit word to the range 0…255, and picking one of 256 terms by a word.

  `clip r` is the larger of zero and `r`, then the smaller of that and 255, both comparisons signed. Whatever `r` is,
  the result lies in 0…255, so its signed and unsigned readings agree. A sum over the 256 indices weighted by the truth
  bit of "the word `x` equals the index" keeps the single term at `x` when `x` lies in 0…255. And for such an `x`, adding
  256 to a negative index and then clamping to 0…255 changes nothing, because `x` is not negative and already in range.
-/
import Idealize.ShloMosaic.PureOps.Ideal
import Idealize.ShloMosaic.Lib.WordArith
import proofs.«146736_j68667937129202_2_alg».proof.Proof.WalkSpec

noncomputable section

open scoped BigOperators

namespace Cert.ClipFacts

open Idealize.ShloMosaic Idealize.ShloMosaic.WordArith
open Cert.WalkSpec (bit bit_one bit_zero)
open Cert.OneEntry (unit sum_unit_mul)

/-- A signed word clipped to 0…255: first raised to zero, then lowered to 255. -/
abbrev clip (r : BitVec 32) : BitVec 32 := IntOp.minsi 255#32 (IntOp.maxsi 0#32 r)

/-- The unsigned reading of a clipped word: the smaller of 255 and the signed reading of `r` raised to zero. -/
theorem clip_toNat (r : BitVec 32) : (clip r).toNat = min 255 r.toInt.toNat := by
  have htop : (IntOp.maxsi 0#32 r).toNat < 2 ^ 31 := by
    have h := two_mul_toNat_maxsi_zero_lt r
    rw [Scalar.maxsi] at h
    omega
  have h255 : (255#32 : BitVec 32).toNat = 255 := by decide
  show (IntOp.minsi 255#32 (IntOp.maxsi 0#32 r)).toNat = _
  rw [toNat_minsi_of_lt 255#32 (IntOp.maxsi 0#32 r) (by rw [h255]; omega) htop, h255, toNat_maxsi_zero]

/-- (a) A clipped word is below 256. -/
theorem clip_lt (r : BitVec 32) : (clip r).toNat < 256 := by
  rw [clip_toNat]; omega

/-- (b) A clipped word reads the same signed and unsigned: its top bit is clear. -/
theorem clip_toInt (r : BitVec 32) : (clip r).toInt = ((clip r).toNat : ℤ) := by
  have h := clip_lt r
  rw [BitVec.toInt_eq_toNat_cond]
  split <;> omega

/-- The truth bit of "the word `x` equals the index `c`" is the indicator of `c` being the index `x` names. -/
theorem bit_cmpi_eq_word (x : BitVec 32) (hx : x.toNat < 256) (c : Fin 256) :
    bit (IntOp.cmpi .eq x (BitVec.ofNat 32 c.val)) = unit (⟨x.toNat, hx⟩ : Fin 256) c := by
  have hc := c.isLt
  unfold IntOp.cmpi unit
  by_cases h : (⟨x.toNat, hx⟩ : Fin 256) = c
  · have hxc : x = BitVec.ofNat 32 c.val := by
      apply BitVec.eq_of_toNat_eq
      rw [BitVec.toNat_ofNat]
      have hv : x.toNat = c.val := congrArg Fin.val h
      omega
    rw [if_pos h, hxc]
    simp [bit_one]
  · have hne : x ≠ BitVec.ofNat 32 c.val := by
      intro e
      apply h
      apply Fin.ext
      show x.toNat = c.val
      rw [e, BitVec.toNat_ofNat]
      omega
    rw [if_neg h, beq_eq_false_iff_ne.mpr hne]
    simp [bit_zero]

/-- (c) A sum over the 256 indices weighted by the truth bit of "`x` equals the index" is the term at `x`. -/
theorem hot_sum (x : BitVec 32) (hx : x.toNat < 256) (f : Fin 256 → EReal) :
    ∑ c : Fin 256, bit (IntOp.cmpi .eq x (BitVec.ofNat 32 c.val)) * f c = f ⟨x.toNat, hx⟩ :=
  (Finset.sum_congr rfl fun c _ => by rw [bit_cmpi_eq_word x hx c]).trans (sum_unit_mul (⟨x.toNat, hx⟩ : Fin 256) f)

/-- (d) For a word in 0…255: moving a negative index up by 256 and then clamping the index to 0…255 leaves it as it is,
    since it is not negative and is already in range. -/
theorem wrap_clamp (x : BitVec 32) (hx : x.toNat < 256) :
    min (Scalar.select (IntOp.cmpi .slt x 0#32) (IntOp.addi x 256#32) x).toInt.toNat (256 - 1) = x.toNat := by
  have e := BitVec.toInt_eq_toNat_cond x
  have h0 : (0#32 : BitVec 32).toInt = 0 := by decide
  have hns : x.slt 0#32 = false := by
    rw [Bool.eq_false_iff]
    intro hs
    rw [BitVec.slt_iff_toInt_lt, h0] at hs
    split at e <;> omega
  unfold IntOp.cmpi Scalar.select
  simp only [hns, BitVec.ofBool_false]
  rw [if_neg (by decide)]
  split at e <;> omega

end Cert.ClipFacts

end
-- ==== Proof.EntrySpec.lean ====
/-
  One entry of the embedding, as both programs compute it: the table row of the node's clipped in-degree, plus the
  projection of its eight return probabilities, plus the bias.
-/
import proofs.«146736_j68667937129202_2_alg».proof.Proof.WalkSpec

noncomputable section

open scoped BigOperators

namespace Cert.WalkSpec

/-- For a node `n` of a graph with adjacency `G` and clipped in-degree `x < 256`: entry `x` of the table column, plus the
    sum over the eight walk lengths of the return probability times the projection weight, plus the bias. -/
def entry (x : BitVec 32) (hx : x.toNat < 256) (G : Fin 256 → Fin 256 → EReal) (n : Fin 256)
    (tabCol : Fin 256 → EReal) (wRow : Fin 8 → EReal) (bias : EReal) : EReal :=
  tabCol ⟨x.toNat, hx⟩ + (∑ k : Fin 8, ret G k.val n * wRow k) + bias

end Cert.WalkSpec

end
-- ==== Proof.ReferenceStretches.lean ====
/- The line of host operations cut into consecutive stretches, one per mathematical step. Each stretch leaves its
   result buffer at that step's function of the buffers it reads, and every buffer it does not write as it was;
   the line is the stretches in order; and, stretch by stretch, what each buffer a later stretch reads holds, as a
   term of the four arguments' launch contents. -/
import proofs.«146736_j68667937129202_2_alg».proof.Proof.ReferenceOpsList
import proofs.«146736_j68667937129202_2_alg».proof.Proof.ReferenceTerm

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-! ## The stretches -/

/-- 15 operations: rawInDegree. -/
abbrev opsDegRaw : List (HloOp τ sig (Elt F)) :=
  [ StableHlo.nullary main_c (constantI S_ 32 0#32),
    StableHlo.unary main_c main_v0 (broadcastInDim S65536 ![] bcast_S_S65536 : (⟨S_, .i32⟩ : BufTy).Contents (Elt F) → (⟨S65536, .i32⟩ : BufTy).Contents (Elt F)),
    StableHlo.unary main_arg1 main_v1 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v1 main_v2 rfl shapeCasts_S1x524288_S524288,
    StableHlo.nullary main_c_0 (constantI S_ 32 0#32),
    StableHlo.unary main_c_0 main_v3 (broadcastInDim S524288 ![] bcast_S_S524288 : (⟨S_, .i32⟩ : BufTy).Contents (Elt F) → (⟨S524288, .i32⟩ : BufTy).Contents (Elt F)),
    StableHlo.binary main_v2 main_v3 main_v4 (cmpi .slt : (⟨S524288, .i32⟩ : BufTy).Contents (Elt F) → (⟨S524288, .i32⟩ : BufTy).Contents (Elt F) → (⟨S524288, .i1⟩ : BufTy).Contents (Elt F)),
    StableHlo.nullary main_c_1 (constantI S_ 32 65536#32),
    StableHlo.unary main_c_1 main_v5 (broadcastInDim S524288 ![] bcast_S_S524288 : (⟨S_, .i32⟩ : BufTy).Contents (Elt F) → (⟨S524288, .i32⟩ : BufTy).Contents (Elt F)),
    StableHlo.binary main_v2 main_v5 main_v6 (addi : (⟨S524288, .i32⟩ : BufTy).Contents (Elt F) → (⟨S524288, .i32⟩ : BufTy).Contents (Elt F) → (⟨S524288, .i32⟩ : BufTy).Contents (Elt F)),
    StableHlo.ternary main_v4 main_v6 main_v2 main_v7 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)),
    StableHlo.unary main_v7 main_v8 (broadcastInDim S524288x1 ![0] bcast_S524288_S524288x1_0 : (⟨S524288, .i32⟩ : BufTy).Contents (Elt F) → (⟨S524288x1, .i32⟩ : BufTy).Contents (Elt F)),
    StableHlo.nullary main_c_2 (constantI S_ 32 1#32),
    StableHlo.unary main_c_2 main_v9 (broadcastInDim S524288 ![] bcast_S_S524288 : (⟨S_, .i32⟩ : BufTy).Contents (Elt F) → (⟨S524288, .i32⟩ : BufTy).Contents (Elt F)),
    StableHlo.ternary main_v0 main_v8 main_v9 main_v10 ((fun x i u => Host.scatter scatter_S65536_S524288x1_S524288_n_0_0_1 IntOp.addi x i u) : (⟨S65536, .i32⟩ : BufTy).Contents (Elt F) → (⟨S524288x1, .i32⟩ : BufTy).Contents (Elt F) → (⟨S524288, .i32⟩ : BufTy).Contents (Elt F) → (⟨S65536, .i32⟩ : BufTy).Contents (Elt F)) ]
abbrev opsDegRaw_W : List (Ref sig .tc) := [main_c, main_v0, main_v1, main_v2, main_c_0, main_v3, main_v4, main_c_1, main_v5, main_v6, main_v7, main_v8, main_c_2, main_v9, main_v10]
theorem opsDegRaw_writes : (opsDegRaw : List (HloOp τ sig (Elt F))).Forall fun op => op.writes ⊆ (opsDegRaw_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem⟩
theorem opsDegRaw_frame (V : Valuation τ sig (Elt F)) (r : Ref sig .tc) (h : r ∉ opsDegRaw_W) :
    after opsDegRaw V (Proc.devRef .tc r) = V (Proc.devRef .tc r) :=
  after_of_writes_sub opsDegRaw V opsDegRaw_writes h
set_option maxHeartbeats 2000000 in
theorem opsDegRaw_val (V : Valuation τ sig (Elt F)) :
    after opsDegRaw V (Proc.devRef .tc main_v10) = rawInDegree (V (Proc.devRef .tc main_arg1)) := by
  after_results' <;> rfl

/-- 8 operations: clipDegree. -/
abbrev opsDegClip : List (HloOp τ sig (Elt F)) :=
  [ StableHlo.nullary main_c_3 (constantI S_ 32 0#32),
    StableHlo.nullary main_c_4 (constantI S_ 32 255#32),
    StableHlo.TRef.unary (.of main_c_3 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S65536, .i32⟩) (broadcastInDim S65536 ![] bcast_S_S65536),
    StableHlo.TRef.binary (.of main_call0_v1 : StableHlo.TRef sig ⟨S65536, .i32⟩) (.of main_v10 : StableHlo.TRef sig ⟨S65536, .i32⟩) (.of main_call0_v2 : StableHlo.TRef sig ⟨S65536, .i32⟩) maxsi,
    StableHlo.TRef.unary (.of main_c_4 : StableHlo.TRef sig ⟨S_, .i32⟩) (.of main_call0_v3 : StableHlo.TRef sig ⟨S_, .i32⟩) id,
    StableHlo.TRef.unary (.of main_call0_v3 : StableHlo.TRef sig ⟨S_, .i32⟩) (.of main_call0_v4 : StableHlo.TRef sig ⟨S65536, .i32⟩) (broadcastInDim S65536 ![] bcast_S_S65536),
    StableHlo.TRef.binary (.of main_call0_v4 : StableHlo.TRef sig ⟨S65536, .i32⟩) (.of main_call0_v2 : StableHlo.TRef sig ⟨S65536, .i32⟩) (.of main_v11 : StableHlo.TRef sig ⟨S65536, .i32⟩) minsi ]
abbrev opsDegClip_W : List (Ref sig .tc) := [main_c_3, main_c_4, main_call0_v0, main_call0_v1, main_call0_v2, main_call0_v3, main_call0_v4, main_v11]
theorem opsDegClip_writes : (opsDegClip : List (HloOp τ sig (Elt F))).Forall fun op => op.writes ⊆ (opsDegClip_W.map (Proc.devRef (τ := τ) .tc)).toFinset := by
  simp only [List.Forall]
  exact ⟨by writes_mem, by writes_mem, by writes_mem, by writes_mem, by writes_mem, by writes_mem, by writes_mem, by writes_mem⟩
theorem opsDegClip_frame (V : Valuation τ sig (Elt F)) (r : Ref sig .tc) (h : r ∉ opsDegClip_W) :
    after opsDegClip V (Proc.devRef .tc r) = V (Proc.devRef .tc r) :=
  after_of_writes_sub opsDegClip V opsDegClip_writes h
set_option maxHeartbeats 2000000 in
theorem opsDegClip_val (V : Valuation τ sig (Elt F)) :
    after opsDegClip V (Proc.devRef .tc main_v11) = clipDegree (V (Proc.devRef .tc main_v10)) := by
  after_results' <;> rfl

/-- 9 operations: gatherRowsAt. -/
abbrev opsGather : List (HloOp τ sig (Elt F)) :=
  [ StableHlo.nullary main_c_5 (constantI S_ 32 0#32),
    StableHlo.unary main_c_5 main_v12 (broadcastInDim S65536 ![] bcast_S_S65536 : (⟨S_, .i32⟩ : BufTy).Contents (Elt F) → (⟨S65536, .i32⟩ : BufTy).Contents (Elt F)),
    StableHlo.binary main_v11 main_v12 main_v13 (cmpi .slt : (⟨S65536, .i32⟩ : BufTy).Contents (Elt F) → (⟨S65536, .i32⟩ : BufTy).Contents (Elt F) → (⟨S65536, .i1⟩ : BufTy).Contents (Elt F)),
    StableHlo.nullary main_c_6 (constantI S_ 32 256#32),
    StableHlo.unary main_c_6 main_v14 (broadcastInDim S65536 ![] bcast_S_S65536 : (⟨S_, .i32⟩ : BufTy).Contents (Elt F) → (⟨S65536, .i32⟩ : BufTy).Contents (Elt F)),
    StableHlo.binary main_v11 main_v14 main_v15 (addi : (⟨S65536, .i32⟩ : BufTy).Contents (Elt F) → (⟨S65536, .i32⟩ : BufTy).Contents (Elt F) → (⟨S65536, .i32⟩ : BufTy).Contents (Elt F)),
    StableHlo.ternary main_v13 main_v15 main_v11 main_v16 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v16 main_v17 (broadcastInDim S65536x1 ![0] bcast_S65536_S65536x1_0 : (⟨S65536, .i32⟩ : BufTy).Contents (Elt F) → (⟨S65536x1, .i32⟩ : BufTy).Contents (Elt F)),
    StableHlo.binary main_arg3 main_v17 main_v18 ((fun x i => Host.gather gather_S256x256_S65536x1_S65536x256_1_0_n_n_0_1_1256 x i) : (⟨S256x256, .f32⟩ : BufTy).Contents (Elt F) → (⟨S65536x1, .i32⟩ : BufTy).Contents (Elt F) → (⟨S65536x256, .f32⟩ : BufTy).Contents (Elt F)) ]
abbrev opsGather_W : List (Ref sig .tc) := [main_c_5, main_v12, main_v13, main_c_6, main_v14, main_v15, main_v16, main_v17, main_v18]
theorem opsGather_writes : (opsGather : List (HloOp τ sig (Elt F))).Forall fun op => op.writes ⊆ (opsGather_W.map (Proc.devRef (τ := τ) .tc)).toFinset := by
  simp only [List.Forall]
  exact ⟨by writes_mem, by writes_mem, by writes_mem, by writes_mem, by writes_mem, by writes_mem, by writes_mem, by writes_mem, by writes_mem⟩
theorem opsGather_frame (V : Valuation τ sig (Elt F)) (r : Ref sig .tc) (h : r ∉ opsGather_W) :
    after opsGather V (Proc.devRef .tc r) = V (Proc.devRef .tc r) :=
  after_of_writes_sub opsGather V opsGather_writes h
set_option maxHeartbeats 2000000 in
theorem opsGather_val (V : Valuation τ sig (Elt F)) :
    after opsGather V (Proc.devRef .tc main_v18) = gatherRowsAt (V (Proc.devRef .tc main_v11)) (V (Proc.devRef .tc main_arg3)) := by
  after_results' <;> rfl

/-- 2 operations: edgeRow0. -/
abbrev opsRow0a : List (HloOp τ sig (Elt F)) :=
  [ StableHlo.unary main_arg1 main_v19 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v19 main_v20 rfl shapeCasts_S1x524288_S524288 ]
abbrev opsRow0a_W : List (Ref sig .tc) := [main_v19, main_v20]
theorem opsRow0a_writes : (opsRow0a : List (HloOp τ sig (Elt F))).Forall fun op => op.writes ⊆ (opsRow0a_W.map (Proc.devRef (τ := τ) .tc)).toFinset := by
  simp only [List.Forall]
  exact ⟨by writes_mem, by writes_mem⟩
theorem opsRow0a_frame (V : Valuation τ sig (Elt F)) (r : Ref sig .tc) (h : r ∉ opsRow0a_W) :
    after opsRow0a V (Proc.devRef .tc r) = V (Proc.devRef .tc r) :=
  after_of_writes_sub opsRow0a V opsRow0a_writes h
set_option maxHeartbeats 2000000 in
theorem opsRow0a_val (V : Valuation τ sig (Elt F)) :
    after opsRow0a V (Proc.devRef .tc main_v20) = edgeRow0 (V (Proc.devRef .tc main_arg1)) := by
  after_results' <;> rfl

/-- 18 operations: floorDiv256. -/
abbrev opsDiv : List (HloOp τ sig (Elt F)) :=
  [ StableHlo.nullary main_c_7 (constantI S_ 32 256#32),
    StableHlo.TRef.unary (.of main_c_7 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S524288, .i32⟩) (broadcastInDim S524288 ![] bcast_S_S524288),
    StableHlo.TRef.binary (.of main_v20 : StableHlo.TRef sig ⟨S524288, .i32⟩) (.of main_call1_v1 : StableHlo.TRef sig ⟨S524288, .i32⟩) (.of main_call1_v2 : StableHlo.TRef sig ⟨S524288, .i32⟩) Host.divsi,
    StableHlo.TRef.unary (.of main_v20 : StableHlo.TRef sig ⟨S524288, .i32⟩) (.of main_call1_v3 : StableHlo.TRef sig ⟨S524288, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S524288, .i32⟩) (broadcastInDim S524288 ![] bcast_S_S524288),
    StableHlo.TRef.binary (.of main_call1_v3 : StableHlo.TRef sig ⟨S524288, .i32⟩) (.of main_call1_v5 : StableHlo.TRef sig ⟨S524288, .i32⟩) (.of main_call1_v6 : StableHlo.TRef sig ⟨S524288, .i1⟩) (cmpi .ne),
    StableHlo.TRef.unary (.of main_call1_v0 : StableHlo.TRef sig ⟨S_, .i32⟩) (.of main_call1_v7 : StableHlo.TRef sig ⟨S524288, .i32⟩) (broadcastInDim S524288 ![] bcast_S_S524288),
    StableHlo.TRef.binary (.of main_v20 : StableHlo.TRef sig ⟨S524288, .i32⟩) (.of main_call1_v7 : StableHlo.TRef sig ⟨S524288, .i32⟩) (.of main_call1_v8 : StableHlo.TRef sig ⟨S524288, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S524288, .i32⟩) (broadcastInDim S524288 ![] bcast_S_S524288),
    StableHlo.TRef.binary (.of main_call1_v8 : StableHlo.TRef sig ⟨S524288, .i32⟩) (.of main_call1_v9 : StableHlo.TRef sig ⟨S524288, .i32⟩) (.of main_call1_v10 : StableHlo.TRef sig ⟨S524288, .i1⟩) (cmpi .ne),
    StableHlo.TRef.binary (.of main_call1_v6 : StableHlo.TRef sig ⟨S524288, .i1⟩) (.of main_call1_v10 : StableHlo.TRef sig ⟨S524288, .i1⟩) (.of main_call1_v11 : StableHlo.TRef sig ⟨S524288, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S524288, .i32⟩) (broadcastInDim S524288 ![] bcast_S_S524288),
    StableHlo.TRef.binary (.of main_call1_v2 : StableHlo.TRef sig ⟨S524288, .i32⟩) (.of main_call1_v12 : StableHlo.TRef sig ⟨S524288, .i32⟩) (.of main_call1_v13 : StableHlo.TRef sig ⟨S524288, .i32⟩) subi,
    StableHlo.TRef.ternary (.of main_call1_v11 : StableHlo.TRef sig ⟨S524288, .i1⟩) (.of main_call1_v13 : StableHlo.TRef sig ⟨S524288, .i32⟩) (.of main_call1_v2 : StableHlo.TRef sig ⟨S524288, .i32⟩) (.of main_v21 : StableHlo.TRef sig ⟨S524288, .i32⟩) select ]
abbrev opsDiv_W : List (Ref sig .tc) := [main_c_7, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v21]
theorem opsDiv_writes : (opsDiv : List (HloOp τ sig (Elt F))).Forall fun op => op.writes ⊆ (opsDiv_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
theorem opsDiv_frame (V : Valuation τ sig (Elt F)) (r : Ref sig .tc) (h : r ∉ opsDiv_W) :
    after opsDiv V (Proc.devRef .tc r) = V (Proc.devRef .tc r) :=
  after_of_writes_sub opsDiv V opsDiv_writes h
set_option maxHeartbeats 2000000 in
theorem opsDiv_val (V : Valuation τ sig (Elt F)) :
    after opsDiv V (Proc.devRef .tc main_v21) = floorDiv256 (V (Proc.devRef .tc main_v20)) := by
  after_results' <;> rfl

/-- 2 operations: edgeRow0. -/
abbrev opsRow0b : List (HloOp τ sig (Elt F)) :=
  [ StableHlo.unary main_arg1 main_v22 ((extractStridedSlice S1x524288 ![0, 0] · slices_S2x524288_S1x524288_0_0) : (⟨S2x524288, .i32⟩ : BufTy).Contents (Elt F) → (⟨S1x524288, .i32⟩ : BufTy).Contents (Elt F)),
    StableHlo.reshape main_v22 main_v23 rfl shapeCasts_S1x524288_S524288 ]
abbrev opsRow0b_W : List (Ref sig .tc) := [main_v22, main_v23]
theorem opsRow0b_writes : (opsRow0b : List (HloOp τ sig (Elt F))).Forall fun op => op.writes ⊆ (opsRow0b_W.map (Proc.devRef (τ := τ) .tc)).toFinset := by
  simp only [List.Forall]
  exact ⟨by writes_mem, by writes_mem⟩
theorem opsRow0b_frame (V : Valuation τ sig (Elt F)) (r : Ref sig .tc) (h : r ∉ opsRow0b_W) :
    after opsRow0b V (Proc.devRef .tc r) = V (Proc.devRef .tc r) :=
  after_of_writes_sub opsRow0b V opsRow0b_writes h
set_option maxHeartbeats 2000000 in
theorem opsRow0b_val (V : Valuation τ sig (Elt F)) :
    after opsRow0b V (Proc.devRef .tc main_v23) = edgeRow0 (V (Proc.devRef .tc main_arg1)) := by
  after_results' <;> rfl

/-- 22 operations: floorMod256. -/
abbrev opsModS : List (HloOp τ sig (Elt F)) :=
  [ StableHlo.nullary main_c_8 (constantI S_ 32 256#32),
    StableHlo.TRef.unary (.of main_c_8 : StableHlo.TRef sig ⟨S_, .i32⟩) (.of main_call2_v0 : StableHlo.TRef sig ⟨S_, .i32⟩) id,
    StableHlo.TRef.nullary (.of main_call2_c : StableHlo.TRef sig ⟨S_, .i32⟩) (constantI S_ 32 0#32),
    StableHlo.TRef.binary (.of main_call2_v0 : StableHlo.TRef sig ⟨S_, .i32⟩) (.of main_call2_c : StableHlo.TRef sig ⟨S_, .i32⟩) (.of main_call2_v1 : StableHlo.TRef sig ⟨S_, .i1⟩) (cmpi .eq),
    StableHlo.TRef.nullary (.of main_call2_c_0 : StableHlo.TRef sig ⟨S_, .i32⟩) (constantI S_ 32 1#32),
    StableHlo.TRef.ternary (.of main_call2_v1 : StableHlo.TRef sig ⟨S_, .i1⟩) (.of main_call2_c_0 : StableHlo.TRef sig ⟨S_, .i32⟩) (.of main_call2_v0 : StableHlo.TRef sig ⟨S_, .i32⟩) (.of main_call2_v2 : StableHlo.TRef sig ⟨S_, .i32⟩) select,
    StableHlo.TRef.unary (.of main_call2_v2 : StableHlo.TRef sig ⟨S_, .i32⟩) (.of main_call2_v3 : StableHlo.TRef sig ⟨S524288, .i32⟩) (broadcastInDim S524288 ![] bcast_S_S524288),
    StableHlo.TRef.binary (.of main_v23 : StableHlo.TRef sig ⟨S524288, .i32⟩) (.of main_call2_v3 : StableHlo.TRef sig ⟨S524288, .i32⟩) (.of main_call2_v4 : StableHlo.TRef sig ⟨S524288, .i32⟩) Host.remsi,
    StableHlo.TRef.nullary (.of main_call2_c_1 : StableHlo.TRef sig ⟨S_, .i32⟩) (constantI S_ 32 0#32),
    StableHlo.TRef.unary (.of main_call2_c_1 : StableHlo.TRef sig ⟨S_, .i32⟩) (.of main_call2_v5 : StableHlo.TRef sig ⟨S524288, .i32⟩) (broadcastInDim S524288 ![] bcast_S_S524288),
    StableHlo.TRef.binary (.of main_call2_v4 : StableHlo.TRef sig ⟨S524288, .i32⟩) (.of main_call2_v5 : StableHlo.TRef sig ⟨S524288, .i32⟩) (.of main_call2_v6 : StableHlo.TRef sig ⟨S524288, .i1⟩) (cmpi .ne),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v7 : StableHlo.TRef sig ⟨S524288, .i32⟩) (broadcastInDim S524288 ![] bcast_S_S524288),
    StableHlo.TRef.binary (.of main_call2_v4 : StableHlo.TRef sig ⟨S524288, .i32⟩) (.of main_call2_v7 : StableHlo.TRef sig ⟨S524288, .i32⟩) (.of main_call2_v8 : StableHlo.TRef sig ⟨S524288, .i1⟩) (cmpi .slt),
    StableHlo.TRef.nullary (.of main_call2_c_3 : StableHlo.TRef sig ⟨S_, .i32⟩) (constantI S_ 32 0#32),
    StableHlo.TRef.binary (.of main_call2_v2 : StableHlo.TRef sig ⟨S_, .i32⟩) (.of main_call2_c_3 : StableHlo.TRef sig ⟨S_, .i32⟩) (.of main_call2_v9 : StableHlo.TRef sig ⟨S_, .i1⟩) (cmpi .slt),
    StableHlo.TRef.unary (.of main_call2_v9 : StableHlo.TRef sig ⟨S_, .i1⟩) (.of main_call2_v10 : StableHlo.TRef sig ⟨S524288, .i1⟩) (broadcastInDim S524288 ![] bcast_S_S524288),
    StableHlo.TRef.binary (.of main_call2_v8 : StableHlo.TRef sig ⟨S524288, .i1⟩) (.of main_call2_v10 : StableHlo.TRef sig ⟨S524288, .i1⟩) (.of main_call2_v11 : StableHlo.TRef sig ⟨S524288, .i1⟩) (cmpi .ne),
    StableHlo.TRef.binary (.of main_call2_v11 : StableHlo.TRef sig ⟨S524288, .i1⟩) (.of main_call2_v6 : StableHlo.TRef sig ⟨S524288, .i1⟩) (.of main_call2_v12 : StableHlo.TRef sig ⟨S524288, .i1⟩) andi,
    StableHlo.TRef.unary (.of main_call2_v2 : StableHlo.TRef sig ⟨S_, .i32⟩) (.of main_call2_v13 : StableHlo.TRef sig ⟨S524288, .i32⟩) (broadcastInDim S524288 ![] bcast_S_S524288),
    StableHlo.TRef.binary (.of main_call2_v4 : StableHlo.TRef sig ⟨S524288, .i32⟩) (.of main_call2_v13 : StableHlo.TRef sig ⟨S524288, .i32⟩) (.of main_call2_v14 : StableHlo.TRef sig ⟨S524288, .i32⟩) addi,
    StableHlo.TRef.ternary (.of main_call2_v12 : StableHlo.TRef sig ⟨S524288, .i1⟩) (.of main_call2_v14 : StableHlo.TRef sig ⟨S524288, .i32⟩) (.of main_call2_v4 : StableHlo.TRef sig ⟨S524288, .i32⟩) (.of main_v24 : StableHlo.TRef sig ⟨S524288, .i32⟩) select ]
abbrev opsModS_W : List (Ref sig .tc) := [main_c_8, main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v24]
theorem opsModS_writes : (opsModS : List (HloOp τ sig (Elt F))).Forall fun op => op.writes ⊆ (opsModS_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
theorem opsModS_frame (V : Valuation τ sig (Elt F)) (r : Ref sig .tc) (h : r ∉ opsModS_W) :
    after opsModS V (Proc.devRef .tc r) = V (Proc.devRef .tc r) :=
  after_of_writes_sub opsModS V opsModS_writes h
set_option maxHeartbeats 2000000 in
theorem opsModS_val (V : Valuation τ sig (Elt F)) :
    after opsModS V (Proc.devRef .tc main_v24) = floorMod256 (V (Proc.devRef .tc main_v23)) := by
  after_results' <;> rfl

/-- 2 operations: edgeRow1. -/
abbrev opsRow1 : List (HloOp τ sig (Elt F)) :=
  [ StableHlo.unary main_arg1 main_v25 ((extractStridedSlice S1x524288 ![1, 0] · slices_S2x524288_S1x524288_1_0) : (⟨S2x524288, .i32⟩ : BufTy).Contents (Elt F) → (⟨S1x524288, .i32⟩ : BufTy).Contents (Elt F)),
    StableHlo.reshape main_v25 main_v26 rfl shapeCasts_S1x524288_S524288 ]
abbrev opsRow1_W : List (Ref sig .tc) := [main_v25, main_v26]
theorem opsRow1_writes : (opsRow1 : List (HloOp τ sig (Elt F))).Forall fun op => op.writes ⊆ (opsRow1_W.map (Proc.devRef (τ := τ) .tc)).toFinset := by
  simp only [List.Forall]
  exact ⟨by writes_mem, by writes_mem⟩
theorem opsRow1_frame (V : Valuation τ sig (Elt F)) (r : Ref sig .tc) (h : r ∉ opsRow1_W) :
    after opsRow1 V (Proc.devRef .tc r) = V (Proc.devRef .tc r) :=
  after_of_writes_sub opsRow1 V opsRow1_writes h
set_option maxHeartbeats 2000000 in
theorem opsRow1_val (V : Valuation τ sig (Elt F)) :
    after opsRow1 V (Proc.devRef .tc main_v26) = edgeRow1 (V (Proc.devRef .tc main_arg1)) := by
  after_results' <;> rfl

/-- 22 operations: floorMod256. -/
abbrev opsModD : List (HloOp τ sig (Elt F)) :=
  [ StableHlo.nullary main_c_9 (constantI S_ 32 256#32),
    StableHlo.TRef.unary (.of main_c_9 : StableHlo.TRef sig ⟨S_, .i32⟩) (.of main_call3_v0 : StableHlo.TRef sig ⟨S_, .i32⟩) id,
    StableHlo.TRef.nullary (.of main_call3_c : StableHlo.TRef sig ⟨S_, .i32⟩) (constantI S_ 32 0#32),
    StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq),
    StableHlo.TRef.nullary (.of main_call3_c_0 : StableHlo.TRef sig ⟨S_, .i32⟩) (constantI S_ 32 1#32),
    StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select,
    StableHlo.TRef.unary (.of main_call3_v2 : StableHlo.TRef sig ⟨S_, .i32⟩) (.of main_call3_v3 : StableHlo.TRef sig ⟨S524288, .i32⟩) (broadcastInDim S524288 ![] bcast_S_S524288),
    StableHlo.TRef.binary (.of main_v26 : StableHlo.TRef sig ⟨S524288, .i32⟩) (.of main_call3_v3 : StableHlo.TRef sig ⟨S524288, .i32⟩) (.of main_call3_v4 : StableHlo.TRef sig ⟨S524288, .i32⟩) Host.remsi,
    StableHlo.TRef.nullary (.of main_call3_c_1 : StableHlo.TRef sig ⟨S_, .i32⟩) (constantI S_ 32 0#32),
    StableHlo.TRef.unary (.of main_call3_c_1 : StableHlo.TRef sig ⟨S_, .i32⟩) (.of main_call3_v5 : StableHlo.TRef sig ⟨S524288, .i32⟩) (broadcastInDim S524288 ![] bcast_S_S524288),
    StableHlo.TRef.binary (.of main_call3_v4 : StableHlo.TRef sig ⟨S524288, .i32⟩) (.of main_call3_v5 : StableHlo.TRef sig ⟨S524288, .i32⟩) (.of main_call3_v6 : StableHlo.TRef sig ⟨S524288, .i1⟩) (cmpi .ne),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v7 : StableHlo.TRef sig ⟨S524288, .i32⟩) (broadcastInDim S524288 ![] bcast_S_S524288),
    StableHlo.TRef.binary (.of main_call3_v4 : StableHlo.TRef sig ⟨S524288, .i32⟩) (.of main_call3_v7 : StableHlo.TRef sig ⟨S524288, .i32⟩) (.of main_call3_v8 : StableHlo.TRef sig ⟨S524288, .i1⟩) (cmpi .slt),
    StableHlo.TRef.nullary (.of main_call3_c_3 : StableHlo.TRef sig ⟨S_, .i32⟩) (constantI S_ 32 0#32),
    StableHlo.TRef.binary (.of main_call3_v2 : StableHlo.TRef sig ⟨S_, .i32⟩) (.of main_call3_c_3 : StableHlo.TRef sig ⟨S_, .i32⟩) (.of main_call3_v9 : StableHlo.TRef sig ⟨S_, .i1⟩) (cmpi .slt),
    StableHlo.TRef.unary (.of main_call3_v9 : StableHlo.TRef sig ⟨S_, .i1⟩) (.of main_call3_v10 : StableHlo.TRef sig ⟨S524288, .i1⟩) (broadcastInDim S524288 ![] bcast_S_S524288),
    StableHlo.TRef.binary (.of main_call3_v8 : StableHlo.TRef sig ⟨S524288, .i1⟩) (.of main_call3_v10 : StableHlo.TRef sig ⟨S524288, .i1⟩) (.of main_call3_v11 : StableHlo.TRef sig ⟨S524288, .i1⟩) (cmpi .ne),
    StableHlo.TRef.binary (.of main_call3_v11 : StableHlo.TRef sig ⟨S524288, .i1⟩) (.of main_call3_v6 : StableHlo.TRef sig ⟨S524288, .i1⟩) (.of main_call3_v12 : StableHlo.TRef sig ⟨S524288, .i1⟩) andi,
    StableHlo.TRef.unary (.of main_call3_v2 : StableHlo.TRef sig ⟨S_, .i32⟩) (.of main_call3_v13 : StableHlo.TRef sig ⟨S524288, .i32⟩) (broadcastInDim S524288 ![] bcast_S_S524288),
    StableHlo.TRef.binary (.of main_call3_v4 : StableHlo.TRef sig ⟨S524288, .i32⟩) (.of main_call3_v13 : StableHlo.TRef sig ⟨S524288, .i32⟩) (.of main_call3_v14 : StableHlo.TRef sig ⟨S524288, .i32⟩) addi,
    StableHlo.TRef.ternary (.of main_call3_v12 : StableHlo.TRef sig ⟨S524288, .i1⟩) (.of main_call3_v14 : StableHlo.TRef sig ⟨S524288, .i32⟩) (.of main_call3_v4 : StableHlo.TRef sig ⟨S524288, .i32⟩) (.of main_v27 : StableHlo.TRef sig ⟨S524288, .i32⟩) select ]
abbrev opsModD_W : List (Ref sig .tc) := [main_c_9, main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v27]
theorem opsModD_writes : (opsModD : List (HloOp τ sig (Elt F))).Forall fun op => op.writes ⊆ (opsModD_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem, by writes_mem⟩
theorem opsModD_frame (V : Valuation τ sig (Elt F)) (r : Ref sig .tc) (h : r ∉ opsModD_W) :
    after opsModD V (Proc.devRef .tc r) = V (Proc.devRef .tc r) :=
  after_of_writes_sub opsModD V opsModD_writes h
set_option maxHeartbeats 2000000 in
theorem opsModD_val (V : Valuation τ sig (Elt F)) :
    after opsModD V (Proc.devRef .tc main_v27) = floorMod256 (V (Proc.devRef .tc main_v26)) := by
  after_results' <;> rfl

/-- 2 operations: zeroAdj. -/
abbrev opsZero : List (HloOp τ sig (Elt F)) :=
  [ StableHlo.nullary main_cst (constant S_ .f32 0x00000000#32),
    StableHlo.unary main_cst main_v28 (broadcastInDim S256x256x256 ![] bcast_S_S256x256x256 : (⟨S_, .f32⟩ : BufTy).Contents (Elt F) → (⟨S256x256x256, .f32⟩ : BufTy).Contents (Elt F)) ]
abbrev opsZero_W : List (Ref sig .tc) := [main_cst, main_v28]
theorem opsZero_writes : (opsZero : List (HloOp τ sig (Elt F))).Forall fun op => op.writes ⊆ (opsZero_W.map (Proc.devRef (τ := τ) .tc)).toFinset := by
  simp only [List.Forall]
  exact ⟨by writes_mem, by writes_mem⟩
theorem opsZero_frame (V : Valuation τ sig (Elt F)) (r : Ref sig .tc) (h : r ∉ opsZero_W) :
    after opsZero V (Proc.devRef .tc r) = V (Proc.devRef .tc r) :=
  after_of_writes_sub opsZero V opsZero_writes h
set_option maxHeartbeats 2000000 in
theorem opsZero_val (V : Valuation τ sig (Elt F)) :
    after opsZero V (Proc.devRef .tc main_v28) = zeroAdj (F := F) := by
  after_results' <;> rfl

/-- 7 operations: wrapIndex256. -/
abbrev opsWrapG : List (HloOp τ sig (Elt F)) :=
  [ StableHlo.nullary main_c_10 (constantI S_ 32 0#32),
    StableHlo.unary main_c_10 main_v29 (broadcastInDim S524288 ![] bcast_S_S524288 : (⟨S_, .i32⟩ : BufTy).Contents (Elt F) → (⟨S524288, .i32⟩ : BufTy).Contents (Elt F)),
    StableHlo.binary main_v21 main_v29 main_v30 (cmpi .slt : (⟨S524288, .i32⟩ : BufTy).Contents (Elt F) → (⟨S524288, .i32⟩ : BufTy).Contents (Elt F) → (⟨S524288, .i1⟩ : BufTy).Contents (Elt F)),
    StableHlo.nullary main_c_11 (constantI S_ 32 256#32),
    StableHlo.unary main_c_11 main_v31 (broadcastInDim S524288 ![] bcast_S_S524288 : (⟨S_, .i32⟩ : BufTy).Contents (Elt F) → (⟨S524288, .i32⟩ : BufTy).Contents (Elt F)),
    StableHlo.binary main_v21 main_v31 main_v32 (addi : (⟨S524288, .i32⟩ : BufTy).Contents (Elt F) → (⟨S524288, .i32⟩ : BufTy).Contents (Elt F) → (⟨S524288, .i32⟩ : BufTy).Contents (Elt F)),
    StableHlo.ternary main_v30 main_v32 main_v21 main_v33 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)) ]
abbrev opsWrapG_W : List (Ref sig .tc) := [main_c_10, main_v29, main_v30, main_c_11, main_v31, main_v32, main_v33]
theorem opsWrapG_writes : (opsWrapG : List (HloOp τ sig (Elt F))).Forall fun op => op.writes ⊆ (opsWrapG_W.map (Proc.devRef (τ := τ) .tc)).toFinset := by
  simp only [List.Forall]
  exact ⟨by writes_mem, by writes_mem, by writes_mem, by writes_mem, by writes_mem, by writes_mem, by writes_mem⟩
theorem opsWrapG_frame (V : Valuation τ sig (Elt F)) (r : Ref sig .tc) (h : r ∉ opsWrapG_W) :
    after opsWrapG V (Proc.devRef .tc r) = V (Proc.devRef .tc r) :=
  after_of_writes_sub opsWrapG V opsWrapG_writes h
set_option maxHeartbeats 2000000 in
theorem opsWrapG_val (V : Valuation τ sig (Elt F)) :
    after opsWrapG V (Proc.devRef .tc main_v33) = wrapIndex256 (V (Proc.devRef .tc main_v21)) := by
  after_results' <;> rfl

/-- 7 operations: wrapIndex256. -/
abbrev opsWrapS : List (HloOp τ sig (Elt F)) :=
  [ StableHlo.nullary main_c_12 (constantI S_ 32 0#32),
    StableHlo.unary main_c_12 main_v34 (broadcastInDim S524288 ![] bcast_S_S524288 : (⟨S_, .i32⟩ : BufTy).Contents (Elt F) → (⟨S524288, .i32⟩ : BufTy).Contents (Elt F)),
    StableHlo.binary main_v24 main_v34 main_v35 (cmpi .slt : (⟨S524288, .i32⟩ : BufTy).Contents (Elt F) → (⟨S524288, .i32⟩ : BufTy).Contents (Elt F) → (⟨S524288, .i1⟩ : BufTy).Contents (Elt F)),
    StableHlo.nullary main_c_13 (constantI S_ 32 256#32),
    StableHlo.unary main_c_13 main_v36 (broadcastInDim S524288 ![] bcast_S_S524288 : (⟨S_, .i32⟩ : BufTy).Contents (Elt F) → (⟨S524288, .i32⟩ : BufTy).Contents (Elt F)),
    StableHlo.binary main_v24 main_v36 main_v37 (addi : (⟨S524288, .i32⟩ : BufTy).Contents (Elt F) → (⟨S524288, .i32⟩ : BufTy).Contents (Elt F) → (⟨S524288, .i32⟩ : BufTy).Contents (Elt F)),
    StableHlo.ternary main_v35 main_v37 main_v24 main_v38 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)) ]
abbrev opsWrapS_W : List (Ref sig .tc) := [main_c_12, main_v34, main_v35, main_c_13, main_v36, main_v37, main_v38]
theorem opsWrapS_writes : (opsWrapS : List (HloOp τ sig (Elt F))).Forall fun op => op.writes ⊆ (opsWrapS_W.map (Proc.devRef (τ := τ) .tc)).toFinset := by
  simp only [List.Forall]
  exact ⟨by writes_mem, by writes_mem, by writes_mem, by writes_mem, by writes_mem, by writes_mem, by writes_mem⟩
theorem opsWrapS_frame (V : Valuation τ sig (Elt F)) (r : Ref sig .tc) (h : r ∉ opsWrapS_W) :
    after opsWrapS V (Proc.devRef .tc r) = V (Proc.devRef .tc r) :=
  after_of_writes_sub opsWrapS V opsWrapS_writes h
set_option maxHeartbeats 2000000 in
theorem opsWrapS_val (V : Valuation τ sig (Elt F)) :
    after opsWrapS V (Proc.devRef .tc main_v38) = wrapIndex256 (V (Proc.devRef .tc main_v24)) := by
  after_results' <;> rfl

/-- 7 operations: wrapIndex256. -/
abbrev opsWrapD : List (HloOp τ sig (Elt F)) :=
  [ StableHlo.nullary main_c_14 (constantI S_ 32 0#32),
    StableHlo.unary main_c_14 main_v39 (broadcastInDim S524288 ![] bcast_S_S524288 : (⟨S_, .i32⟩ : BufTy).Contents (Elt F) → (⟨S524288, .i32⟩ : BufTy).Contents (Elt F)),
    StableHlo.binary main_v27 main_v39 main_v40 (cmpi .slt : (⟨S524288, .i32⟩ : BufTy).Contents (Elt F) → (⟨S524288, .i32⟩ : BufTy).Contents (Elt F) → (⟨S524288, .i1⟩ : BufTy).Contents (Elt F)),
    StableHlo.nullary main_c_15 (constantI S_ 32 256#32),
    StableHlo.unary main_c_15 main_v41 (broadcastInDim S524288 ![] bcast_S_S524288 : (⟨S_, .i32⟩ : BufTy).Contents (Elt F) → (⟨S524288, .i32⟩ : BufTy).Contents (Elt F)),
    StableHlo.binary main_v27 main_v41 main_v42 (addi : (⟨S524288, .i32⟩ : BufTy).Contents (Elt F) → (⟨S524288, .i32⟩ : BufTy).Contents (Elt F) → (⟨S524288, .i32⟩ : BufTy).Contents (Elt F)),
    StableHlo.ternary main_v40 main_v42 main_v27 main_v43 (select : (⟨S524288, .i1⟩ : BufTy).Contents (Elt F) → (⟨S524288, .i32⟩ : BufTy).Contents (Elt F) → (⟨S524288, .i32⟩ : BufTy).Contents (Elt F) → (⟨S524288, .i32⟩ : BufTy).Contents (Elt F)) ]
abbrev opsWrapD_W : List (Ref sig .tc) := [main_c_14, main_v39, main_v40, main_c_15, main_v41, main_v42, main_v43]
theorem opsWrapD_writes : (opsWrapD : List (HloOp τ sig (Elt F))).Forall fun op => op.writes ⊆ (opsWrapD_W.map (Proc.devRef (τ := τ) .tc)).toFinset := by
  simp only [List.Forall]
  exact ⟨by writes_mem, by writes_mem, by writes_mem, by writes_mem, by writes_mem, by writes_mem, by writes_mem⟩
theorem opsWrapD_frame (V : Valuation τ sig (Elt F)) (r : Ref sig .tc) (h : r ∉ opsWrapD_W) :
    after opsWrapD V (Proc.devRef .tc r) = V (Proc.devRef .tc r) :=
  after_of_writes_sub opsWrapD V opsWrapD_writes h
set_option maxHeartbeats 2000000 in
theorem opsWrapD_val (V : Valuation τ sig (Elt F)) :
    after opsWrapD V (Proc.devRef .tc main_v43) = wrapIndex256 (V (Proc.devRef .tc main_v27)) := by
  after_results' <;> rfl

/-- 4 operations: edgeTriples. -/
abbrev opsTriples : List (HloOp τ sig (Elt F)) :=
  [ StableHlo.unary main_v33 main_v44 (broadcastInDim S524288x1 ![0] bcast_S524288_S524288x1_0 : (⟨S524288, .i32⟩ : BufTy).Contents (Elt F) → (⟨S524288x1, .i32⟩ : BufTy).Contents (Elt F)),
    StableHlo.unary main_v38 main_v45 (broadcastInDim S524288x1 ![0] bcast_S524288_S524288x1_0 : (⟨S524288, .i32⟩ : BufTy).Contents (Elt F) → (⟨S524288x1, .i32⟩ : BufTy).Contents (Elt F)),
    StableHlo.unary main_v43 main_v46 (broadcastInDim S524288x1 ![0] bcast_S524288_S524288x1_0 : (⟨S524288, .i32⟩ : BufTy).Contents (Elt F) → (⟨S524288x1, .i32⟩ : BufTy).Contents (Elt F)),
    StableHlo.nary ![main_v44, main_v45, main_v46] main_v47 (fun u => concatenate S524288x3 1 [⟨S524288x1, u 0⟩, ⟨S524288x1, u 1⟩, ⟨S524288x1, u 2⟩] concatenates_S524288x1_S524288x1_S524288x1_S524288x3_d1) ]
abbrev opsTriples_W : List (Ref sig .tc) := [main_v44, main_v45, main_v46, main_v47]
theorem opsTriples_writes : (opsTriples : List (HloOp τ sig (Elt F))).Forall fun op => op.writes ⊆ (opsTriples_W.map (Proc.devRef (τ := τ) .tc)).toFinset := by
  simp only [List.Forall]
  exact ⟨by writes_mem, by writes_mem, by writes_mem, by writes_mem⟩
theorem opsTriples_frame (V : Valuation τ sig (Elt F)) (r : Ref sig .tc) (h : r ∉ opsTriples_W) :
    after opsTriples V (Proc.devRef .tc r) = V (Proc.devRef .tc r) :=
  after_of_writes_sub opsTriples V opsTriples_writes h
set_option maxHeartbeats 2000000 in
theorem opsTriples_val (V : Valuation τ sig (Elt F)) :
    after opsTriples V (Proc.devRef .tc main_v47) = edgeTriples (V (Proc.devRef .tc main_v33)) (V (Proc.devRef .tc main_v38)) (V (Proc.devRef .tc main_v43)) := by
  after_results' <;> rfl

/-- 3 operations: scatterOnes. -/
abbrev opsScatter : List (HloOp τ sig (Elt F)) :=
  [ StableHlo.nullary main_cst_16 (constant S_ .f32 0x3F800000#32),
    StableHlo.unary main_cst_16 main_v48 (broadcastInDim S524288 ![] bcast_S_S524288 : (⟨S_, .f32⟩ : BufTy).Contents (Elt F) → (⟨S524288, .f32⟩ : BufTy).Contents (Elt F)),
    StableHlo.ternary main_v28 main_v47 main_v48 main_v49 ((fun x i u => Host.scatter scatter_S256x256x256_S524288x3_S524288_n_012_012_1 (fun _ b => b) x i u) : (⟨S256x256x256, .f32⟩ : BufTy).Contents (Elt F) → (⟨S524288x3, .i32⟩ : BufTy).Contents (Elt F) → (⟨S524288, .f32⟩ : BufTy).Contents (Elt F) → (⟨S256x256x256, .f32⟩ : BufTy).Contents (Elt F)) ]
abbrev opsScatter_W : List (Ref sig .tc) := [main_cst_16, main_v48, main_v49]
theorem opsScatter_writes : (opsScatter : List (HloOp τ sig (Elt F))).Forall fun op => op.writes ⊆ (opsScatter_W.map (Proc.devRef (τ := τ) .tc)).toFinset := by
  simp only [List.Forall]
  exact ⟨by writes_mem, by writes_mem, by writes_mem⟩
theorem opsScatter_frame (V : Valuation τ sig (Elt F)) (r : Ref sig .tc) (h : r ∉ opsScatter_W) :
    after opsScatter V (Proc.devRef .tc r) = V (Proc.devRef .tc r) :=
  after_of_writes_sub opsScatter V opsScatter_writes h
set_option maxHeartbeats 2000000 in
theorem opsScatter_val (V : Valuation τ sig (Elt F)) :
    after opsScatter V (Proc.devRef .tc main_v49) = scatterOnes (V (Proc.devRef .tc main_v28)) (V (Proc.devRef .tc main_v47)) := by
  after_results' <;> rfl

/-- 6 operations: symAdj. -/
abbrev opsSym : List (HloOp τ sig (Elt F)) :=
  [ StableHlo.unary main_v49 main_v50 ((transpose S256x256x256 [0, 2, 1] · transposes_S256x256x256_S256x256x256_0_2_1) : (⟨S256x256x256, .f32⟩ : BufTy).Contents (Elt F) → (⟨S256x256x256, .f32⟩ : BufTy).Contents (Elt F)),
    StableHlo.binary main_v49 main_v50 main_v51 (addf : (⟨S256x256x256, .f32⟩ : BufTy).Contents (Elt F) → (⟨S256x256x256, .f32⟩ : BufTy).Contents (Elt F) → (⟨S256x256x256, .f32⟩ : BufTy).Contents (Elt F)),
    StableHlo.nullary main_cst_17 (constant S_ .f32 0x00000000#32),
    StableHlo.unary main_cst_17 main_v52 (broadcastInDim S256x256x256 ![] bcast_S_S256x256x256 : (⟨S_, .f32⟩ : BufTy).Contents (Elt F) → (⟨S256x256x256, .f32⟩ : BufTy).Contents (Elt F)),
    StableHlo.binary main_v51 main_v52 main_v53 (cmpf .ogt : (⟨S256x256x256, .f32⟩ : BufTy).Contents (Elt F) → (⟨S256x256x256, .f32⟩ : BufTy).Contents (Elt F) → (⟨S256x256x256, .i1⟩ : BufTy).Contents (Elt F)),
    StableHlo.unary main_v53 main_v54 (uitofp .f32 : (⟨S256x256x256, .i1⟩ : BufTy).Contents (Elt F) → (⟨S256x256x256, .f32⟩ : BufTy).Contents (Elt F)) ]
abbrev opsSym_W : List (Ref sig .tc) := [main_v50, main_v51, main_cst_17, main_v52, main_v53, main_v54]
theorem opsSym_writes : (opsSym : List (HloOp τ sig (Elt F))).Forall fun op => op.writes ⊆ (opsSym_W.map (Proc.devRef (τ := τ) .tc)).toFinset := by
  simp only [List.Forall]
  exact ⟨by writes_mem, by writes_mem, by writes_mem, by writes_mem, by writes_mem, by writes_mem⟩
theorem opsSym_frame (V : Valuation τ sig (Elt F)) (r : Ref sig .tc) (h : r ∉ opsSym_W) :
    after opsSym V (Proc.devRef .tc r) = V (Proc.devRef .tc r) :=
  after_of_writes_sub opsSym V opsSym_writes h
set_option maxHeartbeats 2000000 in
theorem opsSym_val (V : Valuation τ sig (Elt F)) :
    after opsSym V (Proc.devRef .tc main_v54) = symAdj (V (Proc.devRef .tc main_v49)) := by
  after_results' <;> rfl

/-- 2 operations: degree. -/
abbrev opsDegree : List (HloOp τ sig (Elt F)) :=
  [ StableHlo.nullary main_cst_18 (constant S_ .f32 0x00000000#32),
    StableHlo.binary main_v54 main_cst_18 main_v55 ((fun x v => Host.reduceAdd x v reducesTo_S256x256x256_S256x256_d2 h_S_) : (⟨S256x256x256, .f32⟩ : BufTy).Contents (Elt F) → (⟨S_, .f32⟩ : BufTy).Contents (Elt F) → (⟨S256x256, .f32⟩ : BufTy).Contents (Elt F)) ]
abbrev opsDegree_W : List (Ref sig .tc) := [main_cst_18, main_v55]
theorem opsDegree_writes : (opsDegree : List (HloOp τ sig (Elt F))).Forall fun op => op.writes ⊆ (opsDegree_W.map (Proc.devRef (τ := τ) .tc)).toFinset := by
  simp only [List.Forall]
  exact ⟨by writes_mem, by writes_mem⟩
theorem opsDegree_frame (V : Valuation τ sig (Elt F)) (r : Ref sig .tc) (h : r ∉ opsDegree_W) :
    after opsDegree V (Proc.devRef .tc r) = V (Proc.devRef .tc r) :=
  after_of_writes_sub opsDegree V opsDegree_writes h
set_option maxHeartbeats 2000000 in
theorem opsDegree_val (V : Valuation τ sig (Elt F)) :
    after opsDegree V (Proc.devRef .tc main_v55) = degree (V (Proc.devRef .tc main_v54)) := by
  after_results' <;> rfl

/-- 17 operations: invDegree. -/
abbrev opsInvDeg : List (HloOp τ sig (Elt F)) :=
  [ StableHlo.nullary main_cst_19 (constant S_ .f32 0x00000000#32),
    StableHlo.unary main_cst_19 main_v56 (broadcastInDim S256x256 ![] bcast_S_S256x256 : (⟨S_, .f32⟩ : BufTy).Contents (Elt F) → (⟨S256x256, .f32⟩ : BufTy).Contents (Elt F)),
    StableHlo.binary main_v55 main_v56 main_v57 (cmpf .ogt : (⟨S256x256, .f32⟩ : BufTy).Contents (Elt F) → (⟨S256x256, .f32⟩ : BufTy).Contents (Elt F) → (⟨S256x256, .i1⟩ : BufTy).Contents (Elt F)),
    StableHlo.nullary main_cst_20 (constant S_ .f32 0x00000000#32),
    StableHlo.unary main_cst_20 main_v58 (broadcastInDim S256x256 ![] bcast_S_S256x256 : (⟨S_, .f32⟩ : BufTy).Contents (Elt F) → (⟨S256x256, .f32⟩ : BufTy).Contents (Elt F)),
    StableHlo.binary main_v55 main_v58 main_v59 (cmpf .ogt : (⟨S256x256, .f32⟩ : BufTy).Contents (Elt F) → (⟨S256x256, .f32⟩ : BufTy).Contents (Elt F) → (⟨S256x256, .i1⟩ : BufTy).Contents (Elt F)),
    StableHlo.nullary main_cst_21 (constant S_ .f32 0x3F800000#32),
    StableHlo.TRef.unary (.of main_cst_21 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S256x256, .f32⟩) (broadcastInDim S256x256 ![] bcast_S_S256x256),
    StableHlo.TRef.ternary (.of main_v59 : StableHlo.TRef sig ⟨S256x256, .i1⟩) (.of main_v55 : StableHlo.TRef sig ⟨S256x256, .f32⟩) (.of main_call4_v1 : StableHlo.TRef sig ⟨S256x256, .f32⟩) (.of main_v60 : StableHlo.TRef sig ⟨S256x256, .f32⟩) select,
    StableHlo.nullary main_cst_22 (constant S_ .f32 0x3F800000#32),
    StableHlo.unary main_cst_22 main_v61 (broadcastInDim S256x256 ![] bcast_S_S256x256 : (⟨S_, .f32⟩ : BufTy).Contents (Elt F) → (⟨S256x256, .f32⟩ : BufTy).Contents (Elt F)),
    StableHlo.binary main_v61 main_v60 main_v62 (Host.divf : (⟨S256x256, .f32⟩ : BufTy).Contents (Elt F) → (⟨S256x256, .f32⟩ : BufTy).Contents (Elt F) → (⟨S256x256, .f32⟩ : BufTy).Contents (Elt F)),
    StableHlo.nullary main_cst_23 (constant S_ .f32 0x00000000#32),
    StableHlo.TRef.unary (.of main_cst_23 : StableHlo.TRef sig ⟨S_, .f32⟩) (.of main_call5_v0 : StableHlo.TRef sig ⟨S_, .f32⟩) id,
    StableHlo.TRef.unary (.of main_call5_v0 : StableHlo.TRef sig ⟨S_, .f32⟩) (.of main_call5_v1 : StableHlo.TRef sig ⟨S256x256, .f32⟩) (broadcastInDim S256x256 ![] bcast_S_S256x256),
    StableHlo.TRef.ternary (.of main_v57 : StableHlo.TRef sig ⟨S256x256, .i1⟩) (.of main_v62 : StableHlo.TRef sig ⟨S256x256, .f32⟩) (.of main_call5_v1 : StableHlo.TRef sig ⟨S256x256, .f32⟩) (.of main_v63 : StableHlo.TRef sig ⟨S256x256, .f32⟩) select ]
abbrev opsInvDeg_W : List (Ref sig .tc) := [main_cst_19, main_v56, main_v57, main_cst_20, main_v58, main_v59, main_cst_21, main_call4_v0, main_call4_v1, main_v60, main_cst_22, main_v61, main_v62, main_cst_23, main_call5_v0, main_call5_v1, main_v63]
theorem opsInvDeg_writes : (opsInvDeg : List (HloOp τ sig (Elt F))).Forall fun op => op.writes ⊆ (opsInvDeg_W.map (Proc.devRef (τ := τ) .tc)).toFinset := by
  simp only [List.Forall]
  exact ⟨by writes_mem, by writes_mem, by writes_mem, by writes_mem, by writes_mem, by writes_mem, by writes_mem, by writes_mem, by writes_mem, by writes_mem, by writes_mem, by writes_mem, by writes_mem, by writes_mem, by writes_mem, by writes_mem, by writes_mem⟩
theorem opsInvDeg_frame (V : Valuation τ sig (Elt F)) (r : Ref sig .tc) (h : r ∉ opsInvDeg_W) :
    after opsInvDeg V (Proc.devRef .tc r) = V (Proc.devRef .tc r) :=
  after_of_writes_sub opsInvDeg V opsInvDeg_writes h
set_option maxHeartbeats 2000000 in
theorem opsInvDeg_val (V : Valuation τ sig (Elt F)) :
    after opsInvDeg V (Proc.devRef .tc main_v63) = invDegree (V (Proc.devRef .tc main_v55)) := by
  after_results' <;> rfl

/-- 3 operations: scaleCols. -/
abbrev opsScale : List (HloOp τ sig (Elt F)) :=
  [ StableHlo.unary main_v63 main_v64 (broadcastInDim S256x1x256 ![0, 2] bcast_S256x256_S256x1x256_0_2 : (⟨S256x256, .f32⟩ : BufTy).Contents (Elt F) → (⟨S256x1x256, .f32⟩ : BufTy).Contents (Elt F)),
    StableHlo.unary main_v64 main_v65 (broadcastInDim S256x256x256 ![0, 1, 2] bcast_S256x1x256_S256x256x256_0_1_2 : (⟨S256x1x256, .f32⟩ : BufTy).Contents (Elt F) → (⟨S256x256x256, .f32⟩ : BufTy).Contents (Elt F)),
    StableHlo.binary main_v54 main_v65 main_v66 (mulf : (⟨S256x256x256, .f32⟩ : BufTy).Contents (Elt F) → (⟨S256x256x256, .f32⟩ : BufTy).Contents (Elt F) → (⟨S256x256x256, .f32⟩ : BufTy).Contents (Elt F)) ]
abbrev opsScale_W : List (Ref sig .tc) := [main_v64, main_v65, main_v66]
theorem opsScale_writes : (opsScale : List (HloOp τ sig (Elt F))).Forall fun op => op.writes ⊆ (opsScale_W.map (Proc.devRef (τ := τ) .tc)).toFinset := by
  simp only [List.Forall]
  exact ⟨by writes_mem, by writes_mem, by writes_mem⟩
theorem opsScale_frame (V : Valuation τ sig (Elt F)) (r : Ref sig .tc) (h : r ∉ opsScale_W) :
    after opsScale V (Proc.devRef .tc r) = V (Proc.devRef .tc r) :=
  after_of_writes_sub opsScale V opsScale_writes h
set_option maxHeartbeats 2000000 in
theorem opsScale_val (V : Valuation τ sig (Elt F)) :
    after opsScale V (Proc.devRef .tc main_v66) = scaleCols (V (Proc.devRef .tc main_v63)) (V (Proc.devRef .tc main_v54)) := by
  after_results' <;> rfl

/-- 8 operations: eyeBatch. -/
abbrev opsEye : List (HloOp τ sig (Elt F)) :=
  [ StableHlo.nullary main_v67 (iotaInDim S256x256 32 0),
    StableHlo.nullary main_v68 (iotaInDim S256x256 32 1),
    StableHlo.nullary main_c_24 (constantI S_ 32 0#32),
    StableHlo.unary main_c_24 main_v69 (broadcastInDim S256x256 ![] bcast_S_S256x256 : (⟨S_, .i32⟩ : BufTy).Contents (Elt F) → (⟨S256x256, .i32⟩ : BufTy).Contents (Elt F)),
    StableHlo.binary main_v67 main_v69 main_v70 (addi : (⟨S256x256, .i32⟩ : BufTy).Contents (Elt F) → (⟨S256x256, .i32⟩ : BufTy).Contents (Elt F) → (⟨S256x256, .i32⟩ : BufTy).Contents (Elt F)),
    StableHlo.binary main_v70 main_v68 main_v71 (cmpi .eq : (⟨S256x256, .i32⟩ : BufTy).Contents (Elt F) → (⟨S256x256, .i32⟩ : BufTy).Contents (Elt F) → (⟨S256x256, .i1⟩ : BufTy).Contents (Elt F)),
    StableHlo.unary main_v71 main_v72 (uitofp .f32 : (⟨S256x256, .i1⟩ : BufTy).Contents (Elt F) → (⟨S256x256, .f32⟩ : BufTy).Contents (Elt F)),
    StableHlo.unary main_v72 main_v73 (broadcastInDim S256x256x256 ![1, 2] bcast_S256x256_S256x256x256_1_2 : (⟨S256x256, .f32⟩ : BufTy).Contents (Elt F) → (⟨S256x256x256, .f32⟩ : BufTy).Contents (Elt F)) ]
abbrev opsEye_W : List (Ref sig .tc) := [main_v67, main_v68, main_c_24, main_v69, main_v70, main_v71, main_v72, main_v73]
theorem opsEye_writes : (opsEye : List (HloOp τ sig (Elt F))).Forall fun op => op.writes ⊆ (opsEye_W.map (Proc.devRef (τ := τ) .tc)).toFinset := by
  simp only [List.Forall]
  exact ⟨by writes_mem, by writes_mem, by writes_mem, by writes_mem, by writes_mem, by writes_mem, by writes_mem, by writes_mem⟩
theorem opsEye_frame (V : Valuation τ sig (Elt F)) (r : Ref sig .tc) (h : r ∉ opsEye_W) :
    after opsEye V (Proc.devRef .tc r) = V (Proc.devRef .tc r) :=
  after_of_writes_sub opsEye V opsEye_writes h
set_option maxHeartbeats 2000000 in
theorem opsEye_val (V : Valuation τ sig (Elt F)) :
    after opsEye V (Proc.devRef .tc main_v73) = eyeBatch (F := F) := by
  after_results' <;> rfl

/-- 1 operations: walkStep. -/
abbrev opsStep0 : List (HloOp τ sig (Elt F)) :=
  [ StableHlo.binary main_v73 main_v66 main_v74 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)) ]
abbrev opsStep0_W : List (Ref sig .tc) := [main_v74]
theorem opsStep0_writes : (opsStep0 : List (HloOp τ sig (Elt F))).Forall fun op => op.writes ⊆ (opsStep0_W.map (Proc.devRef (τ := τ) .tc)).toFinset := by
  simp only [List.Forall]; writes_mem
theorem opsStep0_frame (V : Valuation τ sig (Elt F)) (r : Ref sig .tc) (h : r ∉ opsStep0_W) :
    after opsStep0 V (Proc.devRef .tc r) = V (Proc.devRef .tc r) :=
  after_of_writes_sub opsStep0 V opsStep0_writes h
set_option maxHeartbeats 2000000 in
theorem opsStep0_val (V : Valuation τ sig (Elt F)) :
    after opsStep0 V (Proc.devRef .tc main_v74) = walkStep (V (Proc.devRef .tc main_v73)) (V (Proc.devRef .tc main_v66)) := by
  after_results' <;> rfl

/-- 9 operations: batchDiag. -/
abbrev opsDiag0 : List (HloOp τ sig (Elt F)) :=
  [ StableHlo.nullary main_v75 (iotaInDim S256x256 32 0),
    StableHlo.nullary main_v76 (iotaInDim S256x256 32 1),
    StableHlo.binary main_v75 main_v76 main_v77 (cmpi .eq : (⟨S256x256, .i32⟩ : BufTy).Contents (Elt F) → (⟨S256x256, .i32⟩ : BufTy).Contents (Elt F) → (⟨S256x256, .i1⟩ : BufTy).Contents (Elt F)),
    StableHlo.unary main_v77 main_v78 (broadcastInDim S256x256x256 ![1, 2] bcast_S256x256_S256x256x256_1_2 : (⟨S256x256, .i1⟩ : BufTy).Contents (Elt F) → (⟨S256x256x256, .i1⟩ : BufTy).Contents (Elt F)),
    StableHlo.nullary main_cst_25 (constant S_ .f32 0x00000000#32),
    StableHlo.unary main_cst_25 main_v79 (broadcastInDim S256x256x256 ![] bcast_S_S256x256x256 : (⟨S_, .f32⟩ : BufTy).Contents (Elt F) → (⟨S256x256x256, .f32⟩ : BufTy).Contents (Elt F)),
    StableHlo.ternary main_v78 main_v74 main_v79 main_v80 (select : (⟨S256x256x256, .i1⟩ : BufTy).Contents (Elt F) → (⟨S256x256x256, .f32⟩ : BufTy).Contents (Elt F) → (⟨S256x256x256, .f32⟩ : BufTy).Contents (Elt F) → (⟨S256x256x256, .f32⟩ : BufTy).Contents (Elt F)),
    StableHlo.nullary main_cst_26 (constant S_ .f32 0x00000000#32),
    StableHlo.binary main_v80 main_cst_26 main_v81 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)) ]
abbrev opsDiag0_W : List (Ref sig .tc) := [main_v75, main_v76, main_v77, main_v78, main_cst_25, main_v79, main_v80, main_cst_26, main_v81]
theorem opsDiag0_writes : (opsDiag0 : List (HloOp τ sig (Elt F))).Forall fun op => op.writes ⊆ (opsDiag0_W.map (Proc.devRef (τ := τ) .tc)).toFinset := by
  simp only [List.Forall]
  exact ⟨by writes_mem, by writes_mem, by writes_mem, by writes_mem, by writes_mem, by writes_mem, by writes_mem, by writes_mem, by writes_mem⟩
theorem opsDiag0_frame (V : Valuation τ sig (Elt F)) (r : Ref sig .tc) (h : r ∉ opsDiag0_W) :
    after opsDiag0 V (Proc.devRef .tc r) = V (Proc.devRef .tc r) :=
  after_of_writes_sub opsDiag0 V opsDiag0_writes h
set_option maxHeartbeats 2000000 in
theorem opsDiag0_val (V : Valuation τ sig (Elt F)) :
    after opsDiag0 V (Proc.devRef .tc main_v81) = batchDiag (V (Proc.devRef .tc main_v74)) := by
  after_results' <;> rfl

/-- 1 operations: walkStep. -/
abbrev opsStep1 : List (HloOp τ sig (Elt F)) :=
  [ StableHlo.binary main_v74 main_v66 main_v82 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)) ]
abbrev opsStep1_W : List (Ref sig .tc) := [main_v82]
theorem opsStep1_writes : (opsStep1 : List (HloOp τ sig (Elt F))).Forall fun op => op.writes ⊆ (opsStep1_W.map (Proc.devRef (τ := τ) .tc)).toFinset := by
  simp only [List.Forall]; writes_mem
theorem opsStep1_frame (V : Valuation τ sig (Elt F)) (r : Ref sig .tc) (h : r ∉ opsStep1_W) :
    after opsStep1 V (Proc.devRef .tc r) = V (Proc.devRef .tc r) :=
  after_of_writes_sub opsStep1 V opsStep1_writes h
set_option maxHeartbeats 2000000 in
theorem opsStep1_val (V : Valuation τ sig (Elt F)) :
    after opsStep1 V (Proc.devRef .tc main_v82) = walkStep (V (Proc.devRef .tc main_v74)) (V (Proc.devRef .tc main_v66)) := by
  after_results' <;> rfl

/-- 9 operations: batchDiag. -/
abbrev opsDiag1 : List (HloOp τ sig (Elt F)) :=
  [ StableHlo.nullary main_v83 (iotaInDim S256x256 32 0),
    StableHlo.nullary main_v84 (iotaInDim S256x256 32 1),
    StableHlo.binary main_v83 main_v84 main_v85 (cmpi .eq : (⟨S256x256, .i32⟩ : BufTy).Contents (Elt F) → (⟨S256x256, .i32⟩ : BufTy).Contents (Elt F) → (⟨S256x256, .i1⟩ : BufTy).Contents (Elt F)),
    StableHlo.unary main_v85 main_v86 (broadcastInDim S256x256x256 ![1, 2] bcast_S256x256_S256x256x256_1_2 : (⟨S256x256, .i1⟩ : BufTy).Contents (Elt F) → (⟨S256x256x256, .i1⟩ : BufTy).Contents (Elt F)),
    StableHlo.nullary main_cst_27 (constant S_ .f32 0x00000000#32),
    StableHlo.unary main_cst_27 main_v87 (broadcastInDim S256x256x256 ![] bcast_S_S256x256x256 : (⟨S_, .f32⟩ : BufTy).Contents (Elt F) → (⟨S256x256x256, .f32⟩ : BufTy).Contents (Elt F)),
    StableHlo.ternary main_v86 main_v82 main_v87 main_v88 (select : (⟨S256x256x256, .i1⟩ : BufTy).Contents (Elt F) → (⟨S256x256x256, .f32⟩ : BufTy).Contents (Elt F) → (⟨S256x256x256, .f32⟩ : BufTy).Contents (Elt F) → (⟨S256x256x256, .f32⟩ : BufTy).Contents (Elt F)),
    StableHlo.nullary main_cst_28 (constant S_ .f32 0x00000000#32),
    StableHlo.binary main_v88 main_cst_28 main_v89 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)) ]
abbrev opsDiag1_W : List (Ref sig .tc) := [main_v83, main_v84, main_v85, main_v86, main_cst_27, main_v87, main_v88, main_cst_28, main_v89]
theorem opsDiag1_writes : (opsDiag1 : List (HloOp τ sig (Elt F))).Forall fun op => op.writes ⊆ (opsDiag1_W.map (Proc.devRef (τ := τ) .tc)).toFinset := by
  simp only [List.Forall]
  exact ⟨by writes_mem, by writes_mem, by writes_mem, by writes_mem, by writes_mem, by writes_mem, by writes_mem, by writes_mem, by writes_mem⟩
theorem opsDiag1_frame (V : Valuation τ sig (Elt F)) (r : Ref sig .tc) (h : r ∉ opsDiag1_W) :
    after opsDiag1 V (Proc.devRef .tc r) = V (Proc.devRef .tc r) :=
  after_of_writes_sub opsDiag1 V opsDiag1_writes h
set_option maxHeartbeats 2000000 in
theorem opsDiag1_val (V : Valuation τ sig (Elt F)) :
    after opsDiag1 V (Proc.devRef .tc main_v89) = batchDiag (V (Proc.devRef .tc main_v82)) := by
  after_results' <;> rfl

/-- 1 operations: walkStep. -/
abbrev opsStep2 : List (HloOp τ sig (Elt F)) :=
  [ StableHlo.binary main_v82 main_v66 main_v90 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)) ]
abbrev opsStep2_W : List (Ref sig .tc) := [main_v90]
theorem opsStep2_writes : (opsStep2 : List (HloOp τ sig (Elt F))).Forall fun op => op.writes ⊆ (opsStep2_W.map (Proc.devRef (τ := τ) .tc)).toFinset := by
  simp only [List.Forall]; writes_mem
theorem opsStep2_frame (V : Valuation τ sig (Elt F)) (r : Ref sig .tc) (h : r ∉ opsStep2_W) :
    after opsStep2 V (Proc.devRef .tc r) = V (Proc.devRef .tc r) :=
  after_of_writes_sub opsStep2 V opsStep2_writes h
set_option maxHeartbeats 2000000 in
theorem opsStep2_val (V : Valuation τ sig (Elt F)) :
    after opsStep2 V (Proc.devRef .tc main_v90) = walkStep (V (Proc.devRef .tc main_v82)) (V (Proc.devRef .tc main_v66)) := by
  after_results' <;> rfl

/-- 9 operations: batchDiag. -/
abbrev opsDiag2 : List (HloOp τ sig (Elt F)) :=
  [ StableHlo.nullary main_v91 (iotaInDim S256x256 32 0),
    StableHlo.nullary main_v92 (iotaInDim S256x256 32 1),
    StableHlo.binary main_v91 main_v92 main_v93 (cmpi .eq : (⟨S256x256, .i32⟩ : BufTy).Contents (Elt F) → (⟨S256x256, .i32⟩ : BufTy).Contents (Elt F) → (⟨S256x256, .i1⟩ : BufTy).Contents (Elt F)),
    StableHlo.unary main_v93 main_v94 (broadcastInDim S256x256x256 ![1, 2] bcast_S256x256_S256x256x256_1_2 : (⟨S256x256, .i1⟩ : BufTy).Contents (Elt F) → (⟨S256x256x256, .i1⟩ : BufTy).Contents (Elt F)),
    StableHlo.nullary main_cst_29 (constant S_ .f32 0x00000000#32),
    StableHlo.unary main_cst_29 main_v95 (broadcastInDim S256x256x256 ![] bcast_S_S256x256x256 : (⟨S_, .f32⟩ : BufTy).Contents (Elt F) → (⟨S256x256x256, .f32⟩ : BufTy).Contents (Elt F)),
    StableHlo.ternary main_v94 main_v90 main_v95 main_v96 (select : (⟨S256x256x256, .i1⟩ : BufTy).Contents (Elt F) → (⟨S256x256x256, .f32⟩ : BufTy).Contents (Elt F) → (⟨S256x256x256, .f32⟩ : BufTy).Contents (Elt F) → (⟨S256x256x256, .f32⟩ : BufTy).Contents (Elt F)),
    StableHlo.nullary main_cst_30 (constant S_ .f32 0x00000000#32),
    StableHlo.binary main_v96 main_cst_30 main_v97 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)) ]
abbrev opsDiag2_W : List (Ref sig .tc) := [main_v91, main_v92, main_v93, main_v94, main_cst_29, main_v95, main_v96, main_cst_30, main_v97]
theorem opsDiag2_writes : (opsDiag2 : List (HloOp τ sig (Elt F))).Forall fun op => op.writes ⊆ (opsDiag2_W.map (Proc.devRef (τ := τ) .tc)).toFinset := by
  simp only [List.Forall]
  exact ⟨by writes_mem, by writes_mem, by writes_mem, by writes_mem, by writes_mem, by writes_mem, by writes_mem, by writes_mem, by writes_mem⟩
theorem opsDiag2_frame (V : Valuation τ sig (Elt F)) (r : Ref sig .tc) (h : r ∉ opsDiag2_W) :
    after opsDiag2 V (Proc.devRef .tc r) = V (Proc.devRef .tc r) :=
  after_of_writes_sub opsDiag2 V opsDiag2_writes h
set_option maxHeartbeats 2000000 in
theorem opsDiag2_val (V : Valuation τ sig (Elt F)) :
    after opsDiag2 V (Proc.devRef .tc main_v97) = batchDiag (V (Proc.devRef .tc main_v90)) := by
  after_results' <;> rfl

/-- 1 operations: walkStep. -/
abbrev opsStep3 : List (HloOp τ sig (Elt F)) :=
  [ StableHlo.binary main_v90 main_v66 main_v98 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)) ]
abbrev opsStep3_W : List (Ref sig .tc) := [main_v98]
theorem opsStep3_writes : (opsStep3 : List (HloOp τ sig (Elt F))).Forall fun op => op.writes ⊆ (opsStep3_W.map (Proc.devRef (τ := τ) .tc)).toFinset := by
  simp only [List.Forall]; writes_mem
theorem opsStep3_frame (V : Valuation τ sig (Elt F)) (r : Ref sig .tc) (h : r ∉ opsStep3_W) :
    after opsStep3 V (Proc.devRef .tc r) = V (Proc.devRef .tc r) :=
  after_of_writes_sub opsStep3 V opsStep3_writes h
set_option maxHeartbeats 2000000 in
theorem opsStep3_val (V : Valuation τ sig (Elt F)) :
    after opsStep3 V (Proc.devRef .tc main_v98) = walkStep (V (Proc.devRef .tc main_v90)) (V (Proc.devRef .tc main_v66)) := by
  after_results' <;> rfl

/-- 9 operations: batchDiag. -/
abbrev opsDiag3 : List (HloOp τ sig (Elt F)) :=
  [ StableHlo.nullary main_v99 (iotaInDim S256x256 32 0),
    StableHlo.nullary main_v100 (iotaInDim S256x256 32 1),
    StableHlo.binary main_v99 main_v100 main_v101 (cmpi .eq : (⟨S256x256, .i32⟩ : BufTy).Contents (Elt F) → (⟨S256x256, .i32⟩ : BufTy).Contents (Elt F) → (⟨S256x256, .i1⟩ : BufTy).Contents (Elt F)),
    StableHlo.unary main_v101 main_v102 (broadcastInDim S256x256x256 ![1, 2] bcast_S256x256_S256x256x256_1_2 : (⟨S256x256, .i1⟩ : BufTy).Contents (Elt F) → (⟨S256x256x256, .i1⟩ : BufTy).Contents (Elt F)),
    StableHlo.nullary main_cst_31 (constant S_ .f32 0x00000000#32),
    StableHlo.unary main_cst_31 main_v103 (broadcastInDim S256x256x256 ![] bcast_S_S256x256x256 : (⟨S_, .f32⟩ : BufTy).Contents (Elt F) → (⟨S256x256x256, .f32⟩ : BufTy).Contents (Elt F)),
    StableHlo.ternary main_v102 main_v98 main_v103 main_v104 (select : (⟨S256x256x256, .i1⟩ : BufTy).Contents (Elt F) → (⟨S256x256x256, .f32⟩ : BufTy).Contents (Elt F) → (⟨S256x256x256, .f32⟩ : BufTy).Contents (Elt F) → (⟨S256x256x256, .f32⟩ : BufTy).Contents (Elt F)),
    StableHlo.nullary main_cst_32 (constant S_ .f32 0x00000000#32),
    StableHlo.binary main_v104 main_cst_32 main_v105 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)) ]
abbrev opsDiag3_W : List (Ref sig .tc) := [main_v99, main_v100, main_v101, main_v102, main_cst_31, main_v103, main_v104, main_cst_32, main_v105]
theorem opsDiag3_writes : (opsDiag3 : List (HloOp τ sig (Elt F))).Forall fun op => op.writes ⊆ (opsDiag3_W.map (Proc.devRef (τ := τ) .tc)).toFinset := by
  simp only [List.Forall]
  exact ⟨by writes_mem, by writes_mem, by writes_mem, by writes_mem, by writes_mem, by writes_mem, by writes_mem, by writes_mem, by writes_mem⟩
theorem opsDiag3_frame (V : Valuation τ sig (Elt F)) (r : Ref sig .tc) (h : r ∉ opsDiag3_W) :
    after opsDiag3 V (Proc.devRef .tc r) = V (Proc.devRef .tc r) :=
  after_of_writes_sub opsDiag3 V opsDiag3_writes h
set_option maxHeartbeats 2000000 in
theorem opsDiag3_val (V : Valuation τ sig (Elt F)) :
    after opsDiag3 V (Proc.devRef .tc main_v105) = batchDiag (V (Proc.devRef .tc main_v98)) := by
  after_results' <;> rfl

/-- 1 operations: walkStep. -/
abbrev opsStep4 : List (HloOp τ sig (Elt F)) :=
  [ StableHlo.binary main_v98 main_v66 main_v106 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)) ]
abbrev opsStep4_W : List (Ref sig .tc) := [main_v106]
theorem opsStep4_writes : (opsStep4 : List (HloOp τ sig (Elt F))).Forall fun op => op.writes ⊆ (opsStep4_W.map (Proc.devRef (τ := τ) .tc)).toFinset := by
  simp only [List.Forall]; writes_mem
theorem opsStep4_frame (V : Valuation τ sig (Elt F)) (r : Ref sig .tc) (h : r ∉ opsStep4_W) :
    after opsStep4 V (Proc.devRef .tc r) = V (Proc.devRef .tc r) :=
  after_of_writes_sub opsStep4 V opsStep4_writes h
set_option maxHeartbeats 2000000 in
theorem opsStep4_val (V : Valuation τ sig (Elt F)) :
    after opsStep4 V (Proc.devRef .tc main_v106) = walkStep (V (Proc.devRef .tc main_v98)) (V (Proc.devRef .tc main_v66)) := by
  after_results' <;> rfl

/-- 9 operations: batchDiag. -/
abbrev opsDiag4 : List (HloOp τ sig (Elt F)) :=
  [ StableHlo.nullary main_v107 (iotaInDim S256x256 32 0),
    StableHlo.nullary main_v108 (iotaInDim S256x256 32 1),
    StableHlo.binary main_v107 main_v108 main_v109 (cmpi .eq : (⟨S256x256, .i32⟩ : BufTy).Contents (Elt F) → (⟨S256x256, .i32⟩ : BufTy).Contents (Elt F) → (⟨S256x256, .i1⟩ : BufTy).Contents (Elt F)),
    StableHlo.unary main_v109 main_v110 (broadcastInDim S256x256x256 ![1, 2] bcast_S256x256_S256x256x256_1_2 : (⟨S256x256, .i1⟩ : BufTy).Contents (Elt F) → (⟨S256x256x256, .i1⟩ : BufTy).Contents (Elt F)),
    StableHlo.nullary main_cst_33 (constant S_ .f32 0x00000000#32),
    StableHlo.unary main_cst_33 main_v111 (broadcastInDim S256x256x256 ![] bcast_S_S256x256x256 : (⟨S_, .f32⟩ : BufTy).Contents (Elt F) → (⟨S256x256x256, .f32⟩ : BufTy).Contents (Elt F)),
    StableHlo.ternary main_v110 main_v106 main_v111 main_v112 (select : (⟨S256x256x256, .i1⟩ : BufTy).Contents (Elt F) → (⟨S256x256x256, .f32⟩ : BufTy).Contents (Elt F) → (⟨S256x256x256, .f32⟩ : BufTy).Contents (Elt F) → (⟨S256x256x256, .f32⟩ : BufTy).Contents (Elt F)),
    StableHlo.nullary main_cst_34 (constant S_ .f32 0x00000000#32),
    StableHlo.binary main_v112 main_cst_34 main_v113 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)) ]
abbrev opsDiag4_W : List (Ref sig .tc) := [main_v107, main_v108, main_v109, main_v110, main_cst_33, main_v111, main_v112, main_cst_34, main_v113]
theorem opsDiag4_writes : (opsDiag4 : List (HloOp τ sig (Elt F))).Forall fun op => op.writes ⊆ (opsDiag4_W.map (Proc.devRef (τ := τ) .tc)).toFinset := by
  simp only [List.Forall]
  exact ⟨by writes_mem, by writes_mem, by writes_mem, by writes_mem, by writes_mem, by writes_mem, by writes_mem, by writes_mem, by writes_mem⟩
theorem opsDiag4_frame (V : Valuation τ sig (Elt F)) (r : Ref sig .tc) (h : r ∉ opsDiag4_W) :
    after opsDiag4 V (Proc.devRef .tc r) = V (Proc.devRef .tc r) :=
  after_of_writes_sub opsDiag4 V opsDiag4_writes h
set_option maxHeartbeats 2000000 in
theorem opsDiag4_val (V : Valuation τ sig (Elt F)) :
    after opsDiag4 V (Proc.devRef .tc main_v113) = batchDiag (V (Proc.devRef .tc main_v106)) := by
  after_results' <;> rfl

/-- 1 operations: walkStep. -/
abbrev opsStep5 : List (HloOp τ sig (Elt F)) :=
  [ StableHlo.binary main_v106 main_v66 main_v114 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)) ]
abbrev opsStep5_W : List (Ref sig .tc) := [main_v114]
theorem opsStep5_writes : (opsStep5 : List (HloOp τ sig (Elt F))).Forall fun op => op.writes ⊆ (opsStep5_W.map (Proc.devRef (τ := τ) .tc)).toFinset := by
  simp only [List.Forall]; writes_mem
theorem opsStep5_frame (V : Valuation τ sig (Elt F)) (r : Ref sig .tc) (h : r ∉ opsStep5_W) :
    after opsStep5 V (Proc.devRef .tc r) = V (Proc.devRef .tc r) :=
  after_of_writes_sub opsStep5 V opsStep5_writes h
set_option maxHeartbeats 2000000 in
theorem opsStep5_val (V : Valuation τ sig (Elt F)) :
    after opsStep5 V (Proc.devRef .tc main_v114) = walkStep (V (Proc.devRef .tc main_v106)) (V (Proc.devRef .tc main_v66)) := by
  after_results' <;> rfl

/-- 9 operations: batchDiag. -/
abbrev opsDiag5 : List (HloOp τ sig (Elt F)) :=
  [ StableHlo.nullary main_v115 (iotaInDim S256x256 32 0),
    StableHlo.nullary main_v116 (iotaInDim S256x256 32 1),
    StableHlo.binary main_v115 main_v116 main_v117 (cmpi .eq : (⟨S256x256, .i32⟩ : BufTy).Contents (Elt F) → (⟨S256x256, .i32⟩ : BufTy).Contents (Elt F) → (⟨S256x256, .i1⟩ : BufTy).Contents (Elt F)),
    StableHlo.unary main_v117 main_v118 (broadcastInDim S256x256x256 ![1, 2] bcast_S256x256_S256x256x256_1_2 : (⟨S256x256, .i1⟩ : BufTy).Contents (Elt F) → (⟨S256x256x256, .i1⟩ : BufTy).Contents (Elt F)),
    StableHlo.nullary main_cst_35 (constant S_ .f32 0x00000000#32),
    StableHlo.unary main_cst_35 main_v119 (broadcastInDim S256x256x256 ![] bcast_S_S256x256x256 : (⟨S_, .f32⟩ : BufTy).Contents (Elt F) → (⟨S256x256x256, .f32⟩ : BufTy).Contents (Elt F)),
    StableHlo.ternary main_v118 main_v114 main_v119 main_v120 (select : (⟨S256x256x256, .i1⟩ : BufTy).Contents (Elt F) → (⟨S256x256x256, .f32⟩ : BufTy).Contents (Elt F) → (⟨S256x256x256, .f32⟩ : BufTy).Contents (Elt F) → (⟨S256x256x256, .f32⟩ : BufTy).Contents (Elt F)),
    StableHlo.nullary main_cst_36 (constant S_ .f32 0x00000000#32),
    StableHlo.binary main_v120 main_cst_36 main_v121 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)) ]
abbrev opsDiag5_W : List (Ref sig .tc) := [main_v115, main_v116, main_v117, main_v118, main_cst_35, main_v119, main_v120, main_cst_36, main_v121]
theorem opsDiag5_writes : (opsDiag5 : List (HloOp τ sig (Elt F))).Forall fun op => op.writes ⊆ (opsDiag5_W.map (Proc.devRef (τ := τ) .tc)).toFinset := by
  simp only [List.Forall]
  exact ⟨by writes_mem, by writes_mem, by writes_mem, by writes_mem, by writes_mem, by writes_mem, by writes_mem, by writes_mem, by writes_mem⟩
theorem opsDiag5_frame (V : Valuation τ sig (Elt F)) (r : Ref sig .tc) (h : r ∉ opsDiag5_W) :
    after opsDiag5 V (Proc.devRef .tc r) = V (Proc.devRef .tc r) :=
  after_of_writes_sub opsDiag5 V opsDiag5_writes h
set_option maxHeartbeats 2000000 in
theorem opsDiag5_val (V : Valuation τ sig (Elt F)) :
    after opsDiag5 V (Proc.devRef .tc main_v121) = batchDiag (V (Proc.devRef .tc main_v114)) := by
  after_results' <;> rfl

/-- 1 operations: walkStep. -/
abbrev opsStep6 : List (HloOp τ sig (Elt F)) :=
  [ StableHlo.binary main_v114 main_v66 main_v122 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)) ]
abbrev opsStep6_W : List (Ref sig .tc) := [main_v122]
theorem opsStep6_writes : (opsStep6 : List (HloOp τ sig (Elt F))).Forall fun op => op.writes ⊆ (opsStep6_W.map (Proc.devRef (τ := τ) .tc)).toFinset := by
  simp only [List.Forall]; writes_mem
theorem opsStep6_frame (V : Valuation τ sig (Elt F)) (r : Ref sig .tc) (h : r ∉ opsStep6_W) :
    after opsStep6 V (Proc.devRef .tc r) = V (Proc.devRef .tc r) :=
  after_of_writes_sub opsStep6 V opsStep6_writes h
set_option maxHeartbeats 2000000 in
theorem opsStep6_val (V : Valuation τ sig (Elt F)) :
    after opsStep6 V (Proc.devRef .tc main_v122) = walkStep (V (Proc.devRef .tc main_v114)) (V (Proc.devRef .tc main_v66)) := by
  after_results' <;> rfl

/-- 9 operations: batchDiag. -/
abbrev opsDiag6 : List (HloOp τ sig (Elt F)) :=
  [ StableHlo.nullary main_v123 (iotaInDim S256x256 32 0),
    StableHlo.nullary main_v124 (iotaInDim S256x256 32 1),
    StableHlo.binary main_v123 main_v124 main_v125 (cmpi .eq : (⟨S256x256, .i32⟩ : BufTy).Contents (Elt F) → (⟨S256x256, .i32⟩ : BufTy).Contents (Elt F) → (⟨S256x256, .i1⟩ : BufTy).Contents (Elt F)),
    StableHlo.unary main_v125 main_v126 (broadcastInDim S256x256x256 ![1, 2] bcast_S256x256_S256x256x256_1_2 : (⟨S256x256, .i1⟩ : BufTy).Contents (Elt F) → (⟨S256x256x256, .i1⟩ : BufTy).Contents (Elt F)),
    StableHlo.nullary main_cst_37 (constant S_ .f32 0x00000000#32),
    StableHlo.unary main_cst_37 main_v127 (broadcastInDim S256x256x256 ![] bcast_S_S256x256x256 : (⟨S_, .f32⟩ : BufTy).Contents (Elt F) → (⟨S256x256x256, .f32⟩ : BufTy).Contents (Elt F)),
    StableHlo.ternary main_v126 main_v122 main_v127 main_v128 (select : (⟨S256x256x256, .i1⟩ : BufTy).Contents (Elt F) → (⟨S256x256x256, .f32⟩ : BufTy).Contents (Elt F) → (⟨S256x256x256, .f32⟩ : BufTy).Contents (Elt F) → (⟨S256x256x256, .f32⟩ : BufTy).Contents (Elt F)),
    StableHlo.nullary main_cst_38 (constant S_ .f32 0x00000000#32),
    StableHlo.binary main_v128 main_cst_38 main_v129 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)) ]
abbrev opsDiag6_W : List (Ref sig .tc) := [main_v123, main_v124, main_v125, main_v126, main_cst_37, main_v127, main_v128, main_cst_38, main_v129]
theorem opsDiag6_writes : (opsDiag6 : List (HloOp τ sig (Elt F))).Forall fun op => op.writes ⊆ (opsDiag6_W.map (Proc.devRef (τ := τ) .tc)).toFinset := by
  simp only [List.Forall]
  exact ⟨by writes_mem, by writes_mem, by writes_mem, by writes_mem, by writes_mem, by writes_mem, by writes_mem, by writes_mem, by writes_mem⟩
theorem opsDiag6_frame (V : Valuation τ sig (Elt F)) (r : Ref sig .tc) (h : r ∉ opsDiag6_W) :
    after opsDiag6 V (Proc.devRef .tc r) = V (Proc.devRef .tc r) :=
  after_of_writes_sub opsDiag6 V opsDiag6_writes h
set_option maxHeartbeats 2000000 in
theorem opsDiag6_val (V : Valuation τ sig (Elt F)) :
    after opsDiag6 V (Proc.devRef .tc main_v129) = batchDiag (V (Proc.devRef .tc main_v122)) := by
  after_results' <;> rfl

/-- 1 operations: walkStep. -/
abbrev opsStep7 : List (HloOp τ sig (Elt F)) :=
  [ StableHlo.binary main_v122 main_v66 main_v130 ((fun l r => Host.dotGeneral dot_S256x256x256_S256x256x256_S256x256x256_2_1_1_2_0_0 none l r) : (⟨S256x256x256, .f32⟩ : BufTy).Contents (Elt F) → (⟨S256x256x256, .f32⟩ : BufTy).Contents (Elt F) → (⟨S256x256x256, .f32⟩ : BufTy).Contents (Elt F)) ]
abbrev opsStep7_W : List (Ref sig .tc) := [main_v130]
theorem opsStep7_writes : (opsStep7 : List (HloOp τ sig (Elt F))).Forall fun op => op.writes ⊆ (opsStep7_W.map (Proc.devRef (τ := τ) .tc)).toFinset := by
  simp only [List.Forall]; writes_mem
theorem opsStep7_frame (V : Valuation τ sig (Elt F)) (r : Ref sig .tc) (h : r ∉ opsStep7_W) :
    after opsStep7 V (Proc.devRef .tc r) = V (Proc.devRef .tc r) :=
  after_of_writes_sub opsStep7 V opsStep7_writes h
set_option maxHeartbeats 2000000 in
theorem opsStep7_val (V : Valuation τ sig (Elt F)) :
    after opsStep7 V (Proc.devRef .tc main_v130) = walkStep (V (Proc.devRef .tc main_v122)) (V (Proc.devRef .tc main_v66)) := by
  after_results' <;> rfl

/-- 9 operations: batchDiag. -/
abbrev opsDiag7 : List (HloOp τ sig (Elt F)) :=
  [ StableHlo.nullary main_v131 (iotaInDim S256x256 32 0),
    StableHlo.nullary main_v132 (iotaInDim S256x256 32 1),
    StableHlo.binary main_v131 main_v132 main_v133 (cmpi .eq : (⟨S256x256, .i32⟩ : BufTy).Contents (Elt F) → (⟨S256x256, .i32⟩ : BufTy).Contents (Elt F) → (⟨S256x256, .i1⟩ : BufTy).Contents (Elt F)),
    StableHlo.unary main_v133 main_v134 (broadcastInDim S256x256x256 ![1, 2] bcast_S256x256_S256x256x256_1_2 : (⟨S256x256, .i1⟩ : BufTy).Contents (Elt F) → (⟨S256x256x256, .i1⟩ : BufTy).Contents (Elt F)),
    StableHlo.nullary main_cst_39 (constant S_ .f32 0x00000000#32),
    StableHlo.unary main_cst_39 main_v135 (broadcastInDim S256x256x256 ![] bcast_S_S256x256x256 : (⟨S_, .f32⟩ : BufTy).Contents (Elt F) → (⟨S256x256x256, .f32⟩ : BufTy).Contents (Elt F)),
    StableHlo.ternary main_v134 main_v130 main_v135 main_v136 (select : (⟨S256x256x256, .i1⟩ : BufTy).Contents (Elt F) → (⟨S256x256x256, .f32⟩ : BufTy).Contents (Elt F) → (⟨S256x256x256, .f32⟩ : BufTy).Contents (Elt F) → (⟨S256x256x256, .f32⟩ : BufTy).Contents (Elt F)),
    StableHlo.nullary main_cst_40 (constant S_ .f32 0x00000000#32),
    StableHlo.binary main_v136 main_cst_40 main_v137 ((fun x v => Host.reduceAdd x v reducesTo_S256x256x256_S256x256_d1 h_S_) : (⟨S256x256x256, .f32⟩ : BufTy).Contents (Elt F) → (⟨S_, .f32⟩ : BufTy).Contents (Elt F) → (⟨S256x256, .f32⟩ : BufTy).Contents (Elt F)) ]
abbrev opsDiag7_W : List (Ref sig .tc) := [main_v131, main_v132, main_v133, main_v134, main_cst_39, main_v135, main_v136, main_cst_40, main_v137]
theorem opsDiag7_writes : (opsDiag7 : List (HloOp τ sig (Elt F))).Forall fun op => op.writes ⊆ (opsDiag7_W.map (Proc.devRef (τ := τ) .tc)).toFinset := by
  simp only [List.Forall]
  exact ⟨by writes_mem, by writes_mem, by writes_mem, by writes_mem, by writes_mem, by writes_mem, by writes_mem, by writes_mem, by writes_mem⟩
theorem opsDiag7_frame (V : Valuation τ sig (Elt F)) (r : Ref sig .tc) (h : r ∉ opsDiag7_W) :
    after opsDiag7 V (Proc.devRef .tc r) = V (Proc.devRef .tc r) :=
  after_of_writes_sub opsDiag7 V opsDiag7_writes h
set_option maxHeartbeats 2000000 in
theorem opsDiag7_val (V : Valuation τ sig (Elt F)) :
    after opsDiag7 V (Proc.devRef .tc main_v137) = batchDiag (V (Proc.devRef .tc main_v130)) := by
  after_results' <;> rfl

/-- 10 operations: stackFeatures. -/
abbrev opsStack : List (HloOp τ sig (Elt F)) :=
  [ StableHlo.unary main_v81 main_v138 (broadcastInDim S256x256x1 ![0, 1] bcast_S256x256_S256x256x1_0_1 : (⟨S256x256, .f32⟩ : BufTy).Contents (Elt F) → (⟨S256x256x1, .f32⟩ : BufTy).Contents (Elt F)),
    StableHlo.unary main_v89 main_v139 (broadcastInDim S256x256x1 ![0, 1] bcast_S256x256_S256x256x1_0_1 : (⟨S256x256, .f32⟩ : BufTy).Contents (Elt F) → (⟨S256x256x1, .f32⟩ : BufTy).Contents (Elt F)),
    StableHlo.unary main_v97 main_v140 (broadcastInDim S256x256x1 ![0, 1] bcast_S256x256_S256x256x1_0_1 : (⟨S256x256, .f32⟩ : BufTy).Contents (Elt F) → (⟨S256x256x1, .f32⟩ : BufTy).Contents (Elt F)),
    StableHlo.unary main_v105 main_v141 (broadcastInDim S256x256x1 ![0, 1] bcast_S256x256_S256x256x1_0_1 : (⟨S256x256, .f32⟩ : BufTy).Contents (Elt F) → (⟨S256x256x1, .f32⟩ : BufTy).Contents (Elt F)),
    StableHlo.unary main_v113 main_v142 (broadcastInDim S256x256x1 ![0, 1] bcast_S256x256_S256x256x1_0_1 : (⟨S256x256, .f32⟩ : BufTy).Contents (Elt F) → (⟨S256x256x1, .f32⟩ : BufTy).Contents (Elt F)),
    StableHlo.unary main_v121 main_v143 (broadcastInDim S256x256x1 ![0, 1] bcast_S256x256_S256x256x1_0_1 : (⟨S256x256, .f32⟩ : BufTy).Contents (Elt F) → (⟨S256x256x1, .f32⟩ : BufTy).Contents (Elt F)),
    StableHlo.unary main_v129 main_v144 (broadcastInDim S256x256x1 ![0, 1] bcast_S256x256_S256x256x1_0_1 : (⟨S256x256, .f32⟩ : BufTy).Contents (Elt F) → (⟨S256x256x1, .f32⟩ : BufTy).Contents (Elt F)),
    StableHlo.unary main_v137 main_v145 (broadcastInDim S256x256x1 ![0, 1] bcast_S256x256_S256x256x1_0_1 : (⟨S256x256, .f32⟩ : BufTy).Contents (Elt F) → (⟨S256x256x1, .f32⟩ : BufTy).Contents (Elt F)),
    StableHlo.nary ![main_v138, main_v139, main_v140, main_v141, main_v142, main_v143, main_v144, main_v145] main_v146 (fun u => concatenate S256x256x8 2 [⟨S256x256x1, u 0⟩, ⟨S256x256x1, u 1⟩, ⟨S256x256x1, u 2⟩, ⟨S256x256x1, u 3⟩, ⟨S256x256x1, u 4⟩, ⟨S256x256x1, u 5⟩, ⟨S256x256x1, u 6⟩, ⟨S256x256x1, u 7⟩] concatenates_S256x256x1_S256x256x1_S256x256x1_S256x256x1_S256x256x1_S256x256x1_S256x256x1_S256x256x1_S256x256x8_d2),
    StableHlo.reshape main_v146 main_v147 rfl shapeCasts_S256x256x8_S65536x8 ]
abbrev opsStack_W : List (Ref sig .tc) := [main_v138, main_v139, main_v140, main_v141, main_v142, main_v143, main_v144, main_v145, main_v146, main_v147]
theorem opsStack_writes : (opsStack : List (HloOp τ sig (Elt F))).Forall fun op => op.writes ⊆ (opsStack_W.map (Proc.devRef (τ := τ) .tc)).toFinset := by
  simp only [List.Forall]
  exact ⟨by writes_mem, by writes_mem, by writes_mem, by writes_mem, by writes_mem, by writes_mem, by writes_mem, by writes_mem, by writes_mem, by writes_mem⟩
theorem opsStack_frame (V : Valuation τ sig (Elt F)) (r : Ref sig .tc) (h : r ∉ opsStack_W) :
    after opsStack V (Proc.devRef .tc r) = V (Proc.devRef .tc r) :=
  after_of_writes_sub opsStack V opsStack_writes h
set_option maxHeartbeats 2000000 in
theorem opsStack_val (V : Valuation τ sig (Elt F)) :
    after opsStack V (Proc.devRef .tc main_v147) = stackFeatures (V (Proc.devRef .tc main_v81)) (V (Proc.devRef .tc main_v89)) (V (Proc.devRef .tc main_v97)) (V (Proc.devRef .tc main_v105)) (V (Proc.devRef .tc main_v113)) (V (Proc.devRef .tc main_v121)) (V (Proc.devRef .tc main_v129)) (V (Proc.devRef .tc main_v137)) := by
  after_results' <;> rfl

/-- 6 operations: readout. -/
abbrev opsReadout : List (HloOp τ sig (Elt F)) :=
  [ StableHlo.unary main_arg4 main_v148 ((transpose S8x256 [1, 0] · transposes_S256x8_S8x256_1_0) : (⟨S256x8, .f32⟩ : BufTy).Contents (Elt F) → (⟨S8x256, .f32⟩ : BufTy).Contents (Elt F)),
    StableHlo.binary main_v147 main_v148 main_v149 ((fun l r => Host.dotGeneral dot_S65536x8_S8x256_S65536x256_1_0_0_1_n_n none l r) : (⟨S65536x8, .f32⟩ : BufTy).Contents (Elt F) → (⟨S8x256, .f32⟩ : BufTy).Contents (Elt F) → (⟨S65536x256, .f32⟩ : BufTy).Contents (Elt F)),
    StableHlo.binary main_v18 main_v149 main_v150 (addf : (⟨S65536x256, .f32⟩ : BufTy).Contents (Elt F) → (⟨S65536x256, .f32⟩ : BufTy).Contents (Elt F) → (⟨S65536x256, .f32⟩ : BufTy).Contents (Elt F)),
    StableHlo.unary main_arg5 main_v151 (broadcastInDim S1x256 ![1] bcast_S256_S1x256_1 : (⟨S256, .f32⟩ : BufTy).Contents (Elt F) → (⟨S1x256, .f32⟩ : BufTy).Contents (Elt F)),
    StableHlo.unary main_v151 main_v152 (broadcastInDim S65536x256 ![0, 1] bcast_S1x256_S65536x256_0_1 : (⟨S1x256, .f32⟩ : BufTy).Contents (Elt F) → (⟨S65536x256, .f32⟩ : BufTy).Contents (Elt F)),
    StableHlo.binary main_v150 main_v152 main_v153 (addf : (⟨S65536x256, .f32⟩ : BufTy).Contents (Elt F) → (⟨S65536x256, .f32⟩ : BufTy).Contents (Elt F) → (⟨S65536x256, .f32⟩ : BufTy).Contents (Elt F)) ]
abbrev opsReadout_W : List (Ref sig .tc) := [main_v148, main_v149, main_v150, main_v151, main_v152, main_v153]
theorem opsReadout_writes : (opsReadout : List (HloOp τ sig (Elt F))).Forall fun op => op.writes ⊆ (opsReadout_W.map (Proc.devRef (τ := τ) .tc)).toFinset := by
  simp only [List.Forall]
  exact ⟨by writes_mem, by writes_mem, by writes_mem, by writes_mem, by writes_mem, by writes_mem⟩
theorem opsReadout_frame (V : Valuation τ sig (Elt F)) (r : Ref sig .tc) (h : r ∉ opsReadout_W) :
    after opsReadout V (Proc.devRef .tc r) = V (Proc.devRef .tc r) :=
  after_of_writes_sub opsReadout V opsReadout_writes h
set_option maxHeartbeats 2000000 in
theorem opsReadout_val (V : Valuation τ sig (Elt F)) :
    after opsReadout V (Proc.devRef .tc main_v153) = readout (V (Proc.devRef .tc main_arg4)) (V (Proc.devRef .tc main_v147)) (V (Proc.devRef .tc main_v18)) (V (Proc.devRef .tc main_arg5)) := by
  after_results' <;> rfl

/-! ## The whole line, stretch by stretch -/

set_option maxRecDepth 100000 in
set_option maxHeartbeats 4000000 in
theorem ops_split : (ops : List (HloOp τ sig (Elt F))) =
    opsDegRaw ++ (opsDegClip ++ (opsGather ++ (opsRow0a ++ (opsDiv ++ (opsRow0b ++ (opsModS ++ (opsRow1 ++ (opsModD ++ (opsZero ++ (opsWrapG ++ (opsWrapS ++ (opsWrapD ++ (opsTriples ++ (opsScatter ++ (opsSym ++ (opsDegree ++ (opsInvDeg ++ (opsScale ++ (opsEye ++ (opsStep0 ++ (opsDiag0 ++ (opsStep1 ++ (opsDiag1 ++ (opsStep2 ++ (opsDiag2 ++ (opsStep3 ++ (opsDiag3 ++ (opsStep4 ++ (opsDiag4 ++ (opsStep5 ++ (opsDiag5 ++ (opsStep6 ++ (opsDiag6 ++ (opsStep7 ++ (opsDiag7 ++ (opsStack ++ (opsReadout))))))))))))))))))))))))))))))))))))) := rfl

section Values

variable (m : (ℓ : Loc nD τ sig) → Buf (Elt F) ℓ) (c : Dev nD)

/-- The device's buffers after each stretch. -/
abbrev V1 : Valuation τ sig (Elt F) := after opsDegRaw (V0 m c)
abbrev V2 : Valuation τ sig (Elt F) := after opsDegClip (V1 m c)
abbrev V3 : Valuation τ sig (Elt F) := after opsGather (V2 m c)
abbrev V4 : Valuation τ sig (Elt F) := after opsRow0a (V3 m c)
abbrev V5 : Valuation τ sig (Elt F) := after opsDiv (V4 m c)
abbrev V6 : Valuation τ sig (Elt F) := after opsRow0b (V5 m c)
abbrev V7 : Valuation τ sig (Elt F) := after opsModS (V6 m c)
abbrev V8 : Valuation τ sig (Elt F) := after opsRow1 (V7 m c)
abbrev V9 : Valuation τ sig (Elt F) := after opsModD (V8 m c)
abbrev V10 : Valuation τ sig (Elt F) := after opsZero (V9 m c)
abbrev V11 : Valuation τ sig (Elt F) := after opsWrapG (V10 m c)
abbrev V12 : Valuation τ sig (Elt F) := after opsWrapS (V11 m c)
abbrev V13 : Valuation τ sig (Elt F) := after opsWrapD (V12 m c)
abbrev V14 : Valuation τ sig (Elt F) := after opsTriples (V13 m c)
abbrev V15 : Valuation τ sig (Elt F) := after opsScatter (V14 m c)
abbrev V16 : Valuation τ sig (Elt F) := after opsSym (V15 m c)
abbrev V17 : Valuation τ sig (Elt F) := after opsDegree (V16 m c)
abbrev V18 : Valuation τ sig (Elt F) := after opsInvDeg (V17 m c)
abbrev V19 : Valuation τ sig (Elt F) := after opsScale (V18 m c)
abbrev V20 : Valuation τ sig (Elt F) := after opsEye (V19 m c)
abbrev V21 : Valuation τ sig (Elt F) := after opsStep0 (V20 m c)
abbrev V22 : Valuation τ sig (Elt F) := after opsDiag0 (V21 m c)
abbrev V23 : Valuation τ sig (Elt F) := after opsStep1 (V22 m c)
abbrev V24 : Valuation τ sig (Elt F) := after opsDiag1 (V23 m c)
abbrev V25 : Valuation τ sig (Elt F) := after opsStep2 (V24 m c)
abbrev V26 : Valuation τ sig (Elt F) := after opsDiag2 (V25 m c)
abbrev V27 : Valuation τ sig (Elt F) := after opsStep3 (V26 m c)
abbrev V28 : Valuation τ sig (Elt F) := after opsDiag3 (V27 m c)
abbrev V29 : Valuation τ sig (Elt F) := after opsStep4 (V28 m c)
abbrev V30 : Valuation τ sig (Elt F) := after opsDiag4 (V29 m c)
abbrev V31 : Valuation τ sig (Elt F) := after opsStep5 (V30 m c)
abbrev V32 : Valuation τ sig (Elt F) := after opsDiag5 (V31 m c)
abbrev V33 : Valuation τ sig (Elt F) := after opsStep6 (V32 m c)
abbrev V34 : Valuation τ sig (Elt F) := after opsDiag6 (V33 m c)
abbrev V35 : Valuation τ sig (Elt F) := after opsStep7 (V34 m c)
abbrev V36 : Valuation τ sig (Elt F) := after opsDiag7 (V35 m c)
abbrev V37 : Valuation τ sig (Elt F) := after opsStack (V36 m c)
abbrev V38 : Valuation τ sig (Elt F) := after opsReadout (V37 m c)

/-! What each live buffer holds after each stretch. -/
theorem L0_main_arg1 : V0 m c (Proc.devRef .tc main_arg1) = argE m c := rfl
theorem L0_main_arg3 : V0 m c (Proc.devRef .tc main_arg3) = argTab m c := rfl
theorem L0_main_arg4 : V0 m c (Proc.devRef .tc main_arg4) = argW m c := rfl
theorem L0_main_arg5 : V0 m c (Proc.devRef .tc main_arg5) = argB m c := rfl
theorem L1_main_arg1 : V1 m c (Proc.devRef .tc main_arg1) = argE m c := (opsDegRaw_frame (V0 m c) main_arg1 (by decide)).trans (L0_main_arg1 m c)
theorem L1_main_arg3 : V1 m c (Proc.devRef .tc main_arg3) = argTab m c := (opsDegRaw_frame (V0 m c) main_arg3 (by decide)).trans (L0_main_arg3 m c)
theorem L1_main_arg4 : V1 m c (Proc.devRef .tc main_arg4) = argW m c := (opsDegRaw_frame (V0 m c) main_arg4 (by decide)).trans (L0_main_arg4 m c)
theorem L1_main_arg5 : V1 m c (Proc.devRef .tc main_arg5) = argB m c := (opsDegRaw_frame (V0 m c) main_arg5 (by decide)).trans (L0_main_arg5 m c)
theorem L1_main_v10 : V1 m c (Proc.devRef .tc main_v10) = rawInDegree (argE m c) :=
  ((opsDegRaw_val (V0 m c)).trans (by rw [L0_main_arg1 m c])).trans (rfl : rawInDegree (argE m c) = rawInDegree (argE m c))
theorem L2_main_arg1 : V2 m c (Proc.devRef .tc main_arg1) = argE m c := (opsDegClip_frame (V1 m c) main_arg1 (by decide)).trans (L1_main_arg1 m c)
theorem L2_main_arg3 : V2 m c (Proc.devRef .tc main_arg3) = argTab m c := (opsDegClip_frame (V1 m c) main_arg3 (by decide)).trans (L1_main_arg3 m c)
theorem L2_main_arg4 : V2 m c (Proc.devRef .tc main_arg4) = argW m c := (opsDegClip_frame (V1 m c) main_arg4 (by decide)).trans (L1_main_arg4 m c)
theorem L2_main_arg5 : V2 m c (Proc.devRef .tc main_arg5) = argB m c := (opsDegClip_frame (V1 m c) main_arg5 (by decide)).trans (L1_main_arg5 m c)
theorem L2_main_v11 : V2 m c (Proc.devRef .tc main_v11) = inDegree (argE m c) :=
  ((opsDegClip_val (V1 m c)).trans (by rw [L1_main_v10 m c])).trans (rfl : clipDegree (rawInDegree (argE m c)) = inDegree (argE m c))
theorem L3_main_arg1 : V3 m c (Proc.devRef .tc main_arg1) = argE m c := (opsGather_frame (V2 m c) main_arg1 (by decide)).trans (L2_main_arg1 m c)
theorem L3_main_arg4 : V3 m c (Proc.devRef .tc main_arg4) = argW m c := (opsGather_frame (V2 m c) main_arg4 (by decide)).trans (L2_main_arg4 m c)
theorem L3_main_arg5 : V3 m c (Proc.devRef .tc main_arg5) = argB m c := (opsGather_frame (V2 m c) main_arg5 (by decide)).trans (L2_main_arg5 m c)
theorem L3_main_v18 : V3 m c (Proc.devRef .tc main_v18) = gatherRows (argTab m c) (argE m c) :=
  ((opsGather_val (V2 m c)).trans (by rw [L2_main_v11 m c, L2_main_arg3 m c])).trans (rfl : gatherRowsAt (inDegree (argE m c)) (argTab m c) = gatherRows (argTab m c) (argE m c))
theorem L4_main_arg1 : V4 m c (Proc.devRef .tc main_arg1) = argE m c := (opsRow0a_frame (V3 m c) main_arg1 (by decide)).trans (L3_main_arg1 m c)
theorem L4_main_arg4 : V4 m c (Proc.devRef .tc main_arg4) = argW m c := (opsRow0a_frame (V3 m c) main_arg4 (by decide)).trans (L3_main_arg4 m c)
theorem L4_main_arg5 : V4 m c (Proc.devRef .tc main_arg5) = argB m c := (opsRow0a_frame (V3 m c) main_arg5 (by decide)).trans (L3_main_arg5 m c)
theorem L4_main_v18 : V4 m c (Proc.devRef .tc main_v18) = gatherRows (argTab m c) (argE m c) := (opsRow0a_frame (V3 m c) main_v18 (by decide)).trans (L3_main_v18 m c)
theorem L4_main_v20 : V4 m c (Proc.devRef .tc main_v20) = edgeRow0 (argE m c) :=
  ((opsRow0a_val (V3 m c)).trans (by rw [L3_main_arg1 m c])).trans (rfl : edgeRow0 (argE m c) = edgeRow0 (argE m c))
theorem L5_main_arg1 : V5 m c (Proc.devRef .tc main_arg1) = argE m c := (opsDiv_frame (V4 m c) main_arg1 (by decide)).trans (L4_main_arg1 m c)
theorem L5_main_arg4 : V5 m c (Proc.devRef .tc main_arg4) = argW m c := (opsDiv_frame (V4 m c) main_arg4 (by decide)).trans (L4_main_arg4 m c)
theorem L5_main_arg5 : V5 m c (Proc.devRef .tc main_arg5) = argB m c := (opsDiv_frame (V4 m c) main_arg5 (by decide)).trans (L4_main_arg5 m c)
theorem L5_main_v18 : V5 m c (Proc.devRef .tc main_v18) = gatherRows (argTab m c) (argE m c) := (opsDiv_frame (V4 m c) main_v18 (by decide)).trans (L4_main_v18 m c)
theorem L5_main_v21 : V5 m c (Proc.devRef .tc main_v21) = floorDiv256 (edgeRow0 (argE m c)) :=
  ((opsDiv_val (V4 m c)).trans (by rw [L4_main_v20 m c])).trans (rfl : floorDiv256 (edgeRow0 (argE m c)) = floorDiv256 (edgeRow0 (argE m c)))
theorem L6_main_arg1 : V6 m c (Proc.devRef .tc main_arg1) = argE m c := (opsRow0b_frame (V5 m c) main_arg1 (by decide)).trans (L5_main_arg1 m c)
theorem L6_main_arg4 : V6 m c (Proc.devRef .tc main_arg4) = argW m c := (opsRow0b_frame (V5 m c) main_arg4 (by decide)).trans (L5_main_arg4 m c)
theorem L6_main_arg5 : V6 m c (Proc.devRef .tc main_arg5) = argB m c := (opsRow0b_frame (V5 m c) main_arg5 (by decide)).trans (L5_main_arg5 m c)
theorem L6_main_v18 : V6 m c (Proc.devRef .tc main_v18) = gatherRows (argTab m c) (argE m c) := (opsRow0b_frame (V5 m c) main_v18 (by decide)).trans (L5_main_v18 m c)
theorem L6_main_v21 : V6 m c (Proc.devRef .tc main_v21) = floorDiv256 (edgeRow0 (argE m c)) := (opsRow0b_frame (V5 m c) main_v21 (by decide)).trans (L5_main_v21 m c)
theorem L6_main_v23 : V6 m c (Proc.devRef .tc main_v23) = edgeRow0 (argE m c) :=
  ((opsRow0b_val (V5 m c)).trans (by rw [L5_main_arg1 m c])).trans (rfl : edgeRow0 (argE m c) = edgeRow0 (argE m c))
theorem L7_main_arg1 : V7 m c (Proc.devRef .tc main_arg1) = argE m c := (opsModS_frame (V6 m c) main_arg1 (by decide)).trans (L6_main_arg1 m c)
theorem L7_main_arg4 : V7 m c (Proc.devRef .tc main_arg4) = argW m c := (opsModS_frame (V6 m c) main_arg4 (by decide)).trans (L6_main_arg4 m c)
theorem L7_main_arg5 : V7 m c (Proc.devRef .tc main_arg5) = argB m c := (opsModS_frame (V6 m c) main_arg5 (by decide)).trans (L6_main_arg5 m c)
theorem L7_main_v18 : V7 m c (Proc.devRef .tc main_v18) = gatherRows (argTab m c) (argE m c) := (opsModS_frame (V6 m c) main_v18 (by decide)).trans (L6_main_v18 m c)
theorem L7_main_v21 : V7 m c (Proc.devRef .tc main_v21) = floorDiv256 (edgeRow0 (argE m c)) := (opsModS_frame (V6 m c) main_v21 (by decide)).trans (L6_main_v21 m c)
theorem L7_main_v24 : V7 m c (Proc.devRef .tc main_v24) = floorMod256 (edgeRow0 (argE m c)) :=
  ((opsModS_val (V6 m c)).trans (by rw [L6_main_v23 m c])).trans (rfl : floorMod256 (edgeRow0 (argE m c)) = floorMod256 (edgeRow0 (argE m c)))
theorem L8_main_arg4 : V8 m c (Proc.devRef .tc main_arg4) = argW m c := (opsRow1_frame (V7 m c) main_arg4 (by decide)).trans (L7_main_arg4 m c)
theorem L8_main_arg5 : V8 m c (Proc.devRef .tc main_arg5) = argB m c := (opsRow1_frame (V7 m c) main_arg5 (by decide)).trans (L7_main_arg5 m c)
theorem L8_main_v18 : V8 m c (Proc.devRef .tc main_v18) = gatherRows (argTab m c) (argE m c) := (opsRow1_frame (V7 m c) main_v18 (by decide)).trans (L7_main_v18 m c)
theorem L8_main_v21 : V8 m c (Proc.devRef .tc main_v21) = floorDiv256 (edgeRow0 (argE m c)) := (opsRow1_frame (V7 m c) main_v21 (by decide)).trans (L7_main_v21 m c)
theorem L8_main_v24 : V8 m c (Proc.devRef .tc main_v24) = floorMod256 (edgeRow0 (argE m c)) := (opsRow1_frame (V7 m c) main_v24 (by decide)).trans (L7_main_v24 m c)
theorem L8_main_v26 : V8 m c (Proc.devRef .tc main_v26) = edgeRow1 (argE m c) :=
  ((opsRow1_val (V7 m c)).trans (by rw [L7_main_arg1 m c])).trans (rfl : edgeRow1 (argE m c) = edgeRow1 (argE m c))
theorem L9_main_arg4 : V9 m c (Proc.devRef .tc main_arg4) = argW m c := (opsModD_frame (V8 m c) main_arg4 (by decide)).trans (L8_main_arg4 m c)
theorem L9_main_arg5 : V9 m c (Proc.devRef .tc main_arg5) = argB m c := (opsModD_frame (V8 m c) main_arg5 (by decide)).trans (L8_main_arg5 m c)
theorem L9_main_v18 : V9 m c (Proc.devRef .tc main_v18) = gatherRows (argTab m c) (argE m c) := (opsModD_frame (V8 m c) main_v18 (by decide)).trans (L8_main_v18 m c)
theorem L9_main_v21 : V9 m c (Proc.devRef .tc main_v21) = floorDiv256 (edgeRow0 (argE m c)) := (opsModD_frame (V8 m c) main_v21 (by decide)).trans (L8_main_v21 m c)
theorem L9_main_v24 : V9 m c (Proc.devRef .tc main_v24) = floorMod256 (edgeRow0 (argE m c)) := (opsModD_frame (V8 m c) main_v24 (by decide)).trans (L8_main_v24 m c)
theorem L9_main_v27 : V9 m c (Proc.devRef .tc main_v27) = floorMod256 (edgeRow1 (argE m c)) :=
  ((opsModD_val (V8 m c)).trans (by rw [L8_main_v26 m c])).trans (rfl : floorMod256 (edgeRow1 (argE m c)) = floorMod256 (edgeRow1 (argE m c)))
theorem L10_main_arg4 : V10 m c (Proc.devRef .tc main_arg4) = argW m c := (opsZero_frame (V9 m c) main_arg4 (by decide)).trans (L9_main_arg4 m c)
theorem L10_main_arg5 : V10 m c (Proc.devRef .tc main_arg5) = argB m c := (opsZero_frame (V9 m c) main_arg5 (by decide)).trans (L9_main_arg5 m c)
theorem L10_main_v18 : V10 m c (Proc.devRef .tc main_v18) = gatherRows (argTab m c) (argE m c) := (opsZero_frame (V9 m c) main_v18 (by decide)).trans (L9_main_v18 m c)
theorem L10_main_v21 : V10 m c (Proc.devRef .tc main_v21) = floorDiv256 (edgeRow0 (argE m c)) := (opsZero_frame (V9 m c) main_v21 (by decide)).trans (L9_main_v21 m c)
theorem L10_main_v24 : V10 m c (Proc.devRef .tc main_v24) = floorMod256 (edgeRow0 (argE m c)) := (opsZero_frame (V9 m c) main_v24 (by decide)).trans (L9_main_v24 m c)
theorem L10_main_v27 : V10 m c (Proc.devRef .tc main_v27) = floorMod256 (edgeRow1 (argE m c)) := (opsZero_frame (V9 m c) main_v27 (by decide)).trans (L9_main_v27 m c)
theorem L10_main_v28 : V10 m c (Proc.devRef .tc main_v28) = zeroAdj (F := F) :=
  ((opsZero_val (V9 m c))).trans (rfl : zeroAdj (F := F) = zeroAdj (F := F))
theorem L11_main_arg4 : V11 m c (Proc.devRef .tc main_arg4) = argW m c := (opsWrapG_frame (V10 m c) main_arg4 (by decide)).trans (L10_main_arg4 m c)
theorem L11_main_arg5 : V11 m c (Proc.devRef .tc main_arg5) = argB m c := (opsWrapG_frame (V10 m c) main_arg5 (by decide)).trans (L10_main_arg5 m c)
theorem L11_main_v18 : V11 m c (Proc.devRef .tc main_v18) = gatherRows (argTab m c) (argE m c) := (opsWrapG_frame (V10 m c) main_v18 (by decide)).trans (L10_main_v18 m c)
theorem L11_main_v24 : V11 m c (Proc.devRef .tc main_v24) = floorMod256 (edgeRow0 (argE m c)) := (opsWrapG_frame (V10 m c) main_v24 (by decide)).trans (L10_main_v24 m c)
theorem L11_main_v27 : V11 m c (Proc.devRef .tc main_v27) = floorMod256 (edgeRow1 (argE m c)) := (opsWrapG_frame (V10 m c) main_v27 (by decide)).trans (L10_main_v27 m c)
theorem L11_main_v28 : V11 m c (Proc.devRef .tc main_v28) = zeroAdj (F := F) := (opsWrapG_frame (V10 m c) main_v28 (by decide)).trans (L10_main_v28 m c)
theorem L11_main_v33 : V11 m c (Proc.devRef .tc main_v33) = graphIndex (argE m c) :=
  ((opsWrapG_val (V10 m c)).trans (by rw [L10_main_v21 m c])).trans (rfl : wrapIndex256 (floorDiv256 (edgeRow0 (argE m c))) = graphIndex (argE m c))
theorem L12_main_arg4 : V12 m c (Proc.devRef .tc main_arg4) = argW m c := (opsWrapS_frame (V11 m c) main_arg4 (by decide)).trans (L11_main_arg4 m c)
theorem L12_main_arg5 : V12 m c (Proc.devRef .tc main_arg5) = argB m c := (opsWrapS_frame (V11 m c) main_arg5 (by decide)).trans (L11_main_arg5 m c)
theorem L12_main_v18 : V12 m c (Proc.devRef .tc main_v18) = gatherRows (argTab m c) (argE m c) := (opsWrapS_frame (V11 m c) main_v18 (by decide)).trans (L11_main_v18 m c)
theorem L12_main_v27 : V12 m c (Proc.devRef .tc main_v27) = floorMod256 (edgeRow1 (argE m c)) := (opsWrapS_frame (V11 m c) main_v27 (by decide)).trans (L11_main_v27 m c)
theorem L12_main_v28 : V12 m c (Proc.devRef .tc main_v28) = zeroAdj (F := F) := (opsWrapS_frame (V11 m c) main_v28 (by decide)).trans (L11_main_v28 m c)
theorem L12_main_v33 : V12 m c (Proc.devRef .tc main_v33) = graphIndex (argE m c) := (opsWrapS_frame (V11 m c) main_v33 (by decide)).trans (L11_main_v33 m c)
theorem L12_main_v38 : V12 m c (Proc.devRef .tc main_v38) = srcIndex (argE m c) :=
  ((opsWrapS_val (V11 m c)).trans (by rw [L11_main_v24 m c])).trans (rfl : wrapIndex256 (floorMod256 (edgeRow0 (argE m c))) = srcIndex (argE m c))
theorem L13_main_arg4 : V13 m c (Proc.devRef .tc main_arg4) = argW m c := (opsWrapD_frame (V12 m c) main_arg4 (by decide)).trans (L12_main_arg4 m c)
theorem L13_main_arg5 : V13 m c (Proc.devRef .tc main_arg5) = argB m c := (opsWrapD_frame (V12 m c) main_arg5 (by decide)).trans (L12_main_arg5 m c)
theorem L13_main_v18 : V13 m c (Proc.devRef .tc main_v18) = gatherRows (argTab m c) (argE m c) := (opsWrapD_frame (V12 m c) main_v18 (by decide)).trans (L12_main_v18 m c)
theorem L13_main_v28 : V13 m c (Proc.devRef .tc main_v28) = zeroAdj (F := F) := (opsWrapD_frame (V12 m c) main_v28 (by decide)).trans (L12_main_v28 m c)
theorem L13_main_v33 : V13 m c (Proc.devRef .tc main_v33) = graphIndex (argE m c) := (opsWrapD_frame (V12 m c) main_v33 (by decide)).trans (L12_main_v33 m c)
theorem L13_main_v38 : V13 m c (Proc.devRef .tc main_v38) = srcIndex (argE m c) := (opsWrapD_frame (V12 m c) main_v38 (by decide)).trans (L12_main_v38 m c)
theorem L13_main_v43 : V13 m c (Proc.devRef .tc main_v43) = dstIndex (argE m c) :=
  ((opsWrapD_val (V12 m c)).trans (by rw [L12_main_v27 m c])).trans (rfl : wrapIndex256 (floorMod256 (edgeRow1 (argE m c))) = dstIndex (argE m c))
theorem L14_main_arg4 : V14 m c (Proc.devRef .tc main_arg4) = argW m c := (opsTriples_frame (V13 m c) main_arg4 (by decide)).trans (L13_main_arg4 m c)
theorem L14_main_arg5 : V14 m c (Proc.devRef .tc main_arg5) = argB m c := (opsTriples_frame (V13 m c) main_arg5 (by decide)).trans (L13_main_arg5 m c)
theorem L14_main_v18 : V14 m c (Proc.devRef .tc main_v18) = gatherRows (argTab m c) (argE m c) := (opsTriples_frame (V13 m c) main_v18 (by decide)).trans (L13_main_v18 m c)
theorem L14_main_v28 : V14 m c (Proc.devRef .tc main_v28) = zeroAdj (F := F) := (opsTriples_frame (V13 m c) main_v28 (by decide)).trans (L13_main_v28 m c)
theorem L14_main_v47 : V14 m c (Proc.devRef .tc main_v47) = edgeTriples (graphIndex (argE m c)) (srcIndex (argE m c)) (dstIndex (argE m c)) :=
  ((opsTriples_val (V13 m c)).trans (by rw [L13_main_v33 m c, L13_main_v38 m c, L13_main_v43 m c])).trans (rfl : edgeTriples (graphIndex (argE m c)) (srcIndex (argE m c)) (dstIndex (argE m c)) = edgeTriples (graphIndex (argE m c)) (srcIndex (argE m c)) (dstIndex (argE m c)))
theorem L15_main_arg4 : V15 m c (Proc.devRef .tc main_arg4) = argW m c := (opsScatter_frame (V14 m c) main_arg4 (by decide)).trans (L14_main_arg4 m c)
theorem L15_main_arg5 : V15 m c (Proc.devRef .tc main_arg5) = argB m c := (opsScatter_frame (V14 m c) main_arg5 (by decide)).trans (L14_main_arg5 m c)
theorem L15_main_v18 : V15 m c (Proc.devRef .tc main_v18) = gatherRows (argTab m c) (argE m c) := (opsScatter_frame (V14 m c) main_v18 (by decide)).trans (L14_main_v18 m c)
theorem L15_main_v49 : V15 m c (Proc.devRef .tc main_v49) = adjacency (argE m c) :=
  ((opsScatter_val (V14 m c)).trans (by rw [L14_main_v28 m c, L14_main_v47 m c])).trans (rfl : scatterOnes (zeroAdj (F := F)) (edgeTriples (graphIndex (argE m c)) (srcIndex (argE m c)) (dstIndex (argE m c))) = adjacency (argE m c))
theorem L16_main_arg4 : V16 m c (Proc.devRef .tc main_arg4) = argW m c := (opsSym_frame (V15 m c) main_arg4 (by decide)).trans (L15_main_arg4 m c)
theorem L16_main_arg5 : V16 m c (Proc.devRef .tc main_arg5) = argB m c := (opsSym_frame (V15 m c) main_arg5 (by decide)).trans (L15_main_arg5 m c)
theorem L16_main_v18 : V16 m c (Proc.devRef .tc main_v18) = gatherRows (argTab m c) (argE m c) := (opsSym_frame (V15 m c) main_v18 (by decide)).trans (L15_main_v18 m c)
theorem L16_main_v54 : V16 m c (Proc.devRef .tc main_v54) = symAdj (adjacency (argE m c)) :=
  ((opsSym_val (V15 m c)).trans (by rw [L15_main_v49 m c])).trans (rfl : symAdj (adjacency (argE m c)) = symAdj (adjacency (argE m c)))
theorem L17_main_arg4 : V17 m c (Proc.devRef .tc main_arg4) = argW m c := (opsDegree_frame (V16 m c) main_arg4 (by decide)).trans (L16_main_arg4 m c)
theorem L17_main_arg5 : V17 m c (Proc.devRef .tc main_arg5) = argB m c := (opsDegree_frame (V16 m c) main_arg5 (by decide)).trans (L16_main_arg5 m c)
theorem L17_main_v18 : V17 m c (Proc.devRef .tc main_v18) = gatherRows (argTab m c) (argE m c) := (opsDegree_frame (V16 m c) main_v18 (by decide)).trans (L16_main_v18 m c)
theorem L17_main_v54 : V17 m c (Proc.devRef .tc main_v54) = symAdj (adjacency (argE m c)) := (opsDegree_frame (V16 m c) main_v54 (by decide)).trans (L16_main_v54 m c)
theorem L17_main_v55 : V17 m c (Proc.devRef .tc main_v55) = degree (symAdj (adjacency (argE m c))) :=
  ((opsDegree_val (V16 m c)).trans (by rw [L16_main_v54 m c])).trans (rfl : degree (symAdj (adjacency (argE m c))) = degree (symAdj (adjacency (argE m c))))
theorem L18_main_arg4 : V18 m c (Proc.devRef .tc main_arg4) = argW m c := (opsInvDeg_frame (V17 m c) main_arg4 (by decide)).trans (L17_main_arg4 m c)
theorem L18_main_arg5 : V18 m c (Proc.devRef .tc main_arg5) = argB m c := (opsInvDeg_frame (V17 m c) main_arg5 (by decide)).trans (L17_main_arg5 m c)
theorem L18_main_v18 : V18 m c (Proc.devRef .tc main_v18) = gatherRows (argTab m c) (argE m c) := (opsInvDeg_frame (V17 m c) main_v18 (by decide)).trans (L17_main_v18 m c)
theorem L18_main_v54 : V18 m c (Proc.devRef .tc main_v54) = symAdj (adjacency (argE m c)) := (opsInvDeg_frame (V17 m c) main_v54 (by decide)).trans (L17_main_v54 m c)
theorem L18_main_v63 : V18 m c (Proc.devRef .tc main_v63) = invDegree (degree (symAdj (adjacency (argE m c)))) :=
  ((opsInvDeg_val (V17 m c)).trans (by rw [L17_main_v55 m c])).trans (rfl : invDegree (degree (symAdj (adjacency (argE m c)))) = invDegree (degree (symAdj (adjacency (argE m c)))))
theorem L19_main_arg4 : V19 m c (Proc.devRef .tc main_arg4) = argW m c := (opsScale_frame (V18 m c) main_arg4 (by decide)).trans (L18_main_arg4 m c)
theorem L19_main_arg5 : V19 m c (Proc.devRef .tc main_arg5) = argB m c := (opsScale_frame (V18 m c) main_arg5 (by decide)).trans (L18_main_arg5 m c)
theorem L19_main_v18 : V19 m c (Proc.devRef .tc main_v18) = gatherRows (argTab m c) (argE m c) := (opsScale_frame (V18 m c) main_v18 (by decide)).trans (L18_main_v18 m c)
theorem L19_main_v66 : V19 m c (Proc.devRef .tc main_v66) = walkMatrix (argE m c) :=
  ((opsScale_val (V18 m c)).trans (by rw [L18_main_v63 m c, L18_main_v54 m c])).trans (rfl : scaleCols (invDegree (degree (symAdj (adjacency (argE m c))))) (symAdj (adjacency (argE m c))) = walkMatrix (argE m c))
theorem L20_main_arg4 : V20 m c (Proc.devRef .tc main_arg4) = argW m c := (opsEye_frame (V19 m c) main_arg4 (by decide)).trans (L19_main_arg4 m c)
theorem L20_main_arg5 : V20 m c (Proc.devRef .tc main_arg5) = argB m c := (opsEye_frame (V19 m c) main_arg5 (by decide)).trans (L19_main_arg5 m c)
theorem L20_main_v18 : V20 m c (Proc.devRef .tc main_v18) = gatherRows (argTab m c) (argE m c) := (opsEye_frame (V19 m c) main_v18 (by decide)).trans (L19_main_v18 m c)
theorem L20_main_v66 : V20 m c (Proc.devRef .tc main_v66) = walkMatrix (argE m c) := (opsEye_frame (V19 m c) main_v66 (by decide)).trans (L19_main_v66 m c)
theorem L20_main_v73 : V20 m c (Proc.devRef .tc main_v73) = eyeBatch (F := F) :=
  ((opsEye_val (V19 m c))).trans (rfl : eyeBatch (F := F) = eyeBatch (F := F))
theorem L21_main_arg4 : V21 m c (Proc.devRef .tc main_arg4) = argW m c := (opsStep0_frame (V20 m c) main_arg4 (by decide)).trans (L20_main_arg4 m c)
theorem L21_main_arg5 : V21 m c (Proc.devRef .tc main_arg5) = argB m c := (opsStep0_frame (V20 m c) main_arg5 (by decide)).trans (L20_main_arg5 m c)
theorem L21_main_v18 : V21 m c (Proc.devRef .tc main_v18) = gatherRows (argTab m c) (argE m c) := (opsStep0_frame (V20 m c) main_v18 (by decide)).trans (L20_main_v18 m c)
theorem L21_main_v66 : V21 m c (Proc.devRef .tc main_v66) = walkMatrix (argE m c) := (opsStep0_frame (V20 m c) main_v66 (by decide)).trans (L20_main_v66 m c)
theorem L21_main_v74 : V21 m c (Proc.devRef .tc main_v74) = walkPower 0 (argE m c) :=
  ((opsStep0_val (V20 m c)).trans (by rw [L20_main_v73 m c, L20_main_v66 m c])).trans (rfl : walkStep (eyeBatch (F := F)) (walkMatrix (argE m c)) = walkPower 0 (argE m c))
theorem L22_main_arg4 : V22 m c (Proc.devRef .tc main_arg4) = argW m c := (opsDiag0_frame (V21 m c) main_arg4 (by decide)).trans (L21_main_arg4 m c)
theorem L22_main_arg5 : V22 m c (Proc.devRef .tc main_arg5) = argB m c := (opsDiag0_frame (V21 m c) main_arg5 (by decide)).trans (L21_main_arg5 m c)
theorem L22_main_v18 : V22 m c (Proc.devRef .tc main_v18) = gatherRows (argTab m c) (argE m c) := (opsDiag0_frame (V21 m c) main_v18 (by decide)).trans (L21_main_v18 m c)
theorem L22_main_v66 : V22 m c (Proc.devRef .tc main_v66) = walkMatrix (argE m c) := (opsDiag0_frame (V21 m c) main_v66 (by decide)).trans (L21_main_v66 m c)
theorem L22_main_v74 : V22 m c (Proc.devRef .tc main_v74) = walkPower 0 (argE m c) := (opsDiag0_frame (V21 m c) main_v74 (by decide)).trans (L21_main_v74 m c)
theorem L22_main_v81 : V22 m c (Proc.devRef .tc main_v81) = returnProb 0 (argE m c) :=
  ((opsDiag0_val (V21 m c)).trans (by rw [L21_main_v74 m c])).trans (rfl : batchDiag (walkPower 0 (argE m c)) = returnProb 0 (argE m c))
theorem L23_main_arg4 : V23 m c (Proc.devRef .tc main_arg4) = argW m c := (opsStep1_frame (V22 m c) main_arg4 (by decide)).trans (L22_main_arg4 m c)
theorem L23_main_arg5 : V23 m c (Proc.devRef .tc main_arg5) = argB m c := (opsStep1_frame (V22 m c) main_arg5 (by decide)).trans (L22_main_arg5 m c)
theorem L23_main_v18 : V23 m c (Proc.devRef .tc main_v18) = gatherRows (argTab m c) (argE m c) := (opsStep1_frame (V22 m c) main_v18 (by decide)).trans (L22_main_v18 m c)
theorem L23_main_v66 : V23 m c (Proc.devRef .tc main_v66) = walkMatrix (argE m c) := (opsStep1_frame (V22 m c) main_v66 (by decide)).trans (L22_main_v66 m c)
theorem L23_main_v81 : V23 m c (Proc.devRef .tc main_v81) = returnProb 0 (argE m c) := (opsStep1_frame (V22 m c) main_v81 (by decide)).trans (L22_main_v81 m c)
theorem L23_main_v82 : V23 m c (Proc.devRef .tc main_v82) = walkPower 1 (argE m c) :=
  ((opsStep1_val (V22 m c)).trans (by rw [L22_main_v74 m c, L22_main_v66 m c])).trans (rfl : walkStep (walkPower 0 (argE m c)) (walkMatrix (argE m c)) = walkPower 1 (argE m c))
theorem L24_main_arg4 : V24 m c (Proc.devRef .tc main_arg4) = argW m c := (opsDiag1_frame (V23 m c) main_arg4 (by decide)).trans (L23_main_arg4 m c)
theorem L24_main_arg5 : V24 m c (Proc.devRef .tc main_arg5) = argB m c := (opsDiag1_frame (V23 m c) main_arg5 (by decide)).trans (L23_main_arg5 m c)
theorem L24_main_v18 : V24 m c (Proc.devRef .tc main_v18) = gatherRows (argTab m c) (argE m c) := (opsDiag1_frame (V23 m c) main_v18 (by decide)).trans (L23_main_v18 m c)
theorem L24_main_v66 : V24 m c (Proc.devRef .tc main_v66) = walkMatrix (argE m c) := (opsDiag1_frame (V23 m c) main_v66 (by decide)).trans (L23_main_v66 m c)
theorem L24_main_v81 : V24 m c (Proc.devRef .tc main_v81) = returnProb 0 (argE m c) := (opsDiag1_frame (V23 m c) main_v81 (by decide)).trans (L23_main_v81 m c)
theorem L24_main_v82 : V24 m c (Proc.devRef .tc main_v82) = walkPower 1 (argE m c) := (opsDiag1_frame (V23 m c) main_v82 (by decide)).trans (L23_main_v82 m c)
theorem L24_main_v89 : V24 m c (Proc.devRef .tc main_v89) = returnProb 1 (argE m c) :=
  ((opsDiag1_val (V23 m c)).trans (by rw [L23_main_v82 m c])).trans (rfl : batchDiag (walkPower 1 (argE m c)) = returnProb 1 (argE m c))
theorem L25_main_arg4 : V25 m c (Proc.devRef .tc main_arg4) = argW m c := (opsStep2_frame (V24 m c) main_arg4 (by decide)).trans (L24_main_arg4 m c)
theorem L25_main_arg5 : V25 m c (Proc.devRef .tc main_arg5) = argB m c := (opsStep2_frame (V24 m c) main_arg5 (by decide)).trans (L24_main_arg5 m c)
theorem L25_main_v18 : V25 m c (Proc.devRef .tc main_v18) = gatherRows (argTab m c) (argE m c) := (opsStep2_frame (V24 m c) main_v18 (by decide)).trans (L24_main_v18 m c)
theorem L25_main_v66 : V25 m c (Proc.devRef .tc main_v66) = walkMatrix (argE m c) := (opsStep2_frame (V24 m c) main_v66 (by decide)).trans (L24_main_v66 m c)
theorem L25_main_v81 : V25 m c (Proc.devRef .tc main_v81) = returnProb 0 (argE m c) := (opsStep2_frame (V24 m c) main_v81 (by decide)).trans (L24_main_v81 m c)
theorem L25_main_v89 : V25 m c (Proc.devRef .tc main_v89) = returnProb 1 (argE m c) := (opsStep2_frame (V24 m c) main_v89 (by decide)).trans (L24_main_v89 m c)
theorem L25_main_v90 : V25 m c (Proc.devRef .tc main_v90) = walkPower 2 (argE m c) :=
  ((opsStep2_val (V24 m c)).trans (by rw [L24_main_v82 m c, L24_main_v66 m c])).trans (rfl : walkStep (walkPower 1 (argE m c)) (walkMatrix (argE m c)) = walkPower 2 (argE m c))
theorem L26_main_arg4 : V26 m c (Proc.devRef .tc main_arg4) = argW m c := (opsDiag2_frame (V25 m c) main_arg4 (by decide)).trans (L25_main_arg4 m c)
theorem L26_main_arg5 : V26 m c (Proc.devRef .tc main_arg5) = argB m c := (opsDiag2_frame (V25 m c) main_arg5 (by decide)).trans (L25_main_arg5 m c)
theorem L26_main_v18 : V26 m c (Proc.devRef .tc main_v18) = gatherRows (argTab m c) (argE m c) := (opsDiag2_frame (V25 m c) main_v18 (by decide)).trans (L25_main_v18 m c)
theorem L26_main_v66 : V26 m c (Proc.devRef .tc main_v66) = walkMatrix (argE m c) := (opsDiag2_frame (V25 m c) main_v66 (by decide)).trans (L25_main_v66 m c)
theorem L26_main_v81 : V26 m c (Proc.devRef .tc main_v81) = returnProb 0 (argE m c) := (opsDiag2_frame (V25 m c) main_v81 (by decide)).trans (L25_main_v81 m c)
theorem L26_main_v89 : V26 m c (Proc.devRef .tc main_v89) = returnProb 1 (argE m c) := (opsDiag2_frame (V25 m c) main_v89 (by decide)).trans (L25_main_v89 m c)
theorem L26_main_v90 : V26 m c (Proc.devRef .tc main_v90) = walkPower 2 (argE m c) := (opsDiag2_frame (V25 m c) main_v90 (by decide)).trans (L25_main_v90 m c)
theorem L26_main_v97 : V26 m c (Proc.devRef .tc main_v97) = returnProb 2 (argE m c) :=
  ((opsDiag2_val (V25 m c)).trans (by rw [L25_main_v90 m c])).trans (rfl : batchDiag (walkPower 2 (argE m c)) = returnProb 2 (argE m c))
theorem L27_main_arg4 : V27 m c (Proc.devRef .tc main_arg4) = argW m c := (opsStep3_frame (V26 m c) main_arg4 (by decide)).trans (L26_main_arg4 m c)
theorem L27_main_arg5 : V27 m c (Proc.devRef .tc main_arg5) = argB m c := (opsStep3_frame (V26 m c) main_arg5 (by decide)).trans (L26_main_arg5 m c)
theorem L27_main_v18 : V27 m c (Proc.devRef .tc main_v18) = gatherRows (argTab m c) (argE m c) := (opsStep3_frame (V26 m c) main_v18 (by decide)).trans (L26_main_v18 m c)
theorem L27_main_v66 : V27 m c (Proc.devRef .tc main_v66) = walkMatrix (argE m c) := (opsStep3_frame (V26 m c) main_v66 (by decide)).trans (L26_main_v66 m c)
theorem L27_main_v81 : V27 m c (Proc.devRef .tc main_v81) = returnProb 0 (argE m c) := (opsStep3_frame (V26 m c) main_v81 (by decide)).trans (L26_main_v81 m c)
theorem L27_main_v89 : V27 m c (Proc.devRef .tc main_v89) = returnProb 1 (argE m c) := (opsStep3_frame (V26 m c) main_v89 (by decide)).trans (L26_main_v89 m c)
theorem L27_main_v97 : V27 m c (Proc.devRef .tc main_v97) = returnProb 2 (argE m c) := (opsStep3_frame (V26 m c) main_v97 (by decide)).trans (L26_main_v97 m c)
theorem L27_main_v98 : V27 m c (Proc.devRef .tc main_v98) = walkPower 3 (argE m c) :=
  ((opsStep3_val (V26 m c)).trans (by rw [L26_main_v90 m c, L26_main_v66 m c])).trans (rfl : walkStep (walkPower 2 (argE m c)) (walkMatrix (argE m c)) = walkPower 3 (argE m c))
theorem L28_main_arg4 : V28 m c (Proc.devRef .tc main_arg4) = argW m c := (opsDiag3_frame (V27 m c) main_arg4 (by decide)).trans (L27_main_arg4 m c)
theorem L28_main_arg5 : V28 m c (Proc.devRef .tc main_arg5) = argB m c := (opsDiag3_frame (V27 m c) main_arg5 (by decide)).trans (L27_main_arg5 m c)
theorem L28_main_v18 : V28 m c (Proc.devRef .tc main_v18) = gatherRows (argTab m c) (argE m c) := (opsDiag3_frame (V27 m c) main_v18 (by decide)).trans (L27_main_v18 m c)
theorem L28_main_v66 : V28 m c (Proc.devRef .tc main_v66) = walkMatrix (argE m c) := (opsDiag3_frame (V27 m c) main_v66 (by decide)).trans (L27_main_v66 m c)
theorem L28_main_v81 : V28 m c (Proc.devRef .tc main_v81) = returnProb 0 (argE m c) := (opsDiag3_frame (V27 m c) main_v81 (by decide)).trans (L27_main_v81 m c)
theorem L28_main_v89 : V28 m c (Proc.devRef .tc main_v89) = returnProb 1 (argE m c) := (opsDiag3_frame (V27 m c) main_v89 (by decide)).trans (L27_main_v89 m c)
theorem L28_main_v97 : V28 m c (Proc.devRef .tc main_v97) = returnProb 2 (argE m c) := (opsDiag3_frame (V27 m c) main_v97 (by decide)).trans (L27_main_v97 m c)
theorem L28_main_v98 : V28 m c (Proc.devRef .tc main_v98) = walkPower 3 (argE m c) := (opsDiag3_frame (V27 m c) main_v98 (by decide)).trans (L27_main_v98 m c)
theorem L28_main_v105 : V28 m c (Proc.devRef .tc main_v105) = returnProb 3 (argE m c) :=
  ((opsDiag3_val (V27 m c)).trans (by rw [L27_main_v98 m c])).trans (rfl : batchDiag (walkPower 3 (argE m c)) = returnProb 3 (argE m c))
theorem L29_main_arg4 : V29 m c (Proc.devRef .tc main_arg4) = argW m c := (opsStep4_frame (V28 m c) main_arg4 (by decide)).trans (L28_main_arg4 m c)
theorem L29_main_arg5 : V29 m c (Proc.devRef .tc main_arg5) = argB m c := (opsStep4_frame (V28 m c) main_arg5 (by decide)).trans (L28_main_arg5 m c)
theorem L29_main_v18 : V29 m c (Proc.devRef .tc main_v18) = gatherRows (argTab m c) (argE m c) := (opsStep4_frame (V28 m c) main_v18 (by decide)).trans (L28_main_v18 m c)
theorem L29_main_v66 : V29 m c (Proc.devRef .tc main_v66) = walkMatrix (argE m c) := (opsStep4_frame (V28 m c) main_v66 (by decide)).trans (L28_main_v66 m c)
theorem L29_main_v81 : V29 m c (Proc.devRef .tc main_v81) = returnProb 0 (argE m c) := (opsStep4_frame (V28 m c) main_v81 (by decide)).trans (L28_main_v81 m c)
theorem L29_main_v89 : V29 m c (Proc.devRef .tc main_v89) = returnProb 1 (argE m c) := (opsStep4_frame (V28 m c) main_v89 (by decide)).trans (L28_main_v89 m c)
theorem L29_main_v97 : V29 m c (Proc.devRef .tc main_v97) = returnProb 2 (argE m c) := (opsStep4_frame (V28 m c) main_v97 (by decide)).trans (L28_main_v97 m c)
theorem L29_main_v105 : V29 m c (Proc.devRef .tc main_v105) = returnProb 3 (argE m c) := (opsStep4_frame (V28 m c) main_v105 (by decide)).trans (L28_main_v105 m c)
theorem L29_main_v106 : V29 m c (Proc.devRef .tc main_v106) = walkPower 4 (argE m c) :=
  ((opsStep4_val (V28 m c)).trans (by rw [L28_main_v98 m c, L28_main_v66 m c])).trans (rfl : walkStep (walkPower 3 (argE m c)) (walkMatrix (argE m c)) = walkPower 4 (argE m c))
theorem L30_main_arg4 : V30 m c (Proc.devRef .tc main_arg4) = argW m c := (opsDiag4_frame (V29 m c) main_arg4 (by decide)).trans (L29_main_arg4 m c)
theorem L30_main_arg5 : V30 m c (Proc.devRef .tc main_arg5) = argB m c := (opsDiag4_frame (V29 m c) main_arg5 (by decide)).trans (L29_main_arg5 m c)
theorem L30_main_v18 : V30 m c (Proc.devRef .tc main_v18) = gatherRows (argTab m c) (argE m c) := (opsDiag4_frame (V29 m c) main_v18 (by decide)).trans (L29_main_v18 m c)
theorem L30_main_v66 : V30 m c (Proc.devRef .tc main_v66) = walkMatrix (argE m c) := (opsDiag4_frame (V29 m c) main_v66 (by decide)).trans (L29_main_v66 m c)
theorem L30_main_v81 : V30 m c (Proc.devRef .tc main_v81) = returnProb 0 (argE m c) := (opsDiag4_frame (V29 m c) main_v81 (by decide)).trans (L29_main_v81 m c)
theorem L30_main_v89 : V30 m c (Proc.devRef .tc main_v89) = returnProb 1 (argE m c) := (opsDiag4_frame (V29 m c) main_v89 (by decide)).trans (L29_main_v89 m c)
theorem L30_main_v97 : V30 m c (Proc.devRef .tc main_v97) = returnProb 2 (argE m c) := (opsDiag4_frame (V29 m c) main_v97 (by decide)).trans (L29_main_v97 m c)
theorem L30_main_v105 : V30 m c (Proc.devRef .tc main_v105) = returnProb 3 (argE m c) := (opsDiag4_frame (V29 m c) main_v105 (by decide)).trans (L29_main_v105 m c)
theorem L30_main_v106 : V30 m c (Proc.devRef .tc main_v106) = walkPower 4 (argE m c) := (opsDiag4_frame (V29 m c) main_v106 (by decide)).trans (L29_main_v106 m c)
theorem L30_main_v113 : V30 m c (Proc.devRef .tc main_v113) = returnProb 4 (argE m c) :=
  ((opsDiag4_val (V29 m c)).trans (by rw [L29_main_v106 m c])).trans (rfl : batchDiag (walkPower 4 (argE m c)) = returnProb 4 (argE m c))
theorem L31_main_arg4 : V31 m c (Proc.devRef .tc main_arg4) = argW m c := (opsStep5_frame (V30 m c) main_arg4 (by decide)).trans (L30_main_arg4 m c)
theorem L31_main_arg5 : V31 m c (Proc.devRef .tc main_arg5) = argB m c := (opsStep5_frame (V30 m c) main_arg5 (by decide)).trans (L30_main_arg5 m c)
theorem L31_main_v18 : V31 m c (Proc.devRef .tc main_v18) = gatherRows (argTab m c) (argE m c) := (opsStep5_frame (V30 m c) main_v18 (by decide)).trans (L30_main_v18 m c)
theorem L31_main_v66 : V31 m c (Proc.devRef .tc main_v66) = walkMatrix (argE m c) := (opsStep5_frame (V30 m c) main_v66 (by decide)).trans (L30_main_v66 m c)
theorem L31_main_v81 : V31 m c (Proc.devRef .tc main_v81) = returnProb 0 (argE m c) := (opsStep5_frame (V30 m c) main_v81 (by decide)).trans (L30_main_v81 m c)
theorem L31_main_v89 : V31 m c (Proc.devRef .tc main_v89) = returnProb 1 (argE m c) := (opsStep5_frame (V30 m c) main_v89 (by decide)).trans (L30_main_v89 m c)
theorem L31_main_v97 : V31 m c (Proc.devRef .tc main_v97) = returnProb 2 (argE m c) := (opsStep5_frame (V30 m c) main_v97 (by decide)).trans (L30_main_v97 m c)
theorem L31_main_v105 : V31 m c (Proc.devRef .tc main_v105) = returnProb 3 (argE m c) := (opsStep5_frame (V30 m c) main_v105 (by decide)).trans (L30_main_v105 m c)
theorem L31_main_v113 : V31 m c (Proc.devRef .tc main_v113) = returnProb 4 (argE m c) := (opsStep5_frame (V30 m c) main_v113 (by decide)).trans (L30_main_v113 m c)
theorem L31_main_v114 : V31 m c (Proc.devRef .tc main_v114) = walkPower 5 (argE m c) :=
  ((opsStep5_val (V30 m c)).trans (by rw [L30_main_v106 m c, L30_main_v66 m c])).trans (rfl : walkStep (walkPower 4 (argE m c)) (walkMatrix (argE m c)) = walkPower 5 (argE m c))
theorem L32_main_arg4 : V32 m c (Proc.devRef .tc main_arg4) = argW m c := (opsDiag5_frame (V31 m c) main_arg4 (by decide)).trans (L31_main_arg4 m c)
theorem L32_main_arg5 : V32 m c (Proc.devRef .tc main_arg5) = argB m c := (opsDiag5_frame (V31 m c) main_arg5 (by decide)).trans (L31_main_arg5 m c)
theorem L32_main_v18 : V32 m c (Proc.devRef .tc main_v18) = gatherRows (argTab m c) (argE m c) := (opsDiag5_frame (V31 m c) main_v18 (by decide)).trans (L31_main_v18 m c)
theorem L32_main_v66 : V32 m c (Proc.devRef .tc main_v66) = walkMatrix (argE m c) := (opsDiag5_frame (V31 m c) main_v66 (by decide)).trans (L31_main_v66 m c)
theorem L32_main_v81 : V32 m c (Proc.devRef .tc main_v81) = returnProb 0 (argE m c) := (opsDiag5_frame (V31 m c) main_v81 (by decide)).trans (L31_main_v81 m c)
theorem L32_main_v89 : V32 m c (Proc.devRef .tc main_v89) = returnProb 1 (argE m c) := (opsDiag5_frame (V31 m c) main_v89 (by decide)).trans (L31_main_v89 m c)
theorem L32_main_v97 : V32 m c (Proc.devRef .tc main_v97) = returnProb 2 (argE m c) := (opsDiag5_frame (V31 m c) main_v97 (by decide)).trans (L31_main_v97 m c)
theorem L32_main_v105 : V32 m c (Proc.devRef .tc main_v105) = returnProb 3 (argE m c) := (opsDiag5_frame (V31 m c) main_v105 (by decide)).trans (L31_main_v105 m c)
theorem L32_main_v113 : V32 m c (Proc.devRef .tc main_v113) = returnProb 4 (argE m c) := (opsDiag5_frame (V31 m c) main_v113 (by decide)).trans (L31_main_v113 m c)
theorem L32_main_v114 : V32 m c (Proc.devRef .tc main_v114) = walkPower 5 (argE m c) := (opsDiag5_frame (V31 m c) main_v114 (by decide)).trans (L31_main_v114 m c)
theorem L32_main_v121 : V32 m c (Proc.devRef .tc main_v121) = returnProb 5 (argE m c) :=
  ((opsDiag5_val (V31 m c)).trans (by rw [L31_main_v114 m c])).trans (rfl : batchDiag (walkPower 5 (argE m c)) = returnProb 5 (argE m c))
theorem L33_main_arg4 : V33 m c (Proc.devRef .tc main_arg4) = argW m c := (opsStep6_frame (V32 m c) main_arg4 (by decide)).trans (L32_main_arg4 m c)
theorem L33_main_arg5 : V33 m c (Proc.devRef .tc main_arg5) = argB m c := (opsStep6_frame (V32 m c) main_arg5 (by decide)).trans (L32_main_arg5 m c)
theorem L33_main_v18 : V33 m c (Proc.devRef .tc main_v18) = gatherRows (argTab m c) (argE m c) := (opsStep6_frame (V32 m c) main_v18 (by decide)).trans (L32_main_v18 m c)
theorem L33_main_v66 : V33 m c (Proc.devRef .tc main_v66) = walkMatrix (argE m c) := (opsStep6_frame (V32 m c) main_v66 (by decide)).trans (L32_main_v66 m c)
theorem L33_main_v81 : V33 m c (Proc.devRef .tc main_v81) = returnProb 0 (argE m c) := (opsStep6_frame (V32 m c) main_v81 (by decide)).trans (L32_main_v81 m c)
theorem L33_main_v89 : V33 m c (Proc.devRef .tc main_v89) = returnProb 1 (argE m c) := (opsStep6_frame (V32 m c) main_v89 (by decide)).trans (L32_main_v89 m c)
theorem L33_main_v97 : V33 m c (Proc.devRef .tc main_v97) = returnProb 2 (argE m c) := (opsStep6_frame (V32 m c) main_v97 (by decide)).trans (L32_main_v97 m c)
theorem L33_main_v105 : V33 m c (Proc.devRef .tc main_v105) = returnProb 3 (argE m c) := (opsStep6_frame (V32 m c) main_v105 (by decide)).trans (L32_main_v105 m c)
theorem L33_main_v113 : V33 m c (Proc.devRef .tc main_v113) = returnProb 4 (argE m c) := (opsStep6_frame (V32 m c) main_v113 (by decide)).trans (L32_main_v113 m c)
theorem L33_main_v121 : V33 m c (Proc.devRef .tc main_v121) = returnProb 5 (argE m c) := (opsStep6_frame (V32 m c) main_v121 (by decide)).trans (L32_main_v121 m c)
theorem L33_main_v122 : V33 m c (Proc.devRef .tc main_v122) = walkPower 6 (argE m c) :=
  ((opsStep6_val (V32 m c)).trans (by rw [L32_main_v114 m c, L32_main_v66 m c])).trans (rfl : walkStep (walkPower 5 (argE m c)) (walkMatrix (argE m c)) = walkPower 6 (argE m c))
theorem L34_main_arg4 : V34 m c (Proc.devRef .tc main_arg4) = argW m c := (opsDiag6_frame (V33 m c) main_arg4 (by decide)).trans (L33_main_arg4 m c)
theorem L34_main_arg5 : V34 m c (Proc.devRef .tc main_arg5) = argB m c := (opsDiag6_frame (V33 m c) main_arg5 (by decide)).trans (L33_main_arg5 m c)
theorem L34_main_v18 : V34 m c (Proc.devRef .tc main_v18) = gatherRows (argTab m c) (argE m c) := (opsDiag6_frame (V33 m c) main_v18 (by decide)).trans (L33_main_v18 m c)
theorem L34_main_v66 : V34 m c (Proc.devRef .tc main_v66) = walkMatrix (argE m c) := (opsDiag6_frame (V33 m c) main_v66 (by decide)).trans (L33_main_v66 m c)
theorem L34_main_v81 : V34 m c (Proc.devRef .tc main_v81) = returnProb 0 (argE m c) := (opsDiag6_frame (V33 m c) main_v81 (by decide)).trans (L33_main_v81 m c)
theorem L34_main_v89 : V34 m c (Proc.devRef .tc main_v89) = returnProb 1 (argE m c) := (opsDiag6_frame (V33 m c) main_v89 (by decide)).trans (L33_main_v89 m c)
theorem L34_main_v97 : V34 m c (Proc.devRef .tc main_v97) = returnProb 2 (argE m c) := (opsDiag6_frame (V33 m c) main_v97 (by decide)).trans (L33_main_v97 m c)
theorem L34_main_v105 : V34 m c (Proc.devRef .tc main_v105) = returnProb 3 (argE m c) := (opsDiag6_frame (V33 m c) main_v105 (by decide)).trans (L33_main_v105 m c)
theorem L34_main_v113 : V34 m c (Proc.devRef .tc main_v113) = returnProb 4 (argE m c) := (opsDiag6_frame (V33 m c) main_v113 (by decide)).trans (L33_main_v113 m c)
theorem L34_main_v121 : V34 m c (Proc.devRef .tc main_v121) = returnProb 5 (argE m c) := (opsDiag6_frame (V33 m c) main_v121 (by decide)).trans (L33_main_v121 m c)
theorem L34_main_v122 : V34 m c (Proc.devRef .tc main_v122) = walkPower 6 (argE m c) := (opsDiag6_frame (V33 m c) main_v122 (by decide)).trans (L33_main_v122 m c)
theorem L34_main_v129 : V34 m c (Proc.devRef .tc main_v129) = returnProb 6 (argE m c) :=
  ((opsDiag6_val (V33 m c)).trans (by rw [L33_main_v122 m c])).trans (rfl : batchDiag (walkPower 6 (argE m c)) = returnProb 6 (argE m c))
theorem L35_main_arg4 : V35 m c (Proc.devRef .tc main_arg4) = argW m c := (opsStep7_frame (V34 m c) main_arg4 (by decide)).trans (L34_main_arg4 m c)
theorem L35_main_arg5 : V35 m c (Proc.devRef .tc main_arg5) = argB m c := (opsStep7_frame (V34 m c) main_arg5 (by decide)).trans (L34_main_arg5 m c)
theorem L35_main_v18 : V35 m c (Proc.devRef .tc main_v18) = gatherRows (argTab m c) (argE m c) := (opsStep7_frame (V34 m c) main_v18 (by decide)).trans (L34_main_v18 m c)
theorem L35_main_v81 : V35 m c (Proc.devRef .tc main_v81) = returnProb 0 (argE m c) := (opsStep7_frame (V34 m c) main_v81 (by decide)).trans (L34_main_v81 m c)
theorem L35_main_v89 : V35 m c (Proc.devRef .tc main_v89) = returnProb 1 (argE m c) := (opsStep7_frame (V34 m c) main_v89 (by decide)).trans (L34_main_v89 m c)
theorem L35_main_v97 : V35 m c (Proc.devRef .tc main_v97) = returnProb 2 (argE m c) := (opsStep7_frame (V34 m c) main_v97 (by decide)).trans (L34_main_v97 m c)
theorem L35_main_v105 : V35 m c (Proc.devRef .tc main_v105) = returnProb 3 (argE m c) := (opsStep7_frame (V34 m c) main_v105 (by decide)).trans (L34_main_v105 m c)
theorem L35_main_v113 : V35 m c (Proc.devRef .tc main_v113) = returnProb 4 (argE m c) := (opsStep7_frame (V34 m c) main_v113 (by decide)).trans (L34_main_v113 m c)
theorem L35_main_v121 : V35 m c (Proc.devRef .tc main_v121) = returnProb 5 (argE m c) := (opsStep7_frame (V34 m c) main_v121 (by decide)).trans (L34_main_v121 m c)
theorem L35_main_v129 : V35 m c (Proc.devRef .tc main_v129) = returnProb 6 (argE m c) := (opsStep7_frame (V34 m c) main_v129 (by decide)).trans (L34_main_v129 m c)
theorem L35_main_v130 : V35 m c (Proc.devRef .tc main_v130) = walkPower 7 (argE m c) :=
  ((opsStep7_val (V34 m c)).trans (by rw [L34_main_v122 m c, L34_main_v66 m c])).trans (rfl : walkStep (walkPower 6 (argE m c)) (walkMatrix (argE m c)) = walkPower 7 (argE m c))
theorem L36_main_arg4 : V36 m c (Proc.devRef .tc main_arg4) = argW m c := (opsDiag7_frame (V35 m c) main_arg4 (by decide)).trans (L35_main_arg4 m c)
theorem L36_main_arg5 : V36 m c (Proc.devRef .tc main_arg5) = argB m c := (opsDiag7_frame (V35 m c) main_arg5 (by decide)).trans (L35_main_arg5 m c)
theorem L36_main_v18 : V36 m c (Proc.devRef .tc main_v18) = gatherRows (argTab m c) (argE m c) := (opsDiag7_frame (V35 m c) main_v18 (by decide)).trans (L35_main_v18 m c)
theorem L36_main_v81 : V36 m c (Proc.devRef .tc main_v81) = returnProb 0 (argE m c) := (opsDiag7_frame (V35 m c) main_v81 (by decide)).trans (L35_main_v81 m c)
theorem L36_main_v89 : V36 m c (Proc.devRef .tc main_v89) = returnProb 1 (argE m c) := (opsDiag7_frame (V35 m c) main_v89 (by decide)).trans (L35_main_v89 m c)
theorem L36_main_v97 : V36 m c (Proc.devRef .tc main_v97) = returnProb 2 (argE m c) := (opsDiag7_frame (V35 m c) main_v97 (by decide)).trans (L35_main_v97 m c)
theorem L36_main_v105 : V36 m c (Proc.devRef .tc main_v105) = returnProb 3 (argE m c) := (opsDiag7_frame (V35 m c) main_v105 (by decide)).trans (L35_main_v105 m c)
theorem L36_main_v113 : V36 m c (Proc.devRef .tc main_v113) = returnProb 4 (argE m c) := (opsDiag7_frame (V35 m c) main_v113 (by decide)).trans (L35_main_v113 m c)
theorem L36_main_v121 : V36 m c (Proc.devRef .tc main_v121) = returnProb 5 (argE m c) := (opsDiag7_frame (V35 m c) main_v121 (by decide)).trans (L35_main_v121 m c)
theorem L36_main_v129 : V36 m c (Proc.devRef .tc main_v129) = returnProb 6 (argE m c) := (opsDiag7_frame (V35 m c) main_v129 (by decide)).trans (L35_main_v129 m c)
theorem L36_main_v137 : V36 m c (Proc.devRef .tc main_v137) = returnProb 7 (argE m c) :=
  ((opsDiag7_val (V35 m c)).trans (by rw [L35_main_v130 m c])).trans (rfl : batchDiag (walkPower 7 (argE m c)) = returnProb 7 (argE m c))
theorem L37_main_arg4 : V37 m c (Proc.devRef .tc main_arg4) = argW m c := (opsStack_frame (V36 m c) main_arg4 (by decide)).trans (L36_main_arg4 m c)
theorem L37_main_arg5 : V37 m c (Proc.devRef .tc main_arg5) = argB m c := (opsStack_frame (V36 m c) main_arg5 (by decide)).trans (L36_main_arg5 m c)
theorem L37_main_v18 : V37 m c (Proc.devRef .tc main_v18) = gatherRows (argTab m c) (argE m c) := (opsStack_frame (V36 m c) main_v18 (by decide)).trans (L36_main_v18 m c)
theorem L37_main_v147 : V37 m c (Proc.devRef .tc main_v147) = walkFeatures (argE m c) :=
  ((opsStack_val (V36 m c)).trans (by rw [L36_main_v81 m c, L36_main_v89 m c, L36_main_v97 m c, L36_main_v105 m c, L36_main_v113 m c, L36_main_v121 m c, L36_main_v129 m c, L36_main_v137 m c])).trans (rfl : stackFeatures (returnProb 0 (argE m c)) (returnProb 1 (argE m c)) (returnProb 2 (argE m c)) (returnProb 3 (argE m c)) (returnProb 4 (argE m c)) (returnProb 5 (argE m c)) (returnProb 6 (argE m c)) (returnProb 7 (argE m c)) = walkFeatures (argE m c))
theorem L38_main_v153 : V38 m c (Proc.devRef .tc main_v153) = result (argE m c) (argTab m c) (argW m c) (argB m c) :=
  ((opsReadout_val (V37 m c)).trans (by rw [L37_main_arg4 m c, L37_main_v147 m c, L37_main_v18 m c, L37_main_arg5 m c])).trans (rfl : readout (argW m c) (walkFeatures (argE m c)) (gatherRows (argTab m c) (argE m c)) (argB m c) = result (argE m c) (argTab m c) (argW m c) (argB m c))

end Values

end Cert.ReferenceIdeal.HostRun

end
-- ==== Proof.ReferenceRun.lean ====
/- The reference program's result: after the whole line of host operations the result buffer holds `result` of the
   four arguments it depends on (the stretches' values composed in program order), so every weakly fair execution of
   @main terminates with the result buffer at that term and the six arguments unchanged. -/
import proofs.«146736_j68667937129202_2_alg».proof.Proof.ReferenceOps
import proofs.«146736_j68667937129202_2_alg».proof.Proof.ReferenceStretches

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- After the whole line the result buffer holds `result` of the four arguments' launch contents. -/
theorem after_ops_result (m : (ℓ : Loc nD τ sig) → Buf (Elt F) ℓ) (c : Dev nD) :
    after ops (V0 m c) (Proc.devRef .tc main_v153) = result (argE m c) (argTab m c) (argW m c) (argB m c) := by
  rw [ops_split]; simp only [after_append']
  exact L38_main_v153 m c

/-- On every device, for any float values, from any memory with zero counters: every weakly fair execution of @main
    terminates with the result buffer at `result` of the edge list, the table, the weights and the bias as
    launched, and the six arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v153) = result (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v153).trans (after_ops_result m c),
      (h c main_arg0).trans (after_ops_of_not_mem _ main_arg0 (by decide)),
      (h c main_arg1).trans (after_ops_of_not_mem _ main_arg1 (by decide)),
      (h c main_arg2).trans (after_ops_of_not_mem _ main_arg2 (by decide)),
      (h c main_arg3).trans (after_ops_of_not_mem _ main_arg3 (by decide)),
      (h c main_arg4).trans (after_ops_of_not_mem _ main_arg4 (by decide)),
      (h c main_arg5).trans (after_ops_of_not_mem _ main_arg5 (by decide))⟩)
    (run_after m ρ)

end Cert.ReferenceIdeal.HostRun

end
-- ==== Proof.LibHostLayout.lean ====
/-
  The host's layout operations on blocks of matrices, read at a block member, a row and a column.

  A block `[a, m, n]` is `a` matrices of `m` rows and `n` columns. Placing the axes of an array among the axes of a larger
  shape changes no entry where the new axes are unit axes, and repeats the entries along the new axes otherwise. The sum
  over one axis of a block is, at the two kept coordinates, the initial value plus the sum over that axis's coordinate.
  Eight `[a, m, 1]` pieces laid one after the other along the last axis read, at last coordinate `k`, piece `k`; and a
  block `[a, m, n]` flattened to `[a · m, n]` reads, at row `p · m + i`, row `i` of member `p`.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

open scoped BigOperators

namespace Idealize.ShloMosaic.HostLayout

open Idealize.ShloMosaic.ValueIdx

variable {α : Type}

/-! ## Axes placed among the axes of a larger shape -/

/-- `[a, n] → [a, 1, n]`: the entry at `(p, u, c)` is the entry at `(p, c)`. -/
theorem spread_ab_a1b_apply {a n : ℕ} (x : (⟨2, ![a, n]⟩ : Shape).Idx → α)
    (h : (⟨2, ![a, n]⟩ : Shape).BroadcastsInDim ⟨3, ![a, 1, n]⟩ ![0, 2]) (p : Fin a) (u : Fin 1) (c : Fin n) :
    broadcastInDim ⟨3, ![a, 1, n]⟩ ![0, 2] h x (ix3 p u c) = x (ix2 p c) := by
  refine broadcastInDim_apply _ h x (ix3 p u c) (ix2 p c) fun ax => ?_
  match ax with
  | ⟨0, _⟩ =>
    show p.val = if a = 1 then 0 else p.val
    split
    · have := p.isLt; omega
    · rfl
  | ⟨1, _⟩ =>
    show c.val = if n = 1 then 0 else c.val
    split
    · have := c.isLt; omega
    · rfl

/-- `[a, 1, n] → [a, m, n]`: the entry at `(p, i, c)` is the entry at `(p, 0, c)`. -/
theorem spread_a1b_amb_apply {a m n : ℕ} (x : (⟨3, ![a, 1, n]⟩ : Shape).Idx → α)
    (h : (⟨3, ![a, 1, n]⟩ : Shape).BroadcastsInDim ⟨3, ![a, m, n]⟩ ![0, 1, 2]) (p : Fin a) (i : Fin m) (c : Fin n) :
    broadcastInDim ⟨3, ![a, m, n]⟩ ![0, 1, 2] h x (ix3 p i c) = x (ix3 p (0 : Fin 1) c) := by
  refine broadcastInDim_apply _ h x (ix3 p i c) (ix3 p (0 : Fin 1) c) fun ax => ?_
  match ax with
  | ⟨0, _⟩ =>
    show p.val = if a = 1 then 0 else p.val
    split
    · have := p.isLt; omega
    · rfl
  | ⟨1, _⟩ => rfl
  | ⟨2, _⟩ =>
    show c.val = if n = 1 then 0 else c.val
    split
    · have := c.isLt; omega
    · rfl

/-- One matrix `[m, n]` repeated over `a` members: the entry at `(p, i, c)` is the entry at `(i, c)`. -/
theorem spread_mn_amn_apply {a m n : ℕ} (x : (⟨2, ![m, n]⟩ : Shape).Idx → α)
    (h : (⟨2, ![m, n]⟩ : Shape).BroadcastsInDim ⟨3, ![a, m, n]⟩ ![1, 2]) (p : Fin a) (i : Fin m) (c : Fin n) :
    broadcastInDim ⟨3, ![a, m, n]⟩ ![1, 2] h x (ix3 p i c) = x (ix2 i c) := by
  refine broadcastInDim_apply _ h x (ix3 p i c) (ix2 i c) fun ax => ?_
  match ax with
  | ⟨0, _⟩ =>
    show i.val = if m = 1 then 0 else i.val
    split
    · have := i.isLt; omega
    · rfl
  | ⟨1, _⟩ =>
    show c.val = if n = 1 then 0 else c.val
    split
    · have := c.isLt; omega
    · rfl

/-- `[a, m] → [a, m, 1]`: the entry at `(p, i, u)` is the entry at `(p, i)`. -/
theorem spread_am_am1_apply {a m : ℕ} (x : (⟨2, ![a, m]⟩ : Shape).Idx → α)
    (h : (⟨2, ![a, m]⟩ : Shape).BroadcastsInDim ⟨3, ![a, m, 1]⟩ ![0, 1]) (p : Fin a) (i : Fin m) (u : Fin 1) :
    broadcastInDim ⟨3, ![a, m, 1]⟩ ![0, 1] h x (ix3 p i u) = x (ix2 p i) := by
  refine broadcastInDim_apply _ h x (ix3 p i u) (ix2 p i) fun ax => ?_
  match ax with
  | ⟨0, _⟩ =>
    show p.val = if a = 1 then 0 else p.val
    split
    · have := p.isLt; omega
    · rfl
  | ⟨1, _⟩ =>
    show i.val = if m = 1 then 0 else i.val
    split
    · have := i.isLt; omega
    · rfl

/-- `[n] → [1, n]`: the entry at `(u, c)` is the entry at `c`. -/
theorem spread_n_1n_apply {n : ℕ} (x : (⟨1, ![n]⟩ : Shape).Idx → α)
    (h : (⟨1, ![n]⟩ : Shape).BroadcastsInDim ⟨2, ![1, n]⟩ ![1]) (u : Fin 1) (c : Fin n) :
    broadcastInDim ⟨2, ![1, n]⟩ ![1] h x (ix2 u c) = x (ix1 c) := by
  refine broadcastInDim_apply _ h x (ix2 u c) (ix1 c) fun ax => ?_
  match ax with
  | ⟨0, _⟩ =>
    show c.val = if n = 1 then 0 else c.val
    split
    · have := c.isLt; omega
    · rfl

/-- `[n] → [n, 1]`: the entry at `(r, u)` is the entry at `r`. -/
theorem spread_n_n1_apply {n : ℕ} (x : (⟨1, ![n]⟩ : Shape).Idx → α)
    (h : (⟨1, ![n]⟩ : Shape).BroadcastsInDim ⟨2, ![n, 1]⟩ ![0]) (r : Fin n) (u : Fin 1) :
    broadcastInDim ⟨2, ![n, 1]⟩ ![0] h x (ix2 r u) = x (ix1 r) := by
  refine broadcastInDim_apply _ h x (ix2 r u) (ix1 r) fun ax => ?_
  match ax with
  | ⟨0, _⟩ =>
    show r.val = if n = 1 then 0 else r.val
    split
    · have := r.isLt; omega
    · rfl

/-- One row `[1, n]` repeated over `m` rows: the entry at `(r, c)` is the entry at `(0, c)`. -/
theorem spread_1n_mn_apply {m n : ℕ} (x : (⟨2, ![1, n]⟩ : Shape).Idx → α)
    (h : (⟨2, ![1, n]⟩ : Shape).BroadcastsInDim ⟨2, ![m, n]⟩ ![0, 1]) (r : Fin m) (c : Fin n) :
    broadcastInDim ⟨2, ![m, n]⟩ ![0, 1] h x (ix2 r c) = x (ix2 (0 : Fin 1) c) := by
  refine broadcastInDim_apply _ h x (ix2 r c) (ix2 (0 : Fin 1) c) fun ax => ?_
  match ax with
  | ⟨0, _⟩ => rfl
  | ⟨1, _⟩ =>
    show c.val = if n = 1 then 0 else c.val
    split
    · have := c.isLt; omega
    · rfl

/-! ## The host's sum over one axis of a block -/

/-- The host's sum over the last axis of a block `[a, m, n]`, at member `p` and row `i`: the initial value plus the sum
    of that row's entries. -/
theorem hostSum_last_apply {a m n : ℕ} {u : Shape} (x : FVec Ideal ⟨3, ![a, m, n]⟩ .f32) (init : u.Idx → Ideal .f32)
    (h' : Shape.ReducesTo ⟨3, ![a, m, n]⟩ [(2 : Fin 3)] ⟨2, ![a, m]⟩)
    (h : Shape.Reduces ⟨3, ![a, m, n]⟩ [(2 : Fin 3)] ⟨2, ![a, m]⟩) (hu : 0 < u.numel) (p : Fin a) (i : Fin m) :
    Host.reduceAdd x init h' hu (ix2 p i) = init (Shape.Idx.first hu) + ∑ k : Fin n, x (ix3 p i k) :=
  (Ideal.hostReduceAdd_single h' h x (init (Shape.Idx.first hu)) (ix2 p i)).trans
    (congrArg (init (Shape.Idx.first hu) + ·) (Finset.sum_congr rfl fun k _ => congrArg x (funext fun d => Fin.ext (by
      match d with
      | ⟨0, _⟩ => rfl
      | ⟨1, _⟩ => rfl
      | ⟨2, _⟩ => rfl))))

/-- The host's sum over the middle axis of a block `[a, m, n]`, at member `p` and column `c`: the initial value plus the
    sum of that column's entries. -/
theorem hostSum_mid_apply {a m n : ℕ} {u : Shape} (x : FVec Ideal ⟨3, ![a, m, n]⟩ .f32) (init : u.Idx → Ideal .f32)
    (h' : Shape.ReducesTo ⟨3, ![a, m, n]⟩ [(1 : Fin 3)] ⟨2, ![a, n]⟩)
    (h : Shape.Reduces ⟨3, ![a, m, n]⟩ [(1 : Fin 3)] ⟨2, ![a, n]⟩) (hu : 0 < u.numel) (p : Fin a) (c : Fin n) :
    Host.reduceAdd x init h' hu (ix2 p c) = init (Shape.Idx.first hu) + ∑ i : Fin m, x (ix3 p i c) :=
  (Ideal.hostReduceAdd_single h' h x (init (Shape.Idx.first hu)) (ix2 p c)).trans
    (congrArg (init (Shape.Idx.first hu) + ·) (Finset.sum_congr rfl fun k _ => congrArg x (funext fun d => Fin.ext (by
      match d with
      | ⟨0, _⟩ => rfl
      | ⟨1, _⟩ => rfl
      | ⟨2, _⟩ => rfl))))

/-- From the zero word as the initial value, the sum over the last axis alone. -/
theorem hostSum_last_zero_apply {a m n : ℕ} (x : FVec Ideal ⟨3, ![a, m, n]⟩ .f32)
    (h' : Shape.ReducesTo ⟨3, ![a, m, n]⟩ [(2 : Fin 3)] ⟨2, ![a, m]⟩)
    (h : Shape.Reduces ⟨3, ![a, m, n]⟩ [(2 : Fin 3)] ⟨2, ![a, m]⟩) (hu : 0 < (⟨0, ![]⟩ : Shape).numel) (p : Fin a) (i : Fin m) :
    Host.reduceAdd x (constant (F := Ideal) ⟨0, ![]⟩ .f32 0x00000000#32) h' hu (ix2 p i) = ∑ k : Fin n, x (ix3 p i k) := by
  rw [hostSum_last_apply x _ h' h hu p i, constant_apply, Ideal.ofBits_zero_f32, zero_add]

/-- From the zero word as the initial value, the sum over the middle axis alone. -/
theorem hostSum_mid_zero_apply {a m n : ℕ} (x : FVec Ideal ⟨3, ![a, m, n]⟩ .f32)
    (h' : Shape.ReducesTo ⟨3, ![a, m, n]⟩ [(1 : Fin 3)] ⟨2, ![a, n]⟩)
    (h : Shape.Reduces ⟨3, ![a, m, n]⟩ [(1 : Fin 3)] ⟨2, ![a, n]⟩) (hu : 0 < (⟨0, ![]⟩ : Shape).numel) (p : Fin a) (c : Fin n) :
    Host.reduceAdd x (constant (F := Ideal) ⟨0, ![]⟩ .f32 0x00000000#32) h' hu (ix2 p c) = ∑ i : Fin m, x (ix3 p i c) := by
  rw [hostSum_mid_apply x _ h' h hu p c, constant_apply, Ideal.ofBits_zero_f32, zero_add]

/-! ## Eight pieces along the last axis, and a block flattened to a matrix -/

/-- Eight `[a, m, 1]` pieces laid along the last axis: the entry at `(p, i, k)` is piece `k` at `(p, i, 0)`. -/
theorem concat8_last_apply {a m : ℕ} (x0 x1 x2 x3 x4 x5 x6 x7 : (⟨3, ![a, m, 1]⟩ : Shape).Idx → α)
    (h : Shape.Concatenates [(⟨3, ![a, m, 1]⟩ : Shape), ⟨3, ![a, m, 1]⟩, ⟨3, ![a, m, 1]⟩, ⟨3, ![a, m, 1]⟩, ⟨3, ![a, m, 1]⟩,
      ⟨3, ![a, m, 1]⟩, ⟨3, ![a, m, 1]⟩, ⟨3, ![a, m, 1]⟩] ⟨3, ![a, m, 8]⟩ 2) (p : Fin a) (i : Fin m) (k : Fin 8) :
    concatenate ⟨3, ![a, m, 8]⟩ 2 [⟨⟨3, ![a, m, 1]⟩, x0⟩, ⟨⟨3, ![a, m, 1]⟩, x1⟩, ⟨⟨3, ![a, m, 1]⟩, x2⟩, ⟨⟨3, ![a, m, 1]⟩, x3⟩,
        ⟨⟨3, ![a, m, 1]⟩, x4⟩, ⟨⟨3, ![a, m, 1]⟩, x5⟩, ⟨⟨3, ![a, m, 1]⟩, x6⟩, ⟨⟨3, ![a, m, 1]⟩, x7⟩] h (ix3 p i k)
      = (![x0, x1, x2, x3, x4, x5, x6, x7] k) (ix3 p i (0 : Fin 1)) := by
  have piece : ∀ (q : ℕ) (hq : q < 8) (y : (⟨3, ![a, m, 1]⟩ : Shape).Idx → α),
      ([⟨⟨3, ![a, m, 1]⟩, x0⟩, ⟨⟨3, ![a, m, 1]⟩, x1⟩, ⟨⟨3, ![a, m, 1]⟩, x2⟩, ⟨⟨3, ![a, m, 1]⟩, x3⟩,
        ⟨⟨3, ![a, m, 1]⟩, x4⟩, ⟨⟨3, ![a, m, 1]⟩, x5⟩, ⟨⟨3, ![a, m, 1]⟩, x6⟩, ⟨⟨3, ![a, m, 1]⟩, x7⟩] :
          List ((s : Shape) × (s.Idx → α)))[q]'hq = ⟨⟨3, ![a, m, 1]⟩, y⟩ →
      concatenate ⟨3, ![a, m, 8]⟩ 2 [⟨⟨3, ![a, m, 1]⟩, x0⟩, ⟨⟨3, ![a, m, 1]⟩, x1⟩, ⟨⟨3, ![a, m, 1]⟩, x2⟩, ⟨⟨3, ![a, m, 1]⟩, x3⟩,
        ⟨⟨3, ![a, m, 1]⟩, x4⟩, ⟨⟨3, ![a, m, 1]⟩, x5⟩, ⟨⟨3, ![a, m, 1]⟩, x6⟩, ⟨⟨3, ![a, m, 1]⟩, x7⟩] h (ix3 p i (⟨q, hq⟩ : Fin 8))
        = y (ix3 p i (0 : Fin 1)) := fun q hq y hy =>
    concatenate_apply_piece (t := ⟨3, ![a, m, 8]⟩) 2 [⟨⟨3, ![a, m, 1]⟩, x0⟩, ⟨⟨3, ![a, m, 1]⟩, x1⟩, ⟨⟨3, ![a, m, 1]⟩, x2⟩,
        ⟨⟨3, ![a, m, 1]⟩, x3⟩, ⟨⟨3, ![a, m, 1]⟩, x4⟩, ⟨⟨3, ![a, m, 1]⟩, x5⟩, ⟨⟨3, ![a, m, 1]⟩, x6⟩, ⟨⟨3, ![a, m, 1]⟩, x7⟩]
      h (ix3 p i (⟨q, hq⟩ : Fin 8)) q hq ⟨3, ![a, m, 1]⟩ y hy rfl q
      (by
        have h8 : q = 0 ∨ q = 1 ∨ q = 2 ∨ q = 3 ∨ q = 4 ∨ q = 5 ∨ q = 6 ∨ q = 7 := by omega
        rcases h8 with rfl | rfl | rfl | rfl | rfl | rfl | rfl | rfl <;> rfl)
      (ix3 p i (0 : Fin 1))
      (fun b hb => by
        match b with
        | ⟨0, _⟩ => rfl
        | ⟨1, _⟩ => rfl
        | ⟨2, _⟩ => exact absurd rfl hb)
      (Nat.add_zero q)
  match k with
  | ⟨0, _⟩ => exact piece 0 (by omega) x0 rfl
  | ⟨1, _⟩ => exact piece 1 (by omega) x1 rfl
  | ⟨2, _⟩ => exact piece 2 (by omega) x2 rfl
  | ⟨3, _⟩ => exact piece 3 (by omega) x3 rfl
  | ⟨4, _⟩ => exact piece 4 (by omega) x4 rfl
  | ⟨5, _⟩ => exact piece 5 (by omega) x5 rfl
  | ⟨6, _⟩ => exact piece 6 (by omega) x6 rfl
  | ⟨7, _⟩ => exact piece 7 (by omega) x7 rfl

/-- A block `[a, m, n]` flattened to `[N, n]`, `N = a · m`: row `p · m + i` is row `i` of member `p`. -/
theorem flatten_amn_Nn_apply {a m n N : ℕ} (x : (⟨3, ![a, m, n]⟩ : Shape).Idx → α)
    (h : (⟨3, ![a, m, n]⟩ : Shape).ShapeCasts ⟨2, ![N, n]⟩) (r : Fin N) (p : Fin a) (i : Fin m) (c : Fin n)
    (hr : r.val = p.val * m + i.val) :
    shapeCast ⟨2, ![N, n]⟩ x h (ix2 r c) = x (ix3 p i c) :=
  shapeCast_apply x h _ _ (by
    rw [Shape.rowMajor_val_three, Shape.rowMajor_val_two]
    show (p.val * m + i.val) * n + c.val = r.val * n + c.val
    rw [hr])

end Idealize.ShloMosaic.HostLayout
-- ==== Proof.LibTakeSegment.lean ====
/-
  GATHER OF ROWS AND SEGMENT SUM, READ AT AN INDEX.

  Taking the rows of an array at integer positions, `x[idx]`, is a `stablehlo.gather` whose start indices form an
  `[M, 1]` array: result row `e` is the operand's row at the start index `idx[e, 0]`, read as a signed integer and
  clamped into `[0, N − 1]`. Summing rows by segment is a `stablehlo.scatter` with an addition body over the same
  `[M, 1]` array of indices: operand row `i` receives the sum of the update rows `e` whose index `idx[e, 0]`, read
  signed and NOT clamped, equals `i`; an update whose index falls outside `[0, N)` lands nowhere.

  This file states both for a rank-1 operand (a vector of `N` entries) and for a rank-2 operand (`N` rows of `D`
  entries), for every `N`, `M`, `D` and every index width. The dimension numbers are records built from a proof of
  their side conditions, so that a program's literal record is definitionally the record here at that program's proof.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Idealize.ShloMosaic.TakeSegment

open Idealize.ShloMosaic
open Idealize.ShloMosaic.ValueIdx

/-! ## `stablehlo.gather` at an `[M, 1]` array of start indices -/

section Gather
variable {α : Type}

/-- The dimension numbers of `x[idx]` for a vector `x : [N]` and start indices `[M, 1]`: the one operand axis is
    collapsed and indexed by the start index, the result `[M]` has no offset axis. -/
abbrev vecTakeDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- The gather of a vector read at `e`: the operand at the start index `idx[e, 0]`, read signed and clamped into
    `[0, N − 1]`. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecTakeDims N M wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecTakeDims N M wf).start (ix1 e) idx 0 + (vecTakeDims N M wf).batchCoord (ix1 e) 0
      + (vecTakeDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTakeDims N M wf).startIndexMap from List.mem_singleton.mpr rfl)]
  have hsi : (vecTakeDims N M wf).siIdx (ix1 e) ⟨List.idxOf (0 : Fin 1) (vecTakeDims N M wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx]` for a matrix `x : [N, D]` and start indices `[M, 1]`: the row axis is collapsed
    and indexed by the start index, the column axis is the result's one offset axis, taken whole. -/
abbrev rowTakeDims (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The gather of rows read at `(e, q)`: entry `q` of the operand's row at the start index `idx[e, 0]`, read signed
    and clamped into `[0, N − 1]`. -/
theorem gather_rows_apply {N M D w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (q : Fin D) :
    Host.gather (rowTakeDims N M D wf) x idx (ix2 e q)
      = x (ix2 ⟨min (idx (ix2 e (0 : Fin 1))).toInt.toNat (N - 1), by omega⟩ q) := by
  unfold Host.gather
  congr 1
  funext a
  refine Fin.ext ?_
  show (rowTakeDims N M D wf).start (ix2 e q) idx a + (rowTakeDims N M D wf).batchCoord (ix2 e q) a
      + (rowTakeDims N M D wf).offCoord (ix2 e q) a = _
  rw [GatherDims.batchCoord_eq_zero _ _ _ List.not_mem_nil]
  match a with
  | ⟨0, _⟩ =>
    show (rowTakeDims N M D wf).start (ix2 e q) idx (0 : Fin 2) + 0
      + (rowTakeDims N M D wf).offCoord (ix2 e q) (0 : Fin 2) = _
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowTakeDims N M D wf).startIndexMap from List.mem_singleton.mpr rfl)]
    have hsi : (rowTakeDims N M D wf).siIdx (ix2 e q) ⟨List.idxOf (0 : Fin 2) (rowTakeDims N M D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    have hs : (rowTakeDims N M D wf).start (ix2 e q) idx (1 : Fin 2) = 0 := by
      unfold GatherDims.start
      rw [dif_neg (show (1 : Fin 2) ∉ (rowTakeDims N M D wf).startIndexMap from
        fun h => absurd (List.mem_singleton.mp h) (show (1 : Fin 2) ≠ 0 by decide))]
    show (rowTakeDims N M D wf).start (ix2 e q) idx (1 : Fin 2) + 0
      + (rowTakeDims N M D wf).offCoord (ix2 e q) (1 : Fin 2) = _
    rw [hs]
    simp only [Nat.add_zero, Nat.zero_add]
    rfl

end Gather

/-! ## The operand index an update of a scatter lands on -/

section ResultIdx

/-- An update lands on operand index `i` exactly when, on every operand axis, its start index plus its window
    coordinate is `i`'s coordinate: the sum is then in range on every axis, and is `i`. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      subst hf
      exact (Int.toNat_of_nonneg (h a).1).symm
    · intro hall
      funext a
      refine Fin.ext ?_
      show (d.start j idx a + (d.window j a : Int)).toNat = (i a).val
      rw [hall a]
      exact Int.toNat_natCast _
  · rename_i h
    constructor
    · intro hf
      exact absurd hf (by simp)
    · intro hall
      exfalso
      apply h
      intro a
      rw [hall a]
      exact ⟨Int.natCast_nonneg _, by exact_mod_cast (i a).isLt⟩

/-- An operand axis keeps a window coordinate exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-- A rank-1 index set is its one coordinate's range … -/
def idxEquiv1 {n : Nat} : (⟨1, ![n]⟩ : Shape).Idx ≃ Fin n where
  toFun j := j 0
  invFun a := ix1 a
  left_inv j := (eq_ix1 j).symm
  right_inv _ := rfl

/-- … so a sum over it is the sum over the coordinate. -/
theorem sum_idx1 {A : Type*} [AddCommMonoid A] {n : Nat} (f : (⟨1, ![n]⟩ : Shape).Idx → A) :
    ∑ j, f j = ∑ a : Fin n, f (ix1 a) := by
  rw [← Equiv.sum_comp (idxEquiv1 (n := n)).symm f]
  rfl

end ResultIdx

/-! ## `stablehlo.scatter` with an addition body at an `[M, 1]` array of indices: a vector operand -/

section VecSeg

/-- The dimension numbers of a segment sum into a vector `[N]` from updates `[M]` at indices `[M, 1]`: the one
    operand axis is inserted and indexed by the scatter index, the updates have no window axis. -/
abbrev vecSegDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section
variable {N M w : Nat} (wf : ScatterDims.WF ⟨1, ![N]⟩ ⟨2, ![M, 1]⟩ ⟨1, ![M]⟩ [] [0] [0] 1)
  (idx : IVec ⟨2, ![M, 1]⟩ w)

/-- Update `e` starts at its index `idx[e, 0]`, read signed. -/
theorem vecSeg_start (e : Fin M) :
    (vecSegDims N M wf).start (ix1 e) idx (0 : Fin 1) = (idx (ix2 e (0 : Fin 1))).toInt := by
  unfold ScatterDims.start
  rw [dif_pos (show (0 : Fin 1) ∈ (vecSegDims N M wf).scatterDimsToOperandDims from List.mem_singleton.mpr rfl)]
  have hsi : (vecSegDims N M wf).siIdx (ix1 e) ⟨List.idxOf (0 : Fin 1) (vecSegDims N M wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- It has no window coordinate: the one operand axis is inserted. -/
theorem vecSeg_window (e : Fin M) : (vecSegDims N M wf).window (ix1 e) (0 : Fin 1) = 0 := by
  unfold ScatterDims.window
  rw [dif_neg (fun h => ((mem_sKept _ _).mp h) (List.mem_singleton.mpr rfl))]

/-- Update `e` lands on operand entry `i` exactly when its index `idx[e, 0]`, read signed, is `i`. -/
theorem vecSeg_resultIdx?_iff (e : Fin M) (i : Fin N) :
    (vecSegDims N M wf).resultIdx? (ix1 e) idx = some (ix1 i)
      ↔ (idx (ix2 e (0 : Fin 1))).toInt = (i.val : Int) := by
  rw [resultIdx?_eq_some_iff]
  constructor
  · intro h
    have h0 := h (0 : Fin 1)
    rw [vecSeg_start, vecSeg_window] at h0
    simpa using h0
  · intro h a
    obtain rfl : a = 0 := Subsingleton.elim _ _
    rw [vecSeg_start, vecSeg_window]
    simp only [Nat.cast_zero, add_zero]
    exact h

end

/-- The segment sum into a vector read at `i`: the operand's entry plus the sum of the updates whose index
    `idx[e, 0]`, read signed, is `i`. An update whose index is negative or at least `N` is in no such sum. -/
theorem scatterAdd_vec_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Ideal.hostScatterAdd (vecSegDims N M wf) x idx upd (ix1 i)
      = x (ix1 i) + ∑ e ∈ Finset.univ.filter (fun e : Fin M => (idx (ix2 e (0 : Fin 1))).toInt = (i.val : Int)),
          upd (ix1 e) := by
  unfold Ideal.hostScatterAdd
  congr 1
  rw [Finset.sum_filter, Finset.sum_filter, sum_idx1]
  refine Finset.sum_congr rfl fun e _ => ?_
  exact if_congr (vecSeg_resultIdx?_iff wf idx e i) rfl rfl

end VecSeg

/-! ## The same scatter with a matrix operand: rows of `D` entries -/

section RowSeg

/-- The dimension numbers of a segment sum into a matrix `[N, D]` from updates `[M, D]` at indices `[M, 1]`: the
    row axis is inserted and indexed by the scatter index, the updates' column axis is their one window axis and goes
    to the operand's column axis. -/
abbrev rowSegDims (N M D : Nat) (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

section
variable {N M D w : Nat} (wf : ScatterDims.WF ⟨2, ![N, D]⟩ ⟨2, ![M, 1]⟩ ⟨2, ![M, D]⟩ [1] [0] [0] 1)
  (idx : IVec ⟨2, ![M, 1]⟩ w)

/-- On the row axis update `(e, p)` starts at its index `idx[e, 0]`, read signed … -/
theorem rowSeg_start0 (e : Fin M) (p : Fin D) :
    (rowSegDims N M D wf).start (ix2 e p) idx (0 : Fin 2) = (idx (ix2 e (0 : Fin 1))).toInt := by
  unfold ScatterDims.start
  rw [dif_pos (show (0 : Fin 2) ∈ (rowSegDims N M D wf).scatterDimsToOperandDims from List.mem_singleton.mpr rfl)]
  have hsi : (rowSegDims N M D wf).siIdx (ix2 e p) ⟨List.idxOf (0 : Fin 2) (rowSegDims N M D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- … and on the column axis at `0`: the scatter index does not name that axis. -/
theorem rowSeg_start1 (e : Fin M) (p : Fin D) : (rowSegDims N M D wf).start (ix2 e p) idx (1 : Fin 2) = 0 := by
  unfold ScatterDims.start
  rw [dif_neg (fun h => absurd (List.mem_singleton.mp h) (show (1 : Fin 2) ≠ 0 by decide))]

/-- It has no window coordinate on the row axis, which is inserted … -/
theorem rowSeg_window0 (e : Fin M) (p : Fin D) : (rowSegDims N M D wf).window (ix2 e p) (0 : Fin 2) = 0 := by
  unfold ScatterDims.window
  rw [dif_neg (fun h => ((mem_sKept _ _).mp h) (List.mem_singleton.mpr rfl))]

/-- … and its own column `p` on the column axis. -/
theorem rowSeg_window1 (e : Fin M) (p : Fin D) : (rowSegDims N M D wf).window (ix2 e p) (1 : Fin 2) = p.val := by
  unfold ScatterDims.window
  rw [dif_pos ((mem_sKept _ _).mpr
    (fun h => absurd (List.mem_singleton.mp h) (show (1 : Fin 2) ≠ 0 by decide)))]
  rfl

/-- Update `(e, p)` lands on operand entry `(i, q)` exactly when its index `idx[e, 0]`, read signed, is `i` and its
    column is `q`. -/
theorem rowSeg_resultIdx?_iff (e : Fin M) (p : Fin D) (i : Fin N) (q : Fin D) :
    (rowSegDims N M D wf).resultIdx? (ix2 e p) idx = some (ix2 i q)
      ↔ (idx (ix2 e (0 : Fin 1))).toInt = (i.val : Int) ∧ p = q := by
  rw [resultIdx?_eq_some_iff]
  constructor
  · intro h
    have h0 : (rowSegDims N M D wf).start (ix2 e p) idx (0 : Fin 2)
        + (((rowSegDims N M D wf).window (ix2 e p) (0 : Fin 2) : Nat) : Int) = (i.val : Int) := h (0 : Fin 2)
    have h1 : (rowSegDims N M D wf).start (ix2 e p) idx (1 : Fin 2)
        + (((rowSegDims N M D wf).window (ix2 e p) (1 : Fin 2) : Nat) : Int) = (q.val : Int) := h (1 : Fin 2)
    rw [rowSeg_start0, rowSeg_window0] at h0
    rw [rowSeg_start1, rowSeg_window1] at h1
    simp only [Nat.cast_zero, add_zero] at h0
    simp only [zero_add] at h1
    exact ⟨h0, Fin.ext (by exact_mod_cast h1)⟩
  · rintro ⟨h0, rfl⟩ a
    match a with
    | ⟨0, _⟩ =>
      show (rowSegDims N M D wf).start (ix2 e p) idx (0 : Fin 2)
        + (((rowSegDims N M D wf).window (ix2 e p) (0 : Fin 2) : Nat) : Int) = (i.val : Int)
      rw [rowSeg_start0, rowSeg_window0]
      simp only [Nat.cast_zero, add_zero]
      exact h0
    | ⟨1, _⟩ =>
      show (rowSegDims N M D wf).start (ix2 e p) idx (1 : Fin 2)
        + (((rowSegDims N M D wf).window (ix2 e p) (1 : Fin 2) : Nat) : Int) = (p.val : Int)
      rw [rowSeg_start1, rowSeg_window1]
      simp only [zero_add]

end

/-- The segment sum into a matrix read at `(i, q)`: the operand's entry plus the sum, over the update rows `e` whose
    index `idx[e, 0]`, read signed, is `i`, of their entry `q`. A row whose index is negative or at least `N` is in
    no such sum. -/
theorem scatterAdd_rows_apply {N M D w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (i : Fin N) (q : Fin D) :
    Ideal.hostScatterAdd (rowSegDims N M D wf) x idx upd (ix2 i q)
      = x (ix2 i q) + ∑ e ∈ Finset.univ.filter (fun e : Fin M => (idx (ix2 e (0 : Fin 1))).toInt = (i.val : Int)),
          upd (ix2 e q) := by
  unfold Ideal.hostScatterAdd
  congr 1
  rw [Finset.sum_filter, Finset.sum_filter, sum_idx2]
  refine Finset.sum_congr rfl fun e _ => ?_
  refine (Finset.sum_congr rfl fun b _ => if_congr (rowSeg_resultIdx?_iff wf idx e b i q) rfl rfl).trans ?_
  by_cases hP : (idx (ix2 e (0 : Fin 1))).toInt = (i.val : Int)
  · simp [hP]
  · simp [hP]

end RowSeg

/-! ## The records fit a program's printed ones

A program prints its dimension numbers as a record of literal lists over literal shapes whose last field is the proof
of the side conditions; each record above, at those sizes and that proof, is that record by definition. -/

section Fit

example (wf : GatherDims.WF ⟨1, ![100000]⟩ ⟨2, ![1700000, 1]⟩ ⟨1, ![1700000]⟩ [] [0] [] [0] [] 1 ![1]) :
    ({ offsetDims := [], collapsedSliceDims := [0], operandBatchingDims := [], startIndicesBatchingDims := [],
       startIndexMap := [0], indexVectorDim := 1, sliceSizes := ![1], wf := wf } :
      GatherDims ⟨1, ![100000]⟩ ⟨2, ![1700000, 1]⟩ ⟨1, ![1700000]⟩) = vecTakeDims 100000 1700000 wf := rfl

example (wf : GatherDims.WF ⟨2, ![100000, 128]⟩ ⟨2, ![1700000, 1]⟩ ⟨2, ![1700000, 128]⟩ [1] [0] [] [0] [] 1 ![1, 128]) :
    ({ offsetDims := [1], collapsedSliceDims := [0], operandBatchingDims := [], startIndicesBatchingDims := [],
       startIndexMap := [0], indexVectorDim := 1, sliceSizes := ![1, 128], wf := wf } :
      GatherDims ⟨2, ![100000, 128]⟩ ⟨2, ![1700000, 1]⟩ ⟨2, ![1700000, 128]⟩) = rowTakeDims 100000 1700000 128 wf := rfl

example (wf : ScatterDims.WF ⟨1, ![100000]⟩ ⟨2, ![1700000, 1]⟩ ⟨1, ![1700000]⟩ [] [0] [0] 1) :
    ({ updateWindowDims := [], insertedWindowDims := [0], scatterDimsToOperandDims := [0], indexVectorDim := 1,
       wf := wf } : ScatterDims ⟨1, ![100000]⟩ ⟨2, ![1700000, 1]⟩ ⟨1, ![1700000]⟩) = vecSegDims 100000 1700000 wf := rfl

example (wf : ScatterDims.WF ⟨2, ![100000, 128]⟩ ⟨2, ![1600000, 1]⟩ ⟨2, ![1600000, 128]⟩ [1] [0] [0] 1) :
    ({ updateWindowDims := [1], insertedWindowDims := [0], scatterDimsToOperandDims := [0], indexVectorDim := 1,
       wf := wf } : ScatterDims ⟨2, ![100000, 128]⟩ ⟨2, ![1600000, 1]⟩ ⟨2, ![1600000, 128]⟩)
      = rowSegDims 100000 1600000 128 wf := rfl

example (wf) : (vecTakeDims 100000 1700000 wf).startIndexMap = [0] := rfl
example (wf) : (vecTakeDims 100000 1700000 wf).sliceSizes = ![1] := rfl
example (wf) : (rowTakeDims 100000 1700000 128 wf).offsetDims = [1] := rfl
example (wf) : (rowTakeDims 100000 1700000 128 wf).sliceSizes = ![1, 128] := rfl
example (wf) : (vecSegDims 100000 1600000 wf).insertedWindowDims = [0] := rfl
example (wf) : (rowSegDims 100000 1600000 128 wf).updateWindowDims = [1] := rfl

end Fit

end Idealize.ShloMosaic.TakeSegment

end
-- ==== Proof.ReferenceEntry.lean ====
/-
  The reference's result read at one entry.

  For the edge list `e`, the directed adjacency tensor holds one 256 × 256 matrix per graph. Entry by entry over the
  extended reals: the symmetrized 0/1 tensor is the link indicator of each graph, its row sums are the degrees, the
  transition tensor is the degree-normalised walk matrix of each graph, the product of the unit matrix with it is the
  matrix itself, each further product is one more power, and the masked column sums are the diagonals — the return
  probabilities. Row `r` of the result is the table's row at the node's clipped in-degree, plus the node's eight return
  probabilities through the linear layer, plus the bias.
-/
import proofs.«146736_j68667937129202_2_alg».proof.Proof.ReferenceTerm
import proofs.«146736_j68667937129202_2_alg».proof.Proof.LibHostLayout
import proofs.«146736_j68667937129202_2_alg».proof.Proof.LibBatchProduct
import proofs.«146736_j68667937129202_2_alg».proof.Proof.LibRowsCols
import proofs.«146736_j68667937129202_2_alg».proof.Proof.LibTakeSegment
import proofs.«146736_j68667937129202_2_alg».proof.Proof.WalkSpec
import proofs.«146736_j68667937129202_2_alg».proof.Proof.EntrySpec
import proofs.«146736_j68667937129202_2_alg».proof.Proof.ClipFacts
import Idealize.ShloMosaic.Lib.ValueLayout
import Idealize.ShloMosaic.Lib.IdealHost
import Idealize.ShloMosaic.Lib.Pipeline.Value

set_option maxRecDepth 16384

noncomputable section

open scoped BigOperators

namespace Cert.ReferenceIdeal.Entry

open Cert.ReferenceIdeal Cert.ReferenceIdeal.Gen Cert.ReferenceIdeal.HostRun
open Idealize.ShloMosaic Idealize.ShloMosaic.ValueIdx Idealize.ShloMosaic.HostLayout
open Cert.OneEntry

/-- One 256 × 256 matrix per graph, at the ideal values. -/
abbrev Blk := FVec Ideal S256x256x256 .f32
/-- One row of 256 numbers per graph. -/
abbrev Rows := FVec Ideal S256x256 .f32
/-- The edge list. -/
abbrev Edges := IVec S2x524288 32

/-- Graph `g` of a block. -/
def graph (a : Blk) (g : Fin 256) : Fin 256 → Fin 256 → EReal := fun i j => a (ix3 g i j)

/-- An unsigned conversion at an index converts the element. -/
theorem uitofp_apply {s : Shape} {w : ℕ} (φ : FTy) (x : IVec s w) (i : s.Idx) :
    (uitofp φ x : FVec Ideal s φ) i = (((x i).toNat : ℝ) : EReal) := rfl

/-! ## Links, degrees, the walk matrix -/

theorem symAdj_apply (a : Blk) (g i j : Fin 256) : symAdj (F := Ideal) a (ix3 g i j) = WalkSpec.link (graph a g) i j := by
  have ht : transpose S256x256x256 [0, 2, 1] a transposes_S256x256x256_S256x256x256_0_2_1 (ix3 g i j) = a (ix3 g j i) :=
    transpose_ix3_021_apply a _ g i j
  simp only [symAdj, uitofp_apply, cmpf_apply, addf_apply, ht, broadcastInDim_scalar_apply, constant_apply]
  exact WalkSpec.toNat_eq_bit _

theorem degree_apply (s : Blk) (g j : Fin 256) : degree (F := Ideal) s (ix2 g j) = ∑ l : Fin 256, s (ix3 g j l) :=
  hostSum_last_zero_apply s reducesTo_S256x256x256_S256x256_d2 (by decide) h_S_ g j

theorem degree_symAdj_apply (a : Blk) (g j : Fin 256) :
    degree (F := Ideal) (symAdj (F := Ideal) a) (ix2 g j) = WalkSpec.degree (graph a g) j :=
  (degree_apply _ g j).trans (Finset.sum_congr rfl fun l _ => symAdj_apply a g j l)

theorem invDegree_apply (d : Rows) (g j : Fin 256) :
    invDegree (F := Ideal) d (ix2 g j)
      = Scalar.select (Ideal.cmp .ogt (d (ix2 g j)) WalkSpec.zeroW)
          (Ideal.div WalkSpec.oneW (Scalar.select (Ideal.cmp .ogt (d (ix2 g j)) WalkSpec.zeroW) (d (ix2 g j)) WalkSpec.oneW))
          WalkSpec.zeroW := by
  simp only [invDegree, select_apply, cmpf_apply, hostDivf_apply, broadcastInDim_scalar_apply, constant_apply, id]
  rfl

theorem scaleCols_apply (dinv : Rows) (s : Blk) (g i j : Fin 256) :
    scaleCols (F := Ideal) dinv s (ix3 g i j) = s (ix3 g i j) * dinv (ix2 g j) := by
  unfold scaleCols
  rw [mulf_apply]
  exact congrArg (s (ix3 g i j) * ·)
    ((spread_a1b_amb_apply _ bcast_S256x1x256_S256x256x256_0_1_2 g i j).trans
      (spread_ab_a1b_apply dinv bcast_S256x256_S256x1x256_0_2 g (0 : Fin 1) j))

/-- The transition tensor at `(g, i, j)` is the walk matrix of graph `g` of the adjacency tensor. -/
theorem walkMatrix_apply (e : Edges) (g i j : Fin 256) :
    walkMatrix (F := Ideal) e (ix3 g i j) = WalkSpec.walk (graph (adjacency (F := Ideal) e) g) i j := by
  unfold walkMatrix
  rw [scaleCols_apply, symAdj_apply, invDegree_apply, degree_symAdj_apply]
  rfl

/-! ## The unit matrix and the diagonal -/

/-- Two node numbers as 32-bit words are equal exactly when the nodes are. -/
theorem cmpi_eq_index (i j : Fin 256) :
    IntOp.cmpi .eq (BitVec.ofNat 32 i.val) (BitVec.ofNat 32 j.val) = if i = j then 1#1 else 0#1 := by
  unfold IntOp.cmpi
  by_cases h : i = j
  · subst h; simp
  · have hne : BitVec.ofNat 32 i.val ≠ BitVec.ofNat 32 j.val := by
      intro e
      have e' := congrArg BitVec.toNat e
      simp only [BitVec.toNat_ofNat] at e'
      have hi := i.isLt; have hj := j.isLt
      exact h (Fin.ext (by omega))
    rw [if_neg h, beq_eq_false_iff_ne.mpr hne]
    rfl

theorem eyeBatch_apply (g i j : Fin 256) : eyeBatch (F := Ideal) (ix3 g i j) = unit i j := by
  simp only [eyeBatch, spread_mn_amn_apply, uitofp_apply]
  show (((IntOp.cmpi .eq (IntOp.addi (BitVec.ofNat 32 i.val) 0#32) (BitVec.ofNat 32 j.val)).toNat : ℝ) : EReal) = _
  unfold IntOp.addi
  rw [BitVec.add_zero, cmpi_eq_index, unit]
  by_cases h : i = j
  · rw [if_pos h, if_pos h]; simp
  · rw [if_neg h, if_neg h]; simp

theorem walkStep_apply (p T : Blk) (g i l : Fin 256) :
    walkStep (F := Ideal) p T (ix3 g i l) = ∑ j : Fin 256, p (ix3 g i j) * T (ix3 g j l) :=
  BatchProduct.dotGeneral_apply dot_S256x256x256_S256x256x256_S256x256x256_2_1_1_2_0_0 rfl rfl rfl rfl
    (fun _ _ => rfl) (fun _ _ => rfl) (fun _ _ => rfl) (fun _ _ => rfl) none .single p T g i l

/-- The powers of the transition tensor are, graph by graph, the powers of the walk matrix. -/
theorem walkPower_apply (k : ℕ) (e : Edges) (g i l : Fin 256) :
    walkPower (F := Ideal) k e (ix3 g i l) = WalkSpec.power (WalkSpec.walk (graph (adjacency (F := Ideal) e) g)) k i l := by
  induction k generalizing i l with
  | zero =>
    rw [walkPower_zero, walkStep_apply]
    show _ = WalkSpec.walk (graph (adjacency (F := Ideal) e) g) i l
    rw [← unit_mul (WalkSpec.walk (graph (adjacency (F := Ideal) e) g)) i l]
    exact Finset.sum_congr rfl fun j _ => by rw [eyeBatch_apply, walkMatrix_apply]
  | succ k ih =>
    rw [walkPower_succ, walkStep_apply]
    show _ = ∑ j : Fin 256, WalkSpec.power (WalkSpec.walk (graph (adjacency (F := Ideal) e) g)) k i j
      * WalkSpec.walk (graph (adjacency (F := Ideal) e) g) j l
    exact Finset.sum_congr rfl fun j _ => by rw [ih, walkMatrix_apply]

theorem batchDiag_apply (p : Blk) (g n : Fin 256) : batchDiag (F := Ideal) p (ix2 g n) = p (ix3 g n n) := by
  unfold batchDiag
  beta_reduce
  rw [hostSum_mid_zero_apply _ reducesTo_S256x256x256_S256x256_d1 (by decide) h_S_ g n]
  rw [← sum_ite_col (fun i' n' => p (ix3 g i' n')) n]
  refine Finset.sum_congr rfl fun i _ => ?_
  simp only [select_apply, spread_mn_amn_apply, broadcastInDim_scalar_apply, constant_apply]
  show Scalar.select (IntOp.cmpi .eq (BitVec.ofNat 32 i.val) (BitVec.ofNat 32 n.val)) (p (ix3 g i n))
    (Ideal.ofBits .f32 0x00000000#32) = _
  rw [cmpi_eq_index, Ideal.ofBits_zero_f32]
  by_cases h : i = n
  · rw [if_pos h, if_pos h, select_one]
  · rw [if_neg h, if_neg h, select_zero]

/-- The masked column sums of the `k`-th power are the return probabilities after `k + 1` steps. -/
theorem returnProb_apply (k : ℕ) (e : Edges) (g n : Fin 256) :
    returnProb (F := Ideal) k e (ix2 g n) = WalkSpec.ret (graph (adjacency (F := Ideal) e) g) k n :=
  (batchDiag_apply _ g n).trans (walkPower_apply k e g n n)

/-! ## The readout -/

/-- The table, the projection weights and the bias, at the ideal values. -/
abbrev Weights := FVec Ideal S256x8 .f32
abbrev Bias := FVec Ideal S256 .f32

/-- The eight stacked matrices flattened to one row per node: row `g · 256 + n`, column `k`, is matrix `k` at `(g, n)`. -/
theorem stackFeatures_apply (r0 r1 r2 r3 r4 r5 r6 r7 : Rows) (r : Fin 65536) (g n : Fin 256)
    (hr : r.val = g.val * 256 + n.val) (k : Fin 8) :
    stackFeatures (F := Ideal) r0 r1 r2 r3 r4 r5 r6 r7 (ix2 r k) = (![r0, r1, r2, r3, r4, r5, r6, r7] k) (ix2 g n) := by
  unfold stackFeatures
  beta_reduce
  refine (flatten_amn_Nn_apply _ shapeCasts_S256x256x8_S65536x8 r g n k hr).trans
    ((concat8_last_apply _ _ _ _ _ _ _ _
      concatenates_S256x256x1_S256x256x1_S256x256x1_S256x256x1_S256x256x1_S256x256x1_S256x256x1_S256x256x1_S256x256x8_d2 g n k).trans ?_)
  match k with
  | ⟨0, _⟩ => exact spread_am_am1_apply r0 bcast_S256x256_S256x256x1_0_1 g n 0
  | ⟨1, _⟩ => exact spread_am_am1_apply r1 bcast_S256x256_S256x256x1_0_1 g n 0
  | ⟨2, _⟩ => exact spread_am_am1_apply r2 bcast_S256x256_S256x256x1_0_1 g n 0
  | ⟨3, _⟩ => exact spread_am_am1_apply r3 bcast_S256x256_S256x256x1_0_1 g n 0
  | ⟨4, _⟩ => exact spread_am_am1_apply r4 bcast_S256x256_S256x256x1_0_1 g n 0
  | ⟨5, _⟩ => exact spread_am_am1_apply r5 bcast_S256x256_S256x256x1_0_1 g n 0
  | ⟨6, _⟩ => exact spread_am_am1_apply r6 bcast_S256x256_S256x256x1_0_1 g n 0
  | ⟨7, _⟩ => exact spread_am_am1_apply r7 bcast_S256x256_S256x256x1_0_1 g n 0

/-- Feature `k` of node `g · 256 + n` is the probability of being back at `n` after `k + 1` steps in graph `g`. -/
theorem walkFeatures_apply (e : Edges) (r : Fin 65536) (g n : Fin 256) (hr : r.val = g.val * 256 + n.val) (k : Fin 8) :
    walkFeatures (F := Ideal) e (ix2 r k) = WalkSpec.ret (graph (adjacency (F := Ideal) e) g) k.val n := by
  unfold walkFeatures
  rw [stackFeatures_apply _ _ _ _ _ _ _ _ r g n hr k]
  match k with
  | ⟨0, _⟩ => exact returnProb_apply 0 e g n
  | ⟨1, _⟩ => exact returnProb_apply 1 e g n
  | ⟨2, _⟩ => exact returnProb_apply 2 e g n
  | ⟨3, _⟩ => exact returnProb_apply 3 e g n
  | ⟨4, _⟩ => exact returnProb_apply 4 e g n
  | ⟨5, _⟩ => exact returnProb_apply 5 e g n
  | ⟨6, _⟩ => exact returnProb_apply 6 e g n
  | ⟨7, _⟩ => exact returnProb_apply 7 e g n

/-- The readout at `(r, h)`: the gathered row's entry, plus the features of row `r` against row `h` of the weights, plus
    entry `h` of the bias. -/
theorem readout_apply (w : Weights) (feats : FVec Ideal S65536x8 .f32) (rows : FVec Ideal S65536x256 .f32) (b : Bias)
    (r : Fin 65536) (h : Fin 256) :
    readout (F := Ideal) w feats rows b (ix2 r h)
      = rows (ix2 r h) + (∑ k : Fin 8, feats (ix2 r k) * w (ix2 h k)) + b (ix1 h) := by
  have hd : Host.dotGeneral dot_S65536x8_S8x256_S65536x256_1_0_0_1_n_n none feats
      (transpose S8x256 [1, 0] w transposes_S256x8_S8x256_1_0) (ix2 r h) = ∑ k : Fin 8, feats (ix2 r k) * w (ix2 h k) :=
    (RowsCols.dotGeneral_apply dot_S65536x8_S8x256_S65536x256_1_0_0_1_n_n rfl rfl rfl rfl (fun _ _ => rfl) (fun _ _ => rfl)
      none .single feats (transpose S8x256 [1, 0] w transposes_S256x8_S8x256_1_0) r h).trans
      (Finset.sum_congr rfl fun k _ => by rw [transpose_ix2_apply])
  have hb : broadcastInDim S65536x256 ![0, 1] bcast_S1x256_S65536x256_0_1
      (broadcastInDim S1x256 ![1] bcast_S256_S1x256_1 b) (ix2 r h) = b (ix1 h) :=
    (spread_1n_mn_apply _ bcast_S1x256_S65536x256_0_1 r h).trans (spread_n_1n_apply b bcast_S256_S1x256_1 0 h)
  unfold readout
  rw [addf_apply, addf_apply]
  exact congrArg₂ (· + ·) (congrArg (rows (ix2 r h) + ·) hd) hb

/-- The clipped in-degree of a node is its raw count clipped to 0…255. -/
theorem inDegree_eq_clip (e : Edges) (r : Fin 65536) :
    inDegree (F := Ideal) e (ix1 r) = ClipFacts.clip (rawInDegree (F := Ideal) e (ix1 r)) := rfl

theorem inDegree_lt (e : Edges) (r : Fin 65536) : (inDegree (F := Ideal) e (ix1 r)).toNat < 256 := by
  rw [inDegree_eq_clip]; exact ClipFacts.clip_lt _

/-- Integer comparisons and sums at an index are those of the elements. -/
theorem cmpi_apply {s : Shape} {w : ℕ} (p : CmpIPredicate) (x y : IVec s w) (i : s.Idx) :
    cmpi p x y i = IntOp.cmpi p (x i) (y i) := rfl
theorem addi_apply {s : Shape} {w : ℕ} (x y : IVec s w) (i : s.Idx) : addi x y i = IntOp.addi (x i) (y i) := rfl

/-- The start index of row `r` of the gather: the node's index into the table, 256 added to a negative one. -/
theorem wrappedIndex_apply (d : IVec S65536 32) (r : Fin 65536) :
    broadcastInDim S65536x1 ![0] bcast_S65536_S65536x1_0
        (select (cmpi .slt d (broadcastInDim S65536 ![] bcast_S_S65536 (constantI S_ 32 0#32)))
          (addi d (broadcastInDim S65536 ![] bcast_S_S65536 (constantI S_ 32 256#32))) d) (ix2 r (0 : Fin 1))
      = Scalar.select (IntOp.cmpi .slt (d (ix1 r)) 0#32) (IntOp.addi (d (ix1 r)) 256#32) (d (ix1 r)) := by
  rw [spread_n_n1_apply]
  simp only [select_apply, cmpi_apply, addi_apply]
  rfl

/-- The gather of table rows at indices that lie in 0…255: row `r` is the table's row at index `r`'s word, since the word is
    not negative and in range, so neither counting from the end nor clamping changes it. -/
theorem gatherRowsAt_apply (d : IVec S65536 32) (tab : Rows) (r : Fin 65536) (h : Fin 256) (hx : (d (ix1 r)).toNat < 256) :
    gatherRowsAt (F := Ideal) d tab (ix2 r h) = tab (ix2 (⟨(d (ix1 r)).toNat, hx⟩ : Fin 256) h) := by
  unfold gatherRowsAt
  beta_reduce
  refine (TakeSegment.gather_rows_apply (N := 256) (M := 65536) (D := 256) (by decide)
    gather_S256x256_S65536x1_S65536x256_1_0_n_n_0_1_1256_wf tab _ r h).trans ?_
  refine congrArg (fun t : Fin 256 => tab (ix2 t h)) (Fin.ext ?_)
  show min (_ : BitVec 32).toInt.toNat (256 - 1) = (d (ix1 r)).toNat
  rw [wrappedIndex_apply]
  exact ClipFacts.wrap_clamp (d (ix1 r)) hx

theorem gatherRows_apply (tab : Rows) (e : Edges) (r : Fin 65536) (h : Fin 256) :
    gatherRows (F := Ideal) tab e (ix2 r h)
      = tab (ix2 (⟨(inDegree (F := Ideal) e (ix1 r)).toNat, inDegree_lt e r⟩ : Fin 256) h) :=
  gatherRowsAt_apply (inDegree (F := Ideal) e) tab r h (inDegree_lt e r)

/-! ## The entry -/

/-- **One entry of the reference's result.** For node `r` and column `h`: the table's entry at the node's clipped
    in-degree, plus the node's eight return probabilities in its graph against row `h` of the weights, plus the bias. -/
theorem result_apply (e : Edges) (tab : Rows) (w : Weights) (b : Bias) (r : Fin 65536) (h : Fin 256) :
    result (F := Ideal) e tab w b (ix2 r h)
      = WalkSpec.entry (inDegree (F := Ideal) e (ix1 r)) (inDegree_lt e r)
          (fun i j => adjacency (F := Ideal) e (ix3 (⟨r.val / 256, by have := r.isLt; omega⟩ : Fin 256) i j))
          (⟨r.val % 256, by omega⟩ : Fin 256)
          (fun c => tab (ix2 c h)) (fun k => w (ix2 h k)) (b (ix1 h)) := by
  have hr : r.val = (⟨r.val / 256, by have := r.isLt; omega⟩ : Fin 256).val * 256 + (⟨r.val % 256, by omega⟩ : Fin 256).val := by
    show r.val = r.val / 256 * 256 + r.val % 256
    omega
  unfold result WalkSpec.entry
  rw [readout_apply, gatherRows_apply]
  exact congrArg (fun s => tab (ix2 (⟨(inDegree (F := Ideal) e (ix1 r)).toNat, inDegree_lt e r⟩ : Fin 256) h) + s + b (ix1 h))
    (Finset.sum_congr rfl fun k _ => by rw [walkFeatures_apply e r _ _ hr k]; rfl)

end Cert.ReferenceIdeal.Entry

end
-- ==== Proof.Bridge.lean ====
/-
  The two programs compute one function: entry by entry over the extended reals, the array the kernel program's second
  call leaves and the reference's result are both

      table (clipped in-degree of the node, h) + ∑ k, (return probability of the node after k + 1 steps) · w (h, k) + bias h.

  On the kernel's side the table row is picked by the product of a one-hot row with the table, and the return
  probabilities come from the first call's array through a transpose and a reshape; on the reference's side the row is
  gathered and the probabilities are the masked column sums of the host's matrix powers. Both start from the same
  scattered adjacency tensor and the same clipped in-degrees of the same edge list.
-/
import proofs.«146736_j68667937129202_2_alg».proof.Defs
import proofs.«146736_j68667937129202_2_alg».proof.Proof.Gen.Pre_finite_inputs
import proofs.«146736_j68667937129202_2_alg».proof.Proof.CallsRun
import proofs.«146736_j68667937129202_2_alg».proof.Proof.CallsHost
import proofs.«146736_j68667937129202_2_alg».proof.Proof.CallsHostAdj
import proofs.«146736_j68667937129202_2_alg».proof.Proof.KernelEntry
import proofs.«146736_j68667937129202_2_alg».proof.Proof.ClipFacts
import proofs.«146736_j68667937129202_2_alg».proof.Proof.EntrySpec
import proofs.«146736_j68667937129202_2_alg».proof.Proof.ReferenceRun
import proofs.«146736_j68667937129202_2_alg».proof.Proof.ReferenceEntry

set_option maxRecDepth 16384

noncomputable section

open scoped BigOperators

namespace Cert.Bridge

open Idealize.ShloMosaic Idealize.ShloMosaic.TcCoe Idealize.ShloMosaic.ValueIdx Idealize.SL.Sem
open Cert.WalkSpec Cert.ClipFacts

section Kernel

open Cert.KernelIdeal Cert.KernelIdeal.Gen Cert.KernelIdeal.TwoCalls Cert.KernelIdeal.KernelEntry
open Cert.ReferenceIdeal.HostRun (adjacency inDegree rawInDegree)

variable (m : (ℓ : Loc Cert.KernelIdeal.nD Cert.KernelIdeal.τ Cert.KernelIdeal.sig) → Buf (Elt Ideal) ℓ)

/-- The clipped in-degree of a node is the clip of its raw in-degree. -/
theorem inDegree_apply (e : IVec Cert.ReferenceIdeal.S2x524288 32) (r : Fin 65536) :
    inDegree (F := Ideal) e (ix1 r) = clip (rawInDegree (F := Ideal) e (ix1 r)) := rfl

theorem inDegree_lt (e : IVec Cert.ReferenceIdeal.S2x524288 32) (r : Fin 65536) : (inDegree (F := Ideal) e (ix1 r)).toNat < 256 := by
  rw [inDegree_apply]; exact clip_lt _

/-- Entry `(r, h)` of the array the kernel program's second call leaves. -/
theorem kernel_entry (c : Dev Cert.KernelIdeal.nD) (r : Fin 65536) (h : Fin 256) :
    (left1 (F := Ideal) m c : S65536x256.Idx → EReal) (ix2 r h)
      = entry (inDegree (F := Ideal) (m ((c : Thread nD τ).loc main_arg1)) (ix1 r)) (inDegree_lt _ r)
          (fun i j => adjacency (F := Ideal) (m ((c : Thread nD τ).loc main_arg1))
            (ix3 (⟨r.val / 256, by have := r.isLt; omega⟩ : Fin 256) i j))
          (⟨r.val % 256, Nat.mod_lt _ (by decide)⟩ : Fin 256)
          (fun c' => (m ((c : Thread nD τ).loc main_arg3) : S256x256.Idx → EReal) (ix2 c' h))
          (fun k => (m ((c : Thread nD τ).loc main_arg4) : S256x8.Idx → EReal) (ix2 h k))
          ((m ((c : Thread nD τ).loc main_arg5) : S256.Idx → EReal) (ix1 h)) := by
  unfold left1
  rw [emb_final (entry1 m) c]
  refine (embArray_apply _ _ _ _ _ r h).trans ?_
  unfold entry
  rw [host_deg m c, host_tab m c, host_bias m c]
  refine congrArg₂ (· + ·) (congrArg₂ (· + ·) ?_ ?_) rfl
  · exact hot_sum _ (inDegree_lt _ r) _
  · refine Finset.sum_congr rfl fun k _ => ?_
    rw [host_walk_apply m c r k, host_wT_apply m c k h]
    refine congrArg (· * _) ?_
    unfold left0
    rw [ret_final (entry0 m) c]
    refine (retArray_apply _ _ k _).trans ?_
    rw [host_adj m c]

end Kernel

/-- At the ideal values, from memories that agree on the arguments, both programs run to the end, leave their
    arguments as they were, and end with equal results. -/
theorem algebraic : Cert.algebraic_KernelIdeal_ReferenceIdeal := by
  intro m g m' g' _ hagree
  refine ⟨fun c => Cert.KernelIdeal.TwoCalls.left1 (F := Ideal) m c, Cert.KernelIdeal.TwoCalls.run (F := Ideal) m g, ?_⟩
  refine (θ_run Cert.ReferenceIdeal.defs _ _).mono (fun _ hr c => ⟨(hr c).1.trans ?_, (hr c).2⟩)
    (Cert.ReferenceIdeal.HostRun.run (F := Ideal) m' g')
  obtain ⟨-, h1, -, h3, h4, h5⟩ := hagree c
  rw [h1, h3, h4, h5]
  funext i
  obtain ⟨r, h, rfl⟩ : ∃ (r : Fin 65536) (h : Fin 256), i = ix2 r h := ⟨i 0, i 1, eq_ix2 i⟩
  exact (Cert.ReferenceIdeal.Entry.result_apply _ _ _ _ r h).trans (kernel_entry m c r h).symm

end Cert.Bridge

end
-- ==== Proof.lean ====
/-
  The proof of `Cert.Claim`.

  The kernel program computes, for each block of eight graphs, the return probabilities of the degree-normalised random
  walk after one to eight steps — the diagonals of the powers of the walk matrix, the products taken on the matrix unit —
  and then embeds every node as the row of the degree table its clipped in-degree selects, taken as a product with a
  one-hot matrix, plus the return probabilities times the projection weights plus the bias. The reference program
  computes the same quantities with host matrix products and a gather. Over the extended reals the two results are
  equal entry by entry; each of the three programs terminates without fault and leaves its argument arrays as launched.
-/
import proofs.«146736_j68667937129202_2_alg».proof.Defs
import proofs.«146736_j68667937129202_2_alg».proof.Proof.Gen.Kernel
import proofs.«146736_j68667937129202_2_alg».proof.Proof.Gen.KernelIdeal
import proofs.«146736_j68667937129202_2_alg».proof.Proof.Gen.ReferenceIdeal
import proofs.«146736_j68667937129202_2_alg».proof.Proof.Gen.Pre_finite_inputs
import proofs.«146736_j68667937129202_2_alg».proof.Proof.CallsRunBits
import proofs.«146736_j68667937129202_2_alg».proof.Proof.CallsRun
import proofs.«146736_j68667937129202_2_alg».proof.Proof.ReferenceOps
import proofs.«146736_j68667937129202_2_alg».proof.Proof.Bridge

noncomputable section

namespace Cert.Proof

open Idealize.ShloMosaic Idealize.SL.Sem

/-- The word-level kernel program runs and leaves its arguments as launched: the frame of its two calls among the
    host operations, at the bit-exact floats. The precondition is not needed. -/
theorem frame_k : Cert.frame_Kernel := fun m ρ _ => Cert.Kernel.TwoCalls.frame (F := Bits) m ρ

/-- The same program read at the extended reals runs and leaves its arguments as launched. -/
theorem frame_ki : Cert.frame_KernelIdeal := fun m ρ _ => Cert.KernelIdeal.TwoCalls.frame (F := Ideal) m ρ

/-- The reference program, host operations only, runs and leaves its arguments as launched. -/
theorem frame_ri : Cert.frame_ReferenceIdeal := fun m ρ _ => Cert.ReferenceIdeal.HostRun.frame (F := Ideal) m ρ

/-- Every claim of the certificate, under the programs' stated side conditions as the imported modules prove them. -/
theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
